-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_v111) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v177) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  reducesTo_S_S_d : S_.ReducesTo [] S_

variable [Facts]

def fn_part3 {F : FTy → Type} [FloatOps F] (main_arg11 : FVec F S_ .f32) (main_arg12 : FVec F S128x128 .f32) (main_arg13 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S_ .f32 := Host.absf main_arg11
  let main_cst_20 : FVec F S_ .f32 := constant S_ .f32 0x7F800000#32
  let main_v55 : IVec S_ 1 := cmpf .olt main_v54 main_cst_20
  let main_c_21 : IVec S_ 1 := constantI S_ 1 1#1
  let main_v56 : IVec S_ 1 := (fun x v => Host.reduce IntOp.andi x v reducesTo_S_S_d h_S_) main_v55 main_c_21
  let main_v57 : IVec S_ 1 := andi main_v53 main_v56
  let main_v58 : FVec F S128x128 .f32 := Host.absf main_arg12
  let main_cst_22 : FVec F S_ .f32 := constant S_ .f32 0x7F800000#32
  let main_v59 : FVec F S128x128 .f32 := broadcastInDim S128x128 ![] bcast_S_S128x128 main_cst_22
  let main_v60 : IVec S128x128 1 := cmpf .olt main_v58 main_v59
  let main_c_23 : IVec S_ 1 := constantI S_ 1 1#1
  let main_v61 : IVec S_ 1 := (fun x v => Host.reduce IntOp.andi x v reducesTo_S128x128_S_d0_1 h_S_) main_v60 main_c_23
  let main_v62 : IVec S_ 1 := andi main_v57 main_v61
  let main_v63 : FVec F S128 .f32 := Host.absf main_arg13
  let main_cst_24 : FVec F S_ .f32 := constant S_ .f32 0x7F800000#32
  let main_v64 : FVec F S128 .f32 := broadcastInDim S128 ![] bcast_S_S128 main_cst_24
  let main_v65 : IVec S128 1 := cmpf .olt main_v63 main_v64
  let main_c_25 : IVec S_ 1 := constantI S_ 1 1#1
  let main_v66 : IVec S_ 1 := (fun x v => Host.reduce IntOp.andi x v reducesTo_S128_S_d0 h_S_) main_v65 main_c_25
  let main_v67 : IVec S_ 1 := andi main_v62 main_v66
  main_v67

def fn_part2 {F : FTy → Type} [FloatOps F] (main_arg7 : FVec F S128x128 .f32) (main_arg8 : FVec F S128 .f32) (main_arg9 : FVec F S128 .f32) (main_arg10 : FVec F S128 .f32) (main_arg11 : FVec F S_ .f32) (main_arg12 : FVec F S128x128 .f32) (main_arg13 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_v48 main_v49 main_v50

def fn_part1 {F : FTy → Type} [FloatOps F] (main_arg4 : FVec F S128 .f32) (main_arg5 : FVec F S128x128 .f32) (main_arg6 : FVec F S128 .f32) (main_arg7 : FVec F S128x128 .f32) (main_arg8 : FVec F S128 .f32) (main_arg9 : FVec F S128 .f32) (main_arg10 : FVec F S128 .f32) (main_arg11 : FVec F S_ .f32) (main_arg12 : FVec F S128x128 .f32) (main_arg13 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S100000x128 .f32) (main_arg1 : FVec F S100000x128 .f32) (main_arg2 : FVec F S800000 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128 .f32) (main_arg10 : FVec F S128 .f32) (main_arg11 : FVec F S_ .f32) (main_arg12 : FVec F S128x128 .f32) (main_arg13 : FVec F S128 .f32) (main_arg14 : IVec S800000 32) (main_arg15 : IVec S800000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S800000 .f32 := Host.absf main_arg2
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_v13 main_v16
-- ==== Kernel.lean ====
abbrev S100000x128 : Shape := ⟨2, ![100000, 128]⟩
abbrev S800000 : Shape := ⟨1, ![800000]⟩
abbrev S128x128 : Shape := ⟨2, ![128, 128]⟩
abbrev S128 : Shape := ⟨1, ![128]⟩
abbrev S_ : Shape := ⟨0, ![]⟩
abbrev S100000x256 : Shape := ⟨2, ![100000, 256]⟩
abbrev S800000x1 : Shape := ⟨2, ![800000, 1]⟩
abbrev S800000x256 : Shape := ⟨2, ![800000, 256]⟩
abbrev S128x256 : Shape := ⟨2, ![128, 256]⟩
abbrev S256 : Shape := ⟨1, ![256]⟩
abbrev S1x256 : Shape := ⟨2, ![1, 256]⟩
abbrev S5000x128 : Shape := ⟨2, ![5000, 128]⟩
abbrev S5000x256 : Shape := ⟨2, ![5000, 256]⟩
abbrev S1x128 : Shape := ⟨2, ![1, 128]⟩
abbrev S100000 : Shape := ⟨1, ![100000]⟩
abbrev S100000x1 : Shape := ⟨2, ![100000, 1]⟩

abbrev nBuf : Space → Nat
  | .hbm => 207
  | .vmem => 36
  | .smem => 0
  | _ => 0

abbrev hbmTy0_0 (i : Nat) : BufTy := match i % 128 with
  | 0 => ⟨S100000x128, .f32⟩
  | 1 => ⟨S100000x128, .f32⟩
  | 2 => ⟨S800000, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128, .f32⟩
  | 10 => ⟨S128, .f32⟩
  | 11 => ⟨S_, .f32⟩
  | 12 => ⟨S128x128, .f32⟩
  | 13 => ⟨S128, .f32⟩
  | 14 => ⟨S800000, .i32⟩
  | 15 => ⟨S800000, .i32⟩
  | 16 => ⟨S100000x128, .f32⟩
  | 17 => ⟨S100000x256, .f32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x256, .f32⟩
  | 27 => ⟨S800000x1, .f32⟩
  | 28 => ⟨S800000x256, .f32⟩
  | 29 => ⟨S800000x256, .f32⟩
  | 30 => ⟨S_, .f32⟩
  | 31 => ⟨S100000x256, .f32⟩
  | 32 => ⟨S800000x1, .i32⟩
  | 33 => ⟨S100000x256, .f32⟩
  | 34 => ⟨S100000x128, .f32⟩
  | 35 => ⟨S100000x128, .f32⟩
  | 36 => ⟨S100000x128, .f32⟩
  | 37 => ⟨S128x256, .f32⟩
  | 38 => ⟨S256, .f32⟩
  | 39 => ⟨S1x256, .f32⟩
  | 40 => ⟨S100000x256, .f32⟩
  | 41 => ⟨S1x256, .f32⟩
  | 42 => ⟨S100000x256, .f32⟩
  | 43 => ⟨S100000x128, .f32⟩
  | 44 => ⟨S100000x128, .f32⟩
  | 45 => ⟨S100000x128, .f32⟩
  | 46 => ⟨S100000x128, .f32⟩
  | 47 => ⟨S100000x128, .f32⟩
  | 48 => ⟨S1x128, .f32⟩
  | 49 => ⟨S100000x128, .f32⟩
  | 50 => ⟨S_, .f32⟩
  | 51 => ⟨S128, .f32⟩
  | 52 => ⟨S_, .f32⟩
  | 53 => ⟨S128, .f32⟩
  | 54 => ⟨S128, .f32⟩
  | 55 => ⟨S_, .i32⟩
  | 56 => ⟨S_, .f32⟩
  | 57 => ⟨S128, .f32⟩
  | 58 => ⟨S1x128, .f32⟩
  | 59 => ⟨S_, .f32⟩
  | 60 => ⟨S1x128, .f32⟩
  | 61 => ⟨S1x128, .f32⟩
  | 62 => ⟨S100000x128, .f32⟩
  | 63 => ⟨S100000x128, .f32⟩
  | 64 => ⟨S100000x128, .f32⟩
  | 65 => ⟨S_, .f32⟩
  | 66 => ⟨S_, .f32⟩
  | 67 => ⟨S_, .f32⟩
  | 68 => ⟨S_, .f32⟩
  | 69 => ⟨S128, .f32⟩
  | 70 => ⟨S128, .f32⟩
  | 71 => ⟨S128, .f32⟩
  | 72 => ⟨S_, .f32⟩
  | 73 => ⟨S_, .i1⟩
  | 74 => ⟨S_, .f32⟩
  | 75 => ⟨S_, .f32⟩
  | 76 => ⟨S128, .f32⟩
  | 77 => ⟨S128, .f32⟩
  | 78 => ⟨S1x128, .f32⟩
  | 79 => ⟨S100000x128, .f32⟩
  | 80 => ⟨S100000x128, .f32⟩
  | 81 => ⟨S_, .f32⟩
  | 82 => ⟨S128, .f32⟩
  | 83 => ⟨S128, .f32⟩
  | 84 => ⟨S128, .f32⟩
  | 85 => ⟨S1x128, .f32⟩
  | 86 => ⟨S100000x128, .f32⟩
  | 87 => ⟨S100000x128, .f32⟩
  | 88 => ⟨S1x128, .f32⟩
  | 89 => ⟨S100000x128, .f32⟩
  | 90 => ⟨S100000x128, .f32⟩
  | 91 => ⟨S1x128, .f32⟩
  | 92 => ⟨S100000x128, .f32⟩
  | 93 => ⟨S100000x128, .f32⟩
  | 94 => ⟨S_, .f32⟩
  | 95 => ⟨S100000x128, .f32⟩
  | 96 => ⟨S100000x128, .i1⟩
  | 97 => ⟨S100000x128, .f32⟩
  | 98 => ⟨S100000x128, .f32⟩
  | 99 => ⟨S100000x128, .f32⟩
  | 100 => ⟨S1x128, .f32⟩
  | 101 => ⟨S100000x128, .f32⟩
  | 102 => ⟨S1x128, .f32⟩
  | 103 => ⟨S100000x128, .f32⟩
  | 104 => ⟨S_, .f32⟩
  | 105 => ⟨S128, .f32⟩
  | 106 => ⟨S_, .f32⟩
  | 107 => ⟨S128, .f32⟩
  | 108 => ⟨S128, .f32⟩
  | 109 => ⟨S_, .i32⟩
  | 110 => ⟨S_, .f32⟩
  | 111 => ⟨S128, .f32⟩
  | 112 => ⟨S1x128, .f32⟩
  | 113 => ⟨S_, .f32⟩
  | 114 => ⟨S1x128, .f32⟩
  | 115 => ⟨S1x128, .f32⟩
  | 116 => ⟨S100000x128, .f32⟩
  | 117 => ⟨S100000x128, .f32⟩
  | 118 => ⟨S100000x128, .f32⟩
  | 119 => ⟨S_, .f32⟩
  | 120 => ⟨S_, .f32⟩
  | 121 => ⟨S_, .f32⟩
  | 122 => ⟨S_, .f32⟩
  | 123 => ⟨S128, .f32⟩
  | 124 => ⟨S128, .f32⟩
  | 125 => ⟨S128, .f32⟩
  | 126 => ⟨S_, .f32⟩
  | 127 => ⟨S_, .i1⟩
  | _ => ⟨S100000x128, .f32⟩

abbrev hbmTy0_1 (i : Nat) : BufTy := match i % 128 with
  | 0 => ⟨S_, .f32⟩
  | 1 => ⟨S_, .f32⟩
  | 2 => ⟨S128, .f32⟩
  | 3 => ⟨S128, .f32⟩
  | 4 => ⟨S1x128, .f32⟩
  | 5 => ⟨S100000x128, .f32⟩
  | 6 => ⟨S100000x128, .f32⟩
  | 7 => ⟨S_, .f32⟩
  | 8 => ⟨S128, .f32⟩
  | 9 => ⟨S128, .f32⟩
  | 10 => ⟨S128, .f32⟩
  | 11 => ⟨S1x128, .f32⟩
  | 12 => ⟨S100000x128, .f32⟩
  | 13 => ⟨S100000x128, .f32⟩
  | 14 => ⟨S1x128, .f32⟩
  | 15 => ⟨S100000x128, .f32⟩
  | 16 => ⟨S100000x128, .f32⟩
  | 17 => ⟨S1x128, .f32⟩
  | 18 => ⟨S100000x128, .f32⟩
  | 19 => ⟨S100000x128, .f32⟩
  | 20 => ⟨S_, .f32⟩
  | 21 => ⟨S100000x128, .f32⟩
  | 22 => ⟨S100000x128, .i1⟩
  | 23 => ⟨S100000x128, .f32⟩
  | 24 => ⟨S100000x128, .f32⟩
  | 25 => ⟨S100000x128, .f32⟩
  | 26 => ⟨S1x128, .f32⟩
  | 27 => ⟨S100000x128, .f32⟩
  | 28 => ⟨S100000x128, .f32⟩
  | 29 => ⟨S_, .f32⟩
  | 30 => ⟨S100000, .f32⟩
  | 31 => ⟨S100000x1, .f32⟩
  | 32 => ⟨S100000x1, .f32⟩
  | 33 => ⟨S100000x128, .f32⟩
  | 34 => ⟨S100000x128, .f32⟩
  | 35 => ⟨S100000x128, .f32⟩
  | 36 => ⟨S_, .f32⟩
  | 37 => ⟨S100000, .f32⟩
  | 38 => ⟨S100000x1, .f32⟩
  | 39 => ⟨S100000x1, .f32⟩
  | 40 => ⟨S100000x128, .f32⟩
  | 41 => ⟨S100000x128, .f32⟩
  | 42 => ⟨S100000x128, .f32⟩
  | 43 => ⟨S_, .f32⟩
  | 44 => ⟨S100000, .f32⟩
  | 45 => ⟨S_, .f32⟩
  | 46 => ⟨S100000, .f32⟩
  | 47 => ⟨S100000, .f32⟩
  | 48 => ⟨S_, .f32⟩
  | 49 => ⟨S100000, .f32⟩
  | 50 => ⟨S100000, .f32⟩
  | 51 => ⟨S100000x128, .f32⟩
  | 52 => ⟨S_, .f32⟩
  | 53 => ⟨S100000, .f32⟩
  | 54 => ⟨S100000x1, .f32⟩
  | 55 => ⟨S100000x1, .f32⟩
  | 56 => ⟨S100000x128, .f32⟩
  | 57 => ⟨S100000x128, .f32⟩
  | 58 => ⟨S100000x128, .f32⟩
  | 59 => ⟨S_, .f32⟩
  | 60 => ⟨S100000, .f32⟩
  | 61 => ⟨S100000x1, .f32⟩
  | 62 => ⟨S100000x1, .f32⟩
  | 63 => ⟨S100000x128, .f32⟩
  | 64 => ⟨S100000x128, .f32⟩
  | 65 => ⟨S100000x128, .f32⟩
  | 66 => ⟨S_, .f32⟩
  | 67 => ⟨S100000, .f32⟩
  | 68 => ⟨S_, .f32⟩
  | 69 => ⟨S100000, .f32⟩
  | 70 => ⟨S100000, .f32⟩
  | 71 => ⟨S_, .f32⟩
  | 72 => ⟨S100000, .f32⟩
  | 73 => ⟨S100000, .f32⟩
  | 74 => ⟨S100000, .f32⟩
  | 75 => ⟨S_, .f32⟩
  | 76 => ⟨S_, .f32⟩
  | 77 => ⟨S_, .f32⟩
  | 78 => ⟨S_, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S1x256, .f32⟩
  | .local _ .vmem, ⟨4, _⟩ => ⟨S5000x256, .f32⟩
  | .local _ .vmem, ⟨5, _⟩ => ⟨S5000x256, .f32⟩
  | .local _ .vmem, ⟨6, _⟩ => ⟨S5000x128, .f32⟩
  | .local _ .vmem, ⟨7, _⟩ => ⟨S5000x128, .f32⟩
  | .local _ .vmem, ⟨8, _⟩ => ⟨S128x256, .f32⟩
  | .local _ .vmem, ⟨9, _⟩ => ⟨S1x256, .f32⟩
  | .local _ .vmem, ⟨10, _⟩ => ⟨S5000x256, .f32⟩
  | .local _ .vmem, ⟨11, _⟩ => ⟨S5000x256, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_c_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_1 : Ref sig .tc := ⟨.hbm, 50, rfl⟩
abbrev main_v31 : Ref sig .tc := ⟨.hbm, 51, rfl⟩
abbrev main_cst_2 : Ref sig .tc := ⟨.hbm, 52, rfl⟩
abbrev main_v32 : Ref sig .tc := ⟨.hbm, 53, rfl⟩
abbrev main_v33 : Ref sig .tc := ⟨.hbm, 54, rfl⟩
abbrev main_c_3 : Ref sig .tc := ⟨.hbm, 55, rfl⟩
abbrev main_call0_cst : Ref sig .tc := ⟨.hbm, 56, rfl⟩
abbrev main_call0_v0 : Ref sig .tc := ⟨.hbm, 57, rfl⟩
abbrev main_call0_v1 : Ref sig .tc := ⟨.hbm, 58, rfl⟩
abbrev main_call0_cst_0 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_v5 : Ref sig .tc := ⟨.hbm, 63, rfl⟩
abbrev main_call0_v6 : Ref sig .tc := ⟨.hbm, 64, rfl⟩
abbrev main_call0_v7 : Ref sig .tc := ⟨.hbm, 65, rfl⟩
abbrev main_call0_cst_1 : Ref sig .tc := ⟨.hbm, 66, rfl⟩
abbrev main_call0_v8 : Ref sig .tc := ⟨.hbm, 67, rfl⟩
abbrev main_call0_cst_2 : Ref sig .tc := ⟨.hbm, 68, rfl⟩
abbrev main_call0_v9 : Ref sig .tc := ⟨.hbm, 69, rfl⟩
abbrev main_call0_v10 : Ref sig .tc := ⟨.hbm, 70, rfl⟩
abbrev main_call0_v11 : Ref sig .tc := ⟨.hbm, 71, rfl⟩
abbrev main_call0_cst_3 : Ref sig .tc := ⟨.hbm, 72, rfl⟩
abbrev main_call0_v12 : Ref sig .tc := ⟨.hbm, 73, rfl⟩
abbrev main_call0_cst_4 : Ref sig .tc := ⟨.hbm, 74, rfl⟩
abbrev main_call0_call0_v0 : Ref sig .tc := ⟨.hbm, 75, rfl⟩
abbrev main_call0_call0_v1 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_cst_4 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_cst_5 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_cst_6 : Ref sig .tc := ⟨.hbm, 104, rfl⟩
abbrev main_v59 : Ref sig .tc := ⟨.hbm, 105, rfl⟩
abbrev main_cst_7 : Ref sig .tc := ⟨.hbm, 106, rfl⟩
abbrev main_v60 : Ref sig .tc := ⟨.hbm, 107, rfl⟩
abbrev main_v61 : Ref sig .tc := ⟨.hbm, 108, rfl⟩
abbrev main_c_8 : Ref sig .tc := ⟨.hbm, 109, rfl⟩
abbrev main_call2_cst : Ref sig .tc := ⟨.hbm, 110, rfl⟩
abbrev main_call2_v0 : Ref sig .tc := ⟨.hbm, 111, rfl⟩
abbrev main_call2_v1 : Ref sig .tc := ⟨.hbm, 112, rfl⟩
abbrev main_call2_cst_0 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_call2_v5 : Ref sig .tc := ⟨.hbm, 117, rfl⟩
abbrev main_call2_v6 : Ref sig .tc := ⟨.hbm, 118, rfl⟩
abbrev main_call2_v7 : Ref sig .tc := ⟨.hbm, 119, rfl⟩
abbrev main_call2_cst_1 : Ref sig .tc := ⟨.hbm, 120, rfl⟩
abbrev main_call2_v8 : Ref sig .tc := ⟨.hbm, 121, rfl⟩
abbrev main_call2_cst_2 : Ref sig .tc := ⟨.hbm, 122, rfl⟩
abbrev main_call2_v9 : Ref sig .tc := ⟨.hbm, 123, rfl⟩
abbrev main_call2_v10 : Ref sig .tc := ⟨.hbm, 124, rfl⟩
abbrev main_call2_v11 : Ref sig .tc := ⟨.hbm, 125, rfl⟩
abbrev main_call2_cst_3 : Ref sig .tc := ⟨.hbm, 126, rfl⟩
abbrev main_call2_v12 : Ref sig .tc := ⟨.hbm, 127, rfl⟩
abbrev main_call2_cst_4 : Ref sig .tc := ⟨.hbm, 128, rfl⟩
abbrev main_call2_call0_v0 : Ref sig .tc := ⟨.hbm, 129, rfl⟩
abbrev main_call2_call0_v1 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_cst_9 : Ref sig .tc := ⟨.hbm, 135, rfl⟩
abbrev main_v66 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩
abbrev main_v72 : Ref sig .tc := ⟨.hbm, 142, rfl⟩
abbrev main_v73 : Ref sig .tc := ⟨.hbm, 143, rfl⟩
abbrev main_v74 : Ref sig .tc := ⟨.hbm, 144, rfl⟩
abbrev main_v75 : Ref sig .tc := ⟨.hbm, 145, rfl⟩
abbrev main_v76 : Ref sig .tc := ⟨.hbm, 146, rfl⟩
abbrev main_v77 : Ref sig .tc := ⟨.hbm, 147, rfl⟩
abbrev main_cst_10 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_v84 : Ref sig .tc := ⟨.hbm, 155, rfl⟩
abbrev main_call4_v0 : Ref sig .tc := ⟨.hbm, 156, rfl⟩
abbrev main_call4_cst : Ref sig .tc := ⟨.hbm, 157, rfl⟩
abbrev main_call4_v1 : Ref sig .tc := ⟨.hbm, 158, rfl⟩
abbrev main_call4_v2 : Ref sig .tc := ⟨.hbm, 159, rfl⟩
abbrev main_v85 : Ref sig .tc := ⟨.hbm, 160, rfl⟩
abbrev main_v86 : Ref sig .tc := ⟨.hbm, 161, rfl⟩
abbrev main_v87 : Ref sig .tc := ⟨.hbm, 162, rfl⟩
abbrev main_call5_v0 : Ref sig .tc := ⟨.hbm, 163, rfl⟩
abbrev main_call5_cst : Ref sig .tc := ⟨.hbm, 164, rfl⟩
abbrev main_call5_v1 : Ref sig .tc := ⟨.hbm, 165, rfl⟩
abbrev main_call5_v2 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_cst_11 : Ref sig .tc := ⟨.hbm, 171, rfl⟩
abbrev main_v92 : Ref sig .tc := ⟨.hbm, 172, rfl⟩
abbrev main_cst_12 : Ref sig .tc := ⟨.hbm, 173, rfl⟩
abbrev main_v93 : Ref sig .tc := ⟨.hbm, 174, rfl⟩
abbrev main_v94 : Ref sig .tc := ⟨.hbm, 175, rfl⟩
abbrev main_cst_13 : Ref sig .tc := ⟨.hbm, 176, rfl⟩
abbrev main_v95 : Ref sig .tc := ⟨.hbm, 177, rfl⟩
abbrev main_v96 : Ref sig .tc := ⟨.hbm, 178, rfl⟩
abbrev main_call6_v0 : Ref sig .tc := ⟨.hbm, 179, rfl⟩
abbrev main_call6_cst : Ref sig .tc := ⟨.hbm, 180, rfl⟩
abbrev main_call6_v1 : Ref sig .tc := ⟨.hbm, 181, rfl⟩
abbrev main_call6_v2 : Ref sig .tc := ⟨.hbm, 182, rfl⟩
abbrev main_v97 : Ref sig .tc := ⟨.hbm, 183, rfl⟩
abbrev main_v98 : Ref sig .tc := ⟨.hbm, 184, rfl⟩
abbrev main_v99 : Ref sig .tc := ⟨.hbm, 185, rfl⟩
abbrev main_call7_v0 : Ref sig .tc := ⟨.hbm, 186, rfl⟩
abbrev main_call7_cst : Ref sig .tc := ⟨.hbm, 187, rfl⟩
abbrev main_call7_v1 : Ref sig .tc := ⟨.hbm, 188, rfl⟩
abbrev main_call7_v2 : Ref sig .tc := ⟨.hbm, 189, rfl⟩
abbrev main_v100 : Ref sig .tc := ⟨.hbm, 190, rfl⟩
abbrev main_v101 : Ref sig .tc := ⟨.hbm, 191, rfl⟩
abbrev main_v102 : Ref sig .tc := ⟨.hbm, 192, rfl⟩
abbrev main_v103 : Ref sig .tc := ⟨.hbm, 193, rfl⟩
abbrev main_cst_14 : Ref sig .tc := ⟨.hbm, 194, rfl⟩
abbrev main_v104 : Ref sig .tc := ⟨.hbm, 195, rfl⟩
abbrev main_cst_15 : Ref sig .tc := ⟨.hbm, 196, rfl⟩
abbrev main_v105 : Ref sig .tc := ⟨.hbm, 197, rfl⟩
abbrev main_v106 : Ref sig .tc := ⟨.hbm, 198, rfl⟩
abbrev main_cst_16 : Ref sig .tc := ⟨.hbm, 199, rfl⟩
abbrev main_v107 : Ref sig .tc := ⟨.hbm, 200, rfl⟩
abbrev main_v108 : Ref sig .tc := ⟨.hbm, 201, rfl⟩
abbrev main_v109 : Ref sig .tc := ⟨.hbm, 202, rfl⟩
abbrev main_cst_17 : Ref sig .tc := ⟨.hbm, 203, rfl⟩
abbrev main_v110 : Ref sig .tc := ⟨.hbm, 204, rfl⟩
abbrev main_cst_18 : Ref sig .tc := ⟨.hbm, 205, rfl⟩
abbrev main_v111 : Ref sig .tc := ⟨.hbm, 206, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  concatenates_S100000x128_S100000x128_S100000x256_d1 : Shape.Concatenates [S100000x128, S100000x128] S100000x256 1
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S100000x256 : S_.BroadcastsInDim S100000x256 (![] : Fin 0 → Fin S100000x256.rank)
  slices_S100000x256_S100000x128_0_0 : S100000x256.Slices ![0, 0] S100000x128
  slices_S100000x256_S100000x128_0_128 : S100000x256.Slices ![0, 128] S100000x128
  concatenates_S128x128_S128x128_S128x256_d1 : Shape.Concatenates [S128x128, S128x128] S128x256 1
  concatenates_S128_S128_S256_d0 : Shape.Concatenates [S128, S128] S256 0
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  shapeCasts_S128_S1x128 : S128.ShapeCasts S1x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  reducesTo_S100000x128_S100000_d1 : S100000x128.ReducesTo [1] S100000
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000 : S_.BroadcastsInDim S100000 (![] : Fin 0 → Fin S100000.rank)
  reducesTo_S100000_S_d0 : S100000.ReducesTo [0] S_
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  dot_S5000x128_S128x256_S5000x256_1_0_0_1_n_n_wf : DotDims.WF S5000x128 S128x256 S5000x256 [1] [0] [0] [1] [] []
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S100000x256.size a
  hwx0_3 : ∀ i : grid0.Coords, EltTy.bits .f32 = 32 ∨ (Rect.block (s := S100000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x256.size a ≤ S100000x256.size a
  hwx1_3 : ∀ i : grid1.Coords, EltTy.bits .f32 = 32 ∨ (Rect.block (s := S100000x256) S5000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S100000x128.size a
  hwx4_3 : ∀ i : grid4.Coords, EltTy.bits .f32 = 32 ∨ (Rect.block (s := S100000x128) S5000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S100000x128.size a
  hwx5_3 : ∀ i : grid5.Coords, EltTy.bits .f32 = 32 ∨ (Rect.block (s := S100000x128) S5000x128.size (cc5_transform_3 i) (hinb5_3 i)).WholeWords (EltTy.packing .f32)

variable [Facts₀]

def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v15) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v17) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S5000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v24) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v29) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v54) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg12) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v55) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v56) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v26) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v57) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v58) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v82) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg12) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v83) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v84) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S100000 : Shape := ⟨1, ![100000]⟩
abbrev S100000x1 : Shape := ⟨2, ![100000, 1]⟩

abbrev nBuf : Space → Nat
  | .hbm => 285
  | .vmem => 0
  | .smem => 0
  | _ => 0

abbrev hbmTy0_0 (i : Nat) : BufTy := match i % 128 with
  | 0 => ⟨S100000x128, .f32⟩
  | 1 => ⟨S100000x128, .f32⟩
  | 2 => ⟨S800000, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128, .f32⟩
  | 10 => ⟨S128, .f32⟩
  | 11 => ⟨S_, .f32⟩
  | 12 => ⟨S128x128, .f32⟩
  | 13 => ⟨S128, .f32⟩
  | 14 => ⟨S800000, .i32⟩
  | 15 => ⟨S800000, .i32⟩
  | 16 => ⟨S100000x128, .f32⟩
  | 17 => ⟨S100000x128, .f32⟩
  | 18 => ⟨S800000x1, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x128, .f32⟩
  | 28 => ⟨S800000x128, .f32⟩
  | 29 => ⟨S800000x128, .f32⟩
  | 30 => ⟨S_, .f32⟩
  | 31 => ⟨S100000x128, .f32⟩
  | 32 => ⟨S800000x1, .i32⟩
  | 33 => ⟨S100000x128, .f32⟩
  | 34 => ⟨S1x128, .f32⟩
  | 35 => ⟨S100000x128, .f32⟩
  | 36 => ⟨S100000x128, .f32⟩
  | 37 => ⟨S100000x128, .f32⟩
  | 38 => ⟨S100000x128, .f32⟩
  | 39 => ⟨S800000x1, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000x128, .f32⟩
  | 49 => ⟨S800000x128, .f32⟩
  | 50 => ⟨S800000x128, .f32⟩
  | 51 => ⟨S_, .f32⟩
  | 52 => ⟨S100000x128, .f32⟩
  | 53 => ⟨S800000x1, .i32⟩
  | 54 => ⟨S100000x128, .f32⟩
  | 55 => ⟨S1x128, .f32⟩
  | 56 => ⟨S100000x128, .f32⟩
  | 57 => ⟨S100000x128, .f32⟩
  | 58 => ⟨S100000x128, .f32⟩
  | 59 => ⟨S800000x1, .f32⟩
  | 60 => ⟨S_, .i32⟩
  | 61 => ⟨S800000, .i32⟩
  | 62 => ⟨S800000, .i1⟩
  | 63 => ⟨S_, .i32⟩
  | 64 => ⟨S800000, .i32⟩
  | 65 => ⟨S800000, .i32⟩
  | 66 => ⟨S800000, .i32⟩
  | 67 => ⟨S800000x1, .i32⟩
  | 68 => ⟨S800000x128, .f32⟩
  | 69 => ⟨S800000x128, .f32⟩
  | 70 => ⟨S800000x128, .f32⟩
  | 71 => ⟨S_, .f32⟩
  | 72 => ⟨S100000x128, .f32⟩
  | 73 => ⟨S800000x1, .i32⟩
  | 74 => ⟨S100000x128, .f32⟩
  | 75 => ⟨S1x128, .f32⟩
  | 76 => ⟨S100000x128, .f32⟩
  | 77 => ⟨S100000x128, .f32⟩
  | 78 => ⟨S100000x128, .f32⟩
  | 79 => ⟨S800000x1, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000x128, .f32⟩
  | 89 => ⟨S800000x128, .f32⟩
  | 90 => ⟨S800000x128, .f32⟩
  | 91 => ⟨S_, .f32⟩
  | 92 => ⟨S100000x128, .f32⟩
  | 93 => ⟨S800000x1, .i32⟩
  | 94 => ⟨S100000x128, .f32⟩
  | 95 => ⟨S1x128, .f32⟩
  | 96 => ⟨S100000x128, .f32⟩
  | 97 => ⟨S100000x128, .f32⟩
  | 98 => ⟨S100000x128, .f32⟩
  | 99 => ⟨S800000x1, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000x128, .f32⟩
  | 109 => ⟨S800000x128, .f32⟩
  | 110 => ⟨S800000x128, .f32⟩
  | 111 => ⟨S_, .f32⟩
  | 112 => ⟨S100000x128, .f32⟩
  | 113 => ⟨S800000x1, .i32⟩
  | 114 => ⟨S100000x128, .f32⟩
  | 115 => ⟨S1x128, .f32⟩
  | 116 => ⟨S100000x128, .f32⟩
  | 117 => ⟨S100000x128, .f32⟩
  | 118 => ⟨S100000x128, .f32⟩
  | 119 => ⟨S1x128, .f32⟩
  | 120 => ⟨S100000x128, .f32⟩
  | 121 => ⟨S100000x128, .f32⟩
  | 122 => ⟨S_, .f32⟩
  | 123 => ⟨S128, .f32⟩
  | 124 => ⟨S_, .f32⟩
  | 125 => ⟨S128, .f32⟩
  | 126 => ⟨S128, .f32⟩
  | 127 => ⟨S_, .i32⟩
  | _ => ⟨S100000x128, .f32⟩

abbrev hbmTy0_1 (i : Nat) : BufTy := match i % 128 with
  | 0 => ⟨S_, .f32⟩
  | 1 => ⟨S128, .f32⟩
  | 2 => ⟨S1x128, .f32⟩
  | 3 => ⟨S_, .f32⟩
  | 4 => ⟨S1x128, .f32⟩
  | 5 => ⟨S1x128, .f32⟩
  | 6 => ⟨S100000x128, .f32⟩
  | 7 => ⟨S100000x128, .f32⟩
  | 8 => ⟨S100000x128, .f32⟩
  | 9 => ⟨S_, .f32⟩
  | 10 => ⟨S_, .f32⟩
  | 11 => ⟨S_, .f32⟩
  | 12 => ⟨S_, .f32⟩
  | 13 => ⟨S128, .f32⟩
  | 14 => ⟨S128, .f32⟩
  | 15 => ⟨S128, .f32⟩
  | 16 => ⟨S_, .f32⟩
  | 17 => ⟨S_, .i1⟩
  | 18 => ⟨S_, .f32⟩
  | 19 => ⟨S_, .f32⟩
  | 20 => ⟨S128, .f32⟩
  | 21 => ⟨S128, .f32⟩
  | 22 => ⟨S1x128, .f32⟩
  | 23 => ⟨S100000x128, .f32⟩
  | 24 => ⟨S100000x128, .f32⟩
  | 25 => ⟨S_, .f32⟩
  | 26 => ⟨S128, .f32⟩
  | 27 => ⟨S128, .f32⟩
  | 28 => ⟨S128, .f32⟩
  | 29 => ⟨S1x128, .f32⟩
  | 30 => ⟨S100000x128, .f32⟩
  | 31 => ⟨S100000x128, .f32⟩
  | 32 => ⟨S1x128, .f32⟩
  | 33 => ⟨S100000x128, .f32⟩
  | 34 => ⟨S100000x128, .f32⟩
  | 35 => ⟨S1x128, .f32⟩
  | 36 => ⟨S100000x128, .f32⟩
  | 37 => ⟨S100000x128, .f32⟩
  | 38 => ⟨S_, .f32⟩
  | 39 => ⟨S100000x128, .f32⟩
  | 40 => ⟨S100000x128, .i1⟩
  | 41 => ⟨S100000x128, .f32⟩
  | 42 => ⟨S100000x128, .f32⟩
  | 43 => ⟨S100000x128, .f32⟩
  | 44 => ⟨S100000x128, .f32⟩
  | 45 => ⟨S1x128, .f32⟩
  | 46 => ⟨S100000x128, .f32⟩
  | 47 => ⟨S100000x128, .f32⟩
  | 48 => ⟨S100000x128, .f32⟩
  | 49 => ⟨S1x128, .f32⟩
  | 50 => ⟨S100000x128, .f32⟩
  | 51 => ⟨S100000x128, .f32⟩
  | 52 => ⟨S_, .f32⟩
  | 53 => ⟨S128, .f32⟩
  | 54 => ⟨S_, .f32⟩
  | 55 => ⟨S128, .f32⟩
  | 56 => ⟨S128, .f32⟩
  | 57 => ⟨S_, .i32⟩
  | 58 => ⟨S_, .f32⟩
  | 59 => ⟨S128, .f32⟩
  | 60 => ⟨S1x128, .f32⟩
  | 61 => ⟨S_, .f32⟩
  | 62 => ⟨S1x128, .f32⟩
  | 63 => ⟨S1x128, .f32⟩
  | 64 => ⟨S100000x128, .f32⟩
  | 65 => ⟨S100000x128, .f32⟩
  | 66 => ⟨S100000x128, .f32⟩
  | 67 => ⟨S_, .f32⟩
  | 68 => ⟨S_, .f32⟩
  | 69 => ⟨S_, .f32⟩
  | 70 => ⟨S_, .f32⟩
  | 71 => ⟨S128, .f32⟩
  | 72 => ⟨S128, .f32⟩
  | 73 => ⟨S128, .f32⟩
  | 74 => ⟨S_, .f32⟩
  | 75 => ⟨S_, .i1⟩
  | 76 => ⟨S_, .f32⟩
  | 77 => ⟨S_, .f32⟩
  | 78 => ⟨S128, .f32⟩
  | 79 => ⟨S128, .f32⟩
  | 80 => ⟨S1x128, .f32⟩
  | 81 => ⟨S100000x128, .f32⟩
  | 82 => ⟨S100000x128, .f32⟩
  | 83 => ⟨S_, .f32⟩
  | 84 => ⟨S128, .f32⟩
  | 85 => ⟨S128, .f32⟩
  | 86 => ⟨S128, .f32⟩
  | 87 => ⟨S1x128, .f32⟩
  | 88 => ⟨S100000x128, .f32⟩
  | 89 => ⟨S100000x128, .f32⟩
  | 90 => ⟨S1x128, .f32⟩
  | 91 => ⟨S100000x128, .f32⟩
  | 92 => ⟨S100000x128, .f32⟩
  | 93 => ⟨S1x128, .f32⟩
  | 94 => ⟨S100000x128, .f32⟩
  | 95 => ⟨S100000x128, .f32⟩
  | 96 => ⟨S_, .f32⟩
  | 97 => ⟨S100000x128, .f32⟩
  | 98 => ⟨S100000x128, .i1⟩
  | 99 => ⟨S100000x128, .f32⟩
  | 100 => ⟨S100000x128, .f32⟩
  | 101 => ⟨S100000x128, .f32⟩
  | 102 => ⟨S100000x128, .f32⟩
  | 103 => ⟨S1x128, .f32⟩
  | 104 => ⟨S100000x128, .f32⟩
  | 105 => ⟨S100000x128, .f32⟩
  | 106 => ⟨S100000x128, .f32⟩
  | 107 => ⟨S_, .f32⟩
  | 108 => ⟨S100000, .f32⟩
  | 109 => ⟨S100000x1, .f32⟩
  | 110 => ⟨S100000x1, .f32⟩
  | 111 => ⟨S100000x128, .f32⟩
  | 112 => ⟨S100000x128, .f32⟩
  | 113 => ⟨S100000x128, .f32⟩
  | 114 => ⟨S_, .f32⟩
  | 115 => ⟨S100000, .f32⟩
  | 116 => ⟨S100000x1, .f32⟩
  | 117 => ⟨S100000x1, .f32⟩
  | 118 => ⟨S100000x128, .f32⟩
  | 119 => ⟨S100000x128, .f32⟩
  | 120 => ⟨S100000x128, .f32⟩
  | 121 => ⟨S_, .f32⟩
  | 122 => ⟨S100000, .f32⟩
  | 123 => ⟨S_, .f32⟩
  | 124 => ⟨S100000, .f32⟩
  | 125 => ⟨S100000, .f32⟩
  | 126 => ⟨S_, .f32⟩
  | 127 => ⟨S100000, .f32⟩
  | _ => ⟨S100000x128, .f32⟩

abbrev hbmTy0_2 (i : Nat) : BufTy := match i % 128 with
  | 0 => ⟨S100000, .f32⟩
  | 1 => ⟨S100000x128, .f32⟩
  | 2 => ⟨S_, .f32⟩
  | 3 => ⟨S100000, .f32⟩
  | 4 => ⟨S100000x1, .f32⟩
  | 5 => ⟨S100000x1, .f32⟩
  | 6 => ⟨S100000x128, .f32⟩
  | 7 => ⟨S100000x128, .f32⟩
  | 8 => ⟨S100000x128, .f32⟩
  | 9 => ⟨S_, .f32⟩
  | 10 => ⟨S100000, .f32⟩
  | 11 => ⟨S100000x1, .f32⟩
  | 12 => ⟨S100000x1, .f32⟩
  | 13 => ⟨S100000x128, .f32⟩
  | 14 => ⟨S100000x128, .f32⟩
  | 15 => ⟨S100000x128, .f32⟩
  | 16 => ⟨S_, .f32⟩
  | 17 => ⟨S100000, .f32⟩
  | 18 => ⟨S_, .f32⟩
  | 19 => ⟨S100000, .f32⟩
  | 20 => ⟨S100000, .f32⟩
  | 21 => ⟨S_, .f32⟩
  | 22 => ⟨S100000, .f32⟩
  | 23 => ⟨S100000, .f32⟩
  | 24 => ⟨S100000, .f32⟩
  | 25 => ⟨S_, .f32⟩
  | 26 => ⟨S_, .f32⟩
  | 27 => ⟨S_, .f32⟩
  | 28 => ⟨S_, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_c : Ref sig .tc := ⟨.hbm, 19, rfl⟩
abbrev main_v3 : Ref sig .tc := ⟨.hbm, 20, rfl⟩
abbrev main_v4 : Ref sig .tc := ⟨.hbm, 21, rfl⟩
abbrev main_c_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_1 : Ref sig .tc := ⟨.hbm, 40, rfl⟩
abbrev main_v21 : Ref sig .tc := ⟨.hbm, 41, rfl⟩
abbrev main_v22 : Ref sig .tc := ⟨.hbm, 42, rfl⟩
abbrev main_c_2 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_3 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_4 : Ref sig .tc := ⟨.hbm, 60, rfl⟩
abbrev main_v38 : Ref sig .tc := ⟨.hbm, 61, rfl⟩
abbrev main_v39 : Ref sig .tc := ⟨.hbm, 62, rfl⟩
abbrev main_c_5 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_6 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_7 : Ref sig .tc := ⟨.hbm, 80, rfl⟩
abbrev main_v55 : Ref sig .tc := ⟨.hbm, 81, rfl⟩
abbrev main_v56 : Ref sig .tc := ⟨.hbm, 82, rfl⟩
abbrev main_c_8 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_9 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_10 : Ref sig .tc := ⟨.hbm, 100, rfl⟩
abbrev main_v72 : Ref sig .tc := ⟨.hbm, 101, rfl⟩
abbrev main_v73 : Ref sig .tc := ⟨.hbm, 102, rfl⟩
abbrev main_c_11 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_12 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_13 : Ref sig .tc := ⟨.hbm, 122, rfl⟩
abbrev main_v91 : Ref sig .tc := ⟨.hbm, 123, rfl⟩
abbrev main_cst_14 : Ref sig .tc := ⟨.hbm, 124, rfl⟩
abbrev main_v92 : Ref sig .tc := ⟨.hbm, 125, rfl⟩
abbrev main_v93 : Ref sig .tc := ⟨.hbm, 126, rfl⟩
abbrev main_c_15 : Ref sig .tc := ⟨.hbm, 127, rfl⟩
abbrev main_call0_cst : Ref sig .tc := ⟨.hbm, 128, rfl⟩
abbrev main_call0_v0 : Ref sig .tc := ⟨.hbm, 129, rfl⟩
abbrev main_call0_v1 : Ref sig .tc := ⟨.hbm, 130, rfl⟩
abbrev main_call0_cst_0 : Ref sig .tc := ⟨.hbm, 131, rfl⟩
abbrev main_call0_v2 : Ref sig .tc := ⟨.hbm, 132, rfl⟩
abbrev main_call0_v3 : Ref sig .tc := ⟨.hbm, 133, rfl⟩
abbrev main_call0_v4 : Ref sig .tc := ⟨.hbm, 134, rfl⟩
abbrev main_call0_v5 : Ref sig .tc := ⟨.hbm, 135, rfl⟩
abbrev main_call0_v6 : Ref sig .tc := ⟨.hbm, 136, rfl⟩
abbrev main_call0_v7 : Ref sig .tc := ⟨.hbm, 137, rfl⟩
abbrev main_call0_cst_1 : Ref sig .tc := ⟨.hbm, 138, rfl⟩
abbrev main_call0_v8 : Ref sig .tc := ⟨.hbm, 139, rfl⟩
abbrev main_call0_cst_2 : Ref sig .tc := ⟨.hbm, 140, rfl⟩
abbrev main_call0_v9 : Ref sig .tc := ⟨.hbm, 141, rfl⟩
abbrev main_call0_v10 : Ref sig .tc := ⟨.hbm, 142, rfl⟩
abbrev main_call0_v11 : Ref sig .tc := ⟨.hbm, 143, rfl⟩
abbrev main_call0_cst_3 : Ref sig .tc := ⟨.hbm, 144, rfl⟩
abbrev main_call0_v12 : Ref sig .tc := ⟨.hbm, 145, rfl⟩
abbrev main_call0_cst_4 : Ref sig .tc := ⟨.hbm, 146, rfl⟩
abbrev main_call0_call0_v0 : Ref sig .tc := ⟨.hbm, 147, rfl⟩
abbrev main_call0_call0_v1 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_cst_16 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_cst_17 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_cst_18 : Ref sig .tc := ⟨.hbm, 180, rfl⟩
abbrev main_v123 : Ref sig .tc := ⟨.hbm, 181, rfl⟩
abbrev main_cst_19 : Ref sig .tc := ⟨.hbm, 182, rfl⟩
abbrev main_v124 : Ref sig .tc := ⟨.hbm, 183, rfl⟩
abbrev main_v125 : Ref sig .tc := ⟨.hbm, 184, rfl⟩
abbrev main_c_20 : Ref sig .tc := ⟨.hbm, 185, rfl⟩
abbrev main_call2_cst : Ref sig .tc := ⟨.hbm, 186, rfl⟩
abbrev main_call2_v0 : Ref sig .tc := ⟨.hbm, 187, rfl⟩
abbrev main_call2_v1 : Ref sig .tc := ⟨.hbm, 188, rfl⟩
abbrev main_call2_cst_0 : Ref sig .tc := ⟨.hbm, 189, rfl⟩
abbrev main_call2_v2 : Ref sig .tc := ⟨.hbm, 190, rfl⟩
abbrev main_call2_v3 : Ref sig .tc := ⟨.hbm, 191, rfl⟩
abbrev main_call2_v4 : Ref sig .tc := ⟨.hbm, 192, rfl⟩
abbrev main_call2_v5 : Ref sig .tc := ⟨.hbm, 193, rfl⟩
abbrev main_call2_v6 : Ref sig .tc := ⟨.hbm, 194, rfl⟩
abbrev main_call2_v7 : Ref sig .tc := ⟨.hbm, 195, rfl⟩
abbrev main_call2_cst_1 : Ref sig .tc := ⟨.hbm, 196, rfl⟩
abbrev main_call2_v8 : Ref sig .tc := ⟨.hbm, 197, rfl⟩
abbrev main_call2_cst_2 : Ref sig .tc := ⟨.hbm, 198, rfl⟩
abbrev main_call2_v9 : Ref sig .tc := ⟨.hbm, 199, rfl⟩
abbrev main_call2_v10 : Ref sig .tc := ⟨.hbm, 200, rfl⟩
abbrev main_call2_v11 : Ref sig .tc := ⟨.hbm, 201, rfl⟩
abbrev main_call2_cst_3 : Ref sig .tc := ⟨.hbm, 202, rfl⟩
abbrev main_call2_v12 : Ref sig .tc := ⟨.hbm, 203, rfl⟩
abbrev main_call2_cst_4 : Ref sig .tc := ⟨.hbm, 204, rfl⟩
abbrev main_call2_call0_v0 : Ref sig .tc := ⟨.hbm, 205, rfl⟩
abbrev main_call2_call0_v1 : Ref sig .tc := ⟨.hbm, 206, rfl⟩
abbrev main_v126 : Ref sig .tc := ⟨.hbm, 207, rfl⟩
abbrev main_v127 : Ref sig .tc := ⟨.hbm, 208, rfl⟩
abbrev main_v128 : Ref sig .tc := ⟨.hbm, 209, rfl⟩
abbrev main_v129 : Ref sig .tc := ⟨.hbm, 210, rfl⟩
abbrev main_cst_21 : Ref sig .tc := ⟨.hbm, 211, rfl⟩
abbrev main_v130 : Ref sig .tc := ⟨.hbm, 212, rfl⟩
abbrev main_v131 : Ref sig .tc := ⟨.hbm, 213, rfl⟩
abbrev main_v132 : Ref sig .tc := ⟨.hbm, 214, rfl⟩
abbrev main_v133 : Ref sig .tc := ⟨.hbm, 215, rfl⟩
abbrev main_v134 : Ref sig .tc := ⟨.hbm, 216, rfl⟩
abbrev main_v135 : Ref sig .tc := ⟨.hbm, 217, rfl⟩
abbrev main_v136 : Ref sig .tc := ⟨.hbm, 218, rfl⟩
abbrev main_v137 : Ref sig .tc := ⟨.hbm, 219, rfl⟩
abbrev main_v138 : Ref sig .tc := ⟨.hbm, 220, rfl⟩
abbrev main_v139 : Ref sig .tc := ⟨.hbm, 221, rfl⟩
abbrev main_v140 : Ref sig .tc := ⟨.hbm, 222, rfl⟩
abbrev main_v141 : Ref sig .tc := ⟨.hbm, 223, rfl⟩
abbrev main_cst_22 : Ref sig .tc := ⟨.hbm, 224, rfl⟩
abbrev main_v142 : Ref sig .tc := ⟨.hbm, 225, rfl⟩
abbrev main_v143 : Ref sig .tc := ⟨.hbm, 226, rfl⟩
abbrev main_v144 : Ref sig .tc := ⟨.hbm, 227, rfl⟩
abbrev main_v145 : Ref sig .tc := ⟨.hbm, 228, rfl⟩
abbrev main_v146 : Ref sig .tc := ⟨.hbm, 229, rfl⟩
abbrev main_v147 : Ref sig .tc := ⟨.hbm, 230, rfl⟩
abbrev main_v148 : Ref sig .tc := ⟨.hbm, 231, rfl⟩
abbrev main_v149 : Ref sig .tc := ⟨.hbm, 232, rfl⟩
abbrev main_v150 : Ref sig .tc := ⟨.hbm, 233, rfl⟩
abbrev main_call4_v0 : Ref sig .tc := ⟨.hbm, 234, rfl⟩
abbrev main_call4_cst : Ref sig .tc := ⟨.hbm, 235, rfl⟩
abbrev main_call4_v1 : Ref sig .tc := ⟨.hbm, 236, rfl⟩
abbrev main_call4_v2 : Ref sig .tc := ⟨.hbm, 237, rfl⟩
abbrev main_v151 : Ref sig .tc := ⟨.hbm, 238, rfl⟩
abbrev main_v152 : Ref sig .tc := ⟨.hbm, 239, rfl⟩
abbrev main_v153 : Ref sig .tc := ⟨.hbm, 240, rfl⟩
abbrev main_call5_v0 : Ref sig .tc := ⟨.hbm, 241, rfl⟩
abbrev main_call5_cst : Ref sig .tc := ⟨.hbm, 242, rfl⟩
abbrev main_call5_v1 : Ref sig .tc := ⟨.hbm, 243, rfl⟩
abbrev main_call5_v2 : Ref sig .tc := ⟨.hbm, 244, rfl⟩
abbrev main_v154 : Ref sig .tc := ⟨.hbm, 245, rfl⟩
abbrev main_v155 : Ref sig .tc := ⟨.hbm, 246, rfl⟩
abbrev main_v156 : Ref sig .tc := ⟨.hbm, 247, rfl⟩
abbrev main_v157 : Ref sig .tc := ⟨.hbm, 248, rfl⟩
abbrev main_cst_23 : Ref sig .tc := ⟨.hbm, 249, rfl⟩
abbrev main_v158 : Ref sig .tc := ⟨.hbm, 250, rfl⟩
abbrev main_cst_24 : Ref sig .tc := ⟨.hbm, 251, rfl⟩
abbrev main_v159 : Ref sig .tc := ⟨.hbm, 252, rfl⟩
abbrev main_v160 : Ref sig .tc := ⟨.hbm, 253, rfl⟩
abbrev main_cst_25 : Ref sig .tc := ⟨.hbm, 254, rfl⟩
abbrev main_v161 : Ref sig .tc := ⟨.hbm, 255, rfl⟩
abbrev main_v162 : Ref sig .tc := ⟨.hbm, 256, rfl⟩
abbrev main_call6_v0 : Ref sig .tc := ⟨.hbm, 257, rfl⟩
abbrev main_call6_cst : Ref sig .tc := ⟨.hbm, 258, rfl⟩
abbrev main_call6_v1 : Ref sig .tc := ⟨.hbm, 259, rfl⟩
abbrev main_call6_v2 : Ref sig .tc := ⟨.hbm, 260, rfl⟩
abbrev main_v163 : Ref sig .tc := ⟨.hbm, 261, rfl⟩
abbrev main_v164 : Ref sig .tc := ⟨.hbm, 262, rfl⟩
abbrev main_v165 : Ref sig .tc := ⟨.hbm, 263, rfl⟩
abbrev main_call7_v0 : Ref sig .tc := ⟨.hbm, 264, rfl⟩
abbrev main_call7_cst : Ref sig .tc := ⟨.hbm, 265, rfl⟩
abbrev main_call7_v1 : Ref sig .tc := ⟨.hbm, 266, rfl⟩
abbrev main_call7_v2 : Ref sig .tc := ⟨.hbm, 267, rfl⟩
abbrev main_v166 : Ref sig .tc := ⟨.hbm, 268, rfl⟩
abbrev main_v167 : Ref sig .tc := ⟨.hbm, 269, rfl⟩
abbrev main_v168 : Ref sig .tc := ⟨.hbm, 270, rfl⟩
abbrev main_v169 : Ref sig .tc := ⟨.hbm, 271, rfl⟩
abbrev main_cst_26 : Ref sig .tc := ⟨.hbm, 272, rfl⟩
abbrev main_v170 : Ref sig .tc := ⟨.hbm, 273, rfl⟩
abbrev main_cst_27 : Ref sig .tc := ⟨.hbm, 274, rfl⟩
abbrev main_v171 : Ref sig .tc := ⟨.hbm, 275, rfl⟩
abbrev main_v172 : Ref sig .tc := ⟨.hbm, 276, rfl⟩
abbrev main_cst_28 : Ref sig .tc := ⟨.hbm, 277, rfl⟩
abbrev main_v173 : Ref sig .tc := ⟨.hbm, 278, rfl⟩
abbrev main_v174 : Ref sig .tc := ⟨.hbm, 279, rfl⟩
abbrev main_v175 : Ref sig .tc := ⟨.hbm, 280, rfl⟩
abbrev main_cst_29 : Ref sig .tc := ⟨.hbm, 281, rfl⟩
abbrev main_v176 : Ref sig .tc := ⟨.hbm, 282, rfl⟩
abbrev main_cst_30 : Ref sig .tc := ⟨.hbm, 283, rfl⟩
abbrev main_v177 : Ref sig .tc := ⟨.hbm, 284, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  reducesTo_S100000x128_S100000_d1 : S100000x128.ReducesTo [1] S100000
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000 : S_.BroadcastsInDim S100000 (![] : Fin 0 → Fin S100000.rank)
  reducesTo_S100000_S_d0 : S100000.ReducesTo [0] S_
  dot_S100000x128_S128x128_S100000x128_1_0_0_1_n_n_wf : DotDims.WF S100000x128 S128x128 S100000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf

class Facts : Prop extends Facts₀ where

variable [Facts]
-- ==== Proof.KernelRun.lean ====
/-
  The idealized kernel program's run with its two results named.  @main is six tiled regions among stretches of host
  operations; the buffer contents at each boundary are a fold from the launch memory (`Gen.W0` … `Gen.W28`: a stretch
  applies its operations, a region replaces its output array by what its write-backs leave).  The launch over the
  segments ends with every unscoped buffer at `Gen.W28`; read at the two result buffers this names the results, and at
  the argument buffers it gives the launch contents back.
-/
import proofs.«108390_j87840671138373_2_alg».proof.Proof.Gen.KernelIdeal.Frame

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two result buffers at the last
    boundary's contents and the argument arrays as launched. -/
theorem run_vals : θ_run defs (onTc (τ := τ) (main (F := F))) ⟨m, fun _ => 0, ρ⟩ (fun r => ∀ c : Dev nD,
      r.2.mem ((c.tc : Thread nD τ).loc main_v28) = W28 m ρ c (Proc.devRef .tc main_v28)
      ∧ r.2.mem ((c.tc : Thread nD τ).loc main_v111) = W28 m ρ c (Proc.devRef .tc main_v111)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W28 m ρ c b)
    (hfin := fun c s' => by
      iintro ⟨⟨Hh, -⟩, HSI⟩
      unfold StableHlo.held
      imodintro
      iapply (pointsTo_read_all (Pipeline.ucRefs τ sig) (fun b => (((c : Thread nD τ)).1, b)) (W28 m ρ c) s')
      isplitl [Hh] <;> iassumption)
    (hQ := fun s h c =>
      ⟨h c _ (mem_uc main_v28 (by decide)),
       h c _ (mem_uc main_v111 (by decide)),
       (h c _ (mem_uc main_arg0 (by decide))).trans (W28_main_arg0 m ρ c),
       (h c _ (mem_uc main_arg1 (by decide))).trans (W28_main_arg1 m ρ c),
       (h c _ (mem_uc main_arg2 (by decide))).trans (W28_main_arg2 m ρ c),
       (h c _ (mem_uc main_arg3 (by decide))).trans (W28_main_arg3 m ρ c),
       (h c _ (mem_uc main_arg4 (by decide))).trans (W28_main_arg4 m ρ c),
       (h c _ (mem_uc main_arg5 (by decide))).trans (W28_main_arg5 m ρ c),
       (h c _ (mem_uc main_arg6 (by decide))).trans (W28_main_arg6 m ρ c),
       (h c _ (mem_uc main_arg7 (by decide))).trans (W28_main_arg7 m ρ c),
       (h c _ (mem_uc main_arg8 (by decide))).trans (W28_main_arg8 m ρ c),
       (h c _ (mem_uc main_arg9 (by decide))).trans (W28_main_arg9 m ρ c),
       (h c _ (mem_uc main_arg10 (by decide))).trans (W28_main_arg10 m ρ c),
       (h c _ (mem_uc main_arg11 (by decide))).trans (W28_main_arg11 m ρ c),
       (h c _ (mem_uc main_arg12 (by decide))).trans (W28_main_arg12 m ρ c),
       (h c _ (mem_uc main_arg13 (by decide))).trans (W28_main_arg13 m ρ c),
       (h c _ (mem_uc main_arg14 (by decide))).trans (W28_main_arg14 m ρ c),
       (h c _ (mem_uc main_arg15 (by decide))).trans (W28_main_arg15 m ρ c)⟩)

end Cert.KernelIdeal.Value

end
-- ==== Proof.Terms.lean ====
/-
  The two programs' shared vocabulary, at the extended reals.

  A graph convolution here is  gcn(x, w, b)[n, j] = (∑ over the edges e whose target row is n of vals[e] · (x · w)[src(e), j]) + b[j],
  with src(e) the signed, wrapped and clamped column index and the target row the signed, unclamped row index.
  One program multiplies by the weight first and aggregates afterwards (`gcnRef`); the other aggregates the two feature blocks
  x and perb side by side in one array of 256 columns (`aggCat`), and multiplies the aggregated rows by the two weight
  matrices side by side (`wcat`, `bcat`) afterwards, tile by tile (`dense256`, `dense128`: a row block times a whole weight
  matrix plus a bias row).  This module only names these terms; the laws between them are proved elsewhere.
-/
import proofs.«108390_j87840671138373_2_alg».proof.KernelIdeal
import proofs.«108390_j87840671138373_2_alg».proof.ReferenceIdeal
import Idealize.ShloMosaic.PureOps.Ideal
import Idealize.ShloMosaic.Lib.ValueIdx

noncomputable section

open Idealize.ShloMosaic Idealize.ShloMosaic.ValueIdx

namespace Cert.Terms

/-! ## The one-multiply-then-aggregate program's terms (its own dimension records) -/

section Ref
open Cert.ReferenceIdeal Cert.ReferenceIdeal.Facts₀
variable [Cert.ReferenceIdeal.Facts₀]

/-- The column index as the gather takes it: a negative index wrapped by the row count, then laid out as one index column. -/
def srcIdxR (cols : IVec S800000 32) : IVec S800000x1 32 :=
  broadcastInDim S800000x1 ![0] bcast_S800000_S800000x1_0
    (select (cmpi .slt cols (broadcastInDim S800000 ![] bcast_S_S800000 (constantI S_ 32 0#32)))
      (addi cols (broadcastInDim S800000 ![] bcast_S_S800000 (constantI S_ 32 100000#32))) cols)

/-- Weight first, then the weighted sum of the source rows over the edges of each target row, then the bias. -/
def gcnRef (x : FVec Ideal S100000x128 .f32) (w : FVec Ideal S128x128 .f32) (b : FVec Ideal S128 .f32)
    (vals : FVec Ideal S800000 .f32) (rows cols : IVec S800000 32) : FVec Ideal S100000x128 .f32 :=
  addf
    (Host.scatterAdd (F := Ideal) scatter_S100000x128_S800000x1_S800000x128_1_0_0_1
      (broadcastInDim S100000x128 ![] bcast_S_S100000x128 (constant (F := Ideal) S_ .f32 0x00000000#32))
      (broadcastInDim S800000x1 ![0] bcast_S800000_S800000x1_0 rows)
      (mulf (broadcastInDim S800000x128 ![0, 1] bcast_S800000x1_S800000x128_0_1 (broadcastInDim S800000x1 ![0] bcast_S800000_S800000x1_0 vals))
        (Host.gather gather_S100000x128_S800000x1_S800000x128_1_0_n_n_0_1_1128
          (Host.dotGeneral (F := Ideal) dot_S100000x128_S128x128_S100000x128_1_0_0_1_n_n none x w) (srcIdxR cols))))
    (broadcastInDim S100000x128 ![0, 1] bcast_S1x128_S100000x128_0_1 (broadcastInDim S1x128 ![1] bcast_S128_S1x128_1 b))

/-- A linear layer on the host: rows times a weight matrix plus a bias row. -/
def denseRef (z : FVec Ideal S100000x128 .f32) (w : FVec Ideal S128x128 .f32) (b : FVec Ideal S128 .f32) : FVec Ideal S100000x128 .f32 :=
  addf (Host.dotGeneral (F := Ideal) dot_S100000x128_S128x128_S100000x128_1_0_0_1_n_n none z w)
    (broadcastInDim S100000x128 ![0, 1] bcast_S1x128_S100000x128_0_1 (broadcastInDim S1x128 ![1] bcast_S128_S1x128_1 b))

end Ref

/-! ## The aggregate-then-multiply program's terms (its own dimension records) -/

section Ker
open Cert.KernelIdeal Cert.KernelIdeal.Facts₀
variable [Cert.KernelIdeal.Facts₀]

def srcIdxK (cols : IVec S800000 32) : IVec S800000x1 32 :=
  broadcastInDim S800000x1 ![0] bcast_S800000_S800000x1_0
    (select (cmpi .slt cols (broadcastInDim S800000 ![] bcast_S_S800000 (constantI S_ 32 0#32)))
      (addi cols (broadcastInDim S800000 ![] bcast_S_S800000 (constantI S_ 32 100000#32))) cols)

/-- The two feature blocks side by side, aggregated in one pass: 256 columns. -/
def aggCat (x perb : FVec Ideal S100000x128 .f32) (vals : FVec Ideal S800000 .f32) (rows cols : IVec S800000 32) :
    FVec Ideal S100000x256 .f32 :=
  Host.scatterAdd (F := Ideal) scatter_S100000x256_S800000x1_S800000x256_1_0_0_1
    (broadcastInDim S100000x256 ![] bcast_S_S100000x256 (constant (F := Ideal) S_ .f32 0x00000000#32))
    (broadcastInDim S800000x1 ![0] bcast_S800000_S800000x1_0 rows)
    (mulf (broadcastInDim S800000x256 ![0, 1] bcast_S800000x1_S800000x256_0_1 (broadcastInDim S800000x1 ![0] bcast_S800000_S800000x1_0 vals))
      (Host.gather gather_S100000x256_S800000x1_S800000x256_1_0_n_n_0_1_1256
        (concatenate S100000x256 1 [⟨S100000x128, x⟩, ⟨S100000x128, perb⟩] concatenates_S100000x128_S100000x128_S100000x256_d1)
        (srcIdxK cols)))

/-- The left 128 columns of a 256-column array. -/
def lo (a : FVec Ideal S100000x256 .f32) : FVec Ideal S100000x128 .f32 :=
  extractStridedSlice S100000x128 ![0, 0] a slices_S100000x256_S100000x128_0_0
/-- The right 128 columns. -/
def hi (a : FVec Ideal S100000x256 .f32) : FVec Ideal S100000x128 .f32 :=
  extractStridedSlice S100000x128 ![0, 128] a slices_S100000x256_S100000x128_0_128

/-- The two weight matrices side by side. -/
def wcat (w_on w_tg : FVec Ideal S128x128 .f32) : FVec Ideal S128x256 .f32 :=
  concatenate S128x256 1 [⟨S128x128, w_on⟩, ⟨S128x128, w_tg⟩] concatenates_S128x128_S128x128_S128x256_d1
/-- The two bias rows end to end, as one row of 256. -/
def bcat (b_on b_tg : FVec Ideal S128 .f32) : FVec Ideal S1x256 .f32 :=
  shapeCast S1x256 (concatenate S256 0 [⟨S128, b_on⟩, ⟨S128, b_tg⟩] concatenates_S128_S128_S256_d0) shapeCasts_S256_S1x256
/-- A bias vector as one row. -/
def brow (b : FVec Ideal S128 .f32) : FVec Ideal S1x128 .f32 := shapeCast S1x128 b shapeCasts_S128_S1x128

/-- Rows times a 128×256 weight matrix plus a bias row, entry by entry. -/
def dense256 (a : FVec Ideal S100000x128 .f32) (w : FVec Ideal S128x256 .f32) (b : FVec Ideal S1x256 .f32) :
    FVec Ideal S100000x256 .f32 :=
  fun i => (∑ k : Fin 128, a (ix2 (n0 := 100000) (n1 := 128) ⟨(i 0).val, (i 0).isLt⟩ k) * w (ix2 (n0 := 128) (n1 := 256) k ⟨(i 1).val, (i 1).isLt⟩))
    + b (ix2 (n0 := 1) (n1 := 256) 0 ⟨(i 1).val, (i 1).isLt⟩)

/-- Rows times a 128×128 weight matrix plus a bias row, entry by entry. -/
def dense128 (a : FVec Ideal S100000x128 .f32) (w : FVec Ideal S128x128 .f32) (b : FVec Ideal S1x128 .f32) :
    FVec Ideal S100000x128 .f32 :=
  fun i => (∑ k : Fin 128, a (ix2 (n0 := 100000) (n1 := 128) ⟨(i 0).val, (i 0).isLt⟩ k) * w (ix2 (n0 := 128) (n1 := 128) k ⟨(i 1).val, (i 1).isLt⟩))
    + b (ix2 (n0 := 1) (n1 := 128) 0 ⟨(i 1).val, (i 1).isLt⟩)

end Ker

end Cert.Terms

end
-- ==== Proof.Tail.lean ====
/-
  The part of the computation that follows the four graph convolutions, named as functions of its inputs.

  bnAct h g b a   : batch normalisation of the rows of h over the 100000 samples (column mean, column variance with the
                    population divisor 100000 - 0, reciprocal square root of variance + 1e-5, scale g, shift b), followed by
                    the parametric rectifier  y ↦ if y > 0 then y else a · y.
  predRef         : a linear layer, bnAct, a second linear layer.
  lossOf px tx py ty : with û = u / ‖u‖ row by row,  (∑_n (2 − 2·⟨p̂x_n, t̂x_n⟩) + (2 − 2·⟨p̂y_n, t̂y_n⟩)) / 100000.
  embedRef, lossRef : the two results as functions of the sixteen inputs.
-/
import proofs.«108390_j87840671138373_2_alg».proof.Proof.Terms

noncomputable section

open Idealize.ShloMosaic Idealize.ShloMosaic.ValueIdx

namespace Cert.Terms

section Tail
open Cert.ReferenceIdeal Cert.ReferenceIdeal.Facts₀
variable [Cert.ReferenceIdeal.Facts₀]

/-- Batch normalisation over the sample axis, then the parametric rectifier. -/
def bnAct (h : FVec Ideal S100000x128 .f32) (g b : FVec Ideal S128 .f32) (a : FVec Ideal S_ .f32) : FVec Ideal S100000x128 .f32 :=
  -- the column mean: the column sums divided by 100000
  have cst_13 : FVec Ideal S_ .f32 := constant (F := Ideal) S_ .f32 0x00000000#32
  have v91 : FVec Ideal S128 .f32 := Host.reduceAdd (F := Ideal) h cst_13 reducesTo_S100000x128_S128_d0 h_S_
  have cst_14 : FVec Ideal S_ .f32 := constant (F := Ideal) S_ .f32 0x47C35000#32
  have v92 : FVec Ideal S128 .f32 := broadcastInDim S128 ![] bcast_S_S128 cst_14
  have v93 : FVec Ideal S128 .f32 := Host.divf (F := Ideal) v91 v92
  have c_15 : IVec S_ 32 := constantI S_ 32 0#32
  -- the column variance with divisor 100000 - 0: mean again, centred squares, their column sums over the divisor,
  -- kept where the divisor is positive
  have q_cst : FVec Ideal S_ .f32 := constant (F := Ideal) S_ .f32 0x00000000#32
  have q0 : FVec Ideal S128 .f32 := Host.reduceAdd (F := Ideal) h q_cst reducesTo_S100000x128_S128_d0 h_S_
  have q1 : FVec Ideal S1x128 .f32 := broadcastInDim S1x128 ![1] bcast_S128_S1x128_1 q0
  have q_cst_0 : FVec Ideal S_ .f32 := constant (F := Ideal) S_ .f32 0x47C35000#32
  have q2 : FVec Ideal S1x128 .f32 := broadcastInDim S1x128 ![] bcast_S_S1x128 q_cst_0
  have q3 : FVec Ideal S1x128 .f32 := Host.divf (F := Ideal) q1 q2
  have q4 : FVec Ideal S100000x128 .f32 := broadcastInDim S100000x128 ![0, 1] bcast_S1x128_S100000x128_0_1 q3
  have q5 : FVec Ideal S100000x128 .f32 := subf h q4
  have q6 : FVec Ideal S100000x128 .f32 := mulf q5 q5
  have q7 : FVec Ideal S_ .f32 := sitofp (F := Ideal) .f32 c_15
  have q_cst_1 : FVec Ideal S_ .f32 := constant (F := Ideal) S_ .f32 0x47C35000#32
  have q8 : FVec Ideal S_ .f32 := subf q_cst_1 q7
  have q_cst_2 : FVec Ideal S_ .f32 := constant (F := Ideal) S_ .f32 0x00000000#32
  have q9 : FVec Ideal S128 .f32 := Host.reduceAdd (F := Ideal) q6 q_cst_2 reducesTo_S100000x128_S128_d0 h_S_
  have q10 : FVec Ideal S128 .f32 := broadcastInDim S128 ![] bcast_S_S128 q8
  have q11 : FVec Ideal S128 .f32 := Host.divf (F := Ideal) q9 q10
  have q_cst_3 : FVec Ideal S_ .f32 := constant (F := Ideal) S_ .f32 0x00000000#32
  have q12 : IVec S_ 1 := cmpf (F := Ideal) .ogt q8 q_cst_3
  have q_cst_4 : FVec Ideal S_ .f32 := constant (F := Ideal) S_ .f32 0x7FC00000#32
  have r0 : FVec Ideal S_ .f32 := id q_cst_4
  have r1 : FVec Ideal S128 .f32 := broadcastInDim S128 ![] bcast_S_S128 r0
  have v94 : FVec Ideal S128 .f32 := select (broadcastInDim S128 ![] bcast_S_S128 q12) q11 r1
  -- centre, scale by the reciprocal square root of variance + 1e-5
  have v95 : FVec Ideal S1x128 .f32 := broadcastInDim S1x128 ![1] bcast_S128_S1x128_1 v93
  have v96 : FVec Ideal S100000x128 .f32 := broadcastInDim S100000x128 ![0, 1] bcast_S1x128_S100000x128_0_1 v95
  have v97 : FVec Ideal S100000x128 .f32 := subf h v96
  have cst_16 : FVec Ideal S_ .f32 := constant (F := Ideal) S_ .f32 0x3727C5AC#32
  have v98 : FVec Ideal S128 .f32 := broadcastInDim S128 ![] bcast_S_S128 cst_16
  have v99 : FVec Ideal S128 .f32 := addf v94 v98
  have v100 : FVec Ideal S128 .f32 := Host.rsqrt (F := Ideal) v99
  have v101 : FVec Ideal S1x128 .f32 := broadcastInDim S1x128 ![1] bcast_S128_S1x128_1 v100
  have v102 : FVec Ideal S100000x128 .f32 := broadcastInDim S100000x128 ![0, 1] bcast_S1x128_S100000x128_0_1 v101
  have v103 : FVec Ideal S100000x128 .f32 := mulf v97 v102
  -- the learned scale and shift
  have v104 : FVec Ideal S1x128 .f32 := broadcastInDim S1x128 ![1] bcast_S128_S1x128_1 g
  have v105 : FVec Ideal S100000x128 .f32 := broadcastInDim S100000x128 ![0, 1] bcast_S1x128_S100000x128_0_1 v104
  have v106 : FVec Ideal S100000x128 .f32 := mulf v103 v105
  have v107 : FVec Ideal S1x128 .f32 := broadcastInDim S1x128 ![1] bcast_S128_S1x128_1 b
  have v108 : FVec Ideal S100000x128 .f32 := broadcastInDim S100000x128 ![0, 1] bcast_S1x128_S100000x128_0_1 v107
  have v109 : FVec Ideal S100000x128 .f32 := addf v106 v108
  -- the parametric rectifier
  have cst_17 : FVec Ideal S_ .f32 := constant (F := Ideal) S_ .f32 0x00000000#32
  have v110 : FVec Ideal S100000x128 .f32 := broadcastInDim S100000x128 ![] bcast_S_S100000x128 cst_17
  have v111 : IVec S100000x128 1 := cmpf (F := Ideal) .ogt v109 v110
  have v112 : FVec Ideal S100000x128 .f32 := broadcastInDim S100000x128 ![] bcast_S_S100000x128 a
  have v113 : FVec Ideal S100000x128 .f32 := mulf v112 v109
  have v114 : FVec Ideal S100000x128 .f32 := select v111 v109 v113
  v114

/-- The sum over the samples of the two cosine distances 2 − 2·⟨û, v̂⟩, divided by 100000. -/
def lossOf (px tx py ty : FVec Ideal S100000x128 .f32) : FVec Ideal S_ .f32 :=
  -- px row-normalised: the row norm is the square root of the row sum of squares
  have n4_0 : FVec Ideal S100000x128 .f32 := mulf px px
  have n4_cst : FVec Ideal S_ .f32 := constant (F := Ideal) S_ .f32 0x00000000#32
  have n4_1 : FVec Ideal S100000 .f32 := Host.reduceAdd (F := Ideal) n4_0 n4_cst reducesTo_S100000x128_S100000_d1 h_S_
  have n4_2 : FVec Ideal S100000x1 .f32 := broadcastInDim S100000x1 ![0] bcast_S100000_S100000x1_0 n4_1
  have v151 : FVec Ideal S100000x1 .f32 := Host.sqrt (F := Ideal) n4_2
  have v152 : FVec Ideal S100000x128 .f32 := broadcastInDim S100000x128 ![0, 1] bcast_S100000x1_S100000x128_0_1 v151
  have v153 : FVec Ideal S100000x128 .f32 := Host.divf (F := Ideal) px v152
  -- tx row-normalised
  have n5_0 : FVec Ideal S100000x128 .f32 := mulf tx tx
  have n5_cst : FVec Ideal S_ .f32 := constant (F := Ideal) S_ .f32 0x00000000#32
  have n5_1 : FVec Ideal S100000 .f32 := Host.reduceAdd (F := Ideal) n5_0 n5_cst reducesTo_S100000x128_S100000_d1 h_S_
  have n5_2 : FVec Ideal S100000x1 .f32 := broadcastInDim S100000x1 ![0] bcast_S100000_S100000x1_0 n5_1
  have v154 : FVec Ideal S100000x1 .f32 := Host.sqrt (F := Ideal) n5_2
  have v155 : FVec Ideal S100000x128 .f32 := broadcastInDim S100000x128 ![0, 1] bcast_S100000x1_S100000x128_0_1 v154
  have v156 : FVec Ideal S100000x128 .f32 := Host.divf (F := Ideal) tx v155
  -- 2 − 2·(row inner product)
  have v157 : FVec Ideal S100000x128 .f32 := mulf v153 v156
  have cst_23 : FVec Ideal S_ .f32 := constant (F := Ideal) S_ .f32 0x00000000#32
  have v158 : FVec Ideal S100000 .f32 := Host.reduceAdd (F := Ideal) v157 cst_23 reducesTo_S100000x128_S100000_d1 h_S_
  have cst_24 : FVec Ideal S_ .f32 := constant (F := Ideal) S_ .f32 0x40000000#32
  have v159 : FVec Ideal S100000 .f32 := broadcastInDim S100000 ![] bcast_S_S100000 cst_24
  have v160 : FVec Ideal S100000 .f32 := mulf v159 v158
  have cst_25 : FVec Ideal S_ .f32 := constant (F := Ideal) S_ .f32 0x40000000#32
  have v161 : FVec Ideal S100000 .f32 := broadcastInDim S100000 ![] bcast_S_S100000 cst_25
  have v162 : FVec Ideal S100000 .f32 := subf v161 v160
  -- py row-normalised
  have n6_0 : FVec Ideal S100000x128 .f32 := mulf py py
  have n6_cst : FVec Ideal S_ .f32 := constant (F := Ideal) S_ .f32 0x00000000#32
  have n6_1 : FVec Ideal S100000 .f32 := Host.reduceAdd (F := Ideal) n6_0 n6_cst reducesTo_S100000x128_S100000_d1 h_S_
  have n6_2 : FVec Ideal S100000x1 .f32 := broadcastInDim S100000x1 ![0] bcast_S100000_S100000x1_0 n6_1
  have v163 : FVec Ideal S100000x1 .f32 := Host.sqrt (F := Ideal) n6_2
  have v164 : FVec Ideal S100000x128 .f32 := broadcastInDim S100000x128 ![0, 1] bcast_S100000x1_S100000x128_0_1 v163
  have v165 : FVec Ideal S100000x128 .f32 := Host.divf (F := Ideal) py v164
  -- ty row-normalised
  have n7_0 : FVec Ideal S100000x128 .f32 := mulf ty ty
  have n7_cst : FVec Ideal S_ .f32 := constant (F := Ideal) S_ .f32 0x00000000#32
  have n7_1 : FVec Ideal S100000 .f32 := Host.reduceAdd (F := Ideal) n7_0 n7_cst reducesTo_S100000x128_S100000_d1 h_S_
  have n7_2 : FVec Ideal S100000x1 .f32 := broadcastInDim S100000x1 ![0] bcast_S100000_S100000x1_0 n7_1
  have v166 : FVec Ideal S100000x1 .f32 := Host.sqrt (F := Ideal) n7_2
  have v167 : FVec Ideal S100000x128 .f32 := broadcastInDim S100000x128 ![0, 1] bcast_S100000x1_S100000x128_0_1 v166
  have v168 : FVec Ideal S100000x128 .f32 := Host.divf (F := Ideal) ty v167
  -- 2 − 2·(row inner product)
  have v169 : FVec Ideal S100000x128 .f32 := mulf v165 v168
  have cst_26 : FVec Ideal S_ .f32 := constant (F := Ideal) S_ .f32 0x00000000#32
  have v170 : FVec Ideal S100000 .f32 := Host.reduceAdd (F := Ideal) v169 cst_26 reducesTo_S100000x128_S100000_d1 h_S_
  have cst_27 : FVec Ideal S_ .f32 := constant (F := Ideal) S_ .f32 0x40000000#32
  have v171 : FVec Ideal S100000 .f32 := broadcastInDim S100000 ![] bcast_S_S100000 cst_27
  have v172 : FVec Ideal S100000 .f32 := mulf v171 v170
  have cst_28 : FVec Ideal S_ .f32 := constant (F := Ideal) S_ .f32 0x40000000#32
  have v173 : FVec Ideal S100000 .f32 := broadcastInDim S100000 ![] bcast_S_S100000 cst_28
  have v174 : FVec Ideal S100000 .f32 := subf v173 v172
  -- the two distances added, summed over the samples, divided by 100000
  have v175 : FVec Ideal S100000 .f32 := addf v162 v174
  have cst_29 : FVec Ideal S_ .f32 := constant (F := Ideal) S_ .f32 0x00000000#32
  have v176 : FVec Ideal S_ .f32 := Host.reduceAdd (F := Ideal) v175 cst_29 reducesTo_S100000_S_d0 h_S_
  have cst_30 : FVec Ideal S_ .f32 := constant (F := Ideal) S_ .f32 0x47C35000#32
  have v177 : FVec Ideal S_ .f32 := Host.divf (F := Ideal) v176 cst_30
  v177

/-- The predictor: a linear layer, batch normalisation with the rectifier, a second linear layer. -/
def predRef (z : FVec Ideal S100000x128 .f32) (l1w : FVec Ideal S128x128 .f32) (l1b g b : FVec Ideal S128 .f32)
    (a : FVec Ideal S_ .f32) (l2w : FVec Ideal S128x128 .f32) (l2b : FVec Ideal S128 .f32) : FVec Ideal S100000x128 .f32 :=
  denseRef (bnAct (denseRef z l1w l1b) g b a) l2w l2b

/-- The first result: the perturbed features plus their graph convolution with the online weights. -/
def embedRef (x perb : FVec Ideal S100000x128 .f32) (vals : FVec Ideal S800000 .f32) (w_on : FVec Ideal S128x128 .f32)
    (b_on : FVec Ideal S128 .f32) (rows cols : IVec S800000 32) : FVec Ideal S100000x128 .f32 :=
  addf (addf x perb) (gcnRef (addf x perb) w_on b_on vals rows cols)

/-- The second result: the loss between the predictor's image of each view's online convolution and the other view's
    target convolution. -/
def lossRef (x perb : FVec Ideal S100000x128 .f32) (vals : FVec Ideal S800000 .f32)
    (w_on : FVec Ideal S128x128 .f32) (b_on : FVec Ideal S128 .f32) (w_tg : FVec Ideal S128x128 .f32) (b_tg : FVec Ideal S128 .f32)
    (l1w : FVec Ideal S128x128 .f32) (l1b g b : FVec Ideal S128 .f32) (a : FVec Ideal S_ .f32)
    (l2w : FVec Ideal S128x128 .f32) (l2b : FVec Ideal S128 .f32) (rows cols : IVec S800000 32) : FVec Ideal S_ .f32 :=
  lossOf
    (predRef (gcnRef x w_on b_on vals rows cols) l1w l1b g b a l2w l2b)
    (gcnRef (addf x perb) w_tg b_tg vals rows cols)
    (predRef (gcnRef (addf x perb) w_on b_on vals rows cols) l1w l1b g b a l2w l2b)
    (gcnRef x w_tg b_tg vals rows cols)

end Tail

end Cert.Terms

end
-- ==== Proof.LibHostFold.lean ====
/-
  Folding a straight line of host operations in two parts, and the transports its inlined calls carry.

  The buffers' contents after a list of host operations is a left fold of the operations' results over the contents at
  the start; so the fold of a concatenation is the fold of its second part over the fold of its first (after_append), and
  a long program can be read in stretches with the contents in between kept as one term.

  The operations of a function inlined at its call site carry each operand through a transport along the equation
  between its buffer's declared type and the value's type: to the buffer's type when written, back when read. A value
  carried there and back is the value (ofBuf_toBuf); and, the two types being one, a single transport of a value is that
  value, stated through heterogeneous equality so that the equation is found by the types' computation at the use site
  (ofBuf_eq, toBuf_eq: give `HEq.rfl`, or `heq_of_eq` of an equation between the two sides read at one type). Removing
  the transports by these lemmas, syntactically, before two composed terms are compared keeps the comparison from
  computing through the transports.
-/
import Idealize.ShloMosaic.Lib.StableHlo.Run

namespace Cert.HostFold

open Idealize.ShloMosaic Idealize.ShloMosaic.StableHlo

variable {τ : Topo} {sig : RefSig} {Val : EltTy → Type}

/-- Folding a concatenation is folding its second part over the fold of its first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A value carried to its buffer's type and back is the value. -/
theorem ofBuf_toBuf {T : BufTy} (x : TRef sig T) (v : T.Contents Val) : x.ofBuf (x.toBuf v) = v := by
  obtain ⟨r, hty, h2, h3⟩ := x
  subst hty
  rfl

/-- Contents read at the value's type are the contents, when the two are one term up to the types' equation. -/
theorem ofBuf_eq {T : BufTy} (x : TRef sig T) (v : x.ref.ty.Contents Val) (w : T.Contents Val) (h : HEq v w) :
    x.ofBuf v = w := by
  obtain ⟨r, hty, h2, h3⟩ := x
  subst hty
  exact eq_of_heq h

/-- A value carried to its buffer's type is the value, likewise. -/
theorem toBuf_eq {T : BufTy} (x : TRef sig T) (v : T.Contents Val) (w : x.ref.ty.Contents Val) (h : HEq v w) :
    x.toBuf v = w := by
  obtain ⟨r, hty, h2, h3⟩ := x
  subst hty
  exact eq_of_heq h

end Cert.HostFold
-- ==== Proof.KernelBase.lean ====
/-
  The launch contents of one of @main's buffers on a core, named once for the modules that walk the program's fold.
-/
import proofs.«108390_j87840671138373_2_alg».proof.Proof.Gen.KernelIdeal.Frame
import Idealize.ShloMosaic.PureOps.Ideal

noncomputable section

namespace Cert.KernelIdeal.Value

open Cert.KernelIdeal Idealize.ShloMosaic Idealize.ShloMosaic.TcCoe Idealize.SL.Sem

/-- The launch contents of a buffer. -/
abbrev X (m : (ℓ : Loc nD τ sig) → Buf (Elt Ideal) ℓ) (c : Dev nD) (b : Ref sig .tc) : Buf (Elt Ideal) ((c : Thread nD τ).loc b) :=
  m ((c : Thread nD τ).loc b)

end Cert.KernelIdeal.Value

end
-- ==== Proof.KernelArgs.lean ====
/-
  The idealized kernel program's predictor inputs at every boundary of @main.

  @main is six tiled regions among stretches of host operations; the generated `Gen.W0` … `Gen.W28` are the buffer
  contents at the boundaries.  No stretch writes an input array, and a region leaves its input windows' arrays as it found
  them; so the two weight matrices, the two bias vectors and the three normalisation parameters the later stretches and
  regions read are, at every boundary, the launch contents.
-/
import proofs.«108390_j87840671138373_2_alg».proof.Proof.Gen.KernelIdeal.Frame
import proofs.«108390_j87840671138373_2_alg».proof.Proof.Gen.ReferenceIdeal
import proofs.«108390_j87840671138373_2_alg».proof.Proof.Terms
import proofs.«108390_j87840671138373_2_alg».proof.Proof.Tail
import proofs.«108390_j87840671138373_2_alg».proof.Proof.LibHostFold
import proofs.«108390_j87840671138373_2_alg».proof.Proof.KernelBase

set_option maxRecDepth 16384

noncomputable section

namespace Cert.KernelIdeal.Value

open Cert.KernelIdeal Cert.KernelIdeal.Gen
open Idealize.ShloMosaic Idealize.ShloMosaic.TcCoe Idealize.SL.Sem Idealize.ShloMosaic.StableHlo
open Cert.Terms

variable (m : (ℓ : Loc nD τ sig) → Buf (Elt Ideal) ℓ) (ρ : Dev nD → PrngReg) (c : Dev nD)

/-- Reads a buffer after a span of host stretches back to the contents at the last region's exit: the stretches'
    operations applied where the buffer is one of their results, the contents as they were where it is not. -/
local macro "span_read" : tactic =>
  `(tactic| (
      dsimp only [W1, W3, W5, W7, W8, W9, W10, W11, W13, W15, W16, W17, W18, W19, W21, W22, W23, W24, W25, W26, W27, W28,
        hostOps0, hostOps1, hostOps2, hostOps3, hostOps3_1, hostOps3_2, hostOps3_3, hostOps3_4, hostOps4,
        hostOps5, hostOps5_1, hostOps5_2, hostOps5_3, hostOps5_4,
        hostOps6, hostOps6_1, hostOps6_2, hostOps6_3, hostOps6_4, hostOps6_5, hostOps6_6, hostOps6_7]
      after_results_simp))

/-! ## The inputs the later stretches and regions read are still the launch contents -/

/-- The weight, bias and normalisation inputs of the predictor. -/
def LateArg (b : Ref sig .tc) : Prop :=
  b = main_arg7 ∨ b = main_arg8 ∨ b = main_arg9 ∨ b = main_arg10 ∨ b = main_arg11 ∨ b = main_arg12 ∨ b = main_arg13

section Args
variable {b : Ref sig .tc} (hb : LateArg b)
include hb

theorem arg1 : W1 m ρ c (Proc.devRef .tc b) = X m c b := by
  rcases hb with rfl | rfl | rfl | rfl | rfl | rfl | rfl <;> span_read
theorem reg0_keep : W2 m ρ c (Proc.devRef .tc b) = W1 m ρ c (Proc.devRef .tc b) := by
  rcases hb with rfl | rfl | rfl | rfl | rfl | rfl | rfl
  all_goals first
    | exact W2_of_ne m ρ c _ (by decide)
    | exact (W2_arr m ρ c 1).trans (((dat0 (V1 m ρ) c).arrAt_in 1 rfl _).trans (A_eq0 (V1 m ρ) c 1))
theorem arg2 : W2 m ρ c (Proc.devRef .tc b) = X m c b := (reg0_keep m ρ c hb).trans (arg1 m ρ c hb)
theorem arg3 : W3 m ρ c (Proc.devRef .tc b) = X m c b :=
  (show W3 m ρ c (Proc.devRef .tc b) = W2 m ρ c (Proc.devRef .tc b) by
    rcases hb with rfl | rfl | rfl | rfl | rfl | rfl | rfl <;> span_read).trans (arg2 m ρ c hb)
theorem reg1_keep : W4 m ρ c (Proc.devRef .tc b) = W3 m ρ c (Proc.devRef .tc b) := by
  rcases hb with rfl | rfl | rfl | rfl | rfl | rfl | rfl
  all_goals first
    | exact W4_of_ne m ρ c _ (by decide)
    | exact (W4_arr m ρ c 1).trans (((dat1 (V3 m ρ) c).arrAt_in 1 rfl _).trans (A_eq1 (V3 m ρ) c 1))
theorem arg4 : W4 m ρ c (Proc.devRef .tc b) = X m c b := (reg1_keep m ρ c hb).trans (arg3 m ρ c hb)
theorem arg5 : W5 m ρ c (Proc.devRef .tc b) = X m c b :=
  (show W5 m ρ c (Proc.devRef .tc b) = W4 m ρ c (Proc.devRef .tc b) by
    rcases hb with rfl | rfl | rfl | rfl | rfl | rfl | rfl <;> span_read).trans (arg4 m ρ c hb)
theorem reg2_keep : W6 m ρ c (Proc.devRef .tc b) = W5 m ρ c (Proc.devRef .tc b) := by
  rcases hb with rfl | rfl | rfl | rfl | rfl | rfl | rfl
  all_goals first
    | exact W6_of_ne m ρ c _ (by decide)
    | exact (W6_arr m ρ c 1).trans (((dat2 (V5 m ρ) c).arrAt_in 1 rfl _).trans (A_eq2 (V5 m ρ) c 1))
theorem arg6 : W6 m ρ c (Proc.devRef .tc b) = X m c b := (reg2_keep m ρ c hb).trans (arg5 m ρ c hb)
theorem arg11 : W11 m ρ c (Proc.devRef .tc b) = X m c b :=
  (show W11 m ρ c (Proc.devRef .tc b) = W6 m ρ c (Proc.devRef .tc b) by
    rcases hb with rfl | rfl | rfl | rfl | rfl | rfl | rfl <;> span_read).trans (arg6 m ρ c hb)
theorem reg3_keep : W12 m ρ c (Proc.devRef .tc b) = W11 m ρ c (Proc.devRef .tc b) := by
  rcases hb with rfl | rfl | rfl | rfl | rfl | rfl | rfl
  all_goals first
    | exact W12_of_ne m ρ c _ (by decide)
    | exact (W12_arr m ρ c 1).trans (((dat3 (V11 m ρ) c).arrAt_in 1 rfl _).trans (A_eq3 (V11 m ρ) c 1))
theorem arg12 : W12 m ρ c (Proc.devRef .tc b) = X m c b := (reg3_keep m ρ c hb).trans (arg11 m ρ c hb)
theorem arg13 : W13 m ρ c (Proc.devRef .tc b) = X m c b :=
  (show W13 m ρ c (Proc.devRef .tc b) = W12 m ρ c (Proc.devRef .tc b) by
    rcases hb with rfl | rfl | rfl | rfl | rfl | rfl | rfl <;> span_read).trans (arg12 m ρ c hb)
theorem reg4_keep : W14 m ρ c (Proc.devRef .tc b) = W13 m ρ c (Proc.devRef .tc b) := by
  rcases hb with rfl | rfl | rfl | rfl | rfl | rfl | rfl
  all_goals first
    | exact W14_of_ne m ρ c _ (by decide)
    | exact (W14_arr m ρ c 1).trans (((dat4 (V13 m ρ) c).arrAt_in 1 rfl _).trans (A_eq4 (V13 m ρ) c 1))
theorem arg14 : W14 m ρ c (Proc.devRef .tc b) = X m c b := (reg4_keep m ρ c hb).trans (arg13 m ρ c hb)
theorem arg19 : W19 m ρ c (Proc.devRef .tc b) = X m c b :=
  (show W19 m ρ c (Proc.devRef .tc b) = W14 m ρ c (Proc.devRef .tc b) by
    rcases hb with rfl | rfl | rfl | rfl | rfl | rfl | rfl <;> span_read).trans (arg14 m ρ c hb)

end Args

end Cert.KernelIdeal.Value

end
-- ==== Proof.KernelSpans.lean ====
/-
  What each span of host stretches of the idealized kernel program computes.

  Between two tiled regions @main runs host operations; the generated `Gen.W0` … `Gen.W28` are the buffer contents at
  the boundaries.  Read back through a span, each buffer a later region or the result needs is a named term of the
  contents at the span's start: the aggregated features and their column halves, the side-by-side weights and biases,
  the column halves of the two 256-wide products and the embedding, the batch normalisation with its rectifier (the
  same chain of operations as the reference's `bnAct`), and the cosine loss (`lossOf`).  The operations of an inlined
  function carry each value to its buffer's declared type and back; those transports are identities and are removed
  before the two sides are compared.
-/
import proofs.«108390_j87840671138373_2_alg».proof.Proof.Gen.KernelIdeal.Frame
import proofs.«108390_j87840671138373_2_alg».proof.Proof.Gen.ReferenceIdeal
import proofs.«108390_j87840671138373_2_alg».proof.Proof.Terms
import proofs.«108390_j87840671138373_2_alg».proof.Proof.Tail
import proofs.«108390_j87840671138373_2_alg».proof.Proof.LibHostFold
import proofs.«108390_j87840671138373_2_alg».proof.Proof.KernelBase

set_option maxRecDepth 16384

noncomputable section

namespace Cert.KernelIdeal.Value

open Cert.KernelIdeal Cert.KernelIdeal.Gen
open Idealize.ShloMosaic Idealize.ShloMosaic.TcCoe Idealize.SL.Sem Idealize.ShloMosaic.StableHlo
open Cert.Terms

variable (m : (ℓ : Loc nD τ sig) → Buf (Elt Ideal) ℓ) (ρ : Dev nD → PrngReg) (c : Dev nD)

/-- Reads a buffer after a span of host stretches back to the contents at the last region's exit: the stretches'
    operations applied where the buffer is one of their results, the contents as they were where it is not. -/
local macro "span_read" : tactic =>
  `(tactic| (
      dsimp only [W1, W3, W5, W7, W8, W9, W10, W11, W13, W15, W16, W17, W18, W19, W21, W22, W23, W24, W25, W26, W27, W28,
        hostOps0, hostOps1, hostOps2, hostOps3, hostOps3_1, hostOps3_2, hostOps3_3, hostOps3_4, hostOps4,
        hostOps5, hostOps5_1, hostOps5_2, hostOps5_3, hostOps5_4,
        hostOps6, hostOps6_1, hostOps6_2, hostOps6_3, hostOps6_4, hostOps6_5, hostOps6_6, hostOps6_7]
      after_results_simp))

local notation "𝕍" b:max => Proc.devRef Proc.tc b

/-! ## A typed reference to one of @main's buffers transports nothing: the buffer's declared type is the value's -/

theorem t_v30 (v) : (TRef.of main_v30 : TRef sig ⟨S100000x128, .f32⟩).ofBuf (Val := Elt Ideal) v = v := rfl
theorem t_c3 (v) : (TRef.of main_c_3 : TRef sig ⟨S_, .i32⟩).ofBuf (Val := Elt Ideal) v = v := rfl
theorem t_v51 (v) : (TRef.of main_v51 : TRef sig ⟨S100000x128, .i1⟩).ofBuf (Val := Elt Ideal) v = v := rfl
theorem t_v49 (v) : (TRef.of main_v49 : TRef sig ⟨S100000x128, .f32⟩).ofBuf (Val := Elt Ideal) v = v := rfl
theorem t_v53 (v) : (TRef.of main_v53 : TRef sig ⟨S100000x128, .f32⟩).ofBuf (Val := Elt Ideal) v = v := rfl
theorem t_v34 (v) : (TRef.of main_v34 : TRef sig ⟨S128, .f32⟩).toBuf (Val := Elt Ideal) v = v := rfl
theorem t_v54 (v) : (TRef.of main_v54 : TRef sig ⟨S100000x128, .f32⟩).toBuf (Val := Elt Ideal) v = v := rfl
theorem t_v58 (v) : (TRef.of main_v58 : TRef sig ⟨S100000x128, .f32⟩).ofBuf (Val := Elt Ideal) v = v := rfl
theorem t_c8 (v) : (TRef.of main_c_8 : TRef sig ⟨S_, .i32⟩).ofBuf (Val := Elt Ideal) v = v := rfl
theorem t_v79 (v) : (TRef.of main_v79 : TRef sig ⟨S100000x128, .i1⟩).ofBuf (Val := Elt Ideal) v = v := rfl
theorem t_v77 (v) : (TRef.of main_v77 : TRef sig ⟨S100000x128, .f32⟩).ofBuf (Val := Elt Ideal) v = v := rfl
theorem t_v81 (v) : (TRef.of main_v81 : TRef sig ⟨S100000x128, .f32⟩).ofBuf (Val := Elt Ideal) v = v := rfl
theorem t_v62 (v) : (TRef.of main_v62 : TRef sig ⟨S128, .f32⟩).toBuf (Val := Elt Ideal) v = v := rfl
theorem t_v82 (v) : (TRef.of main_v82 : TRef sig ⟨S100000x128, .f32⟩).toBuf (Val := Elt Ideal) v = v := rfl
theorem t_v56 (v) : (TRef.of main_v56 : TRef sig ⟨S100000x128, .f32⟩).ofBuf (Val := Elt Ideal) v = v := rfl
theorem t_v27 (v) : (TRef.of main_v27 : TRef sig ⟨S100000x128, .f32⟩).ofBuf (Val := Elt Ideal) v = v := rfl
theorem t_v84 (v) : (TRef.of main_v84 : TRef sig ⟨S100000x128, .f32⟩).ofBuf (Val := Elt Ideal) v = v := rfl
theorem t_v25 (v) : (TRef.of main_v25 : TRef sig ⟨S100000x128, .f32⟩).ofBuf (Val := Elt Ideal) v = v := rfl
theorem t_v85 (v) : (TRef.of main_v85 : TRef sig ⟨S100000x1, .f32⟩).toBuf (Val := Elt Ideal) v = v := rfl
theorem t_v88 (v) : (TRef.of main_v88 : TRef sig ⟨S100000x1, .f32⟩).toBuf (Val := Elt Ideal) v = v := rfl
theorem t_v97 (v) : (TRef.of main_v97 : TRef sig ⟨S100000x1, .f32⟩).toBuf (Val := Elt Ideal) v = v := rfl
theorem t_v100 (v) : (TRef.of main_v100 : TRef sig ⟨S100000x1, .f32⟩).toBuf (Val := Elt Ideal) v = v := rfl

/-! ## What each span of host stretches computes, from the contents at the exit of the region before it -/

theorem s0_v0 : @Eq (FVec Ideal S100000x128 .f32) (W1 m ρ c (𝕍 main_v0)) (addf (X m c main_arg0) (X m c main_arg1)) := by span_read
theorem s0_v15 : W1 m ρ c (𝕍 main_v15) =
    lo (aggCat (X m c main_arg0) (X m c main_arg1) (X m c main_arg2) (X m c main_arg14) (X m c main_arg15)) := by span_read; rfl
theorem s0_v17 : W1 m ρ c (𝕍 main_v17) =
    addf (lo (aggCat (X m c main_arg0) (X m c main_arg1) (X m c main_arg2) (X m c main_arg14) (X m c main_arg15)))
      (hi (aggCat (X m c main_arg0) (X m c main_arg1) (X m c main_arg2) (X m c main_arg14) (X m c main_arg15))) := by span_read; rfl
theorem s0_v18 : W1 m ρ c (𝕍 main_v18) = wcat (X m c main_arg3) (X m c main_arg5) := by span_read; rfl
theorem s0_v20 : W1 m ρ c (𝕍 main_v20) = bcat (X m c main_arg4) (X m c main_arg6) := by span_read; rfl
theorem s1_v22 : W3 m ρ c (𝕍 main_v22) = shapeCast S1x256 (W2 m ρ c (𝕍 main_v19)) shapeCasts_S256_S1x256 := by span_read; rfl
theorem s0_v19 : shapeCast S1x256 (W1 m ρ c (𝕍 main_v19)) shapeCasts_S256_S1x256 = bcat (X m c main_arg4) (X m c main_arg6) := by span_read; rfl

theorem s2_v24 : W5 m ρ c (𝕍 main_v24) = lo (W4 m ρ c (𝕍 main_v21)) := by span_read; rfl
theorem s2_v25 : W5 m ρ c (𝕍 main_v25) = hi (W4 m ρ c (𝕍 main_v21)) := by span_read; rfl
theorem s2_v26 : W5 m ρ c (𝕍 main_v26) = lo (W4 m ρ c (𝕍 main_v23)) := by span_read; rfl
theorem s2_v27 : W5 m ρ c (𝕍 main_v27) = hi (W4 m ρ c (𝕍 main_v23)) := by span_read; rfl
theorem s2_v28 : W5 m ρ c (𝕍 main_v28) = addf (W4 m ρ c (𝕍 main_v0)) (lo (W4 m ρ c (𝕍 main_v23))) := by span_read; rfl
theorem s2_v29 : W5 m ρ c (𝕍 main_v29) = brow (W4 m ρ c (𝕍 main_arg8)) := by span_read; rfl

theorem s3_v54 : W11 m ρ c (𝕍 main_v54) =
    bnAct (W6 m ρ c (𝕍 main_v30)) (W6 m ρ c (𝕍 main_arg9)) (W6 m ρ c (𝕍 main_arg10)) (W6 m ρ c (𝕍 main_arg11)) := by
  span_read
  simp only [Cert.HostFold.ofBuf_toBuf, t_v30, t_c3, t_v51, t_v49, t_v53, t_v34, t_v54]
  rfl
theorem s3_v55 : W11 m ρ c (𝕍 main_v55) = brow (W6 m ρ c (𝕍 main_arg13)) := by span_read; rfl
theorem s4_v57 : W13 m ρ c (𝕍 main_v57) = brow (W12 m ρ c (𝕍 main_arg8)) := by span_read; rfl
theorem s5_v82 : W19 m ρ c (𝕍 main_v82) =
    bnAct (W14 m ρ c (𝕍 main_v58)) (W14 m ρ c (𝕍 main_arg9)) (W14 m ρ c (𝕍 main_arg10)) (W14 m ρ c (𝕍 main_arg11)) := by
  span_read
  simp only [Cert.HostFold.ofBuf_toBuf, t_v58, t_c8, t_v79, t_v77, t_v81, t_v62, t_v82]
  rfl
theorem s5_v83 : W19 m ρ c (𝕍 main_v83) = brow (W14 m ρ c (𝕍 main_arg13)) := by span_read; rfl
theorem s6_v111 : W28 m ρ c (𝕍 main_v111) =
    lossOf (W20 m ρ c (𝕍 main_v56)) (W20 m ρ c (𝕍 main_v27)) (W20 m ρ c (𝕍 main_v84)) (W20 m ρ c (𝕍 main_v25)) := by
  span_read
  simp only [Cert.HostFold.ofBuf_toBuf, t_v56, t_v27, t_v84, t_v25, t_v85, t_v88, t_v97, t_v100]
  rfl

end Cert.KernelIdeal.Value

end
-- ==== Proof.LibPlainDot.lean ====
/-
  A plain matrix product [M, K] × [K, N] read at an index over the extended reals.

  With the contraction on the left operand's axis 1 and the right operand's axis 0 and no batch axis, the product's
  entry (p, q) is the sum over k of lhs (p, k) · rhs (k, q): for a matrix unit's product into a zero accumulator
  (matmul_zero_apply) and for the host's dot_general (dotGeneral_apply) alike, whatever precision or schedule key
  they carry. Both follow from re-indexing the sum over the one-axis contraction shape by its coordinate (contr_sum).
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat}

/-- The dimension numbers of the plain product. -/
abbrev plainDims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF ⟨2, ![M, K]⟩ ⟨2, ![K, N]⟩ ⟨2, ![M, N]⟩ [1] [0] [0] [1] [] [])

/-- The left operand's row coordinate is the result's row, whatever the contraction index. -/
theorem lhs_row (j : (⟨2, ![M, N]⟩ : Shape).Idx) (r : (plainDims M K N wf).contr.Idx) :
    ((plainDims M K N wf).lhsIdx j r 0).val = (j 0).val := by
  unfold DotDims.lhsIdx
  rw [dif_neg (show ¬ (0 : Fin 2) ∈ (plainDims M K N wf).lhsBatch from List.not_mem_nil),
    dif_pos (show (0 : Fin 2) ∈ (plainDims M K N wf).lhsNonContracting from List.mem_singleton.mpr rfl)]
  rfl

/-- The right operand's column coordinate is the result's column, whatever the contraction index. -/
theorem rhs_col (j : (⟨2, ![M, N]⟩ : Shape).Idx) (r : (plainDims M K N wf).contr.Idx) :
    ((plainDims M K N wf).rhsIdx j r 1).val = (j 1).val := by
  unfold DotDims.rhsIdx
  rw [dif_neg (show ¬ (1 : Fin 2) ∈ (plainDims M K N wf).rhsBatch from List.not_mem_nil),
    dif_pos (show (1 : Fin 2) ∈ (plainDims M K N wf).rhsNonContracting from List.mem_singleton.mpr rfl)]
  rfl

/-- The sum over the contraction shape is the sum over k of lhs (p, k) · rhs (k, q). -/
theorem contr_sum (lhs : (⟨2, ![M, K]⟩ : Shape).Idx → EReal) (rhs : (⟨2, ![K, N]⟩ : Shape).Idx → EReal) (p : Fin M) (q : Fin N) :
    ∑ k : (plainDims M K N wf).contr.Idx, lhs ((plainDims M K N wf).lhsIdx (ix2 p q) k) * rhs ((plainDims M K N wf).rhsIdx (ix2 p q) k)
      = ∑ k : Fin K, lhs (ix2 p k) * rhs (ix2 k q) := by
  rw [← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact ((plainDims M K N wf).lhsIdx_val_of_single rfl _ _).trans hk)
  have er : (plainDims M K N wf).rhsIdx (ix2 p q) ((contrEquiv1 (plainDims M K N wf) K rfl rfl).symm k) = ix2 k q :=
    funext fun a => Fin.ext (by
      match a with
      | ⟨0, _⟩ => exact ((plainDims M K N wf).rhsIdx_val_of_single rfl _ _).trans hk
      | ⟨1, _⟩ => exact rhs_col wf _ _)
  rw [el, er]

/-- A MATRIX UNIT'S PRODUCT INTO A ZERO ACCUMULATOR, read at (p, q), for ANY dimension numbers of the plain form. -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.matmul_constant_zero_apply]
  exact contr_sum wf lhs rhs p q

/-- THE HOST'S dot_general, read at (p, q), for ANY dimension numbers of the plain form. -/
theorem dotGeneral_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.dotGeneral_apply]
  exact contr_sum wf lhs rhs p q

end Cert.PlainDot

end
-- ==== Proof.Region0.lean ====
/-
  Region 0: what the row-tiled product-plus-bias leaves in its output array.

  The grid has 20 points. Point t loads rows 5000·t … 5000·t + 4999 of the left operand, the whole weight matrix and the
  whole bias row, and writes back rows 5000·t … 5000·t + 4999 of the result: entry (r, q) of the block is
  (∑ k, x (r, k) · w (k, q)) + b (0, q). The 20 row blocks tile the 100000 rows, so the array ends holding, at every
  index (n, q), the sum over k of a (n, k) · w (k, q) plus b (0, q).
-/
import proofs.«108390_j87840671138373_2_alg».proof.Proof.Gen.KernelIdeal.Frame
import proofs.«108390_j87840671138373_2_alg».proof.Proof.Terms
import proofs.«108390_j87840671138373_2_alg».proof.Proof.LibPlainDot
import Idealize.ShloMosaic.Lib.Pipeline.Value
import Idealize.ShloMosaic.Lib.ValueLayout

set_option maxRecDepth 16384

noncomputable section

open scoped BigOperators
open Idealize.ShloMosaic Idealize.ShloMosaic.TcCoe Idealize.SL.Sem Cert.KernelIdeal Cert.KernelIdeal.Gen
open Idealize.ShloMosaic.ValueIdx
open Idealize.ShloMosaic.Pipeline (Dat)

namespace Cert.KernelIdeal.Region0

variable [Cert.KernelIdeal.Facts]

/-- The zero offsets of a whole-block access, as a constant function. -/
theorem hz : (![0, 0] : Fin 2 → Nat) = fun _ => 0 := funext fun a => by fin_cases a <;> rfl

/-! ## One point's block, entry by entry -/

/-- Entry (r, q) of what a point stores: row r of the loaded rows times column q of the weight matrix, plus the bias
    at column q. A change of float format is the identity on the extended reals, a cast to the same shape is the
    identity, and the product into a zero accumulator is the plain sum over the contracted axis. -/
theorem pay_apply (x0 : Vec Ideal S5000x128 .f32) (x1 : Vec Ideal S128x256 .f32) (x2 : Vec Ideal S1x256 .f32)
    (r : Fin 5000) (q : Fin 256) :
    k0_pay1 (F := Ideal) x0 x1 x2 (ix2 r q) = (∑ k : Fin 128, x0 (ix2 r k) * x1 (ix2 k q)) + x2 (ix2 0 q) := by
  unfold k0_pay1
  refine congrArg₂ (· + ·) ?_ ?_
  · refine (Cert.PlainDot.matmul_zero_apply dot_S5000x128_S128x256_S5000x256_1_0_0_1_n_n rfl rfl rfl rfl rfl rfl none _ _ r q).trans ?_
    rw [shapeCast_self x0, shapeCast_self x1]
    rfl
  · refine (broadcastTo_1b_ab_apply _ _ r q).trans ?_
    rw [shapeCast_self x2]

/-! ## Where each window's block sits -/

/-- The index maps, decided once over the 20 grid points: the loaded row block moves with the stored row block, the
    weight matrix and the bias row stay at block (0, 0), and the stored block's row index stays below 20. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 19 :=
  (by decide +kernel : ∀ t : Fin grid0.N, _)

/-- Every one of the 20 row blocks is some point's. -/
theorem idx_onto : ∀ q : Fin 20, ∃ t : Fin cfg0.N, win0_3.index t = ![q.val, 0] :=
  (by decide +kernel : ∀ q : Fin 20, ∃ t : Fin grid0.N, win0_3.index t = ![q.val, 0])

variable (V : (c : Dev nD) → (b : Ref sig .tc) → Buf (Elt Ideal) ((c : Thread nD τ).loc b))

/-- The loaded row block at point t is rows 5000·(block index) … of the left operand's array. -/
theorem rows_read (c : Dev nD) (t : Fin cfg0.N) (x : S5000x128.Idx) (i : S100000x128.Idx)
    (h0 : (i 0).val = win0_0.index t 0 * 5000 + (x 0).val) (h1 : (i 1).val = win0_0.index t 1 * 128 + (x 1).val) :
    (iblk0 (F := Ideal) V c 0 t : Vec Ideal S5000x128 .f32) x = (V c main_v15 : S100000x128.Idx → EReal) i := by
  unfold iblk0
  rw [View.read_apply]
  show V c main_v15 _ = V c main_v15 _
  refine congrArg _ (funext fun a => Fin.ext ?_)
  match a with
  | ⟨0, _⟩ => show win0_0.index t 0 * 5000 + 1 * (x 0).val = (i 0).val; omega
  | ⟨1, _⟩ => show win0_0.index t 1 * 128 + 1 * (x 1).val = (i 1).val; omega

/-- The weight window's block is the whole weight matrix. -/
theorem weight_read (c : Dev nD) (t : Fin cfg0.N) (x : S128x256.Idx) (i : S128x256.Idx)
    (h0 : (i 0).val = win0_1.index t 0 * 128 + (x 0).val) (h1 : (i 1).val = win0_1.index t 1 * 256 + (x 1).val) :
    (iblk0 (F := Ideal) V c 1 t : Vec Ideal S128x256 .f32) x = (V c main_v18 : S128x256.Idx → EReal) i := by
  unfold iblk0
  rw [View.read_apply]
  show V c main_v18 _ = V c main_v18 _
  refine congrArg _ (funext fun a => Fin.ext ?_)
  match a with
  | ⟨0, _⟩ => show win0_1.index t 0 * 128 + 1 * (x 0).val = (i 0).val; omega
  | ⟨1, _⟩ => show win0_1.index t 1 * 256 + 1 * (x 1).val = (i 1).val; omega

/-- The bias window's block is the whole bias row. -/
theorem bias_read (c : Dev nD) (t : Fin cfg0.N) (x : S1x256.Idx) (i : S1x256.Idx)
    (h0 : (i 0).val = win0_2.index t 0 * 1 + (x 0).val) (h1 : (i 1).val = win0_2.index t 1 * 256 + (x 1).val) :
    (iblk0 (F := Ideal) V c 2 t : Vec Ideal S1x256 .f32) x = (V c main_v20 : S1x256.Idx → EReal) i := by
  unfold iblk0
  rw [View.read_apply]
  show V c main_v20 _ = V c main_v20 _
  refine congrArg _ (funext fun a => Fin.ext ?_)
  match a with
  | ⟨0, _⟩ => show win0_2.index t 0 * 1 + 1 * (x 0).val = (i 0).val; omega
  | ⟨1, _⟩ => show win0_2.index t 1 * 256 + 1 * (x 1).val = (i 1).val; omega

/-! ## What a point writes back -/

/-- Entry j of point t's stored block is the whole-array formula at the index i the block's rectangle sends j to:
    row 5000·(block index) + (row of j), the same column. -/
theorem point (c : Dev nD) (t : Fin cfg0.N) (j : S5000x256.Idx) (i : S100000x256.Idx)
    (hi0 : (i 0).val = win0_3.index t 0 * 5000 + (j 0).val) (hi1 : (i 1).val = (j 1).val) :
    k0_pay1 (F := Ideal) (iblk0 V c 0 t) (iblk0 V c 1 t) (iblk0 V c 2 t) j
      = Cert.Terms.dense256 (V c main_v15) (V c main_v18) (V c main_v20) i := by
  obtain ⟨r, q, rfl⟩ : ∃ (r : Fin 5000) (q : Fin 256), j = ix2 r q := ⟨j 0, j 1, eq_ix2 j⟩
  obtain ⟨e0, e1, e2, e3, e4, e5, e6, e7⟩ := idx_facts t
  have hr : ((ix2 r q : S5000x256.Idx) 0).val = r.val := rfl
  have hq : ((ix2 r q : S5000x256.Idx) 1).val = q.val := rfl
  rw [hr] at hi0
  rw [hq] at hi1
  refine (pay_apply (iblk0 V c 0 t) (iblk0 V c 1 t) (iblk0 V c 2 t) r q).trans ?_
  unfold Cert.Terms.dense256
  refine congrArg₂ (· + ·) (Finset.sum_congr rfl fun k _ => congrArg₂ (· * ·) ?_ ?_) ?_
  · refine rows_read V c t (ix2 r k) (ix2 ⟨(i 0).val, (i 0).isLt⟩ k) ?_ ?_
    · show (i 0).val = win0_0.index t 0 * 5000 + r.val; omega
    · show k.val = win0_0.index t 1 * 128 + k.val; omega
  · refine weight_read V c t (ix2 k q) (ix2 k ⟨(i 1).val, (i 1).isLt⟩) ?_ ?_
    · show k.val = win0_1.index t 0 * 128 + k.val; omega
    · show (i 1).val = win0_1.index t 1 * 256 + q.val; omega
  · refine bias_read V c t (ix2 0 q) (ix2 0 ⟨(i 1).val, (i 1).isLt⟩) ?_ ?_
    · show (0 : Nat) = win0_2.index t 0 * 1 + 0; omega
    · show (i 1).val = win0_2.index t 1 * 256 + q.val; omega

/-- What point t writes back is block t of the whole-array formula of the arrays as the region finds them. -/
theorem flushed_eq (c : Dev nD) (t : Fin cfg0.N) :
    (dat0 (F := Ideal) V c).flushed 3 t
      = ((cfg0.win 3).blk t).view.read (Elt Ideal) (Cert.Terms.dense256 (V c main_v15) (V c main_v18) (V c main_v20)) := by
  show (cfg0.win 3).cut (grid0.coords t) ((dat0 (F := Ideal) V c).after 3 t) = _
  rw [after0_3]
  unfold out0_3
  rw [View.canon_unit_zero hz]
  simp only [View.ld_unit_zero (S := S5000x128) hz, View.ld_unit_zero (S := S128x256) hz, View.ld_unit_zero (S := S1x256) hz]
  obtain ⟨e0, e1, e2, e3, e4, e5, e6, e7⟩ := idx_facts t
  funext j
  refine point V c t ((cfg0.win 3).xinj (grid0.coords t) j) (((cfg0.win 3).blk t).view.emb j) ?_ ?_
  · show win0_3.index t (0 : Fin 2) * 5000 + 1 * (j (0 : Fin 2)).val = win0_3.index t (0 : Fin 2) * 5000 + (j (0 : Fin 2)).val; omega
  · show win0_3.index t (1 : Fin 2) * 256 + 1 * (j (1 : Fin 2)).val = (j (1 : Fin 2)).val; omega

/-! ## The blocks tile the array -/

/-- An index of the array is in point t's block iff each coordinate is in the block's range on its axis. -/
theorem mem_blk (t : Fin cfg0.N) (i : S100000x256.Idx) :
    i ∈ ((cfg0.win 3).blk t).view.set ↔ ∀ a : Fin 2, win0_3.index t a * S5000x256.size a ≤ (i a).val ∧ (i a).val < win0_3.index t a * S5000x256.size a + S5000x256.size a := by
  show i ∈ ((View.whole main_v21).slice (win0_3.rect t)).set ↔ _
  rw [View.set_slice_whole, Rect.mem_set_unit]
  exact Iff.rfl

/-- Row n lies in the block of the point whose block index is n / 5000. -/
theorem cover (i : S100000x256.Idx) :
    ∃ t : Fin cfg0.N, (cfg0.win 3).flush t = true ∧ i ∈ ((cfg0.win 3).blk t).view.set := by
  have hi0 : (i 0).val < 100000 := (i 0).isLt
  have hi1 : (i 1).val < 256 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 256 ≤ (i 1).val ∧ (i 1).val < win0_3.index t (1 : Fin 2) * 256 + 256; omega

/-- The output array after the 20 write-backs: rows times the weight matrix plus the bias row, at every index. -/
theorem final (V : (c : Dev nD) → (b : Ref sig .tc) → Buf (Elt Ideal) ((c : Thread nD τ).loc b)) (c : Dev nD) :
    (dat0 (F := Ideal) V c).arrAt 3 cfg0.N = Cert.Terms.dense256 (V c main_v15) (V c main_v18) (V c main_v20) :=
  (dat0 (F := Ideal) V c).arrAt_eq_of_cover 3 (Cert.Terms.dense256 (V c main_v15) (V c main_v18) (V c main_v20))
    (fun t _ => flushed_eq V c t) cover

end Cert.KernelIdeal.Region0

end
-- ==== Proof.Region1.lean ====
/-
  Region 1: what the row-tiled product-plus-bias leaves in its output array.

  The grid has 20 points. Point t loads rows 5000·t … 5000·t + 4999 of the left operand, the whole weight matrix and the
  whole bias row, and writes back rows 5000·t … 5000·t + 4999 of the result: entry (r, q) of the block is
  (∑ k, x (r, k) · w (k, q)) + b (0, q). The 20 row blocks tile the 100000 rows, so the array ends holding, at every
  index (n, q), the sum over k of a (n, k) · w (k, q) plus b (0, q).
-/
import proofs.«108390_j87840671138373_2_alg».proof.Proof.Gen.KernelIdeal.Frame
import proofs.«108390_j87840671138373_2_alg».proof.Proof.Terms
import proofs.«108390_j87840671138373_2_alg».proof.Proof.LibPlainDot
import Idealize.ShloMosaic.Lib.Pipeline.Value
import Idealize.ShloMosaic.Lib.ValueLayout

set_option maxRecDepth 16384

noncomputable section

open scoped BigOperators
open Idealize.ShloMosaic Idealize.ShloMosaic.TcCoe Idealize.SL.Sem Cert.KernelIdeal Cert.KernelIdeal.Gen
open Idealize.ShloMosaic.ValueIdx
open Idealize.ShloMosaic.Pipeline (Dat)

namespace Cert.KernelIdeal.Region1

variable [Cert.KernelIdeal.Facts]

/-- The zero offsets of a whole-block access, as a constant function. -/
theorem hz : (![0, 0] : Fin 2 → Nat) = fun _ => 0 := funext fun a => by fin_cases a <;> rfl

/-! ## One point's block, entry by entry -/

/-- Entry (r, q) of what a point stores: row r of the loaded rows times column q of the weight matrix, plus the bias
    at column q. A change of float format is the identity on the extended reals, a cast to the same shape is the
    identity, and the product into a zero accumulator is the plain sum over the contracted axis. -/
theorem pay_apply (x0 : Vec Ideal S5000x128 .f32) (x1 : Vec Ideal S128x256 .f32) (x2 : Vec Ideal S1x256 .f32)
    (r : Fin 5000) (q : Fin 256) :
    k1_pay1 (F := Ideal) x0 x1 x2 (ix2 r q) = (∑ k : Fin 128, x0 (ix2 r k) * x1 (ix2 k q)) + x2 (ix2 0 q) := by
  unfold k1_pay1
  refine congrArg₂ (· + ·) ?_ ?_
  · refine (Cert.PlainDot.matmul_zero_apply dot_S5000x128_S128x256_S5000x256_1_0_0_1_n_n rfl rfl rfl rfl rfl rfl none _ _ r q).trans ?_
    rw [shapeCast_self x0, shapeCast_self x1]
    rfl
  · refine (broadcastTo_1b_ab_apply _ _ r q).trans ?_
    rw [shapeCast_self x2]

/-! ## Where each window's block sits -/

/-- The index maps, decided once over the 20 grid points: the loaded row block moves with the stored row block, the
    weight matrix and the bias row stay at block (0, 0), and the stored block's row index stays below 20. -/
theorem idx_facts : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 19 :=
  (by decide +kernel : ∀ t : Fin grid1.N, _)

/-- Every one of the 20 row blocks is some point's. -/
theorem idx_onto : ∀ q : Fin 20, ∃ t : Fin cfg1.N, win1_3.index t = ![q.val, 0] :=
  (by decide +kernel : ∀ q : Fin 20, ∃ t : Fin grid1.N, win1_3.index t = ![q.val, 0])

variable (V : (c : Dev nD) → (b : Ref sig .tc) → Buf (Elt Ideal) ((c : Thread nD τ).loc b))

/-- The loaded row block at point t is rows 5000·(block index) … of the left operand's array. -/
theorem rows_read (c : Dev nD) (t : Fin cfg1.N) (x : S5000x128.Idx) (i : S100000x128.Idx)
    (h0 : (i 0).val = win1_0.index t 0 * 5000 + (x 0).val) (h1 : (i 1).val = win1_0.index t 1 * 128 + (x 1).val) :
    (iblk1 (F := Ideal) V c 0 t : Vec Ideal S5000x128 .f32) x = (V c main_v17 : S100000x128.Idx → EReal) i := by
  unfold iblk1
  rw [View.read_apply]
  show V c main_v17 _ = V c main_v17 _
  refine congrArg _ (funext fun a => Fin.ext ?_)
  match a with
  | ⟨0, _⟩ => show win1_0.index t 0 * 5000 + 1 * (x 0).val = (i 0).val; omega
  | ⟨1, _⟩ => show win1_0.index t 1 * 128 + 1 * (x 1).val = (i 1).val; omega

/-- The weight window's block is the whole weight matrix. -/
theorem weight_read (c : Dev nD) (t : Fin cfg1.N) (x : S128x256.Idx) (i : S128x256.Idx)
    (h0 : (i 0).val = win1_1.index t 0 * 128 + (x 0).val) (h1 : (i 1).val = win1_1.index t 1 * 256 + (x 1).val) :
    (iblk1 (F := Ideal) V c 1 t : Vec Ideal S128x256 .f32) x = (V c main_v18 : S128x256.Idx → EReal) i := by
  unfold iblk1
  rw [View.read_apply]
  show V c main_v18 _ = V c main_v18 _
  refine congrArg _ (funext fun a => Fin.ext ?_)
  match a with
  | ⟨0, _⟩ => show win1_1.index t 0 * 128 + 1 * (x 0).val = (i 0).val; omega
  | ⟨1, _⟩ => show win1_1.index t 1 * 256 + 1 * (x 1).val = (i 1).val; omega

/-- The bias window's block is the whole bias row. -/
theorem bias_read (c : Dev nD) (t : Fin cfg1.N) (x : S1x256.Idx) (i : S1x256.Idx)
    (h0 : (i 0).val = win1_2.index t 0 * 1 + (x 0).val) (h1 : (i 1).val = win1_2.index t 1 * 256 + (x 1).val) :
    (iblk1 (F := Ideal) V c 2 t : Vec Ideal S1x256 .f32) x = (V c main_v22 : S1x256.Idx → EReal) i := by
  unfold iblk1
  rw [View.read_apply]
  show V c main_v22 _ = V c main_v22 _
  refine congrArg _ (funext fun a => Fin.ext ?_)
  match a with
  | ⟨0, _⟩ => show win1_2.index t 0 * 1 + 1 * (x 0).val = (i 0).val; omega
  | ⟨1, _⟩ => show win1_2.index t 1 * 256 + 1 * (x 1).val = (i 1).val; omega

/-! ## What a point writes back -/

/-- Entry j of point t's stored block is the whole-array formula at the index i the block's rectangle sends j to:
    row 5000·(block index) + (row of j), the same column. -/
theorem point (c : Dev nD) (t : Fin cfg1.N) (j : S5000x256.Idx) (i : S100000x256.Idx)
    (hi0 : (i 0).val = win1_3.index t 0 * 5000 + (j 0).val) (hi1 : (i 1).val = (j 1).val) :
    k1_pay1 (F := Ideal) (iblk1 V c 0 t) (iblk1 V c 1 t) (iblk1 V c 2 t) j
      = Cert.Terms.dense256 (V c main_v17) (V c main_v18) (V c main_v22) i := by
  obtain ⟨r, q, rfl⟩ : ∃ (r : Fin 5000) (q : Fin 256), j = ix2 r q := ⟨j 0, j 1, eq_ix2 j⟩
  obtain ⟨e0, e1, e2, e3, e4, e5, e6, e7⟩ := idx_facts t
  have hr : ((ix2 r q : S5000x256.Idx) 0).val = r.val := rfl
  have hq : ((ix2 r q : S5000x256.Idx) 1).val = q.val := rfl
  rw [hr] at hi0
  rw [hq] at hi1
  refine (pay_apply (iblk1 V c 0 t) (iblk1 V c 1 t) (iblk1 V c 2 t) r q).trans ?_
  unfold Cert.Terms.dense256
  refine congrArg₂ (· + ·) (Finset.sum_congr rfl fun k _ => congrArg₂ (· * ·) ?_ ?_) ?_
  · refine rows_read V c t (ix2 r k) (ix2 ⟨(i 0).val, (i 0).isLt⟩ k) ?_ ?_
    · show (i 0).val = win1_0.index t 0 * 5000 + r.val; omega
    · show k.val = win1_0.index t 1 * 128 + k.val; omega
  · refine weight_read V c t (ix2 k q) (ix2 k ⟨(i 1).val, (i 1).isLt⟩) ?_ ?_
    · show k.val = win1_1.index t 0 * 128 + k.val; omega
    · show (i 1).val = win1_1.index t 1 * 256 + q.val; omega
  · refine bias_read V c t (ix2 0 q) (ix2 0 ⟨(i 1).val, (i 1).isLt⟩) ?_ ?_
    · show (0 : Nat) = win1_2.index t 0 * 1 + 0; omega
    · show (i 1).val = win1_2.index t 1 * 256 + q.val; omega

/-- What point t writes back is block t of the whole-array formula of the arrays as the region finds them. -/
theorem flushed_eq (c : Dev nD) (t : Fin cfg1.N) :
    (dat1 (F := Ideal) V c).flushed 3 t
      = ((cfg1.win 3).blk t).view.read (Elt Ideal) (Cert.Terms.dense256 (V c main_v17) (V c main_v18) (V c main_v22)) := by
  show (cfg1.win 3).cut (grid1.coords t) ((dat1 (F := Ideal) V c).after 3 t) = _
  rw [after1_3]
  unfold out1_3
  rw [View.canon_unit_zero hz]
  simp only [View.ld_unit_zero (S := S5000x128) hz, View.ld_unit_zero (S := S128x256) hz, View.ld_unit_zero (S := S1x256) hz]
  obtain ⟨e0, e1, e2, e3, e4, e5, e6, e7⟩ := idx_facts t
  funext j
  refine point V c t ((cfg1.win 3).xinj (grid1.coords t) j) (((cfg1.win 3).blk t).view.emb j) ?_ ?_
  · show win1_3.index t (0 : Fin 2) * 5000 + 1 * (j (0 : Fin 2)).val = win1_3.index t (0 : Fin 2) * 5000 + (j (0 : Fin 2)).val; omega
  · show win1_3.index t (1 : Fin 2) * 256 + 1 * (j (1 : Fin 2)).val = (j (1 : Fin 2)).val; omega

/-! ## The blocks tile the array -/

/-- An index of the array is in point t's block iff each coordinate is in the block's range on its axis. -/
theorem mem_blk (t : Fin cfg1.N) (i : S100000x256.Idx) :
    i ∈ ((cfg1.win 3).blk t).view.set ↔ ∀ a : Fin 2, win1_3.index t a * S5000x256.size a ≤ (i a).val ∧ (i a).val < win1_3.index t a * S5000x256.size a + S5000x256.size a := by
  show i ∈ ((View.whole main_v23).slice (win1_3.rect t)).set ↔ _
  rw [View.set_slice_whole, Rect.mem_set_unit]
  exact Iff.rfl

/-- Row n lies in the block of the point whose block index is n / 5000. -/
theorem cover (i : S100000x256.Idx) :
    ∃ t : Fin cfg1.N, (cfg1.win 3).flush t = true ∧ i ∈ ((cfg1.win 3).blk t).view.set := by
  have hi0 : (i 0).val < 100000 := (i 0).isLt
  have hi1 : (i 1).val < 256 := (i 1).isLt
  obtain ⟨t, ht⟩ := idx_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 256 ≤ (i 1).val ∧ (i 1).val < win1_3.index t (1 : Fin 2) * 256 + 256; omega

/-- The output array after the 20 write-backs: rows times the weight matrix plus the bias row, at every index. -/
theorem final (V : (c : Dev nD) → (b : Ref sig .tc) → Buf (Elt Ideal) ((c : Thread nD τ).loc b)) (c : Dev nD) :
    (dat1 (F := Ideal) V c).arrAt 3 cfg1.N = Cert.Terms.dense256 (V c main_v17) (V c main_v18) (V c main_v22) :=
  (dat1 (F := Ideal) V c).arrAt_eq_of_cover 3 (Cert.Terms.dense256 (V c main_v17) (V c main_v18) (V c main_v22))
    (fun t _ => flushed_eq V c t) cover

end Cert.KernelIdeal.Region1

end
-- ==== Proof.Region2.lean ====
/-
  Region 2: what the row-tiled product-plus-bias leaves in its output array.

  The grid has 20 points. Point t loads rows 5000·t … 5000·t + 4999 of the left operand, the whole weight matrix and the
  whole bias row, and writes back rows 5000·t … 5000·t + 4999 of the result: entry (r, q) of the block is
  (∑ k, x (r, k) · w (k, q)) + b (0, q). The 20 row blocks tile the 100000 rows, so the array ends holding, at every
  index (n, q), the sum over k of a (n, k) · w (k, q) plus b (0, q).
-/
import proofs.«108390_j87840671138373_2_alg».proof.Proof.Gen.KernelIdeal.Frame
import proofs.«108390_j87840671138373_2_alg».proof.Proof.Terms
import proofs.«108390_j87840671138373_2_alg».proof.Proof.LibPlainDot
import Idealize.ShloMosaic.Lib.Pipeline.Value
import Idealize.ShloMosaic.Lib.ValueLayout

set_option maxRecDepth 16384

noncomputable section

open scoped BigOperators
open Idealize.ShloMosaic Idealize.ShloMosaic.TcCoe Idealize.SL.Sem Cert.KernelIdeal Cert.KernelIdeal.Gen
open Idealize.ShloMosaic.ValueIdx
open Idealize.ShloMosaic.Pipeline (Dat)

namespace Cert.KernelIdeal.Region2

variable [Cert.KernelIdeal.Facts]

/-- The zero offsets of a whole-block access, as a constant function. -/
theorem hz : (![0, 0] : Fin 2 → Nat) = fun _ => 0 := funext fun a => by fin_cases a <;> rfl

/-! ## One point's block, entry by entry -/

/-- Entry (r, q) of what a point stores: row r of the loaded rows times column q of the weight matrix, plus the bias
    at column q. A change of float format is the identity on the extended reals, a cast to the same shape is the
    identity, and the product into a zero accumulator is the plain sum over the contracted axis. -/
theorem pay_apply (x0 : Vec Ideal S5000x128 .f32) (x1 : Vec Ideal S128x128 .f32) (x2 : Vec Ideal S1x128 .f32)
    (r : Fin 5000) (q : Fin 128) :
    k2_pay1 (F := Ideal) x0 x1 x2 (ix2 r q) = (∑ k : Fin 128, x0 (ix2 r k) * x1 (ix2 k q)) + x2 (ix2 0 q) := by
  unfold k2_pay1
  refine congrArg₂ (· + ·) ?_ ?_
  · refine (Cert.PlainDot.matmul_zero_apply dot_S5000x128_S128x128_S5000x128_1_0_0_1_n_n rfl rfl rfl rfl rfl rfl none _ _ r q).trans ?_
    rw [shapeCast_self x0]
    rfl
  · refine (broadcastTo_1b_ab_apply _ _ r q).trans ?_
    rw [shapeCast_self x2]

/-! ## Where each window's block sits -/

/-- The index maps, decided once over the 20 grid points: the loaded row block moves with the stored row block, the
    weight matrix and the bias row stay at block (0, 0), and the stored block's row index stays below 20. -/
theorem idx_facts : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 19 :=
  (by decide +kernel : ∀ t : Fin grid2.N, _)

/-- Every one of the 20 row blocks is some point's. -/
theorem idx_onto : ∀ q : Fin 20, ∃ t : Fin cfg2.N, win2_3.index t = ![q.val, 0] :=
  (by decide +kernel : ∀ q : Fin 20, ∃ t : Fin grid2.N, win2_3.index t = ![q.val, 0])

variable (V : (c : Dev nD) → (b : Ref sig .tc) → Buf (Elt Ideal) ((c : Thread nD τ).loc b))

/-- The loaded row block at point t is rows 5000·(block index) … of the left operand's array. -/
theorem rows_read (c : Dev nD) (t : Fin cfg2.N) (x : S5000x128.Idx) (i : S100000x128.Idx)
    (h0 : (i 0).val = win2_0.index t 0 * 5000 + (x 0).val) (h1 : (i 1).val = win2_0.index t 1 * 128 + (x 1).val) :
    (iblk2 (F := Ideal) V c 0 t : Vec Ideal S5000x128 .f32) x = (V c main_v24 : S100000x128.Idx → EReal) i := by
  unfold iblk2
  rw [View.read_apply]
  show V c main_v24 _ = V c main_v24 _
  refine congrArg _ (funext fun a => Fin.ext ?_)
  match a with
  | ⟨0, _⟩ => show win2_0.index t 0 * 5000 + 1 * (x 0).val = (i 0).val; omega
  | ⟨1, _⟩ => show win2_0.index t 1 * 128 + 1 * (x 1).val = (i 1).val; omega

/-- The weight window's block is the whole weight matrix. -/
theorem weight_read (c : Dev nD) (t : Fin cfg2.N) (x : S128x128.Idx) (i : S128x128.Idx)
    (h0 : (i 0).val = win2_1.index t 0 * 128 + (x 0).val) (h1 : (i 1).val = win2_1.index t 1 * 128 + (x 1).val) :
    (iblk2 (F := Ideal) V c 1 t : Vec Ideal S128x128 .f32) x = (V c main_arg7 : S128x128.Idx → EReal) i := by
  unfold iblk2
  rw [View.read_apply]
  show V c main_arg7 _ = V c main_arg7 _
  refine congrArg _ (funext fun a => Fin.ext ?_)
  match a with
  | ⟨0, _⟩ => show win2_1.index t 0 * 128 + 1 * (x 0).val = (i 0).val; omega
  | ⟨1, _⟩ => show win2_1.index t 1 * 128 + 1 * (x 1).val = (i 1).val; omega

/-- The bias window's block is the whole bias row. -/
theorem bias_read (c : Dev nD) (t : Fin cfg2.N) (x : S1x128.Idx) (i : S1x128.Idx)
    (h0 : (i 0).val = win2_2.index t 0 * 1 + (x 0).val) (h1 : (i 1).val = win2_2.index t 1 * 128 + (x 1).val) :
    (iblk2 (F := Ideal) V c 2 t : Vec Ideal S1x128 .f32) x = (V c main_v29 : S1x128.Idx → EReal) i := by
  unfold iblk2
  rw [View.read_apply]
  show V c main_v29 _ = V c main_v29 _
  refine congrArg _ (funext fun a => Fin.ext ?_)
  match a with
  | ⟨0, _⟩ => show win2_2.index t 0 * 1 + 1 * (x 0).val = (i 0).val; omega
  | ⟨1, _⟩ => show win2_2.index t 1 * 128 + 1 * (x 1).val = (i 1).val; omega

/-! ## What a point writes back -/

/-- Entry j of point t's stored block is the whole-array formula at the index i the block's rectangle sends j to:
    row 5000·(block index) + (row of j), the same column. -/
theorem point (c : Dev nD) (t : Fin cfg2.N) (j : S5000x128.Idx) (i : S100000x128.Idx)
    (hi0 : (i 0).val = win2_3.index t 0 * 5000 + (j 0).val) (hi1 : (i 1).val = (j 1).val) :
    k2_pay1 (F := Ideal) (iblk2 V c 0 t) (iblk2 V c 1 t) (iblk2 V c 2 t) j
      = Cert.Terms.dense128 (V c main_v24) (V c main_arg7) (V c main_v29) i := by
  obtain ⟨r, q, rfl⟩ : ∃ (r : Fin 5000) (q : Fin 128), j = ix2 r q := ⟨j 0, j 1, eq_ix2 j⟩
  obtain ⟨e0, e1, e2, e3, e4, e5, e6, e7⟩ := idx_facts t
  have hr : ((ix2 r q : S5000x128.Idx) 0).val = r.val := rfl
  have hq : ((ix2 r q : S5000x128.Idx) 1).val = q.val := rfl
  rw [hr] at hi0
  rw [hq] at hi1
  refine (pay_apply (iblk2 V c 0 t) (iblk2 V c 1 t) (iblk2 V c 2 t) r q).trans ?_
  unfold Cert.Terms.dense128
  refine congrArg₂ (· + ·) (Finset.sum_congr rfl fun k _ => congrArg₂ (· * ·) ?_ ?_) ?_
  · refine rows_read V c t (ix2 r k) (ix2 ⟨(i 0).val, (i 0).isLt⟩ k) ?_ ?_
    · show (i 0).val = win2_0.index t 0 * 5000 + r.val; omega
    · show k.val = win2_0.index t 1 * 128 + k.val; omega
  · refine weight_read V c t (ix2 k q) (ix2 k ⟨(i 1).val, (i 1).isLt⟩) ?_ ?_
    · show k.val = win2_1.index t 0 * 128 + k.val; omega
    · show (i 1).val = win2_1.index t 1 * 128 + q.val; omega
  · refine bias_read V c t (ix2 0 q) (ix2 0 ⟨(i 1).val, (i 1).isLt⟩) ?_ ?_
    · show (0 : Nat) = win2_2.index t 0 * 1 + 0; omega
    · show (i 1).val = win2_2.index t 1 * 128 + q.val; omega

/-- What point t writes back is block t of the whole-array formula of the arrays as the region finds them. -/
theorem flushed_eq (c : Dev nD) (t : Fin cfg2.N) :
    (dat2 (F := Ideal) V c).flushed 3 t
      = ((cfg2.win 3).blk t).view.read (Elt Ideal) (Cert.Terms.dense128 (V c main_v24) (V c main_arg7) (V c main_v29)) := by
  show (cfg2.win 3).cut (grid2.coords t) ((dat2 (F := Ideal) V c).after 3 t) = _
  rw [after2_3]
  unfold out2_3
  rw [View.canon_unit_zero hz]
  simp only [View.ld_unit_zero (S := S5000x128) hz, View.ld_unit_zero (S := S128x128) hz, View.ld_unit_zero (S := S1x128) hz]
  obtain ⟨e0, e1, e2, e3, e4, e5, e6, e7⟩ := idx_facts t
  funext j
  refine point V c t ((cfg2.win 3).xinj (grid2.coords t) j) (((cfg2.win 3).blk t).view.emb j) ?_ ?_
  · show win2_3.index t (0 : Fin 2) * 5000 + 1 * (j (0 : Fin 2)).val = win2_3.index t (0 : Fin 2) * 5000 + (j (0 : Fin 2)).val; omega
  · show win2_3.index t (1 : Fin 2) * 128 + 1 * (j (1 : Fin 2)).val = (j (1 : Fin 2)).val; omega

/-! ## The blocks tile the array -/

/-- An index of the array is in point t's block iff each coordinate is in the block's range on its axis. -/
theorem mem_blk (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v30).slice (win2_3.rect t)).set ↔ _
  rw [View.set_slice_whole, Rect.mem_set_unit]
  exact Iff.rfl

/-- Row n lies in the block of the point whose block index is n / 5000. -/
theorem cover (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  obtain ⟨t, ht⟩ := idx_onto ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- The output array after the 20 write-backs: rows times the weight matrix plus the bias row, at every index. -/
theorem final (V : (c : Dev nD) → (b : Ref sig .tc) → Buf (Elt Ideal) ((c : Thread nD τ).loc b)) (c : Dev nD) :
    (dat2 (F := Ideal) V c).arrAt 3 cfg2.N = Cert.Terms.dense128 (V c main_v24) (V c main_arg7) (V c main_v29) :=
  (dat2 (F := Ideal) V c).arrAt_eq_of_cover 3 (Cert.Terms.dense128 (V c main_v24) (V c main_arg7) (V c main_v29))
    (fun t _ => flushed_eq V c t) cover

end Cert.KernelIdeal.Region2

end
-- ==== Proof.Region3.lean ====
/-
  Region 3: what the row-tiled product-plus-bias leaves in its output array.

  The grid has 20 points. Point t loads rows 5000·t … 5000·t + 4999 of the left operand, the whole weight matrix and the
  whole bias row, and writes back rows 5000·t … 5000·t + 4999 of the result: entry (r, q) of the block is
  (∑ k, x (r, k) · w (k, q)) + b (0, q). The 20 row blocks tile the 100000 rows, so the array ends holding, at every
  index (n, q), the sum over k of a (n, k) · w (k, q) plus b (0, q).
-/
import proofs.«108390_j87840671138373_2_alg».proof.Proof.Gen.KernelIdeal.Frame
import proofs.«108390_j87840671138373_2_alg».proof.Proof.Terms
import proofs.«108390_j87840671138373_2_alg».proof.Proof.LibPlainDot
import Idealize.ShloMosaic.Lib.Pipeline.Value
import Idealize.ShloMosaic.Lib.ValueLayout

set_option maxRecDepth 16384

noncomputable section

open scoped BigOperators
open Idealize.ShloMosaic Idealize.ShloMosaic.TcCoe Idealize.SL.Sem Cert.KernelIdeal Cert.KernelIdeal.Gen
open Idealize.ShloMosaic.ValueIdx
open Idealize.ShloMosaic.Pipeline (Dat)

namespace Cert.KernelIdeal.Region3

variable [Cert.KernelIdeal.Facts]

/-- The zero offsets of a whole-block access, as a constant function. -/
theorem hz : (![0, 0] : Fin 2 → Nat) = fun _ => 0 := funext fun a => by fin_cases a <;> rfl

/-! ## One point's block, entry by entry -/

/-- Entry (r, q) of what a point stores: row r of the loaded rows times column q of the weight matrix, plus the bias
    at column q. A change of float format is the identity on the extended reals, a cast to the same shape is the
    identity, and the product into a zero accumulator is the plain sum over the contracted axis. -/
theorem pay_apply (x0 : Vec Ideal S5000x128 .f32) (x1 : Vec Ideal S128x128 .f32) (x2 : Vec Ideal S1x128 .f32)
    (r : Fin 5000) (q : Fin 128) :
    k3_pay1 (F := Ideal) x0 x1 x2 (ix2 r q) = (∑ k : Fin 128, x0 (ix2 r k) * x1 (ix2 k q)) + x2 (ix2 0 q) := by
  unfold k3_pay1
  refine congrArg₂ (· + ·) ?_ ?_
  · refine (Cert.PlainDot.matmul_zero_apply dot_S5000x128_S128x128_S5000x128_1_0_0_1_n_n rfl rfl rfl rfl rfl rfl none _ _ r q).trans ?_
    rw [shapeCast_self x0]
    rfl
  · refine (broadcastTo_1b_ab_apply _ _ r q).trans ?_
    rw [shapeCast_self x2]

/-! ## Where each window's block sits -/

/-- The index maps, decided once over the 20 grid points: the loaded row block moves with the stored row block, the
    weight matrix and the bias row stay at block (0, 0), and the stored block's row index stays below 20. -/
theorem idx_facts : ∀ t : Fin cfg3.N, win3_0.index t (0 : Fin 2) = win3_3.index t (0 : Fin 2)
    ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (1 : Fin 2) = 0 ∧ win3_3.index t (0 : Fin 2) ≤ 19 :=
  (by decide +kernel : ∀ t : Fin grid3.N, _)

/-- Every one of the 20 row blocks is some point's. -/
theorem idx_onto : ∀ q : Fin 20, ∃ t : Fin cfg3.N, win3_3.index t = ![q.val, 0] :=
  (by decide +kernel : ∀ q : Fin 20, ∃ t : Fin grid3.N, win3_3.index t = ![q.val, 0])

variable (V : (c : Dev nD) → (b : Ref sig .tc) → Buf (Elt Ideal) ((c : Thread nD τ).loc b))

/-- The loaded row block at point t is rows 5000·(block index) … of the left operand's array. -/
theorem rows_read (c : Dev nD) (t : Fin cfg3.N) (x : S5000x128.Idx) (i : S100000x128.Idx)
    (h0 : (i 0).val = win3_0.index t 0 * 5000 + (x 0).val) (h1 : (i 1).val = win3_0.index t 1 * 128 + (x 1).val) :
    (iblk3 (F := Ideal) V c 0 t : Vec Ideal S5000x128 .f32) x = (V c main_v54 : S100000x128.Idx → EReal) i := by
  unfold iblk3
  rw [View.read_apply]
  show V c main_v54 _ = V c main_v54 _
  refine congrArg _ (funext fun a => Fin.ext ?_)
  match a with
  | ⟨0, _⟩ => show win3_0.index t 0 * 5000 + 1 * (x 0).val = (i 0).val; omega
  | ⟨1, _⟩ => show win3_0.index t 1 * 128 + 1 * (x 1).val = (i 1).val; omega

/-- The weight window's block is the whole weight matrix. -/
theorem weight_read (c : Dev nD) (t : Fin cfg3.N) (x : S128x128.Idx) (i : S128x128.Idx)
    (h0 : (i 0).val = win3_1.index t 0 * 128 + (x 0).val) (h1 : (i 1).val = win3_1.index t 1 * 128 + (x 1).val) :
    (iblk3 (F := Ideal) V c 1 t : Vec Ideal S128x128 .f32) x = (V c main_arg12 : S128x128.Idx → EReal) i := by
  unfold iblk3
  rw [View.read_apply]
  show V c main_arg12 _ = V c main_arg12 _
  refine congrArg _ (funext fun a => Fin.ext ?_)
  match a with
  | ⟨0, _⟩ => show win3_1.index t 0 * 128 + 1 * (x 0).val = (i 0).val; omega
  | ⟨1, _⟩ => show win3_1.index t 1 * 128 + 1 * (x 1).val = (i 1).val; omega

/-- The bias window's block is the whole bias row. -/
theorem bias_read (c : Dev nD) (t : Fin cfg3.N) (x : S1x128.Idx) (i : S1x128.Idx)
    (h0 : (i 0).val = win3_2.index t 0 * 1 + (x 0).val) (h1 : (i 1).val = win3_2.index t 1 * 128 + (x 1).val) :
    (iblk3 (F := Ideal) V c 2 t : Vec Ideal S1x128 .f32) x = (V c main_v55 : S1x128.Idx → EReal) i := by
  unfold iblk3
  rw [View.read_apply]
  show V c main_v55 _ = V c main_v55 _
  refine congrArg _ (funext fun a => Fin.ext ?_)
  match a with
  | ⟨0, _⟩ => show win3_2.index t 0 * 1 + 1 * (x 0).val = (i 0).val; omega
  | ⟨1, _⟩ => show win3_2.index t 1 * 128 + 1 * (x 1).val = (i 1).val; omega

/-! ## What a point writes back -/

/-- Entry j of point t's stored block is the whole-array formula at the index i the block's rectangle sends j to:
    row 5000·(block index) + (row of j), the same column. -/
theorem point (c : Dev nD) (t : Fin cfg3.N) (j : S5000x128.Idx) (i : S100000x128.Idx)
    (hi0 : (i 0).val = win3_3.index t 0 * 5000 + (j 0).val) (hi1 : (i 1).val = (j 1).val) :
    k3_pay1 (F := Ideal) (iblk3 V c 0 t) (iblk3 V c 1 t) (iblk3 V c 2 t) j
      = Cert.Terms.dense128 (V c main_v54) (V c main_arg12) (V c main_v55) i := by
  obtain ⟨r, q, rfl⟩ : ∃ (r : Fin 5000) (q : Fin 128), j = ix2 r q := ⟨j 0, j 1, eq_ix2 j⟩
  obtain ⟨e0, e1, e2, e3, e4, e5, e6, e7⟩ := idx_facts t
  have hr : ((ix2 r q : S5000x128.Idx) 0).val = r.val := rfl
  have hq : ((ix2 r q : S5000x128.Idx) 1).val = q.val := rfl
  rw [hr] at hi0
  rw [hq] at hi1
  refine (pay_apply (iblk3 V c 0 t) (iblk3 V c 1 t) (iblk3 V c 2 t) r q).trans ?_
  unfold Cert.Terms.dense128
  refine congrArg₂ (· + ·) (Finset.sum_congr rfl fun k _ => congrArg₂ (· * ·) ?_ ?_) ?_
  · refine rows_read V c t (ix2 r k) (ix2 ⟨(i 0).val, (i 0).isLt⟩ k) ?_ ?_
    · show (i 0).val = win3_0.index t 0 * 5000 + r.val; omega
    · show k.val = win3_0.index t 1 * 128 + k.val; omega
  · refine weight_read V c t (ix2 k q) (ix2 k ⟨(i 1).val, (i 1).isLt⟩) ?_ ?_
    · show k.val = win3_1.index t 0 * 128 + k.val; omega
    · show (i 1).val = win3_1.index t 1 * 128 + q.val; omega
  · refine bias_read V c t (ix2 0 q) (ix2 0 ⟨(i 1).val, (i 1).isLt⟩) ?_ ?_
    · show (0 : Nat) = win3_2.index t 0 * 1 + 0; omega
    · show (i 1).val = win3_2.index t 1 * 128 + q.val; omega

/-- What point t writes back is block t of the whole-array formula of the arrays as the region finds them. -/
theorem flushed_eq (c : Dev nD) (t : Fin cfg3.N) :
    (dat3 (F := Ideal) V c).flushed 3 t
      = ((cfg3.win 3).blk t).view.read (Elt Ideal) (Cert.Terms.dense128 (V c main_v54) (V c main_arg12) (V c main_v55)) := by
  show (cfg3.win 3).cut (grid3.coords t) ((dat3 (F := Ideal) V c).after 3 t) = _
  rw [after3_3]
  unfold out3_3
  rw [View.canon_unit_zero hz]
  simp only [View.ld_unit_zero (S := S5000x128) hz, View.ld_unit_zero (S := S128x128) hz, View.ld_unit_zero (S := S1x128) hz]
  obtain ⟨e0, e1, e2, e3, e4, e5, e6, e7⟩ := idx_facts t
  funext j
  refine point V c t ((cfg3.win 3).xinj (grid3.coords t) j) (((cfg3.win 3).blk t).view.emb j) ?_ ?_
  · show win3_3.index t (0 : Fin 2) * 5000 + 1 * (j (0 : Fin 2)).val = win3_3.index t (0 : Fin 2) * 5000 + (j (0 : Fin 2)).val; omega
  · show win3_3.index t (1 : Fin 2) * 128 + 1 * (j (1 : Fin 2)).val = (j (1 : Fin 2)).val; omega

/-! ## The blocks tile the array -/

/-- An index of the array is in point t's block iff each coordinate is in the block's range on its axis. -/
theorem mem_blk (t : Fin cfg3.N) (i : S100000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v56).slice (win3_3.rect t)).set ↔ _
  rw [View.set_slice_whole, Rect.mem_set_unit]
  exact Iff.rfl

/-- Row n lies in the block of the point whose block index is n / 5000. -/
theorem cover (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  obtain ⟨t, ht⟩ := idx_onto ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- The output array after the 20 write-backs: rows times the weight matrix plus the bias row, at every index. -/
theorem final (V : (c : Dev nD) → (b : Ref sig .tc) → Buf (Elt Ideal) ((c : Thread nD τ).loc b)) (c : Dev nD) :
    (dat3 (F := Ideal) V c).arrAt 3 cfg3.N = Cert.Terms.dense128 (V c main_v54) (V c main_arg12) (V c main_v55) :=
  (dat3 (F := Ideal) V c).arrAt_eq_of_cover 3 (Cert.Terms.dense128 (V c main_v54) (V c main_arg12) (V c main_v55))
    (fun t _ => flushed_eq V c t) cover

end Cert.KernelIdeal.Region3

end
-- ==== Proof.Region4.lean ====
/-
  Region 4: what the row-tiled product-plus-bias leaves in its output array.

  The grid has 20 points. Point t loads rows 5000·t … 5000·t + 4999 of the left operand, the whole weight matrix and the
  whole bias row, and writes back rows 5000·t … 5000·t + 4999 of the result: entry (r, q) of the block is
  (∑ k, x (r, k) · w (k, q)) + b (0, q). The 20 row blocks tile the 100000 rows, so the array ends holding, at every
  index (n, q), the sum over k of a (n, k) · w (k, q) plus b (0, q).
-/
import proofs.«108390_j87840671138373_2_alg».proof.Proof.Gen.KernelIdeal.Frame
import proofs.«108390_j87840671138373_2_alg».proof.Proof.Terms
import proofs.«108390_j87840671138373_2_alg».proof.Proof.LibPlainDot
import Idealize.ShloMosaic.Lib.Pipeline.Value
import Idealize.ShloMosaic.Lib.ValueLayout

set_option maxRecDepth 16384

noncomputable section

open scoped BigOperators
open Idealize.ShloMosaic Idealize.ShloMosaic.TcCoe Idealize.SL.Sem Cert.KernelIdeal Cert.KernelIdeal.Gen
open Idealize.ShloMosaic.ValueIdx
open Idealize.ShloMosaic.Pipeline (Dat)

namespace Cert.KernelIdeal.Region4

variable [Cert.KernelIdeal.Facts]

/-- The zero offsets of a whole-block access, as a constant function. -/
theorem hz : (![0, 0] : Fin 2 → Nat) = fun _ => 0 := funext fun a => by fin_cases a <;> rfl

/-! ## One point's block, entry by entry -/

/-- Entry (r, q) of what a point stores: row r of the loaded rows times column q of the weight matrix, plus the bias
    at column q. A change of float format is the identity on the extended reals, a cast to the same shape is the
    identity, and the product into a zero accumulator is the plain sum over the contracted axis. -/
theorem pay_apply (x0 : Vec Ideal S5000x128 .f32) (x1 : Vec Ideal S128x128 .f32) (x2 : Vec Ideal S1x128 .f32)
    (r : Fin 5000) (q : Fin 128) :
    k4_pay1 (F := Ideal) x0 x1 x2 (ix2 r q) = (∑ k : Fin 128, x0 (ix2 r k) * x1 (ix2 k q)) + x2 (ix2 0 q) := by
  unfold k4_pay1
  refine congrArg₂ (· + ·) ?_ ?_
  · refine (Cert.PlainDot.matmul_zero_apply dot_S5000x128_S128x128_S5000x128_1_0_0_1_n_n rfl rfl rfl rfl rfl rfl none _ _ r q).trans ?_
    rw [shapeCast_self x0]
    rfl
  · refine (broadcastTo_1b_ab_apply _ _ r q).trans ?_
    rw [shapeCast_self x2]

/-! ## Where each window's block sits -/

/-- The index maps, decided once over the 20 grid points: the loaded row block moves with the stored row block, the
    weight matrix and the bias row stay at block (0, 0), and the stored block's row index stays below 20. -/
theorem idx_facts : ∀ t : Fin cfg4.N, win4_0.index t (0 : Fin 2) = win4_3.index t (0 : Fin 2)
    ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (1 : Fin 2) = 0 ∧ win4_3.index t (0 : Fin 2) ≤ 19 :=
  (by decide +kernel : ∀ t : Fin grid4.N, _)

/-- Every one of the 20 row blocks is some point's. -/
theorem idx_onto : ∀ q : Fin 20, ∃ t : Fin cfg4.N, win4_3.index t = ![q.val, 0] :=
  (by decide +kernel : ∀ q : Fin 20, ∃ t : Fin grid4.N, win4_3.index t = ![q.val, 0])

variable (V : (c : Dev nD) → (b : Ref sig .tc) → Buf (Elt Ideal) ((c : Thread nD τ).loc b))

/-- The loaded row block at point t is rows 5000·(block index) … of the left operand's array. -/
theorem rows_read (c : Dev nD) (t : Fin cfg4.N) (x : S5000x128.Idx) (i : S100000x128.Idx)
    (h0 : (i 0).val = win4_0.index t 0 * 5000 + (x 0).val) (h1 : (i 1).val = win4_0.index t 1 * 128 + (x 1).val) :
    (iblk4 (F := Ideal) V c 0 t : Vec Ideal S5000x128 .f32) x = (V c main_v26 : S100000x128.Idx → EReal) i := by
  unfold iblk4
  rw [View.read_apply]
  show V c main_v26 _ = V c main_v26 _
  refine congrArg _ (funext fun a => Fin.ext ?_)
  match a with
  | ⟨0, _⟩ => show win4_0.index t 0 * 5000 + 1 * (x 0).val = (i 0).val; omega
  | ⟨1, _⟩ => show win4_0.index t 1 * 128 + 1 * (x 1).val = (i 1).val; omega

/-- The weight window's block is the whole weight matrix. -/
theorem weight_read (c : Dev nD) (t : Fin cfg4.N) (x : S128x128.Idx) (i : S128x128.Idx)
    (h0 : (i 0).val = win4_1.index t 0 * 128 + (x 0).val) (h1 : (i 1).val = win4_1.index t 1 * 128 + (x 1).val) :
    (iblk4 (F := Ideal) V c 1 t : Vec Ideal S128x128 .f32) x = (V c main_arg7 : S128x128.Idx → EReal) i := by
  unfold iblk4
  rw [View.read_apply]
  show V c main_arg7 _ = V c main_arg7 _
  refine congrArg _ (funext fun a => Fin.ext ?_)
  match a with
  | ⟨0, _⟩ => show win4_1.index t 0 * 128 + 1 * (x 0).val = (i 0).val; omega
  | ⟨1, _⟩ => show win4_1.index t 1 * 128 + 1 * (x 1).val = (i 1).val; omega

/-- The bias window's block is the whole bias row. -/
theorem bias_read (c : Dev nD) (t : Fin cfg4.N) (x : S1x128.Idx) (i : S1x128.Idx)
    (h0 : (i 0).val = win4_2.index t 0 * 1 + (x 0).val) (h1 : (i 1).val = win4_2.index t 1 * 128 + (x 1).val) :
    (iblk4 (F := Ideal) V c 2 t : Vec Ideal S1x128 .f32) x = (V c main_v57 : S1x128.Idx → EReal) i := by
  unfold iblk4
  rw [View.read_apply]
  show V c main_v57 _ = V c main_v57 _
  refine congrArg _ (funext fun a => Fin.ext ?_)
  match a with
  | ⟨0, _⟩ => show win4_2.index t 0 * 1 + 1 * (x 0).val = (i 0).val; omega
  | ⟨1, _⟩ => show win4_2.index t 1 * 128 + 1 * (x 1).val = (i 1).val; omega

/-! ## What a point writes back -/

/-- Entry j of point t's stored block is the whole-array formula at the index i the block's rectangle sends j to:
    row 5000·(block index) + (row of j), the same column. -/
theorem point (c : Dev nD) (t : Fin cfg4.N) (j : S5000x128.Idx) (i : S100000x128.Idx)
    (hi0 : (i 0).val = win4_3.index t 0 * 5000 + (j 0).val) (hi1 : (i 1).val = (j 1).val) :
    k4_pay1 (F := Ideal) (iblk4 V c 0 t) (iblk4 V c 1 t) (iblk4 V c 2 t) j
      = Cert.Terms.dense128 (V c main_v26) (V c main_arg7) (V c main_v57) i := by
  obtain ⟨r, q, rfl⟩ : ∃ (r : Fin 5000) (q : Fin 128), j = ix2 r q := ⟨j 0, j 1, eq_ix2 j⟩
  obtain ⟨e0, e1, e2, e3, e4, e5, e6, e7⟩ := idx_facts t
  have hr : ((ix2 r q : S5000x128.Idx) 0).val = r.val := rfl
  have hq : ((ix2 r q : S5000x128.Idx) 1).val = q.val := rfl
  rw [hr] at hi0
  rw [hq] at hi1
  refine (pay_apply (iblk4 V c 0 t) (iblk4 V c 1 t) (iblk4 V c 2 t) r q).trans ?_
  unfold Cert.Terms.dense128
  refine congrArg₂ (· + ·) (Finset.sum_congr rfl fun k _ => congrArg₂ (· * ·) ?_ ?_) ?_
  · refine rows_read V c t (ix2 r k) (ix2 ⟨(i 0).val, (i 0).isLt⟩ k) ?_ ?_
    · show (i 0).val = win4_0.index t 0 * 5000 + r.val; omega
    · show k.val = win4_0.index t 1 * 128 + k.val; omega
  · refine weight_read V c t (ix2 k q) (ix2 k ⟨(i 1).val, (i 1).isLt⟩) ?_ ?_
    · show k.val = win4_1.index t 0 * 128 + k.val; omega
    · show (i 1).val = win4_1.index t 1 * 128 + q.val; omega
  · refine bias_read V c t (ix2 0 q) (ix2 0 ⟨(i 1).val, (i 1).isLt⟩) ?_ ?_
    · show (0 : Nat) = win4_2.index t 0 * 1 + 0; omega
    · show (i 1).val = win4_2.index t 1 * 128 + q.val; omega

/-- What point t writes back is block t of the whole-array formula of the arrays as the region finds them. -/
theorem flushed_eq (c : Dev nD) (t : Fin cfg4.N) :
    (dat4 (F := Ideal) V c).flushed 3 t
      = ((cfg4.win 3).blk t).view.read (Elt Ideal) (Cert.Terms.dense128 (V c main_v26) (V c main_arg7) (V c main_v57)) := by
  show (cfg4.win 3).cut (grid4.coords t) ((dat4 (F := Ideal) V c).after 3 t) = _
  rw [after4_3]
  unfold out4_3
  rw [View.canon_unit_zero hz]
  simp only [View.ld_unit_zero (S := S5000x128) hz, View.ld_unit_zero (S := S128x128) hz, View.ld_unit_zero (S := S1x128) hz]
  obtain ⟨e0, e1, e2, e3, e4, e5, e6, e7⟩ := idx_facts t
  funext j
  refine point V c t ((cfg4.win 3).xinj (grid4.coords t) j) (((cfg4.win 3).blk t).view.emb j) ?_ ?_
  · show win4_3.index t (0 : Fin 2) * 5000 + 1 * (j (0 : Fin 2)).val = win4_3.index t (0 : Fin 2) * 5000 + (j (0 : Fin 2)).val; omega
  · show win4_3.index t (1 : Fin 2) * 128 + 1 * (j (1 : Fin 2)).val = (j (1 : Fin 2)).val; omega

/-! ## The blocks tile the array -/

/-- An index of the array is in point t's block iff each coordinate is in the block's range on its axis. -/
theorem mem_blk (t : Fin cfg4.N) (i : S100000x128.Idx) :
    i ∈ ((cfg4.win 3).blk t).view.set ↔ ∀ a : Fin 2, win4_3.index t a * S5000x128.size a ≤ (i a).val ∧ (i a).val < win4_3.index t a * S5000x128.size a + S5000x128.size a := by
  show i ∈ ((View.whole main_v58).slice (win4_3.rect t)).set ↔ _
  rw [View.set_slice_whole, Rect.mem_set_unit]
  exact Iff.rfl

/-- Row n lies in the block of the point whose block index is n / 5000. -/
theorem cover (i : S100000x128.Idx) :
    ∃ t : Fin cfg4.N, (cfg4.win 3).flush t = true ∧ i ∈ ((cfg4.win 3).blk t).view.set := by
  have hi0 : (i 0).val < 100000 := (i 0).isLt
  have hi1 : (i 1).val < 128 := (i 1).isLt
  obtain ⟨t, ht⟩ := idx_onto ⟨(i 0).val / 5000, by omega⟩
  have q0 : win4_3.index t (0 : Fin 2) = (i 0).val / 5000 := congrFun ht 0
  have q1 : win4_3.index t (1 : Fin 2) = 0 := congrFun ht 1
  refine ⟨t, flush4_3 t, ?_⟩
  rw [mem_blk]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 128 ≤ (i 1).val ∧ (i 1).val < win4_3.index t (1 : Fin 2) * 128 + 128; omega

/-- The output array after the 20 write-backs: rows times the weight matrix plus the bias row, at every index. -/
theorem final (V : (c : Dev nD) → (b : Ref sig .tc) → Buf (Elt Ideal) ((c : Thread nD τ).loc b)) (c : Dev nD) :
    (dat4 (F := Ideal) V c).arrAt 3 cfg4.N = Cert.Terms.dense128 (V c main_v26) (V c main_arg7) (V c main_v57) :=
  (dat4 (F := Ideal) V c).arrAt_eq_of_cover 3 (Cert.Terms.dense128 (V c main_v26) (V c main_arg7) (V c main_v57))
    (fun t _ => flushed_eq V c t) cover

end Cert.KernelIdeal.Region4

end
-- ==== Proof.Region5.lean ====
/-
  Region 5: what the row-tiled product-plus-bias leaves in its output array.

  The grid has 20 points. Point t loads rows 5000·t … 5000·t + 4999 of the left operand, the whole weight matrix and the
  whole bias row, and writes back rows 5000·t … 5000·t + 4999 of the result: entry (r, q) of the block is
  (∑ k, x (r, k) · w (k, q)) + b (0, q). The 20 row blocks tile the 100000 rows, so the array ends holding, at every
  index (n, q), the sum over k of a (n, k) · w (k, q) plus b (0, q).
-/
import proofs.«108390_j87840671138373_2_alg».proof.Proof.Gen.KernelIdeal.Frame
import proofs.«108390_j87840671138373_2_alg».proof.Proof.Terms
import proofs.«108390_j87840671138373_2_alg».proof.Proof.LibPlainDot
import Idealize.ShloMosaic.Lib.Pipeline.Value
import Idealize.ShloMosaic.Lib.ValueLayout

set_option maxRecDepth 16384

noncomputable section

open scoped BigOperators
open Idealize.ShloMosaic Idealize.ShloMosaic.TcCoe Idealize.SL.Sem Cert.KernelIdeal Cert.KernelIdeal.Gen
open Idealize.ShloMosaic.ValueIdx
open Idealize.ShloMosaic.Pipeline (Dat)

namespace Cert.KernelIdeal.Region5

variable [Cert.KernelIdeal.Facts]

/-- The zero offsets of a whole-block access, as a constant function. -/
theorem hz : (![0, 0] : Fin 2 → Nat) = fun _ => 0 := funext fun a => by fin_cases a <;> rfl

/-! ## One point's block, entry by entry -/

/-- Entry (r, q) of what a point stores: row r of the loaded rows times column q of the weight matrix, plus the bias
    at column q. A change of float format is the identity on the extended reals, a cast to the same shape is the
    identity, and the product into a zero accumulator is the plain sum over the contracted axis. -/
theorem pay_apply (x0 : Vec Ideal S5000x128 .f32) (x1 : Vec Ideal S128x128 .f32) (x2 : Vec Ideal S1x128 .f32)
    (r : Fin 5000) (q : Fin 128) :
    k5_pay1 (F := Ideal) x0 x1 x2 (ix2 r q) = (∑ k : Fin 128, x0 (ix2 r k) * x1 (ix2 k q)) + x2 (ix2 0 q) := by
  unfold k5_pay1
  refine congrArg₂ (· + ·) ?_ ?_
  · refine (Cert.PlainDot.matmul_zero_apply dot_S5000x128_S128x128_S5000x128_1_0_0_1_n_n rfl rfl rfl rfl rfl rfl none _ _ r q).trans ?_
    rw [shapeCast_self x0]
    rfl
  · refine (broadcastTo_1b_ab_apply _ _ r q).trans ?_
    rw [shapeCast_self x2]

/-! ## Where each window's block sits -/

/-- The index maps, decided once over the 20 grid points: the loaded row block moves with the stored row block, the
    weight matrix and the bias row stay at block (0, 0), and the stored block's row index stays below 20. -/
theorem idx_facts : ∀ t : Fin cfg5.N, win5_0.index t (0 : Fin 2) = win5_3.index t (0 : Fin 2)
    ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (1 : Fin 2) = 0 ∧ win5_3.index t (0 : Fin 2) ≤ 19 :=
  (by decide +kernel : ∀ t : Fin grid5.N, _)

/-- Every one of the 20 row blocks is some point's. -/
theorem idx_onto : ∀ q : Fin 20, ∃ t : Fin cfg5.N, win5_3.index t = ![q.val, 0] :=
  (by decide +kernel : ∀ q : Fin 20, ∃ t : Fin grid5.N, win5_3.index t = ![q.val, 0])

variable (V : (c : Dev nD) → (b : Ref sig .tc) → Buf (Elt Ideal) ((c : Thread nD τ).loc b))

/-- The loaded row block at point t is rows 5000·(block index) … of the left operand's array. -/
theorem rows_read (c : Dev nD) (t : Fin cfg5.N) (x : S5000x128.Idx) (i : S100000x128.Idx)
    (h0 : (i 0).val = win5_0.index t 0 * 5000 + (x 0).val) (h1 : (i 1).val = win5_0.index t 1 * 128 + (x 1).val) :
    (iblk5 (F := Ideal) V c 0 t : Vec Ideal S5000x128 .f32) x = (V c main_v82 : S100000x128.Idx → EReal) i := by
  unfold iblk5
  rw [View.read_apply]
  show V c main_v82 _ = V c main_v82 _
  refine congrArg _ (funext fun a => Fin.ext ?_)
  match a with
  | ⟨0, _⟩ => show win5_0.index t 0 * 5000 + 1 * (x 0).val = (i 0).val; omega
  | ⟨1, _⟩ => show win5_0.index t 1 * 128 + 1 * (x 1).val = (i 1).val; omega

/-- The weight window's block is the whole weight matrix. -/
theorem weight_read (c : Dev nD) (t : Fin cfg5.N) (x : S128x128.Idx) (i : S128x128.Idx)
    (h0 : (i 0).val = win5_1.index t 0 * 128 + (x 0).val) (h1 : (i 1).val = win5_1.index t 1 * 128 + (x 1).val) :
    (iblk5 (F := Ideal) V c 1 t : Vec Ideal S128x128 .f32) x = (V c main_arg12 : S128x128.Idx → EReal) i := by
  unfold iblk5
  rw [View.read_apply]
  show V c main_arg12 _ = V c main_arg12 _
  refine congrArg _ (funext fun a => Fin.ext ?_)
  match a with
  | ⟨0, _⟩ => show win5_1.index t 0 * 128 + 1 * (x 0).val = (i 0).val; omega
  | ⟨1, _⟩ => show win5_1.index t 1 * 128 + 1 * (x 1).val = (i 1).val; omega

/-- The bias window's block is the whole bias row. -/
theorem bias_read (c : Dev nD) (t : Fin cfg5.N) (x : S1x128.Idx) (i : S1x128.Idx)
    (h0 : (i 0).val = win5_2.index t 0 * 1 + (x 0).val) (h1 : (i 1).val = win5_2.index t 1 * 128 + (x 1).val) :
    (iblk5 (F := Ideal) V c 2 t : Vec Ideal S1x128 .f32) x = (V c main_v83 : S1x128.Idx → EReal) i := by
  unfold iblk5
  rw [View.read_apply]
  show V c main_v83 _ = V c main_v83 _
  refine congrArg _ (funext fun a => Fin.ext ?_)
  match a with
  | ⟨0, _⟩ => show win5_2.index t 0 * 1 + 1 * (x 0).val = (i 0).val; omega
  | ⟨1, _⟩ => show win5_2.index t 1 * 128 + 1 * (x 1).val = (i 1).val; omega

/-! ## What a point writes back -/

/-- Entry j of point t's stored block is the whole-array formula at the index i the block's rectangle sends j to:
    row 5000·(block index) + (row of j), the same column. -/
theorem point (c : Dev nD) (t : Fin cfg5.N) (j : S5000x128.Idx) (i : S100000x128.Idx)
    (hi0 : (i 0).val = win5_3.index t 0 * 5000 + (j 0).val) (hi1 : (i 1).val = (j 1).val) :
    k5_pay1 (F := Ideal) (iblk5 V c 0 t) (iblk5 V c 1 t) (iblk5 V c 2 t) j
      = Cert.Terms.dense128 (V c main_v82) (V c main_arg12) (V c main_v83) i := by
  obtain ⟨r, q, rfl⟩ : ∃ (r : Fin 5000) (q : Fin 128), j = ix2 r q := ⟨j 0, j 1, eq_ix2 j⟩
  obtain ⟨e0, e1, e2, e3, e4, e5, e6, e7⟩ := idx_facts t
  have hr : ((ix2 r q : S5000x128.Idx) 0).val = r.val := rfl
  have hq : ((ix2 r q : S5000x128.Idx) 1).val = q.val := rfl
  rw [hr] at hi0
  rw [hq] at hi1
  refine (pay_apply (iblk5 V c 0 t) (iblk5 V c 1 t) (iblk5 V c 2 t) r q).trans ?_
  unfold Cert.Terms.dense128
  refine congrArg₂ (· + ·) (Finset.sum_congr rfl fun k _ => congrArg₂ (· * ·) ?_ ?_) ?_
  · refine rows_read V c t (ix2 r k) (ix2 ⟨(i 0).val, (i 0).isLt⟩ k) ?_ ?_
    · show (i 0).val = win5_0.index t 0 * 5000 + r.val; omega
    · show k.val = win5_0.index t 1 * 128 + k.val; omega
  · refine weight_read V c t (ix2 k q) (ix2 k ⟨(i 1).val, (i 1).isLt⟩) ?_ ?_
    · show k.val = win5_1.index t 0 * 128 + k.val; omega
    · show (i 1).val = win5_1.index t 1 * 128 + q.val; omega
  · refine bias_read V c t (ix2 0 q) (ix2 0 ⟨(i 1).val, (i 1).isLt⟩) ?_ ?_
    · show (0 : Nat) = win5_2.index t 0 * 1 + 0; omega
    · show (i 1).val = win5_2.index t 1 * 128 + q.val; omega

/-- What point t writes back is block t of the whole-array formula of the arrays as the region finds them. -/
theorem flushed_eq (c : Dev nD) (t : Fin cfg5.N) :
    (dat5 (F := Ideal) V c).flushed 3 t
      = ((cfg5.win 3).blk t).view.read (Elt Ideal) (Cert.Terms.dense128 (V c main_v82) (V c main_arg12) (V c main_v83)) := by
  show (cfg5.win 3).cut (grid5.coords t) ((dat5 (F := Ideal) V c).after 3 t) = _
  rw [after5_3]
  unfold out5_3
  rw [View.canon_unit_zero hz]
  simp only [View.ld_unit_zero (S := S5000x128) hz, View.ld_unit_zero (S := S128x128) hz, View.ld_unit_zero (S := S1x128) hz]
  obtain ⟨e0, e1, e2, e3, e4, e5, e6, e7⟩ := idx_facts t
  funext j
  refine point V c t ((cfg5.win 3).xinj (grid5.coords t) j) (((cfg5.win 3).blk t).view.emb j) ?_ ?_
  · show win5_3.index t (0 : Fin 2) * 5000 + 1 * (j (0 : Fin 2)).val = win5_3.index t (0 : Fin 2) * 5000 + (j (0 : Fin 2)).val; omega
  · show win5_3.index t (1 : Fin 2) * 128 + 1 * (j (1 : Fin 2)).val = (j (1 : Fin 2)).val; omega

/-! ## The blocks tile the array -/

/-- An index of the array is in point t's block iff each coordinate is in the block's range on its axis. -/
theorem mem_blk (t : Fin cfg5.N) (i : S100000x128.Idx) :
    i ∈ ((cfg5.win 3).blk t).view.set ↔ ∀ a : Fin 2, win5_3.index t a * S5000x128.size a ≤ (i a).val ∧ (i a).val < win5_3.index t a * S5000x128.size a + S5000x128.size a := by
  show i ∈ ((View.whole main_v84).slice (win5_3.rect t)).set ↔ _
  rw [View.set_slice_whole, Rect.mem_set_unit]
  exact Iff.rfl

/-- Row n lies in the block of the point whose block index is n / 5000. -/
theorem cover (i : S100000x128.Idx) :
    ∃ t : Fin cfg5.N, (cfg5.win 3).flush t = true ∧ i ∈ ((cfg5.win 3).blk t).view.set := by
  have hi0 : (i 0).val < 100000 := (i 0).isLt
  have hi1 : (i 1).val < 128 := (i 1).isLt
  obtain ⟨t, ht⟩ := idx_onto ⟨(i 0).val / 5000, by omega⟩
  have q0 : win5_3.index t (0 : Fin 2) = (i 0).val / 5000 := congrFun ht 0
  have q1 : win5_3.index t (1 : Fin 2) = 0 := congrFun ht 1
  refine ⟨t, flush5_3 t, ?_⟩
  rw [mem_blk]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 128 ≤ (i 1).val ∧ (i 1).val < win5_3.index t (1 : Fin 2) * 128 + 128; omega

/-- The output array after the 20 write-backs: rows times the weight matrix plus the bias row, at every index. -/
theorem final (V : (c : Dev nD) → (b : Ref sig .tc) → Buf (Elt Ideal) ((c : Thread nD τ).loc b)) (c : Dev nD) :
    (dat5 (F := Ideal) V c).arrAt 3 cfg5.N = Cert.Terms.dense128 (V c main_v82) (V c main_arg12) (V c main_v83) :=
  (dat5 (F := Ideal) V c).arrAt_eq_of_cover 3 (Cert.Terms.dense128 (V c main_v82) (V c main_arg12) (V c main_v83))
    (fun t _ => flushed_eq V c t) cover

end Cert.KernelIdeal.Region5

end
-- ==== Proof.KernelValue.lean ====
/-
  The idealized kernel program's two results as closed terms of its sixteen inputs.

  Walking @main's fold boundary by boundary (the generated `Gen.W0` … `Gen.W28`), with each span of host stretches read
  as a named term and each tiled region replaced by its closed form (rows times weights plus bias): the first two
  regions give the 256-wide products  P = dense256 (left half of the aggregate) [w_on | w_tg] [b_on | b_tg]  and
  P₂ = dense256 (sum of the aggregate's two halves) [w_on | w_tg] [b_on | b_tg];  their column halves are the four graph
  convolutions.  The embedding is x + perb + (left half of P₂).  The predictor — a tiled linear layer, batch normalisation
  with its rectifier, a second tiled linear layer — runs on the two left halves, and the cosine loss pairs each prediction
  with the other view's right half.
-/
import proofs.«108390_j87840671138373_2_alg».proof.Proof.KernelArgs
import proofs.«108390_j87840671138373_2_alg».proof.Proof.KernelSpans
import proofs.«108390_j87840671138373_2_alg».proof.Proof.Region0
import proofs.«108390_j87840671138373_2_alg».proof.Proof.Region1
import proofs.«108390_j87840671138373_2_alg».proof.Proof.Region2
import proofs.«108390_j87840671138373_2_alg».proof.Proof.Region3
import proofs.«108390_j87840671138373_2_alg».proof.Proof.Region4
import proofs.«108390_j87840671138373_2_alg».proof.Proof.Region5

set_option maxRecDepth 16384

noncomputable section

namespace Cert.KernelIdeal.Value

open Cert.KernelIdeal Cert.KernelIdeal.Gen
open Idealize.ShloMosaic Idealize.ShloMosaic.TcCoe Idealize.SL.Sem Idealize.ShloMosaic.StableHlo
open Cert.Terms

/-! ## The results as terms of the inputs -/

section Closed
variable (x perb : FVec Ideal S100000x128 .f32) (vals : FVec Ideal S800000 .f32) (w_on : FVec Ideal S128x128 .f32)
  (b_on : FVec Ideal S128 .f32) (w_tg : FVec Ideal S128x128 .f32) (b_tg : FVec Ideal S128 .f32)
  (l1w : FVec Ideal S128x128 .f32) (l1b g b : FVec Ideal S128 .f32) (a : FVec Ideal S_ .f32)
  (l2w : FVec Ideal S128x128 .f32) (l2b : FVec Ideal S128 .f32) (rows cols : IVec S800000 32)

/-- The first product: the aggregate of x times the two weight matrices side by side. -/
def prodX : FVec Ideal S100000x256 .f32 :=
  dense256 (lo (aggCat x perb vals rows cols)) (wcat w_on w_tg) (bcat b_on b_tg)
/-- The second product: the aggregate of x + perb (the sum of the aggregate's two halves) times the same weights. -/
def prodX2 : FVec Ideal S100000x256 .f32 :=
  dense256 (addf (lo (aggCat x perb vals rows cols)) (hi (aggCat x perb vals rows cols))) (wcat w_on w_tg) (bcat b_on b_tg)
/-- The embedding. -/
def embedK : FVec Ideal S100000x128 .f32 :=
  addf (addf x perb) (lo (prodX2 x perb vals w_on b_on w_tg b_tg rows cols))
/-- The predictor with its two linear layers as tiled products. -/
def predK (z : FVec Ideal S100000x128 .f32) : FVec Ideal S100000x128 .f32 :=
  dense128 (bnAct (dense128 z l1w (brow l1b)) g b a) l2w (brow l2b)
/-- The loss. -/
def lossK : FVec Ideal S_ .f32 :=
  lossOf (predK l1w l1b g b a l2w l2b (lo (prodX x perb vals w_on b_on w_tg b_tg rows cols)))
    (hi (prodX2 x perb vals w_on b_on w_tg b_tg rows cols))
    (predK l1w l1b g b a l2w l2b (lo (prodX2 x perb vals w_on b_on w_tg b_tg rows cols)))
    (hi (prodX x perb vals w_on b_on w_tg b_tg rows cols))

end Closed

variable (m : (ℓ : Loc nD τ sig) → Buf (Elt Ideal) ℓ) (ρ : Dev nD → PrngReg) (c : Dev nD)

local macro "span_read" : tactic =>
  `(tactic| (
      dsimp only [W1, W3, W5, W7, W8, W9, W10, W11, W13, W15, W16, W17, W18, W19, W21, W22, W23, W24, W25, W26, W27, W28,
        hostOps0, hostOps1, hostOps2, hostOps3, hostOps3_1, hostOps3_2, hostOps3_3, hostOps3_4, hostOps4,
        hostOps5, hostOps5_1, hostOps5_2, hostOps5_3, hostOps5_4,
        hostOps6, hostOps6_1, hostOps6_2, hostOps6_3, hostOps6_4, hostOps6_5, hostOps6_6, hostOps6_7]
      after_results_simp))

local notation "𝕍" b:max => Proc.devRef Proc.tc b

/-! ## Membership of the predictor's inputs -/

theorem la7 : LateArg main_arg7 := .inl rfl
theorem la8 : LateArg main_arg8 := .inr (.inl rfl)
theorem la9 : LateArg main_arg9 := .inr (.inr (.inl rfl))
theorem la10 : LateArg main_arg10 := .inr (.inr (.inr (.inl rfl)))
theorem la11 : LateArg main_arg11 := .inr (.inr (.inr (.inr (.inl rfl))))
theorem la12 : LateArg main_arg12 := .inr (.inr (.inr (.inr (.inr (.inl rfl)))))
theorem la13 : LateArg main_arg13 := .inr (.inr (.inr (.inr (.inr (.inr rfl)))))

/-! ## Each region's output array: the closed form at the region's entry contents -/

theorem r0 : W2 m ρ c (𝕍 main_v21) = dense256 (W1 m ρ c (𝕍 main_v15)) (W1 m ρ c (𝕍 main_v18)) (W1 m ρ c (𝕍 main_v20)) :=
  (W2_arr m ρ c 3).trans (Cert.KernelIdeal.Region0.final (V1 m ρ) c)
theorem r1 : W4 m ρ c (𝕍 main_v23) = dense256 (W3 m ρ c (𝕍 main_v17)) (W3 m ρ c (𝕍 main_v18)) (W3 m ρ c (𝕍 main_v22)) :=
  (W4_arr m ρ c 3).trans (Cert.KernelIdeal.Region1.final (V3 m ρ) c)
theorem r2 : W6 m ρ c (𝕍 main_v30) = dense128 (W5 m ρ c (𝕍 main_v24)) (W5 m ρ c (𝕍 main_arg7)) (W5 m ρ c (𝕍 main_v29)) :=
  (W6_arr m ρ c 3).trans (Cert.KernelIdeal.Region2.final (V5 m ρ) c)
theorem r3 : W12 m ρ c (𝕍 main_v56) = dense128 (W11 m ρ c (𝕍 main_v54)) (W11 m ρ c (𝕍 main_arg12)) (W11 m ρ c (𝕍 main_v55)) :=
  (W12_arr m ρ c 3).trans (Cert.KernelIdeal.Region3.final (V11 m ρ) c)
theorem r4 : W14 m ρ c (𝕍 main_v58) = dense128 (W13 m ρ c (𝕍 main_v26)) (W13 m ρ c (𝕍 main_arg7)) (W13 m ρ c (𝕍 main_v57)) :=
  (W14_arr m ρ c 3).trans (Cert.KernelIdeal.Region4.final (V13 m ρ) c)
theorem r5 : W20 m ρ c (𝕍 main_v84) = dense128 (W19 m ρ c (𝕍 main_v82)) (W19 m ρ c (𝕍 main_arg12)) (W19 m ρ c (𝕍 main_v83)) :=
  (W20_arr m ρ c 3).trans (Cert.KernelIdeal.Region5.final (V19 m ρ) c)

/-! ## Values that wait: written early, read later, touched by nothing in between -/

theorem k_v0 : W4 m ρ c (𝕍 main_v0) = W1 m ρ c (𝕍 main_v0) :=
  (W4_of_ne m ρ c main_v0 (by decide)).trans
    ((show W3 m ρ c (𝕍 main_v0) = W2 m ρ c (𝕍 main_v0) by span_read).trans (W2_of_ne m ρ c main_v0 (by decide)))
theorem k_v17 : W3 m ρ c (𝕍 main_v17) = W1 m ρ c (𝕍 main_v17) :=
  (show W3 m ρ c (𝕍 main_v17) = W2 m ρ c (𝕍 main_v17) by span_read).trans (W2_of_ne m ρ c main_v17 (by decide))
theorem k_v18 : W3 m ρ c (𝕍 main_v18) = W1 m ρ c (𝕍 main_v18) :=
  (show W3 m ρ c (𝕍 main_v18) = W2 m ρ c (𝕍 main_v18) by span_read).trans
    ((W2_arr m ρ c 1).trans (((dat0 (V1 m ρ) c).arrAt_in 1 rfl _).trans (A_eq0 (V1 m ρ) c 1)))
theorem k_v19 : W2 m ρ c (𝕍 main_v19) = W1 m ρ c (𝕍 main_v19) := W2_of_ne m ρ c main_v19 (by decide)
theorem k_v21 : W4 m ρ c (𝕍 main_v21) = W2 m ρ c (𝕍 main_v21) :=
  (W4_of_ne m ρ c main_v21 (by decide)).trans (show W3 m ρ c (𝕍 main_v21) = W2 m ρ c (𝕍 main_v21) by span_read)
theorem k_v26 : W13 m ρ c (𝕍 main_v26) = W5 m ρ c (𝕍 main_v26) :=
  (show W13 m ρ c (𝕍 main_v26) = W12 m ρ c (𝕍 main_v26) by span_read).trans
    ((W12_of_ne m ρ c main_v26 (by decide)).trans
      ((show W11 m ρ c (𝕍 main_v26) = W6 m ρ c (𝕍 main_v26) by span_read).trans (W6_of_ne m ρ c main_v26 (by decide))))

/-- The two right halves and the embedding wait from the third span to the last region's exit. -/
theorem k_v25 : W20 m ρ c (𝕍 main_v25) = W5 m ρ c (𝕍 main_v25) :=
  (W20_of_ne m ρ c main_v25 (by decide)).trans
    ((show W19 m ρ c (𝕍 main_v25) = W14 m ρ c (𝕍 main_v25) by span_read).trans
      ((W14_of_ne m ρ c main_v25 (by decide)).trans
        ((show W13 m ρ c (𝕍 main_v25) = W12 m ρ c (𝕍 main_v25) by span_read).trans
          ((W12_of_ne m ρ c main_v25 (by decide)).trans
            ((show W11 m ρ c (𝕍 main_v25) = W6 m ρ c (𝕍 main_v25) by span_read).trans (W6_of_ne m ρ c main_v25 (by decide)))))))
theorem k_v27 : W20 m ρ c (𝕍 main_v27) = W5 m ρ c (𝕍 main_v27) :=
  (W20_of_ne m ρ c main_v27 (by decide)).trans
    ((show W19 m ρ c (𝕍 main_v27) = W14 m ρ c (𝕍 main_v27) by span_read).trans
      ((W14_of_ne m ρ c main_v27 (by decide)).trans
        ((show W13 m ρ c (𝕍 main_v27) = W12 m ρ c (𝕍 main_v27) by span_read).trans
          ((W12_of_ne m ρ c main_v27 (by decide)).trans
            ((show W11 m ρ c (𝕍 main_v27) = W6 m ρ c (𝕍 main_v27) by span_read).trans (W6_of_ne m ρ c main_v27 (by decide)))))))
theorem k_v28w : W20 m ρ c (𝕍 main_v28) = W5 m ρ c (𝕍 main_v28) :=
  (W20_of_ne m ρ c main_v28 (by decide)).trans
    ((show W19 m ρ c (𝕍 main_v28) = W14 m ρ c (𝕍 main_v28) by span_read).trans
      ((W14_of_ne m ρ c main_v28 (by decide)).trans
        ((show W13 m ρ c (𝕍 main_v28) = W12 m ρ c (𝕍 main_v28) by span_read).trans
          ((W12_of_ne m ρ c main_v28 (by decide)).trans
            ((show W11 m ρ c (𝕍 main_v28) = W6 m ρ c (𝕍 main_v28) by span_read).trans (W6_of_ne m ρ c main_v28 (by decide)))))))
theorem k_v56 : W20 m ρ c (𝕍 main_v56) = W12 m ρ c (𝕍 main_v56) :=
  (W20_of_ne m ρ c main_v56 (by decide)).trans
    ((show W19 m ρ c (𝕍 main_v56) = W14 m ρ c (𝕍 main_v56) by span_read).trans
      ((W14_of_ne m ρ c main_v56 (by decide)).trans (show W13 m ρ c (𝕍 main_v56) = W12 m ρ c (𝕍 main_v56) by span_read)))
theorem k_v28 : W28 m ρ c (𝕍 main_v28) = W20 m ρ c (𝕍 main_v28) := by span_read

/-! ## The walk -/

theorem val_v21 : W2 m ρ c (𝕍 main_v21) =
    prodX (X m c main_arg0) (X m c main_arg1) (X m c main_arg2) (X m c main_arg3) (X m c main_arg4) (X m c main_arg5) (X m c main_arg6) (X m c main_arg14) (X m c main_arg15) := by
  rw [r0, s0_v15, s0_v18, s0_v20]; rfl
theorem val_v23 : W4 m ρ c (𝕍 main_v23) =
    prodX2 (X m c main_arg0) (X m c main_arg1) (X m c main_arg2) (X m c main_arg3) (X m c main_arg4) (X m c main_arg5) (X m c main_arg6) (X m c main_arg14) (X m c main_arg15) := by
  rw [r1, k_v17, s0_v17, k_v18, s0_v18, s1_v22, k_v19, s0_v19]; rfl
theorem val_v24 : W5 m ρ c (𝕍 main_v24) =
    lo (prodX (X m c main_arg0) (X m c main_arg1) (X m c main_arg2) (X m c main_arg3) (X m c main_arg4) (X m c main_arg5) (X m c main_arg6) (X m c main_arg14) (X m c main_arg15)) := by
  rw [s2_v24, k_v21, val_v21]
theorem val_v25 : W5 m ρ c (𝕍 main_v25) =
    hi (prodX (X m c main_arg0) (X m c main_arg1) (X m c main_arg2) (X m c main_arg3) (X m c main_arg4) (X m c main_arg5) (X m c main_arg6) (X m c main_arg14) (X m c main_arg15)) := by
  rw [s2_v25, k_v21, val_v21]
theorem val_v26 : W5 m ρ c (𝕍 main_v26) =
    lo (prodX2 (X m c main_arg0) (X m c main_arg1) (X m c main_arg2) (X m c main_arg3) (X m c main_arg4) (X m c main_arg5) (X m c main_arg6) (X m c main_arg14) (X m c main_arg15)) := by
  rw [s2_v26, val_v23]
theorem val_v27 : W5 m ρ c (𝕍 main_v27) =
    hi (prodX2 (X m c main_arg0) (X m c main_arg1) (X m c main_arg2) (X m c main_arg3) (X m c main_arg4) (X m c main_arg5) (X m c main_arg6) (X m c main_arg14) (X m c main_arg15)) := by
  rw [s2_v27, val_v23]
theorem val_v28 : W5 m ρ c (𝕍 main_v28) =
    embedK (X m c main_arg0) (X m c main_arg1) (X m c main_arg2) (X m c main_arg3) (X m c main_arg4) (X m c main_arg5) (X m c main_arg6) (X m c main_arg14) (X m c main_arg15) := by
  rw [s2_v28, k_v0, s0_v0, val_v23]; rfl
theorem val_v30 : W6 m ρ c (𝕍 main_v30) =
    dense128 (lo (prodX (X m c main_arg0) (X m c main_arg1) (X m c main_arg2) (X m c main_arg3) (X m c main_arg4) (X m c main_arg5) (X m c main_arg6) (X m c main_arg14) (X m c main_arg15)))
      (X m c main_arg7) (brow (X m c main_arg8)) := by
  rw [r2, val_v24, arg5 m ρ c la7, s2_v29, arg4 m ρ c la8]
theorem val_v56 : W12 m ρ c (𝕍 main_v56) =
    predK (X m c main_arg7) (X m c main_arg8) (X m c main_arg9) (X m c main_arg10) (X m c main_arg11) (X m c main_arg12) (X m c main_arg13)
      (lo (prodX (X m c main_arg0) (X m c main_arg1) (X m c main_arg2) (X m c main_arg3) (X m c main_arg4) (X m c main_arg5) (X m c main_arg6) (X m c main_arg14) (X m c main_arg15))) := by
  rw [r3, s3_v54, val_v30, arg6 m ρ c la9, arg6 m ρ c la10, arg6 m ρ c la11, arg11 m ρ c la12, s3_v55, arg6 m ρ c la13]; rfl
theorem val_v58 : W14 m ρ c (𝕍 main_v58) =
    dense128 (lo (prodX2 (X m c main_arg0) (X m c main_arg1) (X m c main_arg2) (X m c main_arg3) (X m c main_arg4) (X m c main_arg5) (X m c main_arg6) (X m c main_arg14) (X m c main_arg15)))
      (X m c main_arg7) (brow (X m c main_arg8)) := by
  rw [r4, k_v26, val_v26, arg13 m ρ c la7, s4_v57, arg12 m ρ c la8]
theorem val_v84 : W20 m ρ c (𝕍 main_v84) =
    predK (X m c main_arg7) (X m c main_arg8) (X m c main_arg9) (X m c main_arg10) (X m c main_arg11) (X m c main_arg12) (X m c main_arg13)
      (lo (prodX2 (X m c main_arg0) (X m c main_arg1) (X m c main_arg2) (X m c main_arg3) (X m c main_arg4) (X m c main_arg5) (X m c main_arg6) (X m c main_arg14) (X m c main_arg15))) := by
  rw [r5, s5_v82, val_v58, arg14 m ρ c la9, arg14 m ρ c la10, arg14 m ρ c la11, arg19 m ρ c la12, s5_v83, arg14 m ρ c la13]; rfl

/-- RESULT 0, the embedding. -/
theorem embed_val : W28 m ρ c (𝕍 main_v28) =
    embedK (X m c main_arg0) (X m c main_arg1) (X m c main_arg2) (X m c main_arg3) (X m c main_arg4) (X m c main_arg5) (X m c main_arg6) (X m c main_arg14) (X m c main_arg15) := by
  rw [k_v28, k_v28w, val_v28]

/-- RESULT 1, the loss. -/
theorem loss_val : W28 m ρ c (𝕍 main_v111) =
    lossK (X m c main_arg0) (X m c main_arg1) (X m c main_arg2) (X m c main_arg3) (X m c main_arg4) (X m c main_arg5) (X m c main_arg6)
      (X m c main_arg7) (X m c main_arg8) (X m c main_arg9) (X m c main_arg10) (X m c main_arg11) (X m c main_arg12) (X m c main_arg13)
      (X m c main_arg14) (X m c main_arg15) := by
  rw [s6_v111, k_v56, val_v56, k_v27, val_v27, val_v84, k_v25, val_v25]; rfl

end Cert.KernelIdeal.Value

end
-- ==== Proof.RefOps.lean ====
/-
  The one-multiply-then-aggregate program's operations, in order, as lists.

  The program is a straight line of array operations. The functions it calls (the variance of the rows, the two
  selections, the row norm) are written out where they are called, each over the buffers of that call, so the line is
  269 operations long. It is cut into 21 consecutive lists, the cuts placed after the values the later reading stops at (each graph
  convolution's output, each linear layer's output, each variance, each selection, the two partial losses), so that the
  contents of the buffers after the whole line can be read list by list; `ops` is their concatenation, nested to the right.
-/
import proofs.«108390_j87840671138373_2_alg».proof.Proof.Gen.ReferenceIdeal
import Idealize.ShloMosaic.Lib.StableHlo.Run

noncomputable section

namespace Cert.RefOps

open Cert.ReferenceIdeal Cert.ReferenceIdeal.Gen Idealize.ShloMosaic Idealize.ShloMosaic.TcCoe Idealize.SL.Sem Idealize.ShloMosaic.StableHlo

variable {F : FTy → Type} [FloatOps F]

/-- The 22 operations from the one writing `main_v0` to the one writing `main_v18`. -/
abbrev ops00 : List (HloOp τ sig (Elt F)) :=
  [ StableHlo.binary main_arg0 main_arg1 main_v0 (addf : (⟨S100000x128, .f32⟩ : BufTy).Contents (Elt F) → (⟨S100000x128, .f32⟩ : BufTy).Contents (Elt F) → (⟨S100000x128, .f32⟩ : BufTy).Contents (Elt F)),
    StableHlo.binary main_v0 main_arg3 main_v1 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg2 main_v2 (broadcastInDim S800000x1 ![0] bcast_S800000_S800000x1_0 : (⟨S800000, .f32⟩ : BufTy).Contents (Elt F) → (⟨S800000x1, .f32⟩ : BufTy).Contents (Elt F)),
    StableHlo.nullary main_c (constantI S_ 32 0#32),
    StableHlo.unary main_c main_v3 (broadcastInDim S800000 ![] bcast_S_S800000 : (⟨S_, .i32⟩ : BufTy).Contents (Elt F) → (⟨S800000, .i32⟩ : BufTy).Contents (Elt F)),
    StableHlo.binary main_arg15 main_v3 main_v4 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 100000#32),
    StableHlo.unary main_c_0 main_v5 (broadcastInDim S800000 ![] bcast_S_S800000 : (⟨S_, .i32⟩ : BufTy).Contents (Elt F) → (⟨S800000, .i32⟩ : BufTy).Contents (Elt F)),
    StableHlo.binary main_arg15 main_v5 main_v6 (addi : (⟨S800000, .i32⟩ : BufTy).Contents (Elt F) → (⟨S800000, .i32⟩ : BufTy).Contents (Elt F) → (⟨S800000, .i32⟩ : BufTy).Contents (Elt F)),
    StableHlo.ternary main_v4 main_v6 main_arg15 main_v7 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v7 main_v8 (broadcastInDim S800000x1 ![0] bcast_S800000_S800000x1_0 : (⟨S800000, .i32⟩ : BufTy).Contents (Elt F) → (⟨S800000x1, .i32⟩ : BufTy).Contents (Elt F)),
    StableHlo.binary main_v1 main_v8 main_v9 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    StableHlo.unary main_v2 main_v10 (broadcastInDim S800000x128 ![0, 1] bcast_S800000x1_S800000x128_0_1 : (⟨S800000x1, .f32⟩ : BufTy).Contents (Elt F) → (⟨S800000x128, .f32⟩ : BufTy).Contents (Elt F)),
    StableHlo.binary main_v10 main_v9 main_v11 (mulf : (⟨S800000x128, .f32⟩ : BufTy).Contents (Elt F) → (⟨S800000x128, .f32⟩ : BufTy).Contents (Elt F) → (⟨S800000x128, .f32⟩ : BufTy).Contents (Elt F)),
    StableHlo.nullary main_cst (constant S_ .f32 0x00000000#32),
    StableHlo.unary main_cst main_v12 (broadcastInDim S100000x128 ![] bcast_S_S100000x128 : (⟨S_, .f32⟩ : BufTy).Contents (Elt F) → (⟨S100000x128, .f32⟩ : BufTy).Contents (Elt F)),
    StableHlo.unary main_arg14 main_v13 (broadcastInDim S800000x1 ![0] bcast_S800000_S800000x1_0 : (⟨S800000, .i32⟩ : BufTy).Contents (Elt F) → (⟨S800000x1, .i32⟩ : BufTy).Contents (Elt F)),
    StableHlo.ternary main_v12 main_v13 main_v11 main_v14 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    StableHlo.unary main_arg4 main_v15 (broadcastInDim S1x128 ![1] bcast_S128_S1x128_1 : (⟨S128, .f32⟩ : BufTy).Contents (Elt F) → (⟨S1x128, .f32⟩ : BufTy).Contents (Elt F)),
    StableHlo.unary main_v15 main_v16 (broadcastInDim S100000x128 ![0, 1] bcast_S1x128_S100000x128_0_1 : (⟨S1x128, .f32⟩ : BufTy).Contents (Elt F) → (⟨S100000x128, .f32⟩ : BufTy).Contents (Elt F)),
    StableHlo.binary main_v14 main_v16 main_v17 (addf : (⟨S100000x128, .f32⟩ : BufTy).Contents (Elt F) → (⟨S100000x128, .f32⟩ : BufTy).Contents (Elt F) → (⟨S100000x128, .f32⟩ : BufTy).Contents (Elt F)),
    StableHlo.binary main_v0 main_v17 main_v18 (addf : (⟨S100000x128, .f32⟩ : BufTy).Contents (Elt F) → (⟨S100000x128, .f32⟩ : BufTy).Contents (Elt F) → (⟨S100000x128, .f32⟩ : BufTy).Contents (Elt F)) ]

/-- The 20 operations from the one writing `main_v19` to the one writing `main_v35`. -/
abbrev ops01 : List (HloOp τ sig (Elt F)) :=
  [ StableHlo.binary main_arg0 main_arg3 main_v19 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg2 main_v20 (broadcastInDim S800000x1 ![0] bcast_S800000_S800000x1_0 : (⟨S800000, .f32⟩ : BufTy).Contents (Elt F) → (⟨S800000x1, .f32⟩ : BufTy).Contents (Elt F)),
    StableHlo.nullary main_c_1 (constantI S_ 32 0#32),
    StableHlo.unary main_c_1 main_v21 (broadcastInDim S800000 ![] bcast_S_S800000 : (⟨S_, .i32⟩ : BufTy).Contents (Elt F) → (⟨S800000, .i32⟩ : BufTy).Contents (Elt F)),
    StableHlo.binary main_arg15 main_v21 main_v22 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 100000#32),
    StableHlo.unary main_c_2 main_v23 (broadcastInDim S800000 ![] bcast_S_S800000 : (⟨S_, .i32⟩ : BufTy).Contents (Elt F) → (⟨S800000, .i32⟩ : BufTy).Contents (Elt F)),
    StableHlo.binary main_arg15 main_v23 main_v24 (addi : (⟨S800000, .i32⟩ : BufTy).Contents (Elt F) → (⟨S800000, .i32⟩ : BufTy).Contents (Elt F) → (⟨S800000, .i32⟩ : BufTy).Contents (Elt F)),
    StableHlo.ternary main_v22 main_v24 main_arg15 main_v25 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v25 main_v26 (broadcastInDim S800000x1 ![0] bcast_S800000_S800000x1_0 : (⟨S800000, .i32⟩ : BufTy).Contents (Elt F) → (⟨S800000x1, .i32⟩ : BufTy).Contents (Elt F)),
    StableHlo.binary main_v19 main_v26 main_v27 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    StableHlo.unary main_v20 main_v28 (broadcastInDim S800000x128 ![0, 1] bcast_S800000x1_S800000x128_0_1 : (⟨S800000x1, .f32⟩ : BufTy).Contents (Elt F) → (⟨S800000x128, .f32⟩ : BufTy).Contents (Elt F)),
    StableHlo.binary main_v28 main_v27 main_v29 (mulf : (⟨S800000x128, .f32⟩ : BufTy).Contents (Elt F) → (⟨S800000x128, .f32⟩ : BufTy).Contents (Elt F) → (⟨S800000x128, .f32⟩ : BufTy).Contents (Elt F)),
    StableHlo.nullary main_cst_3 (constant S_ .f32 0x00000000#32),
    StableHlo.unary main_cst_3 main_v30 (broadcastInDim S100000x128 ![] bcast_S_S100000x128 : (⟨S_, .f32⟩ : BufTy).Contents (Elt F) → (⟨S100000x128, .f32⟩ : BufTy).Contents (Elt F)),
    StableHlo.unary main_arg14 main_v31 (broadcastInDim S800000x1 ![0] bcast_S800000_S800000x1_0 : (⟨S800000, .i32⟩ : BufTy).Contents (Elt F) → (⟨S800000x1, .i32⟩ : BufTy).Contents (Elt F)),
    StableHlo.ternary main_v30 main_v31 main_v29 main_v32 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    StableHlo.unary main_arg4 main_v33 (broadcastInDim S1x128 ![1] bcast_S128_S1x128_1 : (⟨S128, .f32⟩ : BufTy).Contents (Elt F) → (⟨S1x128, .f32⟩ : BufTy).Contents (Elt F)),
    StableHlo.unary main_v33 main_v34 (broadcastInDim S100000x128 ![0, 1] bcast_S1x128_S100000x128_0_1 : (⟨S1x128, .f32⟩ : BufTy).Contents (Elt F) → (⟨S100000x128, .f32⟩ : BufTy).Contents (Elt F)),
    StableHlo.binary main_v32 main_v34 main_v35 (addf : (⟨S100000x128, .f32⟩ : BufTy).Contents (Elt F) → (⟨S100000x128, .f32⟩ : BufTy).Contents (Elt F) → (⟨S100000x128, .f32⟩ : BufTy).Contents (Elt F)) ]

/-- The 18 operations from the one writing `main_v36` to the one writing `main_v50`. -/
abbrev ops02 : List (HloOp τ sig (Elt F)) :=
  [ StableHlo.binary main_v0 main_arg3 main_v36 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg2 main_v37 (broadcastInDim S800000x1 ![0] bcast_S800000_S800000x1_0 : (⟨S800000, .f32⟩ : BufTy).Contents (Elt F) → (⟨S800000x1, .f32⟩ : BufTy).Contents (Elt F)),
    StableHlo.nullary main_c_4 (constantI S_ 32 0#32),
    StableHlo.unary main_c_4 main_v38 (broadcastInDim S800000 ![] bcast_S_S800000 : (⟨S_, .i32⟩ : BufTy).Contents (Elt F) → (⟨S800000, .i32⟩ : BufTy).Contents (Elt F)),
    StableHlo.binary main_arg15 main_v38 main_v39 (cmpi .slt : (⟨S800000, .i32⟩ : BufTy).Contents (Elt F) → (⟨S800000, .i32⟩ : BufTy).Contents (Elt F) → (⟨S800000, .i1⟩ : BufTy).Contents (Elt F)),
    StableHlo.nullary main_c_5 (constantI S_ 32 100000#32),
    StableHlo.unary main_c_5 main_v40 (broadcastInDim S800000 ![] bcast_S_S800000 : (⟨S_, .i32⟩ : BufTy).Contents (Elt F) → (⟨S800000, .i32⟩ : BufTy).Contents (Elt F)),
    StableHlo.binary main_arg15 main_v40 main_v41 (addi : (⟨S800000, .i32⟩ : BufTy).Contents (Elt F) → (⟨S800000, .i32⟩ : BufTy).Contents (Elt F) → (⟨S800000, .i32⟩ : BufTy).Contents (Elt F)),
    StableHlo.ternary main_v39 main_v41 main_arg15 main_v42 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v42 main_v43 (broadcastInDim S800000x1 ![0] bcast_S800000_S800000x1_0 : (⟨S800000, .i32⟩ : BufTy).Contents (Elt F) → (⟨S800000x1, .i32⟩ : BufTy).Contents (Elt F)),
    StableHlo.binary main_v36 main_v43 main_v44 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    StableHlo.unary main_v37 main_v45 (broadcastInDim S800000x128 ![0, 1] bcast_S800000x1_S800000x128_0_1 : (⟨S800000x1, .f32⟩ : BufTy).Contents (Elt F) → (⟨S800000x128, .f32⟩ : BufTy).Contents (Elt F)),
    StableHlo.binary main_v45 main_v44 main_v46 (mulf : (⟨S800000x128, .f32⟩ : BufTy).Contents (Elt F) → (⟨S800000x128, .f32⟩ : BufTy).Contents (Elt F) → (⟨S800000x128, .f32⟩ : BufTy).Contents (Elt F)),
    StableHlo.nullary main_cst_6 (constant S_ .f32 0x00000000#32),
    StableHlo.unary main_cst_6 main_v47 (broadcastInDim S100000x128 ![] bcast_S_S100000x128 : (⟨S_, .f32⟩ : BufTy).Contents (Elt F) → (⟨S100000x128, .f32⟩ : BufTy).Contents (Elt F)),
    StableHlo.unary main_arg14 main_v48 (broadcastInDim S800000x1 ![0] bcast_S800000_S800000x1_0 : (⟨S800000, .i32⟩ : BufTy).Contents (Elt F) → (⟨S800000x1, .i32⟩ : BufTy).Contents (Elt F)),
    StableHlo.ternary main_v47 main_v48 main_v46 main_v49 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    StableHlo.unary main_arg4 main_v50 (broadcastInDim S1x128 ![1] bcast_S128_S1x128_1 : (⟨S128, .f32⟩ : BufTy).Contents (Elt F) → (⟨S1x128, .f32⟩ : BufTy).Contents (Elt F)) ]

/-- The 2 operations from the one writing `main_v51` to the one writing `main_v52`. -/
abbrev ops03 : List (HloOp τ sig (Elt F)) :=
  [ StableHlo.unary main_v50 main_v51 (broadcastInDim S100000x128 ![0, 1] bcast_S1x128_S100000x128_0_1 : (⟨S1x128, .f32⟩ : BufTy).Contents (Elt F) → (⟨S100000x128, .f32⟩ : BufTy).Contents (Elt F)),
    StableHlo.binary main_v49 main_v51 main_v52 (addf : (⟨S100000x128, .f32⟩ : BufTy).Contents (Elt F) → (⟨S100000x128, .f32⟩ : BufTy).Contents (Elt F) → (⟨S100000x128, .f32⟩ : BufTy).Contents (Elt F)) ]

/-- The 20 operations from the one writing `main_v53` to the one writing `main_v69`. -/
abbrev ops04 : List (HloOp τ sig (Elt F)) :=
  [ StableHlo.binary main_arg0 main_arg5 main_v53 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg2 main_v54 (broadcastInDim S800000x1 ![0] bcast_S800000_S800000x1_0 : (⟨S800000, .f32⟩ : BufTy).Contents (Elt F) → (⟨S800000x1, .f32⟩ : BufTy).Contents (Elt F)),
    StableHlo.nullary main_c_7 (constantI S_ 32 0#32),
    StableHlo.unary main_c_7 main_v55 (broadcastInDim S800000 ![] bcast_S_S800000 : (⟨S_, .i32⟩ : BufTy).Contents (Elt F) → (⟨S800000, .i32⟩ : BufTy).Contents (Elt F)),
    StableHlo.binary main_arg15 main_v55 main_v56 (cmpi .slt : (⟨S800000, .i32⟩ : BufTy).Contents (Elt F) → (⟨S800000, .i32⟩ : BufTy).Contents (Elt F) → (⟨S800000, .i1⟩ : BufTy).Contents (Elt F)),
    StableHlo.nullary main_c_8 (constantI S_ 32 100000#32),
    StableHlo.unary main_c_8 main_v57 (broadcastInDim S800000 ![] bcast_S_S800000 : (⟨S_, .i32⟩ : BufTy).Contents (Elt F) → (⟨S800000, .i32⟩ : BufTy).Contents (Elt F)),
    StableHlo.binary main_arg15 main_v57 main_v58 (addi : (⟨S800000, .i32⟩ : BufTy).Contents (Elt F) → (⟨S800000, .i32⟩ : BufTy).Contents (Elt F) → (⟨S800000, .i32⟩ : BufTy).Contents (Elt F)),
    StableHlo.ternary main_v56 main_v58 main_arg15 main_v59 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v59 main_v60 (broadcastInDim S800000x1 ![0] bcast_S800000_S800000x1_0 : (⟨S800000, .i32⟩ : BufTy).Contents (Elt F) → (⟨S800000x1, .i32⟩ : BufTy).Contents (Elt F)),
    StableHlo.binary main_v53 main_v60 main_v61 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    StableHlo.unary main_v54 main_v62 (broadcastInDim S800000x128 ![0, 1] bcast_S800000x1_S800000x128_0_1 : (⟨S800000x1, .f32⟩ : BufTy).Contents (Elt F) → (⟨S800000x128, .f32⟩ : BufTy).Contents (Elt F)),
    StableHlo.binary main_v62 main_v61 main_v63 (mulf : (⟨S800000x128, .f32⟩ : BufTy).Contents (Elt F) → (⟨S800000x128, .f32⟩ : BufTy).Contents (Elt F) → (⟨S800000x128, .f32⟩ : BufTy).Contents (Elt F)),
    StableHlo.nullary main_cst_9 (constant S_ .f32 0x00000000#32),
    StableHlo.unary main_cst_9 main_v64 (broadcastInDim S100000x128 ![] bcast_S_S100000x128 : (⟨S_, .f32⟩ : BufTy).Contents (Elt F) → (⟨S100000x128, .f32⟩ : BufTy).Contents (Elt F)),
    StableHlo.unary main_arg14 main_v65 (broadcastInDim S800000x1 ![0] bcast_S800000_S800000x1_0 : (⟨S800000, .i32⟩ : BufTy).Contents (Elt F) → (⟨S800000x1, .i32⟩ : BufTy).Contents (Elt F)),
    StableHlo.ternary main_v64 main_v65 main_v63 main_v66 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    StableHlo.unary main_arg6 main_v67 (broadcastInDim S1x128 ![1] bcast_S128_S1x128_1 : (⟨S128, .f32⟩ : BufTy).Contents (Elt F) → (⟨S1x128, .f32⟩ : BufTy).Contents (Elt F)),
    StableHlo.unary main_v67 main_v68 (broadcastInDim S100000x128 ![0, 1] bcast_S1x128_S100000x128_0_1 : (⟨S1x128, .f32⟩ : BufTy).Contents (Elt F) → (⟨S100000x128, .f32⟩ : BufTy).Contents (Elt F)),
    StableHlo.binary main_v66 main_v68 main_v69 (addf : (⟨S100000x128, .f32⟩ : BufTy).Contents (Elt F) → (⟨S100000x128, .f32⟩ : BufTy).Contents (Elt F) → (⟨S100000x128, .f32⟩ : BufTy).Contents (Elt F)) ]

/-- The 20 operations from the one writing `main_v70` to the one writing `main_v86`. -/
abbrev ops05 : List (HloOp τ sig (Elt F)) :=
  [ StableHlo.binary main_v0 main_arg5 main_v70 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg2 main_v71 (broadcastInDim S800000x1 ![0] bcast_S800000_S800000x1_0 : (⟨S800000, .f32⟩ : BufTy).Contents (Elt F) → (⟨S800000x1, .f32⟩ : BufTy).Contents (Elt F)),
    StableHlo.nullary main_c_10 (constantI S_ 32 0#32),
    StableHlo.unary main_c_10 main_v72 (broadcastInDim S800000 ![] bcast_S_S800000 : (⟨S_, .i32⟩ : BufTy).Contents (Elt F) → (⟨S800000, .i32⟩ : BufTy).Contents (Elt F)),
    StableHlo.binary main_arg15 main_v72 main_v73 (cmpi .slt : (⟨S800000, .i32⟩ : BufTy).Contents (Elt F) → (⟨S800000, .i32⟩ : BufTy).Contents (Elt F) → (⟨S800000, .i1⟩ : BufTy).Contents (Elt F)),
    StableHlo.nullary main_c_11 (constantI S_ 32 100000#32),
    StableHlo.unary main_c_11 main_v74 (broadcastInDim S800000 ![] bcast_S_S800000 : (⟨S_, .i32⟩ : BufTy).Contents (Elt F) → (⟨S800000, .i32⟩ : BufTy).Contents (Elt F)),
    StableHlo.binary main_arg15 main_v74 main_v75 (addi : (⟨S800000, .i32⟩ : BufTy).Contents (Elt F) → (⟨S800000, .i32⟩ : BufTy).Contents (Elt F) → (⟨S800000, .i32⟩ : BufTy).Contents (Elt F)),
    StableHlo.ternary main_v73 main_v75 main_arg15 main_v76 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v76 main_v77 (broadcastInDim S800000x1 ![0] bcast_S800000_S800000x1_0 : (⟨S800000, .i32⟩ : BufTy).Contents (Elt F) → (⟨S800000x1, .i32⟩ : BufTy).Contents (Elt F)),
    StableHlo.binary main_v70 main_v77 main_v78 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    StableHlo.unary main_v71 main_v79 (broadcastInDim S800000x128 ![0, 1] bcast_S800000x1_S800000x128_0_1 : (⟨S800000x1, .f32⟩ : BufTy).Contents (Elt F) → (⟨S800000x128, .f32⟩ : BufTy).Contents (Elt F)),
    StableHlo.binary main_v79 main_v78 main_v80 (mulf : (⟨S800000x128, .f32⟩ : BufTy).Contents (Elt F) → (⟨S800000x128, .f32⟩ : BufTy).Contents (Elt F) → (⟨S800000x128, .f32⟩ : BufTy).Contents (Elt F)),
    StableHlo.nullary main_cst_12 (constant S_ .f32 0x00000000#32),
    StableHlo.unary main_cst_12 main_v81 (broadcastInDim S100000x128 ![] bcast_S_S100000x128 : (⟨S_, .f32⟩ : BufTy).Contents (Elt F) → (⟨S100000x128, .f32⟩ : BufTy).Contents (Elt F)),
    StableHlo.unary main_arg14 main_v82 (broadcastInDim S800000x1 ![0] bcast_S800000_S800000x1_0 : (⟨S800000, .i32⟩ : BufTy).Contents (Elt F) → (⟨S800000x1, .i32⟩ : BufTy).Contents (Elt F)),
    StableHlo.ternary main_v81 main_v82 main_v80 main_v83 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    StableHlo.unary main_arg6 main_v84 (broadcastInDim S1x128 ![1] bcast_S128_S1x128_1 : (⟨S128, .f32⟩ : BufTy).Contents (Elt F) → (⟨S1x128, .f32⟩ : BufTy).Contents (Elt F)),
    StableHlo.unary main_v84 main_v85 (broadcastInDim S100000x128 ![0, 1] bcast_S1x128_S100000x128_0_1 : (⟨S1x128, .f32⟩ : BufTy).Contents (Elt F) → (⟨S100000x128, .f32⟩ : BufTy).Contents (Elt F)),
    StableHlo.binary main_v83 main_v85 main_v86 (addf : (⟨S100000x128, .f32⟩ : BufTy).Contents (Elt F) → (⟨S100000x128, .f32⟩ : BufTy).Contents (Elt F) → (⟨S100000x128, .f32⟩ : BufTy).Contents (Elt F)) ]

/-- The 4 operations from the one writing `main_v87` to the one writing `main_v90`. -/
abbrev ops06 : List (HloOp τ sig (Elt F)) :=
  [ StableHlo.binary main_v35 main_arg7 main_v87 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg8 main_v88 (broadcastInDim S1x128 ![1] bcast_S128_S1x128_1 : (⟨S128, .f32⟩ : BufTy).Contents (Elt F) → (⟨S1x128, .f32⟩ : BufTy).Contents (Elt F)),
    StableHlo.unary main_v88 main_v89 (broadcastInDim S100000x128 ![0, 1] bcast_S1x128_S100000x128_0_1 : (⟨S1x128, .f32⟩ : BufTy).Contents (Elt F) → (⟨S100000x128, .f32⟩ : BufTy).Contents (Elt F)),
    StableHlo.binary main_v87 main_v89 main_v90 (addf : (⟨S100000x128, .f32⟩ : BufTy).Contents (Elt F) → (⟨S100000x128, .f32⟩ : BufTy).Contents (Elt F) → (⟨S100000x128, .f32⟩ : BufTy).Contents (Elt F)) ]

/-- The 15 operations from the one writing `main_cst_13` to the one writing `main_call0_v6`. -/
abbrev ops07 : List (HloOp τ sig (Elt F)) :=
  [ StableHlo.nullary main_cst_13 (constant S_ .f32 0x00000000#32),
    StableHlo.binary main_v90 main_cst_13 main_v91 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_14 (constant S_ .f32 0x47C35000#32),
    StableHlo.unary main_cst_14 main_v92 (broadcastInDim S128 ![] bcast_S_S128 : (⟨S_, .f32⟩ : BufTy).Contents (Elt F) → (⟨S128, .f32⟩ : BufTy).Contents (Elt F)),
    StableHlo.binary main_v91 main_v92 main_v93 (Host.divf : (⟨S128, .f32⟩ : BufTy).Contents (Elt F) → (⟨S128, .f32⟩ : BufTy).Contents (Elt F) → (⟨S128, .f32⟩ : BufTy).Contents (Elt F)),
    StableHlo.nullary main_c_15 (constantI S_ 32 0#32),
    StableHlo.TRef.nullary (.of main_call0_cst : StableHlo.TRef sig ⟨S_, .f32⟩) (constant S_ .f32 0x00000000#32),
    StableHlo.TRef.binary (.of main_v90 : StableHlo.TRef sig ⟨S100000x128, .f32⟩) (.of main_call0_cst : StableHlo.TRef sig ⟨S_, .f32⟩) (.of main_call0_v0 : StableHlo.TRef sig ⟨S128, .f32⟩) (fun x v => Host.reduceAdd x v reducesTo_S100000x128_S128_d0 h_S_),
    StableHlo.TRef.unary (.of main_call0_v0 : StableHlo.TRef sig ⟨S128, .f32⟩) (.of main_call0_v1 : StableHlo.TRef sig ⟨S1x128, .f32⟩) (broadcastInDim S1x128 ![1] bcast_S128_S1x128_1),
    StableHlo.TRef.nullary (.of main_call0_cst_0 : StableHlo.TRef sig ⟨S_, .f32⟩) (constant S_ .f32 0x47C35000#32),
    StableHlo.TRef.unary (.of main_call0_cst_0 : StableHlo.TRef sig ⟨S_, .f32⟩) (.of main_call0_v2 : StableHlo.TRef sig ⟨S1x128, .f32⟩) (broadcastInDim S1x128 ![] bcast_S_S1x128),
    StableHlo.TRef.binary (.of main_call0_v1 : StableHlo.TRef sig ⟨S1x128, .f32⟩) (.of main_call0_v2 : StableHlo.TRef sig ⟨S1x128, .f32⟩) (.of main_call0_v3 : StableHlo.TRef sig ⟨S1x128, .f32⟩) Host.divf,
    StableHlo.TRef.unary (.of main_call0_v3 : StableHlo.TRef sig ⟨S1x128, .f32⟩) (.of main_call0_v4 : StableHlo.TRef sig ⟨S100000x128, .f32⟩) (broadcastInDim S100000x128 ![0, 1] bcast_S1x128_S100000x128_0_1),
    StableHlo.TRef.binary (.of main_v90 : StableHlo.TRef sig ⟨S100000x128, .f32⟩) (.of main_call0_v4 : StableHlo.TRef sig ⟨S100000x128, .f32⟩) (.of main_call0_v5 : StableHlo.TRef sig ⟨S100000x128, .f32⟩) subf,
    StableHlo.TRef.binary (.of main_call0_v5 : StableHlo.TRef sig ⟨S100000x128, .f32⟩) (.of main_call0_v5 : StableHlo.TRef sig ⟨S100000x128, .f32⟩) (.of main_call0_v6 : StableHlo.TRef sig ⟨S100000x128, .f32⟩) mulf ]

/-- The 13 operations from the one writing `main_call0_v7` to the one writing `main_v94`. -/
abbrev ops08 : List (HloOp τ sig (Elt F)) :=
  [ StableHlo.TRef.unary (.of main_c_15 : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x47C35000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S100000x128, .f32⟩) (.of main_call0_cst_2 : StableHlo.TRef sig ⟨S_, .f32⟩) (.of main_call0_v9 : StableHlo.TRef sig ⟨S128, .f32⟩) (fun x v => Host.reduceAdd x v reducesTo_S100000x128_S128_d0 h_S_),
    StableHlo.TRef.unary (.of main_call0_v8 : StableHlo.TRef sig ⟨S_, .f32⟩) (.of main_call0_v10 : StableHlo.TRef sig ⟨S128, .f32⟩) (broadcastInDim S128 ![] bcast_S_S128),
    StableHlo.TRef.binary (.of main_call0_v9 : StableHlo.TRef sig ⟨S128, .f32⟩) (.of main_call0_v10 : StableHlo.TRef sig ⟨S128, .f32⟩) (.of main_call0_v11 : StableHlo.TRef sig ⟨S128, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S128, .f32⟩) (broadcastInDim S128 ![] bcast_S_S128),
    StableHlo.TRef.ternary (.of main_call0_v12 : StableHlo.TRef sig ⟨S_, .i1⟩) (.of main_call0_v11 : StableHlo.TRef sig ⟨S128, .f32⟩) (.of main_call0_call0_v1 : StableHlo.TRef sig ⟨S128, .f32⟩) (.of main_v94 : StableHlo.TRef sig ⟨S128, .f32⟩) (fun p a b => select (broadcastInDim S128 ![] bcast_S_S128 p) a b) ]

/-- The 7 operations from the one writing `main_v95` to the one writing `main_v100`. -/
abbrev ops09 : List (HloOp τ sig (Elt F)) :=
  [ StableHlo.unary main_v93 main_v95 (broadcastInDim S1x128 ![1] bcast_S128_S1x128_1 : (⟨S128, .f32⟩ : BufTy).Contents (Elt F) → (⟨S1x128, .f32⟩ : BufTy).Contents (Elt F)),
    StableHlo.unary main_v95 main_v96 (broadcastInDim S100000x128 ![0, 1] bcast_S1x128_S100000x128_0_1 : (⟨S1x128, .f32⟩ : BufTy).Contents (Elt F) → (⟨S100000x128, .f32⟩ : BufTy).Contents (Elt F)),
    StableHlo.binary main_v90 main_v96 main_v97 (subf : (⟨S100000x128, .f32⟩ : BufTy).Contents (Elt F) → (⟨S100000x128, .f32⟩ : BufTy).Contents (Elt F) → (⟨S100000x128, .f32⟩ : BufTy).Contents (Elt F)),
    StableHlo.nullary main_cst_16 (constant S_ .f32 0x3727C5AC#32),
    StableHlo.unary main_cst_16 main_v98 (broadcastInDim S128 ![] bcast_S_S128 : (⟨S_, .f32⟩ : BufTy).Contents (Elt F) → (⟨S128, .f32⟩ : BufTy).Contents (Elt F)),
    StableHlo.binary main_v94 main_v98 main_v99 (addf : (⟨S128, .f32⟩ : BufTy).Contents (Elt F) → (⟨S128, .f32⟩ : BufTy).Contents (Elt F) → (⟨S128, .f32⟩ : BufTy).Contents (Elt F)),
    StableHlo.unary main_v99 main_v100 (Host.rsqrt : (⟨S128, .f32⟩ : BufTy).Contents (Elt F) → (⟨S128, .f32⟩ : BufTy).Contents (Elt F)) ]

/-- The 15 operations from the one writing `main_v101` to the one writing `main_v114`. -/
abbrev ops10 : List (HloOp τ sig (Elt F)) :=
  [ StableHlo.unary main_v100 main_v101 (broadcastInDim S1x128 ![1] bcast_S128_S1x128_1 : (⟨S128, .f32⟩ : BufTy).Contents (Elt F) → (⟨S1x128, .f32⟩ : BufTy).Contents (Elt F)),
    StableHlo.unary main_v101 main_v102 (broadcastInDim S100000x128 ![0, 1] bcast_S1x128_S100000x128_0_1 : (⟨S1x128, .f32⟩ : BufTy).Contents (Elt F) → (⟨S100000x128, .f32⟩ : BufTy).Contents (Elt F)),
    StableHlo.binary main_v97 main_v102 main_v103 (mulf : (⟨S100000x128, .f32⟩ : BufTy).Contents (Elt F) → (⟨S100000x128, .f32⟩ : BufTy).Contents (Elt F) → (⟨S100000x128, .f32⟩ : BufTy).Contents (Elt F)),
    StableHlo.unary main_arg9 main_v104 (broadcastInDim S1x128 ![1] bcast_S128_S1x128_1 : (⟨S128, .f32⟩ : BufTy).Contents (Elt F) → (⟨S1x128, .f32⟩ : BufTy).Contents (Elt F)),
    StableHlo.unary main_v104 main_v105 (broadcastInDim S100000x128 ![0, 1] bcast_S1x128_S100000x128_0_1 : (⟨S1x128, .f32⟩ : BufTy).Contents (Elt F) → (⟨S100000x128, .f32⟩ : BufTy).Contents (Elt F)),
    StableHlo.binary main_v103 main_v105 main_v106 (mulf : (⟨S100000x128, .f32⟩ : BufTy).Contents (Elt F) → (⟨S100000x128, .f32⟩ : BufTy).Contents (Elt F) → (⟨S100000x128, .f32⟩ : BufTy).Contents (Elt F)),
    StableHlo.unary main_arg10 main_v107 (broadcastInDim S1x128 ![1] bcast_S128_S1x128_1 : (⟨S128, .f32⟩ : BufTy).Contents (Elt F) → (⟨S1x128, .f32⟩ : BufTy).Contents (Elt F)),
    StableHlo.unary main_v107 main_v108 (broadcastInDim S100000x128 ![0, 1] bcast_S1x128_S100000x128_0_1 : (⟨S1x128, .f32⟩ : BufTy).Contents (Elt F) → (⟨S100000x128, .f32⟩ : BufTy).Contents (Elt F)),
    StableHlo.binary main_v106 main_v108 main_v109 (addf : (⟨S100000x128, .f32⟩ : BufTy).Contents (Elt F) → (⟨S100000x128, .f32⟩ : BufTy).Contents (Elt F) → (⟨S100000x128, .f32⟩ : BufTy).Contents (Elt F)),
    StableHlo.nullary main_cst_17 (constant S_ .f32 0x00000000#32),
    StableHlo.unary main_cst_17 main_v110 (broadcastInDim S100000x128 ![] bcast_S_S100000x128 : (⟨S_, .f32⟩ : BufTy).Contents (Elt F) → (⟨S100000x128, .f32⟩ : BufTy).Contents (Elt F)),
    StableHlo.binary main_v109 main_v110 main_v111 (cmpf .ogt : (⟨S100000x128, .f32⟩ : BufTy).Contents (Elt F) → (⟨S100000x128, .f32⟩ : BufTy).Contents (Elt F) → (⟨S100000x128, .i1⟩ : BufTy).Contents (Elt F)),
    StableHlo.unary main_arg11 main_v112 (broadcastInDim S100000x128 ![] bcast_S_S100000x128 : (⟨S_, .f32⟩ : BufTy).Contents (Elt F) → (⟨S100000x128, .f32⟩ : BufTy).Contents (Elt F)),
    StableHlo.binary main_v112 main_v109 main_v113 (mulf : (⟨S100000x128, .f32⟩ : BufTy).Contents (Elt F) → (⟨S100000x128, .f32⟩ : BufTy).Contents (Elt F) → (⟨S100000x128, .f32⟩ : BufTy).Contents (Elt F)),
    StableHlo.TRef.ternary (.of main_v111 : StableHlo.TRef sig ⟨S100000x128, .i1⟩) (.of main_v109 : StableHlo.TRef sig ⟨S100000x128, .f32⟩) (.of main_v113 : StableHlo.TRef sig ⟨S100000x128, .f32⟩) (.of main_v114 : StableHlo.TRef sig ⟨S100000x128, .f32⟩) select ]

/-- The 4 operations from the one writing `main_v115` to the one writing `main_v118`. -/
abbrev ops11 : List (HloOp τ sig (Elt F)) :=
  [ StableHlo.binary main_v114 main_arg12 main_v115 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg13 main_v116 (broadcastInDim S1x128 ![1] bcast_S128_S1x128_1 : (⟨S128, .f32⟩ : BufTy).Contents (Elt F) → (⟨S1x128, .f32⟩ : BufTy).Contents (Elt F)),
    StableHlo.unary main_v116 main_v117 (broadcastInDim S100000x128 ![0, 1] bcast_S1x128_S100000x128_0_1 : (⟨S1x128, .f32⟩ : BufTy).Contents (Elt F) → (⟨S100000x128, .f32⟩ : BufTy).Contents (Elt F)),
    StableHlo.binary main_v115 main_v117 main_v118 (addf : (⟨S100000x128, .f32⟩ : BufTy).Contents (Elt F) → (⟨S100000x128, .f32⟩ : BufTy).Contents (Elt F) → (⟨S100000x128, .f32⟩ : BufTy).Contents (Elt F)) ]

/-- The 4 operations from the one writing `main_v119` to the one writing `main_v122`. -/
abbrev ops12 : List (HloOp τ sig (Elt F)) :=
  [ StableHlo.binary main_v52 main_arg7 main_v119 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg8 main_v120 (broadcastInDim S1x128 ![1] bcast_S128_S1x128_1 : (⟨S128, .f32⟩ : BufTy).Contents (Elt F) → (⟨S1x128, .f32⟩ : BufTy).Contents (Elt F)),
    StableHlo.unary main_v120 main_v121 (broadcastInDim S100000x128 ![0, 1] bcast_S1x128_S100000x128_0_1 : (⟨S1x128, .f32⟩ : BufTy).Contents (Elt F) → (⟨S100000x128, .f32⟩ : BufTy).Contents (Elt F)),
    StableHlo.binary main_v119 main_v121 main_v122 (addf : (⟨S100000x128, .f32⟩ : BufTy).Contents (Elt F) → (⟨S100000x128, .f32⟩ : BufTy).Contents (Elt F) → (⟨S100000x128, .f32⟩ : BufTy).Contents (Elt F)) ]

/-- The 15 operations from the one writing `main_cst_18` to the one writing `main_call2_v6`. -/
abbrev ops13 : List (HloOp τ sig (Elt F)) :=
  [ StableHlo.nullary main_cst_18 (constant S_ .f32 0x00000000#32),
    StableHlo.binary main_v122 main_cst_18 main_v123 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_19 (constant S_ .f32 0x47C35000#32),
    StableHlo.unary main_cst_19 main_v124 (broadcastInDim S128 ![] bcast_S_S128 : (⟨S_, .f32⟩ : BufTy).Contents (Elt F) → (⟨S128, .f32⟩ : BufTy).Contents (Elt F)),
    StableHlo.binary main_v123 main_v124 main_v125 (Host.divf : (⟨S128, .f32⟩ : BufTy).Contents (Elt F) → (⟨S128, .f32⟩ : BufTy).Contents (Elt F) → (⟨S128, .f32⟩ : BufTy).Contents (Elt F)),
    StableHlo.nullary main_c_20 (constantI S_ 32 0#32),
    StableHlo.TRef.nullary (.of main_call2_cst : StableHlo.TRef sig ⟨S_, .f32⟩) (constant S_ .f32 0x00000000#32),
    StableHlo.TRef.binary (.of main_v122 : StableHlo.TRef sig ⟨S100000x128, .f32⟩) (.of main_call2_cst : StableHlo.TRef sig ⟨S_, .f32⟩) (.of main_call2_v0 : StableHlo.TRef sig ⟨S128, .f32⟩) (fun x v => Host.reduceAdd x v reducesTo_S100000x128_S128_d0 h_S_),
    StableHlo.TRef.unary (.of main_call2_v0 : StableHlo.TRef sig ⟨S128, .f32⟩) (.of main_call2_v1 : StableHlo.TRef sig ⟨S1x128, .f32⟩) (broadcastInDim S1x128 ![1] bcast_S128_S1x128_1),
    StableHlo.TRef.nullary (.of main_call2_cst_0 : StableHlo.TRef sig ⟨S_, .f32⟩) (constant S_ .f32 0x47C35000#32),
    StableHlo.TRef.unary (.of main_call2_cst_0 : StableHlo.TRef sig ⟨S_, .f32⟩) (.of main_call2_v2 : StableHlo.TRef sig ⟨S1x128, .f32⟩) (broadcastInDim S1x128 ![] bcast_S_S1x128),
    StableHlo.TRef.binary (.of main_call2_v1 : StableHlo.TRef sig ⟨S1x128, .f32⟩) (.of main_call2_v2 : StableHlo.TRef sig ⟨S1x128, .f32⟩) (.of main_call2_v3 : StableHlo.TRef sig ⟨S1x128, .f32⟩) Host.divf,
    StableHlo.TRef.unary (.of main_call2_v3 : StableHlo.TRef sig ⟨S1x128, .f32⟩) (.of main_call2_v4 : StableHlo.TRef sig ⟨S100000x128, .f32⟩) (broadcastInDim S100000x128 ![0, 1] bcast_S1x128_S100000x128_0_1),
    StableHlo.TRef.binary (.of main_v122 : StableHlo.TRef sig ⟨S100000x128, .f32⟩) (.of main_call2_v4 : StableHlo.TRef sig ⟨S100000x128, .f32⟩) (.of main_call2_v5 : StableHlo.TRef sig ⟨S100000x128, .f32⟩) subf,
    StableHlo.TRef.binary (.of main_call2_v5 : StableHlo.TRef sig ⟨S100000x128, .f32⟩) (.of main_call2_v5 : StableHlo.TRef sig ⟨S100000x128, .f32⟩) (.of main_call2_v6 : StableHlo.TRef sig ⟨S100000x128, .f32⟩) mulf ]

/-- The 13 operations from the one writing `main_call2_v7` to the one writing `main_v126`. -/
abbrev ops14 : List (HloOp τ sig (Elt F)) :=
  [ StableHlo.TRef.unary (.of main_c_20 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x47C35000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S100000x128, .f32⟩) (.of main_call2_cst_2 : StableHlo.TRef sig ⟨S_, .f32⟩) (.of main_call2_v9 : StableHlo.TRef sig ⟨S128, .f32⟩) (fun x v => Host.reduceAdd x v reducesTo_S100000x128_S128_d0 h_S_),
    StableHlo.TRef.unary (.of main_call2_v8 : StableHlo.TRef sig ⟨S_, .f32⟩) (.of main_call2_v10 : StableHlo.TRef sig ⟨S128, .f32⟩) (broadcastInDim S128 ![] bcast_S_S128),
    StableHlo.TRef.binary (.of main_call2_v9 : StableHlo.TRef sig ⟨S128, .f32⟩) (.of main_call2_v10 : StableHlo.TRef sig ⟨S128, .f32⟩) (.of main_call2_v11 : StableHlo.TRef sig ⟨S128, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S128, .f32⟩) (broadcastInDim S128 ![] bcast_S_S128),
    StableHlo.TRef.ternary (.of main_call2_v12 : StableHlo.TRef sig ⟨S_, .i1⟩) (.of main_call2_v11 : StableHlo.TRef sig ⟨S128, .f32⟩) (.of main_call2_call0_v1 : StableHlo.TRef sig ⟨S128, .f32⟩) (.of main_v126 : StableHlo.TRef sig ⟨S128, .f32⟩) (fun p a b => select (broadcastInDim S128 ![] bcast_S_S128 p) a b) ]

/-- The 22 operations from the one writing `main_v127` to the one writing `main_v146`. -/
abbrev ops15 : List (HloOp τ sig (Elt F)) :=
  [ StableHlo.unary main_v125 main_v127 (broadcastInDim S1x128 ![1] bcast_S128_S1x128_1 : (⟨S128, .f32⟩ : BufTy).Contents (Elt F) → (⟨S1x128, .f32⟩ : BufTy).Contents (Elt F)),
    StableHlo.unary main_v127 main_v128 (broadcastInDim S100000x128 ![0, 1] bcast_S1x128_S100000x128_0_1 : (⟨S1x128, .f32⟩ : BufTy).Contents (Elt F) → (⟨S100000x128, .f32⟩ : BufTy).Contents (Elt F)),
    StableHlo.binary main_v122 main_v128 main_v129 (subf : (⟨S100000x128, .f32⟩ : BufTy).Contents (Elt F) → (⟨S100000x128, .f32⟩ : BufTy).Contents (Elt F) → (⟨S100000x128, .f32⟩ : BufTy).Contents (Elt F)),
    StableHlo.nullary main_cst_21 (constant S_ .f32 0x3727C5AC#32),
    StableHlo.unary main_cst_21 main_v130 (broadcastInDim S128 ![] bcast_S_S128 : (⟨S_, .f32⟩ : BufTy).Contents (Elt F) → (⟨S128, .f32⟩ : BufTy).Contents (Elt F)),
    StableHlo.binary main_v126 main_v130 main_v131 (addf : (⟨S128, .f32⟩ : BufTy).Contents (Elt F) → (⟨S128, .f32⟩ : BufTy).Contents (Elt F) → (⟨S128, .f32⟩ : BufTy).Contents (Elt F)),
    StableHlo.unary main_v131 main_v132 (Host.rsqrt : (⟨S128, .f32⟩ : BufTy).Contents (Elt F) → (⟨S128, .f32⟩ : BufTy).Contents (Elt F)),
    StableHlo.unary main_v132 main_v133 (broadcastInDim S1x128 ![1] bcast_S128_S1x128_1 : (⟨S128, .f32⟩ : BufTy).Contents (Elt F) → (⟨S1x128, .f32⟩ : BufTy).Contents (Elt F)),
    StableHlo.unary main_v133 main_v134 (broadcastInDim S100000x128 ![0, 1] bcast_S1x128_S100000x128_0_1 : (⟨S1x128, .f32⟩ : BufTy).Contents (Elt F) → (⟨S100000x128, .f32⟩ : BufTy).Contents (Elt F)),
    StableHlo.binary main_v129 main_v134 main_v135 (mulf : (⟨S100000x128, .f32⟩ : BufTy).Contents (Elt F) → (⟨S100000x128, .f32⟩ : BufTy).Contents (Elt F) → (⟨S100000x128, .f32⟩ : BufTy).Contents (Elt F)),
    StableHlo.unary main_arg9 main_v136 (broadcastInDim S1x128 ![1] bcast_S128_S1x128_1 : (⟨S128, .f32⟩ : BufTy).Contents (Elt F) → (⟨S1x128, .f32⟩ : BufTy).Contents (Elt F)),
    StableHlo.unary main_v136 main_v137 (broadcastInDim S100000x128 ![0, 1] bcast_S1x128_S100000x128_0_1 : (⟨S1x128, .f32⟩ : BufTy).Contents (Elt F) → (⟨S100000x128, .f32⟩ : BufTy).Contents (Elt F)),
    StableHlo.binary main_v135 main_v137 main_v138 (mulf : (⟨S100000x128, .f32⟩ : BufTy).Contents (Elt F) → (⟨S100000x128, .f32⟩ : BufTy).Contents (Elt F) → (⟨S100000x128, .f32⟩ : BufTy).Contents (Elt F)),
    StableHlo.unary main_arg10 main_v139 (broadcastInDim S1x128 ![1] bcast_S128_S1x128_1 : (⟨S128, .f32⟩ : BufTy).Contents (Elt F) → (⟨S1x128, .f32⟩ : BufTy).Contents (Elt F)),
    StableHlo.unary main_v139 main_v140 (broadcastInDim S100000x128 ![0, 1] bcast_S1x128_S100000x128_0_1 : (⟨S1x128, .f32⟩ : BufTy).Contents (Elt F) → (⟨S100000x128, .f32⟩ : BufTy).Contents (Elt F)),
    StableHlo.binary main_v138 main_v140 main_v141 (addf : (⟨S100000x128, .f32⟩ : BufTy).Contents (Elt F) → (⟨S100000x128, .f32⟩ : BufTy).Contents (Elt F) → (⟨S100000x128, .f32⟩ : BufTy).Contents (Elt F)),
    StableHlo.nullary main_cst_22 (constant S_ .f32 0x00000000#32),
    StableHlo.unary main_cst_22 main_v142 (broadcastInDim S100000x128 ![] bcast_S_S100000x128 : (⟨S_, .f32⟩ : BufTy).Contents (Elt F) → (⟨S100000x128, .f32⟩ : BufTy).Contents (Elt F)),
    StableHlo.binary main_v141 main_v142 main_v143 (cmpf .ogt : (⟨S100000x128, .f32⟩ : BufTy).Contents (Elt F) → (⟨S100000x128, .f32⟩ : BufTy).Contents (Elt F) → (⟨S100000x128, .i1⟩ : BufTy).Contents (Elt F)),
    StableHlo.unary main_arg11 main_v144 (broadcastInDim S100000x128 ![] bcast_S_S100000x128 : (⟨S_, .f32⟩ : BufTy).Contents (Elt F) → (⟨S100000x128, .f32⟩ : BufTy).Contents (Elt F)),
    StableHlo.binary main_v144 main_v141 main_v145 (mulf : (⟨S100000x128, .f32⟩ : BufTy).Contents (Elt F) → (⟨S100000x128, .f32⟩ : BufTy).Contents (Elt F) → (⟨S100000x128, .f32⟩ : BufTy).Contents (Elt F)),
    StableHlo.TRef.ternary (.of main_v143 : StableHlo.TRef sig ⟨S100000x128, .i1⟩) (.of main_v141 : StableHlo.TRef sig ⟨S100000x128, .f32⟩) (.of main_v145 : StableHlo.TRef sig ⟨S100000x128, .f32⟩) (.of main_v146 : StableHlo.TRef sig ⟨S100000x128, .f32⟩) select ]

/-- The 4 operations from the one writing `main_v147` to the one writing `main_v150`. -/
abbrev ops16 : List (HloOp τ sig (Elt F)) :=
  [ StableHlo.binary main_v146 main_arg12 main_v147 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg13 main_v148 (broadcastInDim S1x128 ![1] bcast_S128_S1x128_1 : (⟨S128, .f32⟩ : BufTy).Contents (Elt F) → (⟨S1x128, .f32⟩ : BufTy).Contents (Elt F)),
    StableHlo.unary main_v148 main_v149 (broadcastInDim S100000x128 ![0, 1] bcast_S1x128_S100000x128_0_1 : (⟨S1x128, .f32⟩ : BufTy).Contents (Elt F) → (⟨S100000x128, .f32⟩ : BufTy).Contents (Elt F)),
    StableHlo.binary main_v147 main_v149 main_v150 (addf : (⟨S100000x128, .f32⟩ : BufTy).Contents (Elt F) → (⟨S100000x128, .f32⟩ : BufTy).Contents (Elt F) → (⟨S100000x128, .f32⟩ : BufTy).Contents (Elt F)) ]

/-- The 12 operations from the one writing `main_call4_v0` to the one writing `main_v154`. -/
abbrev ops17 : List (HloOp τ sig (Elt F)) :=
  [ StableHlo.TRef.binary (.of main_v118 : StableHlo.TRef sig ⟨S100000x128, .f32⟩) (.of main_v118 : StableHlo.TRef sig ⟨S100000x128, .f32⟩) (.of main_call4_v0 : StableHlo.TRef sig ⟨S100000x128, .f32⟩) mulf,
    StableHlo.TRef.nullary (.of main_call4_cst : StableHlo.TRef sig ⟨S_, .f32⟩) (constant S_ .f32 0x00000000#32),
    StableHlo.TRef.binary (.of main_call4_v0 : StableHlo.TRef sig ⟨S100000x128, .f32⟩) (.of main_call4_cst : StableHlo.TRef sig ⟨S_, .f32⟩) (.of main_call4_v1 : StableHlo.TRef sig ⟨S100000, .f32⟩) (fun x v => Host.reduceAdd x v reducesTo_S100000x128_S100000_d1 h_S_),
    StableHlo.TRef.unary (.of main_call4_v1 : StableHlo.TRef sig ⟨S100000, .f32⟩) (.of main_call4_v2 : StableHlo.TRef sig ⟨S100000x1, .f32⟩) (broadcastInDim S100000x1 ![0] bcast_S100000_S100000x1_0),
    StableHlo.TRef.unary (.of main_call4_v2 : StableHlo.TRef sig ⟨S100000x1, .f32⟩) (.of main_v151 : StableHlo.TRef sig ⟨S100000x1, .f32⟩) Host.sqrt,
    StableHlo.unary main_v151 main_v152 (broadcastInDim S100000x128 ![0, 1] bcast_S100000x1_S100000x128_0_1 : (⟨S100000x1, .f32⟩ : BufTy).Contents (Elt F) → (⟨S100000x128, .f32⟩ : BufTy).Contents (Elt F)),
    StableHlo.binary main_v118 main_v152 main_v153 (Host.divf : (⟨S100000x128, .f32⟩ : BufTy).Contents (Elt F) → (⟨S100000x128, .f32⟩ : BufTy).Contents (Elt F) → (⟨S100000x128, .f32⟩ : BufTy).Contents (Elt F)),
    StableHlo.TRef.binary (.of main_v86 : StableHlo.TRef sig ⟨S100000x128, .f32⟩) (.of main_v86 : StableHlo.TRef sig ⟨S100000x128, .f32⟩) (.of main_call5_v0 : StableHlo.TRef sig ⟨S100000x128, .f32⟩) mulf,
    StableHlo.TRef.nullary (.of main_call5_cst : StableHlo.TRef sig ⟨S_, .f32⟩) (constant S_ .f32 0x00000000#32),
    StableHlo.TRef.binary (.of main_call5_v0 : StableHlo.TRef sig ⟨S100000x128, .f32⟩) (.of main_call5_cst : StableHlo.TRef sig ⟨S_, .f32⟩) (.of main_call5_v1 : StableHlo.TRef sig ⟨S100000, .f32⟩) (fun x v => Host.reduceAdd x v reducesTo_S100000x128_S100000_d1 h_S_),
    StableHlo.TRef.unary (.of main_call5_v1 : StableHlo.TRef sig ⟨S100000, .f32⟩) (.of main_call5_v2 : StableHlo.TRef sig ⟨S100000x1, .f32⟩) (broadcastInDim S100000x1 ![0] bcast_S100000_S100000x1_0),
    StableHlo.TRef.unary (.of main_call5_v2 : StableHlo.TRef sig ⟨S100000x1, .f32⟩) (.of main_v154 : StableHlo.TRef sig ⟨S100000x1, .f32⟩) Host.sqrt ]

/-- The 11 operations from the one writing `main_v155` to the one writing `main_v162`. -/
abbrev ops18 : List (HloOp τ sig (Elt F)) :=
  [ StableHlo.unary main_v154 main_v155 (broadcastInDim S100000x128 ![0, 1] bcast_S100000x1_S100000x128_0_1 : (⟨S100000x1, .f32⟩ : BufTy).Contents (Elt F) → (⟨S100000x128, .f32⟩ : BufTy).Contents (Elt F)),
    StableHlo.binary main_v86 main_v155 main_v156 (Host.divf : (⟨S100000x128, .f32⟩ : BufTy).Contents (Elt F) → (⟨S100000x128, .f32⟩ : BufTy).Contents (Elt F) → (⟨S100000x128, .f32⟩ : BufTy).Contents (Elt F)),
    StableHlo.binary main_v153 main_v156 main_v157 (mulf : (⟨S100000x128, .f32⟩ : BufTy).Contents (Elt F) → (⟨S100000x128, .f32⟩ : BufTy).Contents (Elt F) → (⟨S100000x128, .f32⟩ : BufTy).Contents (Elt F)),
    StableHlo.nullary main_cst_23 (constant S_ .f32 0x00000000#32),
    StableHlo.binary main_v157 main_cst_23 main_v158 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    StableHlo.nullary main_cst_24 (constant S_ .f32 0x40000000#32),
    StableHlo.unary main_cst_24 main_v159 (broadcastInDim S100000 ![] bcast_S_S100000 : (⟨S_, .f32⟩ : BufTy).Contents (Elt F) → (⟨S100000, .f32⟩ : BufTy).Contents (Elt F)),
    StableHlo.binary main_v159 main_v158 main_v160 (mulf : (⟨S100000, .f32⟩ : BufTy).Contents (Elt F) → (⟨S100000, .f32⟩ : BufTy).Contents (Elt F) → (⟨S100000, .f32⟩ : BufTy).Contents (Elt F)),
    StableHlo.nullary main_cst_25 (constant S_ .f32 0x40000000#32),
    StableHlo.unary main_cst_25 main_v161 (broadcastInDim S100000 ![] bcast_S_S100000 : (⟨S_, .f32⟩ : BufTy).Contents (Elt F) → (⟨S100000, .f32⟩ : BufTy).Contents (Elt F)),
    StableHlo.binary main_v161 main_v160 main_v162 (subf : (⟨S100000, .f32⟩ : BufTy).Contents (Elt F) → (⟨S100000, .f32⟩ : BufTy).Contents (Elt F) → (⟨S100000, .f32⟩ : BufTy).Contents (Elt F)) ]

/-- The 15 operations from the one writing `main_call6_v0` to the one writing `main_v169`. -/
abbrev ops19 : List (HloOp τ sig (Elt F)) :=
  [ StableHlo.TRef.binary (.of main_v150 : StableHlo.TRef sig ⟨S100000x128, .f32⟩) (.of main_v150 : StableHlo.TRef sig ⟨S100000x128, .f32⟩) (.of main_call6_v0 : StableHlo.TRef sig ⟨S100000x128, .f32⟩) mulf,
    StableHlo.TRef.nullary (.of main_call6_cst : StableHlo.TRef sig ⟨S_, .f32⟩) (constant S_ .f32 0x00000000#32),
    StableHlo.TRef.binary (.of main_call6_v0 : StableHlo.TRef sig ⟨S100000x128, .f32⟩) (.of main_call6_cst : StableHlo.TRef sig ⟨S_, .f32⟩) (.of main_call6_v1 : StableHlo.TRef sig ⟨S100000, .f32⟩) (fun x v => Host.reduceAdd x v reducesTo_S100000x128_S100000_d1 h_S_),
    StableHlo.TRef.unary (.of main_call6_v1 : StableHlo.TRef sig ⟨S100000, .f32⟩) (.of main_call6_v2 : StableHlo.TRef sig ⟨S100000x1, .f32⟩) (broadcastInDim S100000x1 ![0] bcast_S100000_S100000x1_0),
    StableHlo.TRef.unary (.of main_call6_v2 : StableHlo.TRef sig ⟨S100000x1, .f32⟩) (.of main_v163 : StableHlo.TRef sig ⟨S100000x1, .f32⟩) Host.sqrt,
    StableHlo.unary main_v163 main_v164 (broadcastInDim S100000x128 ![0, 1] bcast_S100000x1_S100000x128_0_1 : (⟨S100000x1, .f32⟩ : BufTy).Contents (Elt F) → (⟨S100000x128, .f32⟩ : BufTy).Contents (Elt F)),
    StableHlo.binary main_v150 main_v164 main_v165 (Host.divf : (⟨S100000x128, .f32⟩ : BufTy).Contents (Elt F) → (⟨S100000x128, .f32⟩ : BufTy).Contents (Elt F) → (⟨S100000x128, .f32⟩ : BufTy).Contents (Elt F)),
    StableHlo.TRef.binary (.of main_v69 : StableHlo.TRef sig ⟨S100000x128, .f32⟩) (.of main_v69 : StableHlo.TRef sig ⟨S100000x128, .f32⟩) (.of main_call7_v0 : StableHlo.TRef sig ⟨S100000x128, .f32⟩) mulf,
    StableHlo.TRef.nullary (.of main_call7_cst : StableHlo.TRef sig ⟨S_, .f32⟩) (constant S_ .f32 0x00000000#32),
    StableHlo.TRef.binary (.of main_call7_v0 : StableHlo.TRef sig ⟨S100000x128, .f32⟩) (.of main_call7_cst : StableHlo.TRef sig ⟨S_, .f32⟩) (.of main_call7_v1 : StableHlo.TRef sig ⟨S100000, .f32⟩) (fun x v => Host.reduceAdd x v reducesTo_S100000x128_S100000_d1 h_S_),
    StableHlo.TRef.unary (.of main_call7_v1 : StableHlo.TRef sig ⟨S100000, .f32⟩) (.of main_call7_v2 : StableHlo.TRef sig ⟨S100000x1, .f32⟩) (broadcastInDim S100000x1 ![0] bcast_S100000_S100000x1_0),
    StableHlo.TRef.unary (.of main_call7_v2 : StableHlo.TRef sig ⟨S100000x1, .f32⟩) (.of main_v166 : StableHlo.TRef sig ⟨S100000x1, .f32⟩) Host.sqrt,
    StableHlo.unary main_v166 main_v167 (broadcastInDim S100000x128 ![0, 1] bcast_S100000x1_S100000x128_0_1 : (⟨S100000x1, .f32⟩ : BufTy).Contents (Elt F) → (⟨S100000x128, .f32⟩ : BufTy).Contents (Elt F)),
    StableHlo.binary main_v69 main_v167 main_v168 (Host.divf : (⟨S100000x128, .f32⟩ : BufTy).Contents (Elt F) → (⟨S100000x128, .f32⟩ : BufTy).Contents (Elt F) → (⟨S100000x128, .f32⟩ : BufTy).Contents (Elt F)),
    StableHlo.binary main_v165 main_v168 main_v169 (mulf : (⟨S100000x128, .f32⟩ : BufTy).Contents (Elt F) → (⟨S100000x128, .f32⟩ : BufTy).Contents (Elt F) → (⟨S100000x128, .f32⟩ : BufTy).Contents (Elt F)) ]

/-- The 13 operations from the one writing `main_cst_26` to the one writing `main_v177`. -/
abbrev ops20 : List (HloOp τ sig (Elt F)) :=
  [ StableHlo.nullary main_cst_26 (constant S_ .f32 0x00000000#32),
    StableHlo.binary main_v169 main_cst_26 main_v170 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    StableHlo.nullary main_cst_27 (constant S_ .f32 0x40000000#32),
    StableHlo.unary main_cst_27 main_v171 (broadcastInDim S100000 ![] bcast_S_S100000 : (⟨S_, .f32⟩ : BufTy).Contents (Elt F) → (⟨S100000, .f32⟩ : BufTy).Contents (Elt F)),
    StableHlo.binary main_v171 main_v170 main_v172 (mulf : (⟨S100000, .f32⟩ : BufTy).Contents (Elt F) → (⟨S100000, .f32⟩ : BufTy).Contents (Elt F) → (⟨S100000, .f32⟩ : BufTy).Contents (Elt F)),
    StableHlo.nullary main_cst_28 (constant S_ .f32 0x40000000#32),
    StableHlo.unary main_cst_28 main_v173 (broadcastInDim S100000 ![] bcast_S_S100000 : (⟨S_, .f32⟩ : BufTy).Contents (Elt F) → (⟨S100000, .f32⟩ : BufTy).Contents (Elt F)),
    StableHlo.binary main_v173 main_v172 main_v174 (subf : (⟨S100000, .f32⟩ : BufTy).Contents (Elt F) → (⟨S100000, .f32⟩ : BufTy).Contents (Elt F) → (⟨S100000, .f32⟩ : BufTy).Contents (Elt F)),
    StableHlo.binary main_v162 main_v174 main_v175 (addf : (⟨S100000, .f32⟩ : BufTy).Contents (Elt F) → (⟨S100000, .f32⟩ : BufTy).Contents (Elt F) → (⟨S100000, .f32⟩ : BufTy).Contents (Elt F)),
    StableHlo.nullary main_cst_29 (constant S_ .f32 0x00000000#32),
    StableHlo.binary main_v175 main_cst_29 main_v176 ((fun x v => Host.reduceAdd x v reducesTo_S100000_S_d0 h_S_) : (⟨S100000, .f32⟩ : BufTy).Contents (Elt F) → (⟨S_, .f32⟩ : BufTy).Contents (Elt F) → (⟨S_, .f32⟩ : BufTy).Contents (Elt F)),
    StableHlo.nullary main_cst_30 (constant S_ .f32 0x47C35000#32),
    StableHlo.binary main_v176 main_cst_30 main_v177 (Host.divf : (⟨S_, .f32⟩ : BufTy).Contents (Elt F) → (⟨S_, .f32⟩ : BufTy).Contents (Elt F) → (⟨S_, .f32⟩ : BufTy).Contents (Elt F)) ]

/-- The whole line: the lists in order, concatenated, nested to the right. -/
abbrev ops : List (HloOp τ sig (Elt F)) :=
  ops00 ++ (ops01 ++ (ops02 ++ (ops03 ++ (ops04 ++ (ops05 ++ (ops06 ++ (ops07 ++ (ops08 ++ (ops09 ++ (ops10 ++ (ops11 ++ (ops12 ++ (ops13 ++ (ops14 ++ (ops15 ++ (ops16 ++ (ops17 ++ (ops18 ++ (ops19 ++ (ops20))))))))))))))))))))

end Cert.RefOps

end
-- ==== Proof.RefRun.lean ====
/-
  The one-multiply-then-aggregate program runs to the end, and what its buffers then hold.

  The program's four consecutive windows are, each, the straight line of some of the lists of operations of
  `Cert.RefOps` in order (the called functions written out at their calls are those functions' bodies, by unfolding), so
  the whole program is the straight line of `ops`. Every operation touches TensorCore buffers only and determines what it
  writes, and the program scopes no buffer and no semaphore; so from any memory with zero counters every weakly fair
  execution terminates, and each buffer ends at the fold of the operations' results over the contents at launch.
-/
import proofs.«108390_j87840671138373_2_alg».proof.Proof.RefOps

noncomputable section

namespace Cert.RefRun

open Cert.ReferenceIdeal Cert.ReferenceIdeal.Gen Cert.RefOps Idealize.ShloMosaic Idealize.ShloMosaic.TcCoe Idealize.SL.Sem Idealize.ShloMosaic.StableHlo

variable {F : FTy → Type} [FloatOps F]

/-! ## The program is the line of operations -/

/-- The first window is the line of its lists: both sides are one chain of steps, the called functions' bodies unfolded. -/
theorem part0_eq (c : Dev nD) : main_part0 (F := F) c = seq (ops00 ++ (ops01 ++ ops02)) := rfl

/-- The second window is the line of its lists: both sides are one chain of steps, the called functions' bodies unfolded. -/
theorem part1_eq (c : Dev nD) : main_part1 (F := F) c = seq (ops03 ++ (ops04 ++ (ops05 ++ (ops06 ++ (ops07 ++ (ops08 ++ ops09)))))) := rfl

/-- The third window is the line of its lists: both sides are one chain of steps, the called functions' bodies unfolded. -/
theorem part2_eq (c : Dev nD) : main_part2 (F := F) c = seq (ops10 ++ (ops11 ++ (ops12 ++ (ops13 ++ (ops14 ++ (ops15 ++ (ops16 ++ ops17))))))) := rfl

/-- The fourth window is the line of its lists: both sides are one chain of steps, the called functions' bodies unfolded. -/
theorem part3_eq (c : Dev nD) : main_part3 (F := F) c = seq (ops18 ++ (ops19 ++ ops20)) := rfl

/-- The program is the line of all the operations: the windows run in order, and two lines run one after the other are
    their concatenation run as one. -/
theorem main_eq (c : Dev nD) : main (F := F) c = seq ops := by
  have h : main (F := F) c
      = (main_part0 c >>= fun _ => main_part1 c >>= fun _ => main_part2 c >>= fun _ => main_part3 c) := rfl
  rw [h, part0_eq, part1_eq, part2_eq, part3_eq, ← seq_append, ← seq_append, ← seq_append]
  simp only [List.append_assoc]

/-! ## Nothing is scoped -/

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only -/

theorem ops00_sub : (ops00 : List (HloOp τ sig (Elt F))).Forall fun op => op.bufs ⊆ tcRefs τ sig :=
  ⟨binary_bufs_sub .., binary_bufs_sub .., unary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., binary_bufs_sub .., nullary_bufs_sub .., unary_bufs_sub .., unary_bufs_sub .., ternary_bufs_sub ..,
    unary_bufs_sub .., unary_bufs_sub .., binary_bufs_sub .., binary_bufs_sub ..⟩
theorem ops01_sub : (ops01 : List (HloOp τ sig (Elt F))).Forall fun op => op.bufs ⊆ tcRefs τ sig :=
  ⟨binary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    binary_bufs_sub .., nullary_bufs_sub .., unary_bufs_sub .., unary_bufs_sub .., ternary_bufs_sub .., unary_bufs_sub ..,
    unary_bufs_sub .., binary_bufs_sub ..⟩
theorem ops02_sub : (ops02 : List (HloOp τ sig (Elt F))).Forall fun op => op.bufs ⊆ tcRefs τ sig :=
  ⟨binary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    binary_bufs_sub .., nullary_bufs_sub .., unary_bufs_sub .., unary_bufs_sub .., ternary_bufs_sub .., unary_bufs_sub ..⟩
theorem ops03_sub : (ops03 : List (HloOp τ sig (Elt F))).Forall fun op => op.bufs ⊆ tcRefs τ sig :=
  ⟨unary_bufs_sub .., binary_bufs_sub ..⟩
theorem ops04_sub : (ops04 : List (HloOp τ sig (Elt F))).Forall fun op => op.bufs ⊆ tcRefs τ sig :=
  ⟨binary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    binary_bufs_sub .., nullary_bufs_sub .., unary_bufs_sub .., unary_bufs_sub .., ternary_bufs_sub .., unary_bufs_sub ..,
    unary_bufs_sub .., binary_bufs_sub ..⟩
theorem ops05_sub : (ops05 : List (HloOp τ sig (Elt F))).Forall fun op => op.bufs ⊆ tcRefs τ sig :=
  ⟨binary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    binary_bufs_sub .., nullary_bufs_sub .., unary_bufs_sub .., unary_bufs_sub .., ternary_bufs_sub .., unary_bufs_sub ..,
    unary_bufs_sub .., binary_bufs_sub ..⟩
theorem ops06_sub : (ops06 : List (HloOp τ sig (Elt F))).Forall fun op => op.bufs ⊆ tcRefs τ sig :=
  ⟨binary_bufs_sub .., unary_bufs_sub .., unary_bufs_sub .., binary_bufs_sub ..⟩
theorem ops07_sub : (ops07 : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub ..⟩
theorem ops08_sub : (ops08 : List (HloOp τ sig (Elt F))).Forall fun op => op.bufs ⊆ tcRefs τ sig :=
  ⟨unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub ..⟩
theorem ops09_sub : (ops09 : List (HloOp τ sig (Elt F))).Forall fun op => op.bufs ⊆ tcRefs τ sig :=
  ⟨unary_bufs_sub .., unary_bufs_sub .., binary_bufs_sub .., nullary_bufs_sub .., unary_bufs_sub .., binary_bufs_sub ..,
    unary_bufs_sub ..⟩
theorem ops10_sub : (ops10 : List (HloOp τ sig (Elt F))).Forall fun op => op.bufs ⊆ tcRefs τ sig :=
  ⟨unary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub ..,
    unary_bufs_sub .., binary_bufs_sub .., ternary_bufs_sub ..⟩
theorem ops11_sub : (ops11 : List (HloOp τ sig (Elt F))).Forall fun op => op.bufs ⊆ tcRefs τ sig :=
  ⟨binary_bufs_sub .., unary_bufs_sub .., unary_bufs_sub .., binary_bufs_sub ..⟩
theorem ops12_sub : (ops12 : List (HloOp τ sig (Elt F))).Forall fun op => op.bufs ⊆ tcRefs τ sig :=
  ⟨binary_bufs_sub .., unary_bufs_sub .., unary_bufs_sub .., binary_bufs_sub ..⟩
theorem ops13_sub : (ops13 : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub ..⟩
theorem ops14_sub : (ops14 : List (HloOp τ sig (Elt F))).Forall fun op => op.bufs ⊆ tcRefs τ sig :=
  ⟨unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub ..⟩
theorem ops15_sub : (ops15 : List (HloOp τ sig (Elt F))).Forall fun op => op.bufs ⊆ tcRefs τ sig :=
  ⟨unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub .., unary_bufs_sub .., binary_bufs_sub .., ternary_bufs_sub ..⟩
theorem ops16_sub : (ops16 : List (HloOp τ sig (Elt F))).Forall fun op => op.bufs ⊆ tcRefs τ sig :=
  ⟨binary_bufs_sub .., unary_bufs_sub .., unary_bufs_sub .., binary_bufs_sub ..⟩
theorem ops17_sub : (ops17 : List (HloOp τ sig (Elt F))).Forall fun op => op.bufs ⊆ tcRefs τ sig :=
  ⟨binary_bufs_sub .., nullary_bufs_sub .., binary_bufs_sub .., unary_bufs_sub .., unary_bufs_sub .., unary_bufs_sub ..,
    binary_bufs_sub .., binary_bufs_sub .., nullary_bufs_sub .., binary_bufs_sub .., unary_bufs_sub .., unary_bufs_sub ..⟩
theorem ops18_sub : (ops18 : List (HloOp τ sig (Elt F))).Forall fun op => op.bufs ⊆ tcRefs τ sig :=
  ⟨unary_bufs_sub .., binary_bufs_sub .., binary_bufs_sub .., nullary_bufs_sub .., binary_bufs_sub .., nullary_bufs_sub ..,
    unary_bufs_sub .., binary_bufs_sub .., nullary_bufs_sub .., unary_bufs_sub .., binary_bufs_sub ..⟩
theorem ops19_sub : (ops19 : List (HloOp τ sig (Elt F))).Forall fun op => op.bufs ⊆ tcRefs τ sig :=
  ⟨binary_bufs_sub .., nullary_bufs_sub .., binary_bufs_sub .., unary_bufs_sub .., unary_bufs_sub .., unary_bufs_sub ..,
    binary_bufs_sub .., binary_bufs_sub .., nullary_bufs_sub .., binary_bufs_sub .., unary_bufs_sub .., unary_bufs_sub ..,
    unary_bufs_sub .., binary_bufs_sub .., binary_bufs_sub ..⟩
theorem ops20_sub : (ops20 : List (HloOp τ sig (Elt F))).Forall fun op => op.bufs ⊆ tcRefs τ sig :=
  ⟨nullary_bufs_sub .., binary_bufs_sub .., nullary_bufs_sub .., unary_bufs_sub .., binary_bufs_sub .., nullary_bufs_sub ..,
    unary_bufs_sub .., binary_bufs_sub .., binary_bufs_sub .., nullary_bufs_sub .., binary_bufs_sub .., nullary_bufs_sub ..,
    binary_bufs_sub ..⟩

theorem ops_sub : (ops : List (HloOp τ sig (Elt F))).Forall fun op => op.bufs ⊆ tcRefs τ sig :=
  List.forall_append.mpr ⟨ops00_sub, List.forall_append.mpr ⟨ops01_sub, List.forall_append.mpr ⟨ops02_sub, List.forall_append.mpr ⟨ops03_sub, List.forall_append.mpr ⟨ops04_sub, List.forall_append.mpr ⟨ops05_sub, List.forall_append.mpr ⟨ops06_sub, List.forall_append.mpr ⟨ops07_sub, List.forall_append.mpr ⟨ops08_sub, List.forall_append.mpr ⟨ops09_sub, List.forall_append.mpr ⟨ops10_sub, List.forall_append.mpr ⟨ops11_sub, List.forall_append.mpr ⟨ops12_sub, List.forall_append.mpr ⟨ops13_sub, List.forall_append.mpr ⟨ops14_sub, List.forall_append.mpr ⟨ops15_sub, List.forall_append.mpr ⟨ops16_sub, List.forall_append.mpr ⟨ops17_sub, List.forall_append.mpr ⟨ops18_sub, List.forall_append.mpr ⟨ops19_sub, ops20_sub⟩⟩⟩⟩⟩⟩⟩⟩⟩⟩⟩⟩⟩⟩⟩⟩⟩⟩⟩⟩

/-! ## Every operation determines what it writes -/

theorem ops00_fresh : (ops00 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl⟩
theorem ops01_fresh : (ops01 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
theorem ops02_fresh : (ops02 : List (HloOp τ sig (Elt F))).Forall fun op => op.fresh = ∅ :=
  ⟨rfl, rfl, rfl, rfl, rfl, rfl, rfl, rfl, rfl, rfl, rfl, rfl, rfl, rfl, rfl, rfl, rfl, rfl⟩
theorem ops03_fresh : (ops03 : List (HloOp τ sig (Elt F))).Forall fun op => op.fresh = ∅ :=
  ⟨rfl, rfl⟩
theorem ops04_fresh : (ops04 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
theorem ops05_fresh : (ops05 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
theorem ops06_fresh : (ops06 : List (HloOp τ sig (Elt F))).Forall fun op => op.fresh = ∅ :=
  ⟨rfl, rfl, rfl, rfl⟩
theorem ops07_fresh : (ops07 : List (HloOp τ sig (Elt F))).Forall fun op => op.fresh = ∅ :=
  ⟨rfl, rfl, rfl, rfl, rfl, rfl, rfl, rfl, rfl, rfl, rfl, rfl, rfl, rfl, rfl⟩
theorem ops08_fresh : (ops08 : List (HloOp τ sig (Elt F))).Forall fun op => op.fresh = ∅ :=
  ⟨rfl, rfl, rfl, rfl, rfl, rfl, rfl, rfl, rfl, rfl, rfl, rfl, rfl⟩
theorem ops09_fresh : (ops09 : List (HloOp τ sig (Elt F))).Forall fun op => op.fresh = ∅ :=
  ⟨rfl, rfl, rfl, rfl, rfl, rfl, rfl⟩
theorem ops10_fresh : (ops10 : List (HloOp τ sig (Elt F))).Forall fun op => op.fresh = ∅ :=
  ⟨rfl, rfl, rfl, rfl, rfl, rfl, rfl, rfl, rfl, rfl, rfl, rfl, rfl, rfl, rfl⟩
theorem ops11_fresh : (ops11 : List (HloOp τ sig (Elt F))).Forall fun op => op.fresh = ∅ :=
  ⟨rfl, rfl, rfl, rfl⟩
theorem ops12_fresh : (ops12 : List (HloOp τ sig (Elt F))).Forall fun op => op.fresh = ∅ :=
  ⟨rfl, rfl, rfl, rfl⟩
theorem ops13_fresh : (ops13 : List (HloOp τ sig (Elt F))).Forall fun op => op.fresh = ∅ :=
  ⟨rfl, rfl, rfl, rfl, rfl, rfl, rfl, rfl, rfl, rfl, rfl, rfl, rfl, rfl, rfl⟩
theorem ops14_fresh : (ops14 : List (HloOp τ sig (Elt F))).Forall fun op => op.fresh = ∅ :=
  ⟨rfl, rfl, rfl, rfl, rfl, rfl, rfl, rfl, rfl, rfl, rfl, rfl, rfl⟩
theorem ops15_fresh : (ops15 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl⟩
theorem ops16_fresh : (ops16 : List (HloOp τ sig (Elt F))).Forall fun op => op.fresh = ∅ :=
  ⟨rfl, rfl, rfl, rfl⟩
theorem ops17_fresh : (ops17 : List (HloOp τ sig (Elt F))).Forall fun op => op.fresh = ∅ :=
  ⟨rfl, rfl, rfl, rfl, rfl, rfl, rfl, rfl, rfl, rfl, rfl, rfl⟩
theorem ops18_fresh : (ops18 : List (HloOp τ sig (Elt F))).Forall fun op => op.fresh = ∅ :=
  ⟨rfl, rfl, rfl, rfl, rfl, rfl, rfl, rfl, rfl, rfl, rfl⟩
theorem ops19_fresh : (ops19 : List (HloOp τ sig (Elt F))).Forall fun op => op.fresh = ∅ :=
  ⟨rfl, rfl, rfl, rfl, rfl, rfl, rfl, rfl, rfl, rfl, rfl, rfl, rfl, rfl, rfl⟩
theorem ops20_fresh : (ops20 : List (HloOp τ sig (Elt F))).Forall fun op => op.fresh = ∅ :=
  ⟨rfl, rfl, rfl, rfl, rfl, rfl, rfl, rfl, rfl, rfl, rfl, rfl, rfl⟩

theorem ops_fresh : ∀ op ∈ (ops : List (HloOp τ sig (Elt F))), op.fresh = ∅ :=
  List.forall_iff_forall_mem.mp (List.forall_append.mpr ⟨ops00_fresh, List.forall_append.mpr ⟨ops01_fresh, List.forall_append.mpr ⟨ops02_fresh, List.forall_append.mpr ⟨ops03_fresh, List.forall_append.mpr ⟨ops04_fresh, List.forall_append.mpr ⟨ops05_fresh, List.forall_append.mpr ⟨ops06_fresh, List.forall_append.mpr ⟨ops07_fresh, List.forall_append.mpr ⟨ops08_fresh, List.forall_append.mpr ⟨ops09_fresh, List.forall_append.mpr ⟨ops10_fresh, List.forall_append.mpr ⟨ops11_fresh, List.forall_append.mpr ⟨ops12_fresh, List.forall_append.mpr ⟨ops13_fresh, List.forall_append.mpr ⟨ops14_fresh, List.forall_append.mpr ⟨ops15_fresh, List.forall_append.mpr ⟨ops16_fresh, List.forall_append.mpr ⟨ops17_fresh, List.forall_append.mpr ⟨ops18_fresh, List.forall_append.mpr ⟨ops19_fresh, ops20_fresh⟩⟩⟩⟩⟩⟩⟩⟩⟩⟩⟩⟩⟩⟩⟩⟩⟩⟩⟩⟩)

/-! ## The run -/

/-- For any float values, from any memory with zero counters: every weakly fair execution of the program terminates, and
    every final state has each TensorCore buffer at the fold of the operations' results over the contents at launch. -/
theorem run_raw (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.RefRun

end
-- ==== Proof.RefValue.lean ====
/-
  The one-multiply-then-aggregate program's line of operations, read down to the named terms.

  The line is read stretch by stretch. For each stretch: what it leaves at the few buffers later stretches read, as a
  term of the contents before it (the graph convolutions and linear layers as the terms already named; the batch
  normalisation and the loss in the pieces named below, whose compositions are `bnAct` and `lossOf`); and that it leaves
  every buffer outside the list of those it writes as it was. Composing these along the line gives the two results as
  `embedRef` and `lossRef` of the sixteen arguments, and the arguments unchanged.
-/
import proofs.«108390_j87840671138373_2_alg».proof.Proof.RefRun
import proofs.«108390_j87840671138373_2_alg».proof.Proof.Tail
import proofs.«108390_j87840671138373_2_alg».proof.Proof.LibHostFold

noncomputable section

namespace Cert.RefValue

open Cert.ReferenceIdeal Cert.ReferenceIdeal.Gen Idealize.ShloMosaic Idealize.ShloMosaic.TcCoe Idealize.SL.Sem Idealize.ShloMosaic.StableHlo
open Cert.RefOps Cert.HostFold Cert.Terms

/-! ## The batch normalisation and the loss, in the stretches the line is read in -/

/-- The column mean: the column sums over the sample count. -/
def bnMean (h : FVec Ideal S100000x128 .f32) : FVec Ideal S128 .f32 :=
  Host.divf (F := Ideal)
    (Host.reduceAdd (F := Ideal) h (constant (F := Ideal) S_ .f32 0x00000000#32) reducesTo_S100000x128_S128_d0 h_S_)
    (broadcastInDim S128 ![] bcast_S_S128 (constant (F := Ideal) S_ .f32 0x47C35000#32))

/-- The squares of the entries centred by their column mean. -/
def bnSq (h : FVec Ideal S100000x128 .f32) : FVec Ideal S100000x128 .f32 :=
  have q5 : FVec Ideal S100000x128 .f32 :=
    subf h (broadcastInDim S100000x128 ![0, 1] bcast_S1x128_S100000x128_0_1
      (Host.divf (F := Ideal)
        (broadcastInDim S1x128 ![1] bcast_S128_S1x128_1
          (Host.reduceAdd (F := Ideal) h (constant (F := Ideal) S_ .f32 0x00000000#32) reducesTo_S100000x128_S128_d0 h_S_))
        (broadcastInDim S1x128 ![] bcast_S_S1x128 (constant (F := Ideal) S_ .f32 0x47C35000#32))))
  mulf q5 q5

/-- The column sums of the centred squares over the divisor 100000 − c, kept where the divisor is positive. -/
def bnVar (c : IVec S_ 32) (sq : FVec Ideal S100000x128 .f32) : FVec Ideal S128 .f32 :=
  have q8 : FVec Ideal S_ .f32 := subf (constant (F := Ideal) S_ .f32 0x47C35000#32) (sitofp (F := Ideal) .f32 c)
  select
    (broadcastInDim S128 ![] bcast_S_S128 (cmpf (F := Ideal) .ogt q8 (constant (F := Ideal) S_ .f32 0x00000000#32)))
    (Host.divf (F := Ideal)
      (Host.reduceAdd (F := Ideal) sq (constant (F := Ideal) S_ .f32 0x00000000#32) reducesTo_S100000x128_S128_d0 h_S_)
      (broadcastInDim S128 ![] bcast_S_S128 q8))
    (broadcastInDim S128 ![] bcast_S_S128 (id (constant (F := Ideal) S_ .f32 0x7FC00000#32)))

/-- The entries centred by a column vector. -/
def bnCen (mean : FVec Ideal S128 .f32) (h : FVec Ideal S100000x128 .f32) : FVec Ideal S100000x128 .f32 :=
  subf h (broadcastInDim S100000x128 ![0, 1] bcast_S1x128_S100000x128_0_1 (broadcastInDim S1x128 ![1] bcast_S128_S1x128_1 mean))

/-- The reciprocal square root of the variance plus 1e-5. -/
def bnInv (var : FVec Ideal S128 .f32) : FVec Ideal S128 .f32 :=
  Host.rsqrt (F := Ideal) (addf var (broadcastInDim S128 ![] bcast_S_S128 (constant (F := Ideal) S_ .f32 0x3727C5AC#32)))

/-- Scale by the reciprocal deviation, by g, shift by b, then y ↦ if y > 0 then y else a·y. -/
def bnOut (inv : FVec Ideal S128 .f32) (cen : FVec Ideal S100000x128 .f32) (g b : FVec Ideal S128 .f32) (a : FVec Ideal S_ .f32) :
    FVec Ideal S100000x128 .f32 :=
  have v109 : FVec Ideal S100000x128 .f32 :=
    addf
      (mulf
        (mulf cen (broadcastInDim S100000x128 ![0, 1] bcast_S1x128_S100000x128_0_1 (broadcastInDim S1x128 ![1] bcast_S128_S1x128_1 inv)))
        (broadcastInDim S100000x128 ![0, 1] bcast_S1x128_S100000x128_0_1 (broadcastInDim S1x128 ![1] bcast_S128_S1x128_1 g)))
      (broadcastInDim S100000x128 ![0, 1] bcast_S1x128_S100000x128_0_1 (broadcastInDim S1x128 ![1] bcast_S128_S1x128_1 b))
  select
    (cmpf (F := Ideal) .ogt v109 (broadcastInDim S100000x128 ![] bcast_S_S100000x128 (constant (F := Ideal) S_ .f32 0x00000000#32)))
    v109
    (mulf (broadcastInDim S100000x128 ![] bcast_S_S100000x128 a) v109)

/-- The batch normalisation with its rectifier is the composition of these stretches. -/
theorem bnAct_eq (h : FVec Ideal S100000x128 .f32) (g b : FVec Ideal S128 .f32) (a : FVec Ideal S_ .f32) :
    bnAct h g b a = bnOut (bnInv (bnVar (constantI S_ 32 0#32) (bnSq h))) (bnCen (bnMean h) h) g b a := rfl

/-- The row norm as one column: the square root of the row sums of squares. -/
def rowNorm (u : FVec Ideal S100000x128 .f32) : FVec Ideal S100000x1 .f32 :=
  Host.sqrt (F := Ideal)
    (broadcastInDim S100000x1 ![0] bcast_S100000_S100000x1_0
      (Host.reduceAdd (F := Ideal) (mulf u u) (constant (F := Ideal) S_ .f32 0x00000000#32) reducesTo_S100000x128_S100000_d1 h_S_))

/-- Each row over a column of divisors. -/
def rowDiv (u : FVec Ideal S100000x128 .f32) (n : FVec Ideal S100000x1 .f32) : FVec Ideal S100000x128 .f32 :=
  Host.divf (F := Ideal) u (broadcastInDim S100000x128 ![0, 1] bcast_S100000x1_S100000x128_0_1 n)

/-- 2 − 2·(the row sums of an array of products). -/
def twoMinus (p : FVec Ideal S100000x128 .f32) : FVec Ideal S100000 .f32 :=
  subf (broadcastInDim S100000 ![] bcast_S_S100000 (constant (F := Ideal) S_ .f32 0x40000000#32))
    (mulf (broadcastInDim S100000 ![] bcast_S_S100000 (constant (F := Ideal) S_ .f32 0x40000000#32))
      (Host.reduceAdd (F := Ideal) p (constant (F := Ideal) S_ .f32 0x00000000#32) reducesTo_S100000x128_S100000_d1 h_S_))

/-- The two distances added, summed over the samples, over the sample count. -/
def lossEnd (d₁ d₂ : FVec Ideal S100000 .f32) : FVec Ideal S_ .f32 :=
  Host.divf (F := Ideal)
    (Host.reduceAdd (F := Ideal) (addf d₁ d₂) (constant (F := Ideal) S_ .f32 0x00000000#32) reducesTo_S100000_S_d0 h_S_)
    (constant (F := Ideal) S_ .f32 0x47C35000#32)

/-- The loss is the composition of these stretches. -/
theorem lossOf_eq (px tx py ty : FVec Ideal S100000x128 .f32) :
    lossOf px tx py ty
      = lossEnd (twoMinus (mulf (rowDiv px (rowNorm px)) (rowDiv tx (rowNorm tx))))
          (twoMinus (mulf (rowDiv py (rowNorm py)) (rowDiv ty (rowNorm ty)))) := rfl

/-! ## Each stretch leaves the buffers it does not write as they were -/

/-- The buffers the 22 operations of `ops00` write. -/
abbrev wr00 : List (Ref sig .tc) := [main_v0, main_v1, main_v2, main_c, main_v3, main_v4, main_c_0, main_v5, main_v6, main_v7, main_v8, main_v9, main_v10, main_v11, main_cst, main_v12, main_v13, main_v14, main_v15, main_v16, main_v17, main_v18]
theorem frame00 (V : Valuation τ sig (Elt Ideal)) {r : Ref sig .tc} (hr : r ∉ wr00) :
    after (ops00 (F := Ideal)) V (no_index (Proc.devRef .tc r)) = V (Proc.devRef .tc r) :=
  after_of_writes_sub (W := wr00) _ V (by
    simp only [ops00, List.Forall, nullary_writes, unary_writes, binary_writes, ternary_writes, Finset.singleton_subset_iff, List.mem_toFinset]
    repeat' apply And.intro
    all_goals exact List.mem_map_of_mem (by decide)) hr

/-- The buffers the 20 operations of `ops01` write. -/
abbrev wr01 : List (Ref sig .tc) := [main_v19, main_v20, main_c_1, main_v21, main_v22, main_c_2, main_v23, main_v24, main_v25, main_v26, main_v27, main_v28, main_v29, main_cst_3, main_v30, main_v31, main_v32, main_v33, main_v34, main_v35]
theorem frame01 (V : Valuation τ sig (Elt Ideal)) {r : Ref sig .tc} (hr : r ∉ wr01) :
    after (ops01 (F := Ideal)) V (no_index (Proc.devRef .tc r)) = V (Proc.devRef .tc r) :=
  after_of_writes_sub (W := wr01) _ V (by
    simp only [ops01, List.Forall, nullary_writes, unary_writes, binary_writes, ternary_writes, Finset.singleton_subset_iff, List.mem_toFinset]
    repeat' apply And.intro
    all_goals exact List.mem_map_of_mem (by decide)) hr

/-- The buffers the 18 operations of `ops02` write. -/
abbrev wr02 : List (Ref sig .tc) := [main_v36, main_v37, main_c_4, main_v38, main_v39, main_c_5, main_v40, main_v41, main_v42, main_v43, main_v44, main_v45, main_v46, main_cst_6, main_v47, main_v48, main_v49, main_v50]
theorem frame02 (V : Valuation τ sig (Elt Ideal)) {r : Ref sig .tc} (hr : r ∉ wr02) :
    after (ops02 (F := Ideal)) V (no_index (Proc.devRef .tc r)) = V (Proc.devRef .tc r) :=
  after_of_writes_sub (W := wr02) _ V (by
    simp only [ops02, List.Forall, nullary_writes, unary_writes, binary_writes, ternary_writes, Finset.singleton_subset_iff, List.mem_toFinset]
    repeat' apply And.intro
    all_goals exact List.mem_map_of_mem (by decide)) hr

/-- The buffers the 2 operations of `ops03` write. -/
abbrev wr03 : List (Ref sig .tc) := [main_v51, main_v52]
theorem frame03 (V : Valuation τ sig (Elt Ideal)) {r : Ref sig .tc} (hr : r ∉ wr03) :
    after (ops03 (F := Ideal)) V (no_index (Proc.devRef .tc r)) = V (Proc.devRef .tc r) :=
  after_of_writes_sub (W := wr03) _ V (by
    simp only [ops03, List.Forall, nullary_writes, unary_writes, binary_writes, ternary_writes, Finset.singleton_subset_iff, List.mem_toFinset]
    repeat' apply And.intro
    all_goals exact List.mem_map_of_mem (by decide)) hr

/-- The buffers the 20 operations of `ops04` write. -/
abbrev wr04 : List (Ref sig .tc) := [main_v53, main_v54, main_c_7, main_v55, main_v56, main_c_8, main_v57, main_v58, main_v59, main_v60, main_v61, main_v62, main_v63, main_cst_9, main_v64, main_v65, main_v66, main_v67, main_v68, main_v69]
theorem frame04 (V : Valuation τ sig (Elt Ideal)) {r : Ref sig .tc} (hr : r ∉ wr04) :
    after (ops04 (F := Ideal)) V (no_index (Proc.devRef .tc r)) = V (Proc.devRef .tc r) :=
  after_of_writes_sub (W := wr04) _ V (by
    simp only [ops04, List.Forall, nullary_writes, unary_writes, binary_writes, ternary_writes, Finset.singleton_subset_iff, List.mem_toFinset]
    repeat' apply And.intro
    all_goals exact List.mem_map_of_mem (by decide)) hr

/-- The buffers the 20 operations of `ops05` write. -/
abbrev wr05 : List (Ref sig .tc) := [main_v70, main_v71, main_c_10, main_v72, main_v73, main_c_11, main_v74, main_v75, main_v76, main_v77, main_v78, main_v79, main_v80, main_cst_12, main_v81, main_v82, main_v83, main_v84, main_v85, main_v86]
theorem frame05 (V : Valuation τ sig (Elt Ideal)) {r : Ref sig .tc} (hr : r ∉ wr05) :
    after (ops05 (F := Ideal)) V (no_index (Proc.devRef .tc r)) = V (Proc.devRef .tc r) :=
  after_of_writes_sub (W := wr05) _ V (by
    simp only [ops05, List.Forall, nullary_writes, unary_writes, binary_writes, ternary_writes, Finset.singleton_subset_iff, List.mem_toFinset]
    repeat' apply And.intro
    all_goals exact List.mem_map_of_mem (by decide)) hr

/-- The buffers the 4 operations of `ops06` write. -/
abbrev wr06 : List (Ref sig .tc) := [main_v87, main_v88, main_v89, main_v90]
theorem frame06 (V : Valuation τ sig (Elt Ideal)) {r : Ref sig .tc} (hr : r ∉ wr06) :
    after (ops06 (F := Ideal)) V (no_index (Proc.devRef .tc r)) = V (Proc.devRef .tc r) :=
  after_of_writes_sub (W := wr06) _ V (by
    simp only [ops06, List.Forall, nullary_writes, unary_writes, binary_writes, ternary_writes, Finset.singleton_subset_iff, List.mem_toFinset]
    repeat' apply And.intro
    all_goals exact List.mem_map_of_mem (by decide)) hr

/-- The buffers the 15 operations of `ops07` write. -/
abbrev wr07 : List (Ref sig .tc) := [main_cst_13, main_v91, main_cst_14, main_v92, main_v93, main_c_15, main_call0_cst, main_call0_v0, main_call0_v1, main_call0_cst_0, main_call0_v2, main_call0_v3, main_call0_v4, main_call0_v5, main_call0_v6]
theorem frame07 (V : Valuation τ sig (Elt Ideal)) {r : Ref sig .tc} (hr : r ∉ wr07) :
    after (ops07 (F := Ideal)) V (no_index (Proc.devRef .tc r)) = V (Proc.devRef .tc r) :=
  after_of_writes_sub (W := wr07) _ V (by
    simp only [ops07, List.Forall, nullary_writes, unary_writes, binary_writes, ternary_writes, Finset.singleton_subset_iff, List.mem_toFinset]
    repeat' apply And.intro
    all_goals exact List.mem_map_of_mem (by decide)) hr

/-- The buffers the 13 operations of `ops08` write. -/
abbrev wr08 : List (Ref sig .tc) := [main_call0_v7, main_call0_cst_1, main_call0_v8, main_call0_cst_2, main_call0_v9, main_call0_v10, main_call0_v11, main_call0_cst_3, main_call0_v12, main_call0_cst_4, main_call0_call0_v0, main_call0_call0_v1, main_v94]
theorem frame08 (V : Valuation τ sig (Elt Ideal)) {r : Ref sig .tc} (hr : r ∉ wr08) :
    after (ops08 (F := Ideal)) V (no_index (Proc.devRef .tc r)) = V (Proc.devRef .tc r) :=
  after_of_writes_sub (W := wr08) _ V (by
    simp only [ops08, List.Forall, nullary_writes, unary_writes, binary_writes, ternary_writes, Finset.singleton_subset_iff, List.mem_toFinset]
    repeat' apply And.intro
    all_goals exact List.mem_map_of_mem (by decide)) hr

/-- The buffers the 7 operations of `ops09` write. -/
abbrev wr09 : List (Ref sig .tc) := [main_v95, main_v96, main_v97, main_cst_16, main_v98, main_v99, main_v100]
theorem frame09 (V : Valuation τ sig (Elt Ideal)) {r : Ref sig .tc} (hr : r ∉ wr09) :
    after (ops09 (F := Ideal)) V (no_index (Proc.devRef .tc r)) = V (Proc.devRef .tc r) :=
  after_of_writes_sub (W := wr09) _ V (by
    simp only [ops09, List.Forall, nullary_writes, unary_writes, binary_writes, ternary_writes, Finset.singleton_subset_iff, List.mem_toFinset]
    repeat' apply And.intro
    all_goals exact List.mem_map_of_mem (by decide)) hr

/-- The buffers the 15 operations of `ops10` write. -/
abbrev wr10 : List (Ref sig .tc) := [main_v101, main_v102, main_v103, main_v104, main_v105, main_v106, main_v107, main_v108, main_v109, main_cst_17, main_v110, main_v111, main_v112, main_v113, main_v114]
theorem frame10 (V : Valuation τ sig (Elt Ideal)) {r : Ref sig .tc} (hr : r ∉ wr10) :
    after (ops10 (F := Ideal)) V (no_index (Proc.devRef .tc r)) = V (Proc.devRef .tc r) :=
  after_of_writes_sub (W := wr10) _ V (by
    simp only [ops10, List.Forall, nullary_writes, unary_writes, binary_writes, ternary_writes, Finset.singleton_subset_iff, List.mem_toFinset]
    repeat' apply And.intro
    all_goals exact List.mem_map_of_mem (by decide)) hr

/-- The buffers the 4 operations of `ops11` write. -/
abbrev wr11 : List (Ref sig .tc) := [main_v115, main_v116, main_v117, main_v118]
theorem frame11 (V : Valuation τ sig (Elt Ideal)) {r : Ref sig .tc} (hr : r ∉ wr11) :
    after (ops11 (F := Ideal)) V (no_index (Proc.devRef .tc r)) = V (Proc.devRef .tc r) :=
  after_of_writes_sub (W := wr11) _ V (by
    simp only [ops11, List.Forall, nullary_writes, unary_writes, binary_writes, ternary_writes, Finset.singleton_subset_iff, List.mem_toFinset]
    repeat' apply And.intro
    all_goals exact List.mem_map_of_mem (by decide)) hr

/-- The buffers the 4 operations of `ops12` write. -/
abbrev wr12 : List (Ref sig .tc) := [main_v119, main_v120, main_v121, main_v122]
theorem frame12 (V : Valuation τ sig (Elt Ideal)) {r : Ref sig .tc} (hr : r ∉ wr12) :
    after (ops12 (F := Ideal)) V (no_index (Proc.devRef .tc r)) = V (Proc.devRef .tc r) :=
  after_of_writes_sub (W := wr12) _ V (by
    simp only [ops12, List.Forall, nullary_writes, unary_writes, binary_writes, ternary_writes, Finset.singleton_subset_iff, List.mem_toFinset]
    repeat' apply And.intro
    all_goals exact List.mem_map_of_mem (by decide)) hr

/-- The buffers the 15 operations of `ops13` write. -/
abbrev wr13 : List (Ref sig .tc) := [main_cst_18, main_v123, main_cst_19, main_v124, main_v125, main_c_20, main_call2_cst, main_call2_v0, main_call2_v1, main_call2_cst_0, main_call2_v2, main_call2_v3, main_call2_v4, main_call2_v5, main_call2_v6]
theorem frame13 (V : Valuation τ sig (Elt Ideal)) {r : Ref sig .tc} (hr : r ∉ wr13) :
    after (ops13 (F := Ideal)) V (no_index (Proc.devRef .tc r)) = V (Proc.devRef .tc r) :=
  after_of_writes_sub (W := wr13) _ V (by
    simp only [ops13, List.Forall, nullary_writes, unary_writes, binary_writes, ternary_writes, Finset.singleton_subset_iff, List.mem_toFinset]
    repeat' apply And.intro
    all_goals exact List.mem_map_of_mem (by decide)) hr

/-- The buffers the 13 operations of `ops14` write. -/
abbrev wr14 : List (Ref sig .tc) := [main_call2_v7, main_call2_cst_1, main_call2_v8, main_call2_cst_2, main_call2_v9, main_call2_v10, main_call2_v11, main_call2_cst_3, main_call2_v12, main_call2_cst_4, main_call2_call0_v0, main_call2_call0_v1, main_v126]
theorem frame14 (V : Valuation τ sig (Elt Ideal)) {r : Ref sig .tc} (hr : r ∉ wr14) :
    after (ops14 (F := Ideal)) V (no_index (Proc.devRef .tc r)) = V (Proc.devRef .tc r) :=
  after_of_writes_sub (W := wr14) _ V (by
    simp only [ops14, List.Forall, nullary_writes, unary_writes, binary_writes, ternary_writes, Finset.singleton_subset_iff, List.mem_toFinset]
    repeat' apply And.intro
    all_goals exact List.mem_map_of_mem (by decide)) hr

/-- The buffers the 22 operations of `ops15` write. -/
abbrev wr15 : List (Ref sig .tc) := [main_v127, main_v128, main_v129, main_cst_21, main_v130, main_v131, main_v132, main_v133, main_v134, main_v135, main_v136, main_v137, main_v138, main_v139, main_v140, main_v141, main_cst_22, main_v142, main_v143, main_v144, main_v145, main_v146]
theorem frame15 (V : Valuation τ sig (Elt Ideal)) {r : Ref sig .tc} (hr : r ∉ wr15) :
    after (ops15 (F := Ideal)) V (no_index (Proc.devRef .tc r)) = V (Proc.devRef .tc r) :=
  after_of_writes_sub (W := wr15) _ V (by
    simp only [ops15, List.Forall, nullary_writes, unary_writes, binary_writes, ternary_writes, Finset.singleton_subset_iff, List.mem_toFinset]
    repeat' apply And.intro
    all_goals exact List.mem_map_of_mem (by decide)) hr

/-- The buffers the 4 operations of `ops16` write. -/
abbrev wr16 : List (Ref sig .tc) := [main_v147, main_v148, main_v149, main_v150]
theorem frame16 (V : Valuation τ sig (Elt Ideal)) {r : Ref sig .tc} (hr : r ∉ wr16) :
    after (ops16 (F := Ideal)) V (no_index (Proc.devRef .tc r)) = V (Proc.devRef .tc r) :=
  after_of_writes_sub (W := wr16) _ V (by
    simp only [ops16, List.Forall, nullary_writes, unary_writes, binary_writes, ternary_writes, Finset.singleton_subset_iff, List.mem_toFinset]
    repeat' apply And.intro
    all_goals exact List.mem_map_of_mem (by decide)) hr

/-- The buffers the 12 operations of `ops17` write. -/
abbrev wr17 : List (Ref sig .tc) := [main_call4_v0, main_call4_cst, main_call4_v1, main_call4_v2, main_v151, main_v152, main_v153, main_call5_v0, main_call5_cst, main_call5_v1, main_call5_v2, main_v154]
theorem frame17 (V : Valuation τ sig (Elt Ideal)) {r : Ref sig .tc} (hr : r ∉ wr17) :
    after (ops17 (F := Ideal)) V (no_index (Proc.devRef .tc r)) = V (Proc.devRef .tc r) :=
  after_of_writes_sub (W := wr17) _ V (by
    simp only [ops17, List.Forall, nullary_writes, unary_writes, binary_writes, ternary_writes, Finset.singleton_subset_iff, List.mem_toFinset]
    repeat' apply And.intro
    all_goals exact List.mem_map_of_mem (by decide)) hr

/-- The buffers the 11 operations of `ops18` write. -/
abbrev wr18 : List (Ref sig .tc) := [main_v155, main_v156, main_v157, main_cst_23, main_v158, main_cst_24, main_v159, main_v160, main_cst_25, main_v161, main_v162]
theorem frame18 (V : Valuation τ sig (Elt Ideal)) {r : Ref sig .tc} (hr : r ∉ wr18) :
    after (ops18 (F := Ideal)) V (no_index (Proc.devRef .tc r)) = V (Proc.devRef .tc r) :=
  after_of_writes_sub (W := wr18) _ V (by
    simp only [ops18, List.Forall, nullary_writes, unary_writes, binary_writes, ternary_writes, Finset.singleton_subset_iff, List.mem_toFinset]
    repeat' apply And.intro
    all_goals exact List.mem_map_of_mem (by decide)) hr

/-- The buffers the 15 operations of `ops19` write. -/
abbrev wr19 : List (Ref sig .tc) := [main_call6_v0, main_call6_cst, main_call6_v1, main_call6_v2, main_v163, main_v164, main_v165, main_call7_v0, main_call7_cst, main_call7_v1, main_call7_v2, main_v166, main_v167, main_v168, main_v169]
theorem frame19 (V : Valuation τ sig (Elt Ideal)) {r : Ref sig .tc} (hr : r ∉ wr19) :
    after (ops19 (F := Ideal)) V (no_index (Proc.devRef .tc r)) = V (Proc.devRef .tc r) :=
  after_of_writes_sub (W := wr19) _ V (by
    simp only [ops19, List.Forall, nullary_writes, unary_writes, binary_writes, ternary_writes, Finset.singleton_subset_iff, List.mem_toFinset]
    repeat' apply And.intro
    all_goals exact List.mem_map_of_mem (by decide)) hr

/-- The buffers the 13 operations of `ops20` write. -/
abbrev wr20 : List (Ref sig .tc) := [main_cst_26, main_v170, main_cst_27, main_v171, main_v172, main_cst_28, main_v173, main_v174, main_v175, main_cst_29, main_v176, main_cst_30, main_v177]
theorem frame20 (V : Valuation τ sig (Elt Ideal)) {r : Ref sig .tc} (hr : r ∉ wr20) :
    after (ops20 (F := Ideal)) V (no_index (Proc.devRef .tc r)) = V (Proc.devRef .tc r) :=
  after_of_writes_sub (W := wr20) _ V (by
    simp only [ops20, List.Forall, nullary_writes, unary_writes, binary_writes, ternary_writes, Finset.singleton_subset_iff, List.mem_toFinset]
    repeat' apply And.intro
    all_goals exact List.mem_map_of_mem (by decide)) hr

/-! ## What each stretch leaves at the buffers later stretches read, from the contents before it -/

section Stretches
variable (V : Valuation τ sig (Elt Ideal))

theorem p00_v0 : after (ops00 (F := Ideal)) V (no_index (Proc.devRef .tc main_v0))
    = (addf (V (Proc.devRef .tc main_arg0)) (V (Proc.devRef .tc main_arg1)) : FVec Ideal S100000x128 .f32) := by
  after_results_simp

theorem p00_v18 : after (ops00 (F := Ideal)) V (no_index (Proc.devRef .tc main_v18))
    = embedRef (V (Proc.devRef .tc main_arg0)) (V (Proc.devRef .tc main_arg1)) (V (Proc.devRef .tc main_arg2)) (V (Proc.devRef .tc main_arg3)) (V (Proc.devRef .tc main_arg4)) (V (Proc.devRef .tc main_arg14)) (V (Proc.devRef .tc main_arg15)) := by
  after_results_simp
  rfl

theorem p01_v35 : after (ops01 (F := Ideal)) V (no_index (Proc.devRef .tc main_v35))
    = gcnRef (V (Proc.devRef .tc main_arg0)) (V (Proc.devRef .tc main_arg3)) (V (Proc.devRef .tc main_arg4)) (V (Proc.devRef .tc main_arg2)) (V (Proc.devRef .tc main_arg14)) (V (Proc.devRef .tc main_arg15)) := by
  after_results_simp
  rfl

theorem p03_v52 : after (ops03 (F := Ideal)) (after (ops02 (F := Ideal)) V) (no_index (Proc.devRef .tc main_v52))
    = gcnRef (V (Proc.devRef .tc main_v0)) (V (Proc.devRef .tc main_arg3)) (V (Proc.devRef .tc main_arg4)) (V (Proc.devRef .tc main_arg2)) (V (Proc.devRef .tc main_arg14)) (V (Proc.devRef .tc main_arg15)) := by
  after_results_simp
  rfl

theorem p04_v69 : after (ops04 (F := Ideal)) V (no_index (Proc.devRef .tc main_v69))
    = gcnRef (V (Proc.devRef .tc main_arg0)) (V (Proc.devRef .tc main_arg5)) (V (Proc.devRef .tc main_arg6)) (V (Proc.devRef .tc main_arg2)) (V (Proc.devRef .tc main_arg14)) (V (Proc.devRef .tc main_arg15)) := by
  after_results_simp
  rfl

theorem p05_v86 : after (ops05 (F := Ideal)) V (no_index (Proc.devRef .tc main_v86))
    = gcnRef (V (Proc.devRef .tc main_v0)) (V (Proc.devRef .tc main_arg5)) (V (Proc.devRef .tc main_arg6)) (V (Proc.devRef .tc main_arg2)) (V (Proc.devRef .tc main_arg14)) (V (Proc.devRef .tc main_arg15)) := by
  after_results_simp
  rfl

theorem p06_v90 : after (ops06 (F := Ideal)) V (no_index (Proc.devRef .tc main_v90))
    = denseRef (V (Proc.devRef .tc main_v35)) (V (Proc.devRef .tc main_arg7)) (V (Proc.devRef .tc main_arg8)) := by
  after_results_simp
  rfl

theorem p07_v93 : after (ops07 (F := Ideal)) V (no_index (Proc.devRef .tc main_v93)) = bnMean (V (Proc.devRef .tc main_v90)) := by
  after_results_simp
  rfl

theorem p07_c15 : after (ops07 (F := Ideal)) V (no_index (Proc.devRef .tc main_c_15)) = (constantI S_ 32 0#32 : IVec S_ 32) := by
  after_results_simp

theorem p07_v6 : after (ops07 (F := Ideal)) V (no_index (Proc.devRef .tc main_call0_v6)) = bnSq (V (Proc.devRef .tc main_v90)) := by
  after_results_simp
  simp only [ofBuf_toBuf]
  rfl

theorem p08_v94 : after (ops08 (F := Ideal)) V (no_index (Proc.devRef .tc main_v94))
    = bnVar (V (Proc.devRef .tc main_c_15)) (V (Proc.devRef .tc main_call0_v6)) := by
  after_results_simp
  simp only [ofBuf_toBuf]
  rfl

theorem p09_v97 : after (ops09 (F := Ideal)) V (no_index (Proc.devRef .tc main_v97)) = bnCen (V (Proc.devRef .tc main_v93)) (V (Proc.devRef .tc main_v90)) := by
  after_results_simp
  rfl

theorem p09_v100 : after (ops09 (F := Ideal)) V (no_index (Proc.devRef .tc main_v100)) = bnInv (V (Proc.devRef .tc main_v94)) := by
  after_results_simp
  rfl

theorem p10_v114 : after (ops10 (F := Ideal)) V (no_index (Proc.devRef .tc main_v114))
    = bnOut (V (Proc.devRef .tc main_v100)) (V (Proc.devRef .tc main_v97)) (V (Proc.devRef .tc main_arg9)) (V (Proc.devRef .tc main_arg10)) (V (Proc.devRef .tc main_arg11)) := by
  after_results_simp
  rfl

theorem p11_v118 : after (ops11 (F := Ideal)) V (no_index (Proc.devRef .tc main_v118))
    = denseRef (V (Proc.devRef .tc main_v114)) (V (Proc.devRef .tc main_arg12)) (V (Proc.devRef .tc main_arg13)) := by
  after_results_simp
  rfl

theorem p12_v122 : after (ops12 (F := Ideal)) V (no_index (Proc.devRef .tc main_v122))
    = denseRef (V (Proc.devRef .tc main_v52)) (V (Proc.devRef .tc main_arg7)) (V (Proc.devRef .tc main_arg8)) := by
  after_results_simp
  rfl

theorem p13_v125 : after (ops13 (F := Ideal)) V (no_index (Proc.devRef .tc main_v125)) = bnMean (V (Proc.devRef .tc main_v122)) := by
  after_results_simp
  rfl

theorem p13_c20 : after (ops13 (F := Ideal)) V (no_index (Proc.devRef .tc main_c_20)) = (constantI S_ 32 0#32 : IVec S_ 32) := by
  after_results_simp

theorem p13_v6 : after (ops13 (F := Ideal)) V (no_index (Proc.devRef .tc main_call2_v6)) = bnSq (V (Proc.devRef .tc main_v122)) := by
  after_results_simp
  simp only [ofBuf_toBuf]
  rfl

theorem p14_v126 : after (ops14 (F := Ideal)) V (no_index (Proc.devRef .tc main_v126))
    = bnVar (V (Proc.devRef .tc main_c_20)) (V (Proc.devRef .tc main_call2_v6)) := by
  after_results_simp
  simp only [ofBuf_toBuf]
  rfl

theorem p15_v146 : after (ops15 (F := Ideal)) V (no_index (Proc.devRef .tc main_v146))
    = bnOut (bnInv (V (Proc.devRef .tc main_v126))) (bnCen (V (Proc.devRef .tc main_v125)) (V (Proc.devRef .tc main_v122))) (V (Proc.devRef .tc main_arg9)) (V (Proc.devRef .tc main_arg10)) (V (Proc.devRef .tc main_arg11)) := by
  after_results_simp
  rfl

theorem p16_v150 : after (ops16 (F := Ideal)) V (no_index (Proc.devRef .tc main_v150))
    = denseRef (V (Proc.devRef .tc main_v146)) (V (Proc.devRef .tc main_arg12)) (V (Proc.devRef .tc main_arg13)) := by
  after_results_simp
  rfl

theorem p17_v153 : after (ops17 (F := Ideal)) V (no_index (Proc.devRef .tc main_v153))
    = rowDiv (V (Proc.devRef .tc main_v118)) (rowNorm (V (Proc.devRef .tc main_v118))) := by
  after_results_simp
  simp only [ofBuf_toBuf]
  rfl

theorem p17_v154 : after (ops17 (F := Ideal)) V (no_index (Proc.devRef .tc main_v154)) = rowNorm (V (Proc.devRef .tc main_v86)) := by
  after_results_simp
  simp only [ofBuf_toBuf]
  rfl

theorem p18_v162 : after (ops18 (F := Ideal)) V (no_index (Proc.devRef .tc main_v162))
    = twoMinus (mulf (V (Proc.devRef .tc main_v153)) (rowDiv (V (Proc.devRef .tc main_v86)) (V (Proc.devRef .tc main_v154)))) := by
  after_results_simp
  rfl

theorem p19_v169 : after (ops19 (F := Ideal)) V (no_index (Proc.devRef .tc main_v169))
    = (mulf (rowDiv (V (Proc.devRef .tc main_v150)) (rowNorm (V (Proc.devRef .tc main_v150)))) (rowDiv (V (Proc.devRef .tc main_v69)) (rowNorm (V (Proc.devRef .tc main_v69)))) : FVec Ideal S100000x128 .f32) := by
  after_results_simp
  simp only [ofBuf_toBuf]
  rfl

theorem p20_v177 : after (ops20 (F := Ideal)) V (no_index (Proc.devRef .tc main_v177))
    = lossEnd (V (Proc.devRef .tc main_v162)) (twoMinus (V (Proc.devRef .tc main_v169))) := by
  after_results_simp
  rfl

end Stretches

/-! ## The whole line -/

section Whole
variable (W : Valuation τ sig (Elt Ideal))

/-- The fold of the whole line is the folds of the stretches, one over the other. -/
theorem after_ops : after (ops (F := Ideal)) W
    = after (ops20 (F := Ideal)) (after (ops19 (F := Ideal)) (after (ops18 (F := Ideal)) (after (ops17 (F := Ideal)) (after (ops16 (F := Ideal)) (after (ops15 (F := Ideal)) (after (ops14 (F := Ideal)) (after (ops13 (F := Ideal)) (after (ops12 (F := Ideal)) (after (ops11 (F := Ideal)) (after (ops10 (F := Ideal)) (after (ops09 (F := Ideal)) (after (ops08 (F := Ideal)) (after (ops07 (F := Ideal)) (after (ops06 (F := Ideal)) (after (ops05 (F := Ideal)) (after (ops04 (F := Ideal)) (after (ops03 (F := Ideal)) (after (ops02 (F := Ideal)) (after (ops01 (F := Ideal)) (after (ops00 (F := Ideal)) (W))))))))))))))))))))) := by
  simp only [ops, after_append]

/-- The first result's buffer after the line: the embedding, as a function of the arguments' contents before it. -/
theorem embed_eq : after (ops (F := Ideal)) W (Proc.devRef .tc main_v18)
    = embedRef (W (Proc.devRef .tc main_arg0)) (W (Proc.devRef .tc main_arg1)) (W (Proc.devRef .tc main_arg2)) (W (Proc.devRef .tc main_arg3)) (W (Proc.devRef .tc main_arg4)) (W (Proc.devRef .tc main_arg14)) (W (Proc.devRef .tc main_arg15)) := by
  rw [after_ops]
  simp (disch := decide) only [frame00, frame01, frame02, frame03, frame04, frame05, frame06, frame07, frame08, frame09, frame10, frame11, frame12, frame13, frame14, frame15, frame16, frame17, frame18, frame19, frame20, p00_v18]

/-- The second result's buffer after the line: the loss, as a function of the arguments' contents before it. -/
theorem loss_eq : after (ops (F := Ideal)) W (Proc.devRef .tc main_v177)
    = lossRef (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) := by
  rw [after_ops]
  simp (disch := decide) only [frame00, frame01, frame02, frame03, frame04, frame05, frame06, frame07, frame08, frame09, frame10, frame11, frame12, frame13, frame14, frame15, frame16, frame17, frame18, frame19, frame20,
    p00_v0, p00_v18, p01_v35, p03_v52, p04_v69, p05_v86, p06_v90, p07_v93, p07_c15, p07_v6, p08_v94, p09_v97, p09_v100, p10_v114, p11_v118, p12_v122, p13_v125, p13_c20, p13_v6, p14_v126, p15_v146, p16_v150, p17_v153, p17_v154, p18_v162, p19_v169, p20_v177,
    lossRef, predRef, lossOf_eq, bnAct_eq]

/-- No operation of the line writes argument 0's buffer. -/
theorem arg_eq_0 : after (ops (F := Ideal)) W (Proc.devRef .tc main_arg0) = W (Proc.devRef .tc main_arg0) := by
  rw [after_ops]
  simp (disch := decide) only [frame00, frame01, frame02, frame03, frame04, frame05, frame06, frame07, frame08, frame09, frame10, frame11, frame12, frame13, frame14, frame15, frame16, frame17, frame18, frame19, frame20]

/-- No operation of the line writes argument 1's buffer. -/
theorem arg_eq_1 : after (ops (F := Ideal)) W (Proc.devRef .tc main_arg1) = W (Proc.devRef .tc main_arg1) := by
  rw [after_ops]
  simp (disch := decide) only [frame00, frame01, frame02, frame03, frame04, frame05, frame06, frame07, frame08, frame09, frame10, frame11, frame12, frame13, frame14, frame15, frame16, frame17, frame18, frame19, frame20]

/-- No operation of the line writes argument 2's buffer. -/
theorem arg_eq_2 : after (ops (F := Ideal)) W (Proc.devRef .tc main_arg2) = W (Proc.devRef .tc main_arg2) := by
  rw [after_ops]
  simp (disch := decide) only [frame00, frame01, frame02, frame03, frame04, frame05, frame06, frame07, frame08, frame09, frame10, frame11, frame12, frame13, frame14, frame15, frame16, frame17, frame18, frame19, frame20]

/-- No operation of the line writes argument 3's buffer. -/
theorem arg_eq_3 : after (ops (F := Ideal)) W (Proc.devRef .tc main_arg3) = W (Proc.devRef .tc main_arg3) := by
  rw [after_ops]
  simp (disch := decide) only [frame00, frame01, frame02, frame03, frame04, frame05, frame06, frame07, frame08, frame09, frame10, frame11, frame12, frame13, frame14, frame15, frame16, frame17, frame18, frame19, frame20]

/-- No operation of the line writes argument 4's buffer. -/
theorem arg_eq_4 : after (ops (F := Ideal)) W (Proc.devRef .tc main_arg4) = W (Proc.devRef .tc main_arg4) := by
  rw [after_ops]
  simp (disch := decide) only [frame00, frame01, frame02, frame03, frame04, frame05, frame06, frame07, frame08, frame09, frame10, frame11, frame12, frame13, frame14, frame15, frame16, frame17, frame18, frame19, frame20]

/-- No operation of the line writes argument 5's buffer. -/
theorem arg_eq_5 : after (ops (F := Ideal)) W (Proc.devRef .tc main_arg5) = W (Proc.devRef .tc main_arg5) := by
  rw [after_ops]
  simp (disch := decide) only [frame00, frame01, frame02, frame03, frame04, frame05, frame06, frame07, frame08, frame09, frame10, frame11, frame12, frame13, frame14, frame15, frame16, frame17, frame18, frame19, frame20]

/-- No operation of the line writes argument 6's buffer. -/
theorem arg_eq_6 : after (ops (F := Ideal)) W (Proc.devRef .tc main_arg6) = W (Proc.devRef .tc main_arg6) := by
  rw [after_ops]
  simp (disch := decide) only [frame00, frame01, frame02, frame03, frame04, frame05, frame06, frame07, frame08, frame09, frame10, frame11, frame12, frame13, frame14, frame15, frame16, frame17, frame18, frame19, frame20]

/-- No operation of the line writes argument 7's buffer. -/
theorem arg_eq_7 : after (ops (F := Ideal)) W (Proc.devRef .tc main_arg7) = W (Proc.devRef .tc main_arg7) := by
  rw [after_ops]
  simp (disch := decide) only [frame00, frame01, frame02, frame03, frame04, frame05, frame06, frame07, frame08, frame09, frame10, frame11, frame12, frame13, frame14, frame15, frame16, frame17, frame18, frame19, frame20]

/-- No operation of the line writes argument 8's buffer. -/
theorem arg_eq_8 : after (ops (F := Ideal)) W (Proc.devRef .tc main_arg8) = W (Proc.devRef .tc main_arg8) := by
  rw [after_ops]
  simp (disch := decide) only [frame00, frame01, frame02, frame03, frame04, frame05, frame06, frame07, frame08, frame09, frame10, frame11, frame12, frame13, frame14, frame15, frame16, frame17, frame18, frame19, frame20]

/-- No operation of the line writes argument 9's buffer. -/
theorem arg_eq_9 : after (ops (F := Ideal)) W (Proc.devRef .tc main_arg9) = W (Proc.devRef .tc main_arg9) := by
  rw [after_ops]
  simp (disch := decide) only [frame00, frame01, frame02, frame03, frame04, frame05, frame06, frame07, frame08, frame09, frame10, frame11, frame12, frame13, frame14, frame15, frame16, frame17, frame18, frame19, frame20]

/-- No operation of the line writes argument 10's buffer. -/
theorem arg_eq_10 : after (ops (F := Ideal)) W (Proc.devRef .tc main_arg10) = W (Proc.devRef .tc main_arg10) := by
  rw [after_ops]
  simp (disch := decide) only [frame00, frame01, frame02, frame03, frame04, frame05, frame06, frame07, frame08, frame09, frame10, frame11, frame12, frame13, frame14, frame15, frame16, frame17, frame18, frame19, frame20]

/-- No operation of the line writes argument 11's buffer. -/
theorem arg_eq_11 : after (ops (F := Ideal)) W (Proc.devRef .tc main_arg11) = W (Proc.devRef .tc main_arg11) := by
  rw [after_ops]
  simp (disch := decide) only [frame00, frame01, frame02, frame03, frame04, frame05, frame06, frame07, frame08, frame09, frame10, frame11, frame12, frame13, frame14, frame15, frame16, frame17, frame18, frame19, frame20]

/-- No operation of the line writes argument 12's buffer. -/
theorem arg_eq_12 : after (ops (F := Ideal)) W (Proc.devRef .tc main_arg12) = W (Proc.devRef .tc main_arg12) := by
  rw [after_ops]
  simp (disch := decide) only [frame00, frame01, frame02, frame03, frame04, frame05, frame06, frame07, frame08, frame09, frame10, frame11, frame12, frame13, frame14, frame15, frame16, frame17, frame18, frame19, frame20]

/-- No operation of the line writes argument 13's buffer. -/
theorem arg_eq_13 : after (ops (F := Ideal)) W (Proc.devRef .tc main_arg13) = W (Proc.devRef .tc main_arg13) := by
  rw [after_ops]
  simp (disch := decide) only [frame00, frame01, frame02, frame03, frame04, frame05, frame06, frame07, frame08, frame09, frame10, frame11, frame12, frame13, frame14, frame15, frame16, frame17, frame18, frame19, frame20]

/-- No operation of the line writes argument 14's buffer. -/
theorem arg_eq_14 : after (ops (F := Ideal)) W (Proc.devRef .tc main_arg14) = W (Proc.devRef .tc main_arg14) := by
  rw [after_ops]
  simp (disch := decide) only [frame00, frame01, frame02, frame03, frame04, frame05, frame06, frame07, frame08, frame09, frame10, frame11, frame12, frame13, frame14, frame15, frame16, frame17, frame18, frame19, frame20]

/-- No operation of the line writes argument 15's buffer. -/
theorem arg_eq_15 : after (ops (F := Ideal)) W (Proc.devRef .tc main_arg15) = W (Proc.devRef .tc main_arg15) := by
  rw [after_ops]
  simp (disch := decide) only [frame00, frame01, frame02, frame03, frame04, frame05, frame06, frame07, frame08, frame09, frame10, frame11, frame12, frame13, frame14, frame15, frame16, frame17, frame18, frame19, frame20]

end Whole

/-! ## The run -/

/-- On every device, from any memory with zero counters: every weakly fair execution of the program terminates with the
    first result's buffer at the embedding and the second's at the loss, as functions of the arguments' contents at
    launch, and the arguments' buffers unchanged. -/
theorem run (m : (ℓ : Loc nD τ sig) → Buf (Elt Ideal) ℓ) (ρ : Dev nD → PrngReg) :
    θ_run Cert.ReferenceIdeal.defs (onTc (τ := τ) (main (F := Ideal))) ⟨m, fun _ => 0, ρ⟩ fun r => ∀ c : Dev nD,
      r.2.mem ((c.tc : Thread nD τ).loc main_v18)
          = embedRef (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg14)) (m ((c.tc : Thread nD τ).loc main_arg15))
      ∧ r.2.mem ((c.tc : Thread nD τ).loc main_v177)
          = lossRef (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run Cert.ReferenceIdeal.defs _ _).mono (fun _ h c =>
    ⟨(h c main_v18).trans (embed_eq (launchContents m c)),
      (h c main_v177).trans (loss_eq (launchContents m c)),
      (h c main_arg0).trans (arg_eq_0 (launchContents m c)),
      (h c main_arg1).trans (arg_eq_1 (launchContents m c)),
      (h c main_arg2).trans (arg_eq_2 (launchContents m c)),
      (h c main_arg3).trans (arg_eq_3 (launchContents m c)),
      (h c main_arg4).trans (arg_eq_4 (launchContents m c)),
      (h c main_arg5).trans (arg_eq_5 (launchContents m c)),
      (h c main_arg6).trans (arg_eq_6 (launchContents m c)),
      (h c main_arg7).trans (arg_eq_7 (launchContents m c)),
      (h c main_arg8).trans (arg_eq_8 (launchContents m c)),
      (h c main_arg9).trans (arg_eq_9 (launchContents m c)),
      (h c main_arg10).trans (arg_eq_10 (launchContents m c)),
      (h c main_arg11).trans (arg_eq_11 (launchContents m c)),
      (h c main_arg12).trans (arg_eq_12 (launchContents m c)),
      (h c main_arg13).trans (arg_eq_13 (launchContents m c)),
      (h c main_arg14).trans (arg_eq_14 (launchContents m c)),
      (h c main_arg15).trans (arg_eq_15 (launchContents m c))⟩)
    (Cert.RefRun.run_raw m ρ)

end Cert.RefValue

end
-- ==== Proof.LibScatterRows.lean ====
/-
  An accumulating scatter whose scatter indices are one column of row numbers, read at an index over the extended reals.

  The scatter indices have shape [E, 1]: update row e goes to operand row idx[e, 0], read as a SIGNED integer and
  not clamped; a row number outside [0, N) drops the whole update row. With the exact sum as the combiner, the
  result at (v, k) is the operand's entry plus the sum of upd[e, k] over the update rows e with idx[e, 0] = v
  (rowDims, scatterAdd_rows_apply). The rank-1 form — operand [N], updates [E] — is the same sum without the
  column (vecDims, scatterAdd_vec_apply). Both follow from reading the scatter's result index one axis at a time:
  on the row axis it is the start index, on the column axis the update's own column.
-/
import Idealize.ShloMosaic.PureOps.Ideal
import Idealize.ShloMosaic.Lib.ValueIdx

noncomputable section

open scoped BigOperators

namespace Cert.ScatterRows

open Idealize.ShloMosaic Idealize.ShloMosaic.ValueIdx

/-! ## Rows of width C scattered by one index column -/

/-- The dimension numbers of a row scatter: operand [N, C], scatter indices [E, 1], updates [E, C]; the updates'
    axis 1 is the window axis, the operand's axis 0 is inserted and is the one the index names. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N E C w : Nat} (wf : ScatterDims.WF ⟨2, ![N, C]⟩ ⟨2, ![E, 1]⟩ ⟨2, ![E, C]⟩ [1] [0] [0] 1)

/-- On the row axis the window starts at the row number the index column holds for the update's row. -/
theorem row_start0 (j : (⟨2, ![E, C]⟩ : Shape).Idx) (idx : IVec ⟨2, ![E, 1]⟩ w) :
    (rowDims N E C wf).start j idx 0 = (idx (ix2 (j 0) 0)).toInt := by
  unfold ScatterDims.start
  rw [dif_pos (show (0 : Fin 2) ∈ (rowDims N E C wf).scatterDimsToOperandDims from List.mem_singleton.mpr rfl)]
  have hsi : (rowDims N E C wf).siIdx j ⟨List.idxOf (0 : Fin 2) (rowDims N E C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- On the column axis the index names nothing: the window starts at column 0. -/
theorem row_start1 (j : (⟨2, ![E, C]⟩ : Shape).Idx) (idx : IVec ⟨2, ![E, 1]⟩ w) :
    (rowDims N E C wf).start j idx 1 = 0 := by
  unfold ScatterDims.start
  rw [dif_neg (show ¬ (1 : Fin 2) ∈ (rowDims N E C wf).scatterDimsToOperandDims from
    (show ¬ (1 : Fin 2) ∈ ([0] : List (Fin 2)) by decide))]

/-- The row axis is inserted: no window coordinate on it. -/
theorem row_window0 (j : (⟨2, ![E, C]⟩ : Shape).Idx) : (rowDims N E C wf).window j 0 = 0 := by
  unfold ScatterDims.window
  rw [dif_neg (show ¬ (0 : Fin 2) ∈ (rowDims N E C wf).sKept from
    (show ¬ (0 : Fin 2) ∈ ([1] : List (Fin 2)) by decide))]

/-- On the column axis the window coordinate is the update's own column. -/
theorem row_window1 (j : (⟨2, ![E, C]⟩ : Shape).Idx) : (rowDims N E C wf).window j 1 = (j 1).val := by
  unfold ScatterDims.window
  rw [dif_pos (show (1 : Fin 2) ∈ (rowDims N E C wf).sKept from
    (show (1 : Fin 2) ∈ ([1] : List (Fin 2)) by decide))]
  rfl

/-- WHERE AN UPDATE LANDS: update (e, c) lands on operand (v, k) exactly when the index column holds v at e and c = k. -/
theorem row_lands_iff (j : (⟨2, ![E, C]⟩ : Shape).Idx) (idx : IVec ⟨2, ![E, 1]⟩ w) (i : (⟨2, ![N, C]⟩ : Shape).Idx) :
    (rowDims N E C wf).resultIdx? j idx = some i ↔
      (idx (ix2 (j 0) 0)).toInt = ((i 0).val : Int) ∧ (j 1).val = (i 1).val := by
  have hi0 : (i 0).val < N := idx2_lt0 i
  have hi1 : (i 1).val < C := idx2_lt1 i
  have hj1 : (j 1).val < C := idx2_lt1 j
  have hs0 : (⟨2, ![N, C]⟩ : Shape).size 0 = N := rfl
  have hs1 : (⟨2, ![N, C]⟩ : Shape).size 1 = C := rfl
  unfold ScatterDims.resultIdx?
  split
  · rename_i h
    have h0 := h 0
    have h1 := h 1
    rw [row_start0, row_window0] at h0
    rw [row_start1, row_window1] at h1
    rw [Option.some.injEq]
    constructor
    · intro he
      have e0 := congrArg (fun f => (f 0).val) he
      have e1 := congrArg (fun f => (f 1).val) he
      simp only [row_start0, row_window0, row_start1, row_window1] at e0 e1
      constructor <;> omega
    · rintro ⟨e0, e1⟩
      funext a
      refine Fin.ext ?_
      match a with
      | ⟨0, _⟩ =>
        show ((rowDims N E C wf).start j idx 0 + ((rowDims N E C wf).window j 0 : Int)).toNat = (i 0).val
        rw [row_start0, row_window0]; omega
      | ⟨1, _⟩ =>
        show ((rowDims N E C wf).start j idx 1 + ((rowDims N E C wf).window j 1 : Int)).toNat = (i 1).val
        rw [row_start1, row_window1]; omega
  · rename_i h
    constructor
    · intro he; exact absurd he (by simp)
    · rintro ⟨e0, e1⟩
      refine absurd (fun a => ?_) h
      match a with
      | ⟨0, _⟩ =>
        show 0 ≤ (rowDims N E C wf).start j idx 0 + ((rowDims N E C wf).window j 0 : Int) ∧
          (rowDims N E C wf).start j idx 0 + ((rowDims N E C wf).window j 0 : Int) < ((⟨2, ![N, C]⟩ : Shape).size 0 : Int)
        rw [row_start0, row_window0, hs0]; omega
      | ⟨1, _⟩ =>
        show 0 ≤ (rowDims N E C wf).start j idx 1 + ((rowDims N E C wf).window j 1 : Int) ∧
          (rowDims N E C wf).start j idx 1 + ((rowDims N E C wf).window j 1 : Int) < ((⟨2, ![N, C]⟩ : Shape).size 1 : Int)
        rw [row_start1, row_window1, hs1]; omega

/-- THE ROW SCATTER READ AT (v, k): the operand's entry plus the sum of column k of the update rows whose row number is v. -/
theorem scatterAdd_rows_apply (x : (⟨2, ![N, C]⟩ : Shape).Idx → EReal) (idx : IVec ⟨2, ![E, 1]⟩ w)
    (upd : (⟨2, ![E, C]⟩ : Shape).Idx → EReal) (v : Fin N) (k : Fin C) :
    Ideal.hostScatterAdd (rowDims N E C wf) x idx upd (ix2 v k) =
      x (ix2 v k) + ∑ e ∈ Finset.univ.filter (fun e : Fin E => (idx (ix2 e 0)).toInt = (v.val : Int)), upd (ix2 e k) := by
  unfold Ideal.hostScatterAdd
  congr 1
  rw [Finset.sum_filter, sum_idx2, Finset.sum_filter]
  refine Finset.sum_congr rfl fun e _ => ?_
  simp only [row_lands_iff]
  by_cases he : (idx (ix2 e 0)).toInt = (v.val : Int)
  · rw [if_pos he]
    rw [Finset.sum_eq_single k]
    · rw [if_pos ⟨he, rfl⟩]
    · intro b _ hb
      rw [if_neg]
      rintro ⟨_, h1⟩
      exact hb (Fin.ext h1)
    · intro h; exact absurd (Finset.mem_univ k) h
  · rw [if_neg he]
    refine Finset.sum_eq_zero fun b _ => ?_
    rw [if_neg]
    rintro ⟨h0, _⟩
    exact he h0

/-- The same for ANY dimension numbers of a row scatter (a program's own record: its four fields are these by
    unfolding), stated for the host operation at the extended reals. -/
theorem host_scatterAdd_rows_apply {φ : FTy} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (x : FVec Ideal ⟨2, ![N, C]⟩ φ) (idx : IVec ⟨2, ![E, 1]⟩ w)
    (upd : FVec Ideal ⟨2, ![E, C]⟩ φ) (v : Fin N) (k : Fin C) :
    Host.scatterAdd d x idx upd (ix2 v k) =
      x (ix2 v k) + ∑ e ∈ Finset.univ.filter (fun e : Fin E => (idx (ix2 e 0)).toInt = (v.val : Int)), upd (ix2 e k) := by
  obtain ⟨uw, iw, sd, iv, wf⟩ := d
  dsimp only at h1 h2 h3 h4
  subst h1 h2 h3 h4
  unfold Host.scatterAdd
  rw [Ideal.hostScatterAdd_def]
  exact scatterAdd_rows_apply wf x idx upd v k

end Rows

/-! ## Scalars scattered by one index column -/

/-- The dimension numbers of the rank-1 form: operand [N], scatter indices [E, 1], updates [E]; no window axis. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Vec
variable {N E w : Nat} (wf : ScatterDims.WF ⟨1, ![N]⟩ ⟨2, ![E, 1]⟩ ⟨1, ![E]⟩ [] [0] [0] 1)

theorem vec_start0 (j : (⟨1, ![E]⟩ : Shape).Idx) (idx : IVec ⟨2, ![E, 1]⟩ w) :
    (vecDims N E wf).start j idx 0 = (idx (ix2 (j 0) 0)).toInt := by
  unfold ScatterDims.start
  rw [dif_pos (show (0 : Fin 1) ∈ (vecDims N E wf).scatterDimsToOperandDims from List.mem_singleton.mpr rfl)]
  have hsi : (vecDims N E wf).siIdx j ⟨List.idxOf (0 : Fin 1) (vecDims N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem vec_window0 (j : (⟨1, ![E]⟩ : Shape).Idx) : (vecDims N E wf).window j 0 = 0 := by
  unfold ScatterDims.window
  rw [dif_neg (show ¬ (0 : Fin 1) ∈ (vecDims N E wf).sKept from
    (show ¬ (0 : Fin 1) ∈ ([] : List (Fin 1)) by decide))]

/-- WHERE AN UPDATE LANDS: update e lands on operand v exactly when the index column holds v at e. -/
theorem vec_lands_iff (j : (⟨1, ![E]⟩ : Shape).Idx) (idx : IVec ⟨2, ![E, 1]⟩ w) (i : (⟨1, ![N]⟩ : Shape).Idx) :
    (vecDims N E wf).resultIdx? j idx = some i ↔ (idx (ix2 (j 0) 0)).toInt = ((i 0).val : Int) := by
  have hi0 : (i 0).val < N := (i 0).isLt
  have hs0 : (⟨1, ![N]⟩ : Shape).size 0 = N := rfl
  unfold ScatterDims.resultIdx?
  split
  · rename_i h
    have h0 := h 0
    rw [vec_start0, vec_window0] at h0
    rw [Option.some.injEq]
    constructor
    · intro he
      have e0 := congrArg (fun f => (f 0).val) he
      simp only [vec_start0, vec_window0] at e0
      omega
    · intro e0
      funext a
      refine Fin.ext ?_
      match a with
      | ⟨0, _⟩ =>
        show ((vecDims N E wf).start j idx 0 + ((vecDims N E wf).window j 0 : Int)).toNat = (i 0).val
        rw [vec_start0, vec_window0]; omega
  · rename_i h
    constructor
    · intro he; exact absurd he (by simp)
    · intro e0
      refine absurd (fun a => ?_) h
      match a with
      | ⟨0, _⟩ =>
        show 0 ≤ (vecDims N E wf).start j idx 0 + ((vecDims N E wf).window j 0 : Int) ∧
          (vecDims N E wf).start j idx 0 + ((vecDims N E wf).window j 0 : Int) < ((⟨1, ![N]⟩ : Shape).size 0 : Int)
        rw [vec_start0, vec_window0, hs0]; omega

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- THE RANK-1 SCATTER READ AT v: the operand's entry plus the sum of the updates whose row number is v. -/
theorem scatterAdd_vec_apply (x : (⟨1, ![N]⟩ : Shape).Idx → EReal) (idx : IVec ⟨2, ![E, 1]⟩ w)
    (upd : (⟨1, ![E]⟩ : Shape).Idx → EReal) (v : Fin N) :
    Ideal.hostScatterAdd (vecDims N E wf) x idx upd (ix1 v) =
      x (ix1 v) + ∑ e ∈ Finset.univ.filter (fun e : Fin E => (idx (ix2 e 0)).toInt = (v.val : Int)), upd (ix1 e) := by
  unfold Ideal.hostScatterAdd
  congr 1
  rw [Finset.sum_filter, Finset.sum_filter, ← Equiv.sum_comp (idxEquiv1 (n := E)).symm]
  refine Finset.sum_congr rfl fun e _ => ?_
  simp only [vec_lands_iff]
  rfl

/-- The same for ANY dimension numbers of the rank-1 form, stated for the host operation at the extended reals. -/
theorem host_scatterAdd_vec_apply {φ : FTy} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (x : FVec Ideal ⟨1, ![N]⟩ φ) (idx : IVec ⟨2, ![E, 1]⟩ w)
    (upd : FVec Ideal ⟨1, ![E]⟩ φ) (v : Fin N) :
    Host.scatterAdd d x idx upd (ix1 v) =
      x (ix1 v) + ∑ e ∈ Finset.univ.filter (fun e : Fin E => (idx (ix2 e 0)).toInt = (v.val : Int)), upd (ix1 e) := by
  obtain ⟨uw, iw, sd, iv, wf⟩ := d
  dsimp only at h1 h2 h3 h4
  subst h1 h2 h3 h4
  unfold Host.scatterAdd
  rw [Ideal.hostScatterAdd_def]
  exact scatterAdd_vec_apply wf x idx upd v

end Vec

end Cert.ScatterRows

end
-- ==== Proof.LibGatherRows.lean ====
/-
  A gather whose start indices are one column of row numbers, read at an index.

  The start indices have shape [E, 1]: result row e is operand row idx[e, 0], read as a SIGNED integer and clamped
  into [0, N − 1] (a negative number reads row 0, a number past the end reads the last row). For an operand [N, C]
  gathered in whole rows (slice sizes [1, C], the row axis collapsed, the column axis the offset axis) the result at
  (e, k) is the operand at (clamped idx[e, 0], k) (host_gather_rows_apply); for an operand [N] (slice sizes [1]) the
  result at e is the operand at the clamped idx[e, 0] (host_gather_vec_apply). This is what x[idx] lowers to for
  an index vector idx. Both follow from reading the operand index one axis at a time: on the row axis it is the
  clamped start index, on the column axis the result's own column.
-/
import Idealize.ShloMosaic.PureOps
import Idealize.ShloMosaic.Lib.ValueIdx

noncomputable section

namespace Cert.GatherRows

open Idealize.ShloMosaic Idealize.ShloMosaic.ValueIdx

/-- The row a signed row number reads: clamped into [0, N − 1]. -/
def clampRow (N : Nat) (hN : 0 < N) {w : Nat} (b : BitVec w) : Fin N := ⟨min b.toInt.toNat (N - 1), by omega⟩

theorem clampRow_val (N : Nat) (hN : 0 < N) {w : Nat} (b : BitVec w) : (clampRow N hN b).val = min b.toInt.toNat (N - 1) := rfl

/-- A row number already inside [0, N) reads its own row. -/
theorem clampRow_of_toInt (N : Nat) (hN : 0 < N) {w : Nat} (b : BitVec w) (v : Fin N) (h : b.toInt = (v.val : Int)) :
    clampRow N hN b = v := by
  apply Fin.ext
  rw [clampRow_val, h]
  have := v.isLt
  omega

/-! ## Whole rows of width C -/

section Rows
variable {α : Type} {N E C w : Nat}

/-- The dimension numbers of a row gather: operand [N, C], start indices [E, 1], result [E, C]. -/
abbrev rowDims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

variable (wf : GatherDims.WF ⟨2, ![N, C]⟩ ⟨2, ![E, 1]⟩ ⟨2, ![E, C]⟩ [1] [0] [] [0] [] 1 ![1, C])

/-- The operand index of result (e, k): the clamped row number, and column k. -/
theorem row_operandIdx (hN : 0 < N) (idx : IVec ⟨2, ![E, 1]⟩ w) (e : Fin E) (k : Fin C) :
    (rowDims N E C wf).operandIdx (ix2 e k) idx = ix2 (clampRow N hN (idx (ix2 e 0))) k := by
  funext a
  refine Fin.ext ?_
  match a with
  | ⟨0, _⟩ =>
    show (rowDims N E C wf).start (ix2 e k) idx 0 + (rowDims N E C wf).batchCoord (ix2 e k) 0 + (rowDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e k) ⟨List.idxOf (0 : Fin 2) (rowDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowDims N E C wf).start (ix2 e k) idx 1 + (rowDims N E C wf).batchCoord (ix2 e k) 1 + (rowDims N E C wf).offCoord (ix2 e k) 1 = k.val
    rw [GatherDims.batchCoord_eq_zero _ _ _ List.not_mem_nil]
    unfold GatherDims.start
    rw [dif_neg (show ¬ (1 : Fin 2) ∈ (rowDims N E C wf).startIndexMap from (show ¬ (1 : Fin 2) ∈ ([0] : List (Fin 2)) by decide))]
    unfold GatherDims.offCoord
    rw [dif_pos (show (1 : Fin 2) ∈ (rowDims N E C wf).sKept from
      (GatherDims.mem_sKept _ _).mpr ⟨(show ¬ (1 : Fin 2) ∈ ([0] : List (Fin 2)) by decide), List.not_mem_nil⟩)]
    simp only [Nat.zero_add]
    rfl

/-- THE ROW GATHER READ AT (e, k): the operand at (clamped idx[e, 0], k), for ANY dimension numbers of a row gather (a
    program's own record: its seven fields are these by unfolding). -/
theorem host_gather_rows_apply (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (x : (⟨2, ![N, C]⟩ : Shape).Idx → α) (idx : IVec ⟨2, ![E, 1]⟩ w) (e : Fin E) (k : Fin C) :
    Host.gather d x idx (ix2 e k) = x (ix2 (clampRow N hN (idx (ix2 e 0))) k) := by
  obtain ⟨od, cs, ob, sb, sm, iv, ss, wf⟩ := d
  dsimp only at h1 h2 h3 h4 h5 h6 h7
  subst h1 h2 h3 h4 h5 h6 h7
  unfold Host.gather
  exact congrArg x (row_operandIdx wf hN idx e k)

end Rows

/-! ## Scalars -/

section Vec
variable {α : Type} {N E w : Nat}

/-- The dimension numbers of the rank-1 form: operand [N], start indices [E, 1], result [E]. -/
abbrev vecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

variable (wf : GatherDims.WF ⟨1, ![N]⟩ ⟨2, ![E, 1]⟩ ⟨1, ![E]⟩ [] [0] [] [0] [] 1 ![1])

/-- The operand index of result e: the clamped row number. -/
theorem vec_operandIdx (hN : 0 < N) (idx : IVec ⟨2, ![E, 1]⟩ w) (e : Fin E) :
    (vecDims N E wf).operandIdx (ix1 e) idx = ix1 (clampRow N hN (idx (ix2 e 0))) := by
  funext a
  obtain rfl : a = 0 := Subsingleton.elim _ _
  refine Fin.ext ?_
  show (vecDims N E wf).start (ix1 e) idx 0 + (vecDims N E wf).batchCoord (ix1 e) 0 + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- THE RANK-1 GATHER READ AT e: the operand at the clamped idx[e, 0], for ANY dimension numbers of that form. -/
theorem host_gather_vec_apply (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (x : (⟨1, ![N]⟩ : Shape).Idx → α) (idx : IVec ⟨2, ![E, 1]⟩ w) (e : Fin E) :
    Host.gather d x idx (ix1 e) = x (ix1 (clampRow N hN (idx (ix2 e 0)))) := by
  obtain ⟨od, cs, ob, sb, sm, iv, ss, wf⟩ := d
  dsimp only at h1 h2 h3 h4 h5 h6 h7
  subst h1 h2 h3 h4 h5 h6 h7
  unfold Host.gather
  exact congrArg x (vec_operandIdx wf hN idx e)

end Vec

end Cert.GatherRows

end
-- ==== Proof.LibConcatCols.lean ====
/-
  Two blocks of columns set side by side, read at an index, for any extents.

  A matrix [R, n] and a matrix [R, n'] joined along the column axis make a matrix [R, n + n']: at (r, q) it is the
  left matrix at (r, q) when q < n, and the right matrix at (r, q - n) otherwise. The index is built from its two
  coordinates, so that the coordinates have literal types at a use site.
-/
import Idealize.ShloMosaic.Lib.ValueIdx
import Idealize.ShloMosaic.Lib.Pipeline.Value

namespace Cert.LibConcatCols

open Idealize.ShloMosaic Idealize.ShloMosaic.ValueIdx

variable {α : Type}

/-- `n` columns and `n'` more columns side by side (`N = n + n'` columns): at `(r, q)` the left block at `(r, q)`
    when `q < n`, the right block at `(r, q - n)` otherwise. -/
theorem concat_cols_apply {R n n' N : ℕ} (hN : N = n + n') (A : (⟨2, ![R, n]⟩ : Shape).Idx → α)
    (B : (⟨2, ![R, n']⟩ : Shape).Idx → α)
    (h : Shape.Concatenates [⟨2, ![R, n]⟩, ⟨2, ![R, n']⟩] ⟨2, ![R, N]⟩ 1) (r : Fin R) (q : Fin N) :
    concatenate ⟨2, ![R, N]⟩ 1 [⟨⟨2, ![R, n]⟩, A⟩, ⟨⟨2, ![R, n']⟩, B⟩] h (ix2 r q)
      = if hq : q.val < n then A (ix2 r ⟨q.val, hq⟩)
        else B (ix2 r ⟨q.val - n, by have := q.isLt; omega⟩) := by
  split
  · next hq =>
    exact concatenate_pair_apply_left 1 A B h (ix2 r q) rfl (ix2 r ⟨q.val, hq⟩)
      (fun b => match b with | ⟨0, _⟩ => rfl | ⟨1, _⟩ => rfl)
  · next hq =>
    refine concatenate_pair_apply_right 1 A B h (ix2 r q) rfl rfl (ix2 r ⟨q.val - n, by have := q.isLt; omega⟩)
      (fun b hb => match b, hb with | ⟨0, _⟩, _ => rfl | ⟨1, _⟩, hb => absurd rfl hb) ?_
    show q.val - n + n = q.val
    omega

end Cert.LibConcatCols
-- ==== Proof.LibRealSums.lean ====
/-
  Finite sums of real numbers inside the extended reals.

  Multiplication does not distribute over addition on the extended reals (⊤ + ⊥ is ⊥, so (⊤ + ⊥) · (−1) is ⊤ while
  ⊤ · (−1) + ⊥ · (−1) is ⊥), but it does on the reals embedded in them. An extended real is called real here when it
  is the image of a real number. Reals are closed under finite sums and under products, a finite sum of reals is
  the image of the real sum, and a real factor distributes over a finite sum of reals (sum_mul_of_isReal).

  The last lemma is the law a message-passing aggregation needs: scaling every message by the receiving node's own
  factor before summing, or scaling the sum afterwards, gives the same number, provided the messages and the
  factor are real (scaled_sum_eq).
-/
import Mathlib.Data.EReal.Basic
import Mathlib.Data.EReal.Operations
import Mathlib.Algebra.BigOperators.Ring.Finset

open scoped BigOperators

namespace Cert.RealSums

/-- An extended real that is the image of a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A real extended real is the image of its own real part. -/
theorem IsReal.eq_coe_toReal {x : EReal} (hx : IsReal x) : x = ((x.toReal : ℝ) : EReal) := by
  obtain ⟨a, rfl⟩ := hx
  rw [EReal.toReal_coe]

/-- The image of a finite real sum is the sum of the images. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of reals is real. -/
theorem isReal_sum {ι : Type*} (s : Finset ι) (a : ι → EReal) (ha : ∀ i ∈ s, IsReal (a i)) : IsReal (∑ i ∈ s, a i) := by
  refine ⟨∑ i ∈ s, (a i).toReal, ?_⟩
  rw [← coe_sum]
  exact Finset.sum_congr rfl fun i hi => (ha i hi).eq_coe_toReal

/-- A real factor distributes over a finite sum of reals. -/
theorem sum_mul_of_isReal {ι : Type*} (s : Finset ι) (a : ι → EReal) (k : EReal)
    (ha : ∀ i ∈ s, IsReal (a i)) (hk : IsReal k) : (∑ i ∈ s, a i) * k = ∑ i ∈ s, a i * k := by
  obtain ⟨r, rfl⟩ := hk
  have h1 : ∑ i ∈ s, a i = ((∑ i ∈ s, (a i).toReal : ℝ) : EReal) := by
    rw [← coe_sum]
    exact Finset.sum_congr rfl fun i hi => (ha i hi).eq_coe_toReal
  have h2 : ∑ i ∈ s, a i * (r : EReal) = ((∑ i ∈ s, (a i).toReal * r : ℝ) : EReal) := by
    rw [← coe_sum]
    refine Finset.sum_congr rfl fun i hi => ?_
    rw [EReal.coe_mul, ← (ha i hi).eq_coe_toReal]
  rw [h1, h2, ← EReal.coe_mul, Finset.sum_mul]

/-- SCALING AFTER OR BEFORE THE SUM. Over a finite set of messages e, each a real value h e times a real sender factor
    s e: the sum scaled by the receiver's real factor k is the sum of the messages each scaled by s e · t e, whenever t e
    is k on the set. (Both sums start from zero, as an accumulating scatter into a zero array does.) -/
theorem scaled_sum_eq {ι : Type*} (S : Finset ι) (h s t : ι → EReal) (k : EReal)
    (hh : ∀ e ∈ S, IsReal (h e)) (hs : ∀ e ∈ S, IsReal (s e)) (ht : ∀ e ∈ S, t e = k) (hk : IsReal k) :
    (0 + ∑ e ∈ S, h e * s e) * k = 0 + ∑ e ∈ S, h e * (s e * t e) := by
  rw [zero_add, zero_add, sum_mul_of_isReal S (fun e => h e * s e) k (fun e he => (hh e he).mul (hs e he)) hk]
  refine Finset.sum_congr rfl fun e he => ?_
  obtain ⟨a, ha⟩ := hh e he
  obtain ⟨b, hb⟩ := hs e he
  obtain ⟨r, hr⟩ := hk
  show h e * s e * k = h e * (s e * t e)
  rw [ht e he, ha, hb, hr, ← EReal.coe_mul, ← EReal.coe_mul, ← EReal.coe_mul, ← EReal.coe_mul, mul_assoc]

end Cert.RealSums
-- ==== Proof.LibBatchNorm.lean ====
/-
  Batch normalisation on the extended reals.

  A column y of real numbers, indexed by a finite set s of m = |s| rows, has the mean μ = (Σ y) / m. Its variance can
  be written as the mean of the squares minus the square of the mean, (Σ y²) / m − μ², or as the mean of the squared
  deviations, (Σ (y − μ)²) / m. On the real numbers the two agree (expand the square: Σ (y − μ)² = Σ y² − 2 μ Σ y + m μ²
  and Σ y = m μ). On the extended reals subtraction and multiplication do not obey the ring laws at the infinities, so
  the identity is stated for columns whose entries are images of real numbers and is proved by moving to the reals.

  The second half carries finiteness through one normalisation layer: sums, differences, products and quotients by a
  nonzero real of reals are real; the variance is a real number that is not negative, so the variance plus a positive
  real is positive and its reciprocal square root is real; hence the normalised, scaled, shifted and rectified entry
  is real. A finite sum of reals divided by the larger of a real count and one is real as well.

  The last part is about a sum accumulated step by step: an accumulator that starts from zero plus the first term and
  adds one term at each further step holds the sum of the terms so far.
-/
import Idealize.ShloMosaic.PureOps.Ideal
import Idealize.ShloMosaic.PureOps.Ideal.Laws
import Idealize.ShloMosaic.Lib.ValueIdx
import proofs.«108390_j87840671138373_2_alg».proof.Proof.LibRealSums

open scoped BigOperators
open Idealize.ShloMosaic Cert.RealSums

namespace Cert.BatchNorm

/-! ### Reals are closed under the operations of a normalisation layer -/

/-- The negative of a real is real. -/
theorem isReal_neg {x : EReal} (hx : IsReal x) : IsReal (-x) := by
  obtain ⟨a, rfl⟩ := hx
  exact ⟨-a, (EReal.coe_neg a).symm⟩

/-- The difference of two reals is real. -/
theorem isReal_sub {x y : EReal} (hx : IsReal x) (hy : IsReal y) : IsReal (x - y) := by
  obtain ⟨a, rfl⟩ := hx
  obtain ⟨b, rfl⟩ := hy
  exact ⟨a - b, (EReal.coe_sub a b).symm⟩

/-- The larger of two reals is real. -/
theorem isReal_max {x y : EReal} (hx : IsReal x) (hy : IsReal y) : IsReal (max x y) := by
  rcases max_choice x y with h | h <;> rw [h] <;> assumption

/-- The quotient of a real a by a nonzero real m is the image of the real quotient a / m. -/
theorem div_coe_coe (a : ℝ) {m : ℝ} (hm : m ≠ 0) : Ideal.div (a : EReal) (m : EReal) = ((a / m : ℝ) : EReal) := by
  rw [Ideal.div_coe hm, ← EReal.coe_mul, mul_one_div]

/-- The quotient of a real by a nonzero real number is real. -/
theorem isReal_div_coe {x : EReal} (hx : IsReal x) {m : ℝ} (hm : m ≠ 0) : IsReal (Ideal.div x (m : EReal)) := by
  obtain ⟨a, rfl⟩ := hx
  exact ⟨a / m, div_coe_coe a hm⟩

/-- The quotient of a real by a real that is not zero is real. -/
theorem isReal_div {x d : EReal} (hx : IsReal x) (hd : IsReal d) (hd0 : d ≠ 0) : IsReal (Ideal.div x d) := by
  obtain ⟨m, rfl⟩ := hd
  exact isReal_div_coe hx (by intro h; exact hd0 (by rw [h, EReal.coe_zero]))

/-- A finite sum of reals is the image of the sum of their real parts. -/
theorem sum_eq_coe {ι : Type*} (s : Finset ι) (y : ι → EReal) (hy : ∀ r ∈ s, IsReal (y r)) :
    ∑ r ∈ s, y r = ((∑ r ∈ s, (y r).toReal : ℝ) : EReal) := by
  rw [← coe_sum]
  exact Finset.sum_congr rfl fun r hr => (hy r hr).eq_coe_toReal

/-- The mean of a finite family of reals over a nonzero real count is the image of the real mean. -/
theorem mean_eq_coe {ι : Type*} (s : Finset ι) (y : ι → EReal) (hy : ∀ r ∈ s, IsReal (y r)) {m : ℝ} (hm0 : m ≠ 0) :
    Ideal.div (∑ r ∈ s, y r) (m : EReal) = (((∑ r ∈ s, (y r).toReal) / m : ℝ) : EReal) := by
  rw [sum_eq_coe s y hy, div_coe_coe _ hm0]

/-! ### The two forms of the variance -/

/-- The mean of the squared deviations from the mean, of a finite family of reals, is the image of the same expression
    over the real numbers. -/
theorem varDev_eq_coe {ι : Type*} (s : Finset ι) (y : ι → EReal) (hy : ∀ r ∈ s, IsReal (y r)) {m : ℝ} (hm0 : m ≠ 0) :
    Ideal.div (∑ r ∈ s, (y r - Ideal.div (∑ r ∈ s, y r) (m : EReal)) * (y r - Ideal.div (∑ r ∈ s, y r) (m : EReal)))
        (m : EReal)
      = (((∑ r ∈ s, ((y r).toReal - (∑ r ∈ s, (y r).toReal) / m) * ((y r).toReal - (∑ r ∈ s, (y r).toReal) / m)) / m : ℝ)
          : EReal) := by
  rw [mean_eq_coe s y hy hm0]
  have h : ∑ r ∈ s, (y r - (((∑ r ∈ s, (y r).toReal) / m : ℝ) : EReal)) * (y r - (((∑ r ∈ s, (y r).toReal) / m : ℝ) : EReal))
      = ((∑ r ∈ s, ((y r).toReal - (∑ r ∈ s, (y r).toReal) / m) * ((y r).toReal - (∑ r ∈ s, (y r).toReal) / m) : ℝ)
          : EReal) := by
    rw [← coe_sum]
    refine Finset.sum_congr rfl fun r hr => ?_
    rw [EReal.coe_mul, EReal.coe_sub, ← (hy r hr).eq_coe_toReal]
  rw [h, div_coe_coe _ hm0]

/-- The mean of the squares minus the square of the mean, of a finite family of reals, is the image of the same
    expression over the real numbers. -/
theorem varSq_eq_coe {ι : Type*} (s : Finset ι) (y : ι → EReal) (hy : ∀ r ∈ s, IsReal (y r)) {m : ℝ} (hm0 : m ≠ 0) :
    Ideal.div (∑ r ∈ s, y r * y r) (m : EReal)
        - Ideal.div (∑ r ∈ s, y r) (m : EReal) * Ideal.div (∑ r ∈ s, y r) (m : EReal)
      = (((∑ r ∈ s, (y r).toReal * (y r).toReal) / m
            - (∑ r ∈ s, (y r).toReal) / m * ((∑ r ∈ s, (y r).toReal) / m) : ℝ) : EReal) := by
  rw [mean_eq_coe s y hy hm0]
  have h : ∑ r ∈ s, y r * y r = ((∑ r ∈ s, (y r).toReal * (y r).toReal : ℝ) : EReal) := by
    rw [← coe_sum]
    refine Finset.sum_congr rfl fun r hr => ?_
    rw [EReal.coe_mul, ← (hy r hr).eq_coe_toReal]
  rw [h, div_coe_coe _ hm0, EReal.coe_sub, EReal.coe_mul]

/-- Over the real numbers: the mean of the squares minus the square of the mean is the mean of the squared deviations,
    for a family indexed by a finite set of m ≠ 0 elements. -/
theorem real_var_eq {ι : Type*} (s : Finset ι) (x : ι → ℝ) {m : ℝ} (hm : m = (s.card : ℝ)) (hm0 : m ≠ 0) :
    (∑ r ∈ s, x r * x r) / m - (∑ r ∈ s, x r) / m * ((∑ r ∈ s, x r) / m)
      = (∑ r ∈ s, (x r - (∑ r ∈ s, x r) / m) * (x r - (∑ r ∈ s, x r) / m)) / m := by
  have hsum : ∀ c : ℝ, ∑ r ∈ s, (x r - c) * (x r - c)
      = (∑ r ∈ s, x r * x r) - 2 * c * (∑ r ∈ s, x r) + (s.card : ℝ) * (c * c) := by
    intro c
    have : ∀ r, (x r - c) * (x r - c) = x r * x r - 2 * c * x r + c * c := fun r => by ring
    simp only [this, Finset.sum_add_distrib, Finset.sum_sub_distrib, ← Finset.mul_sum, Finset.sum_const, nsmul_eq_mul]
    ring
  rw [hsum, ← hm]
  field_simp
  ring

/-- THE TWO VARIANCES AGREE. For a family of reals over a finite set s of m = |s| ≠ 0 rows, the mean of the squares
    minus the square of the mean equals the mean of the squared deviations from the mean, all operations being those of
    the extended reals. -/
theorem var_eq_finset {ι : Type*} (s : Finset ι) (y : ι → EReal) (hy : ∀ r ∈ s, IsReal (y r)) {m : ℝ}
    (hm : m = (s.card : ℝ)) (hm0 : m ≠ 0) :
    Ideal.div (∑ r ∈ s, y r * y r) (m : EReal)
        - Ideal.div (∑ r ∈ s, y r) (m : EReal) * Ideal.div (∑ r ∈ s, y r) (m : EReal)
      = Ideal.div (∑ r ∈ s, (y r - Ideal.div (∑ r ∈ s, y r) (m : EReal)) * (y r - Ideal.div (∑ r ∈ s, y r) (m : EReal)))
          (m : EReal) := by
  rw [varSq_eq_coe s y hy hm0, varDev_eq_coe s y hy hm0, real_var_eq s (fun r => (y r).toReal) hm hm0]

/-- The two variances agree, for a family indexed by a whole finite type of m ≠ 0 elements. -/
theorem var_eq {ι : Type*} [Fintype ι] (y : ι → EReal) (hy : ∀ r, IsReal (y r)) {m : ℝ}
    (hm : m = (Fintype.card ι : ℝ)) (hm0 : m ≠ 0) :
    Ideal.div (∑ r, y r * y r) (m : EReal) - Ideal.div (∑ r, y r) (m : EReal) * Ideal.div (∑ r, y r) (m : EReal)
      = Ideal.div (∑ r, (y r - Ideal.div (∑ r, y r) (m : EReal)) * (y r - Ideal.div (∑ r, y r) (m : EReal))) (m : EReal) :=
  var_eq_finset Finset.univ y (fun r _ => hy r) (by rw [hm, Finset.card_univ]) hm0

/-- The mean of the squared deviations of a family of reals over a positive real count is a real number that is not
    negative. -/
theorem varDev_nonneg {ι : Type*} (s : Finset ι) (y : ι → EReal) (hy : ∀ r ∈ s, IsReal (y r)) {m : ℝ} (hm0 : 0 < m) :
    ∃ v : ℝ, 0 ≤ v ∧
      Ideal.div (∑ r ∈ s, (y r - Ideal.div (∑ r ∈ s, y r) (m : EReal)) * (y r - Ideal.div (∑ r ∈ s, y r) (m : EReal)))
        (m : EReal) = (v : EReal) :=
  ⟨_, div_nonneg (Finset.sum_nonneg fun r _ => mul_self_nonneg _) hm0.le, varDev_eq_coe s y hy hm0.ne'⟩

/-- The mean of the squares minus the square of the mean, of a family of reals over a finite set of m = |s| > 0 rows, is
    a real number that is not negative. -/
theorem varSq_nonneg {ι : Type*} (s : Finset ι) (y : ι → EReal) (hy : ∀ r ∈ s, IsReal (y r)) {m : ℝ}
    (hm : m = (s.card : ℝ)) (hm0 : 0 < m) :
    ∃ v : ℝ, 0 ≤ v ∧
      Ideal.div (∑ r ∈ s, y r * y r) (m : EReal)
        - Ideal.div (∑ r ∈ s, y r) (m : EReal) * Ideal.div (∑ r ∈ s, y r) (m : EReal) = (v : EReal) := by
  rw [var_eq_finset s y hy hm hm0.ne']
  exact varDev_nonneg s y hy hm0

/-! ### The reciprocal square root of the variance plus a positive real -/

/-- The reciprocal square root of a positive real is the image of the real reciprocal square root. -/
theorem rsqrt_coe_of_pos {v : ℝ} (hv : 0 < v) : Ideal.rsqrt (v : EReal) = (((Real.sqrt v)⁻¹ : ℝ) : EReal) := by
  rw [Ideal.rsqrt_coe, if_neg (not_lt.mpr hv.le), if_neg hv.ne']

/-- The reciprocal square root of a positive real is real. -/
theorem isReal_rsqrt_of_pos {v : ℝ} (hv : 0 < v) : IsReal (Ideal.rsqrt (v : EReal)) :=
  ⟨_, rsqrt_coe_of_pos hv⟩

/-- The reciprocal square root of a real that is not negative plus a positive real is real. -/
theorem isReal_rsqrt_add {v e : ℝ} (hv : 0 ≤ v) (he : 0 < e) : IsReal (Ideal.rsqrt ((v : EReal) + (e : EReal))) := by
  rw [← EReal.coe_add]
  exact isReal_rsqrt_of_pos (add_pos_of_nonneg_of_pos hv he)

/-- The reciprocal square root of (mean of squares − square of the mean) + ε is real, for a family of reals over a
    finite set of m = |s| > 0 rows and a positive real ε. -/
theorem isReal_rsqrt_varSq_add {ι : Type*} (s : Finset ι) (y : ι → EReal) (hy : ∀ r ∈ s, IsReal (y r)) {m : ℝ}
    (hm : m = (s.card : ℝ)) (hm0 : 0 < m) {e : ℝ} (he : 0 < e) :
    IsReal (Ideal.rsqrt (Ideal.div (∑ r ∈ s, y r * y r) (m : EReal)
        - Ideal.div (∑ r ∈ s, y r) (m : EReal) * Ideal.div (∑ r ∈ s, y r) (m : EReal) + (e : EReal))) := by
  obtain ⟨v, hv, h⟩ := varSq_nonneg s y hy hm hm0
  rw [h]
  exact isReal_rsqrt_add hv he

/-- The reciprocal square root of (mean of the squared deviations) + ε is real, for a family of reals over a positive
    real count and a positive real ε. -/
theorem isReal_rsqrt_varDev_add {ι : Type*} (s : Finset ι) (y : ι → EReal) (hy : ∀ r ∈ s, IsReal (y r)) {m : ℝ}
    (hm0 : 0 < m) {e : ℝ} (he : 0 < e) :
    IsReal (Ideal.rsqrt (Ideal.div (∑ r ∈ s, (y r - Ideal.div (∑ r ∈ s, y r) (m : EReal))
        * (y r - Ideal.div (∑ r ∈ s, y r) (m : EReal))) (m : EReal) + (e : EReal))) := by
  obtain ⟨v, hv, h⟩ := varDev_nonneg s y hy hm0
  rw [h]
  exact isReal_rsqrt_add hv he

/-! ### The rectified output -/

/-- A selection on the comparison z ≥ 0 is a case distinction on 0 ≤ z. -/
theorem select_cmp_oge_zero {α : Type} (z : EReal) (a b : α) :
    Scalar.select (Ideal.cmp .oge z 0) a b = if 0 ≤ z then a else b := by
  by_cases h : (0 : EReal) ≤ z
  · rw [if_pos h]
    have : Ideal.cmp .oge z 0 = 1#1 := by simp [Ideal.cmp, h]
    rw [this]; exact if_pos rfl
  · rw [if_neg h]
    have : Ideal.cmp .oge z 0 = 0#1 := by simp [Ideal.cmp, h]
    rw [this]; exact if_neg (by decide)

/-- A selection between two reals is real, whatever the condition. -/
theorem isReal_select (c : BitVec 1) {a b : EReal} (ha : IsReal a) (hb : IsReal b) : IsReal (Scalar.select c a b) := by
  unfold Scalar.select
  split <;> assumption

/-- The leaky rectifier of a real with a real slope is real: z where z ≥ 0, slope · z elsewhere. -/
theorem isReal_prelu {z a : EReal} (hz : IsReal z) (ha : IsReal a) :
    IsReal (Scalar.select (Ideal.cmp .oge z 0) z (a * z)) :=
  isReal_select _ hz (ha.mul hz)

/-- The normalised, scaled and shifted entry (y − μ) · ρ · γ + β is real when its five constituents are. -/
theorem isReal_affine {y μ ρ γ β : EReal} (hy : IsReal y) (hμ : IsReal μ) (hρ : IsReal ρ) (hγ : IsReal γ)
    (hβ : IsReal β) : IsReal ((y - μ) * ρ * γ + β) :=
  (((isReal_sub hy hμ).mul hρ).mul hγ).add hβ

/-- The output of a normalisation layer with a leaky rectifier, prelu ((y − μ) · ρ · γ + β), is real when its
    constituents and the slope are. -/
theorem isReal_bn_prelu {y μ ρ γ β a : EReal} (hy : IsReal y) (hμ : IsReal μ) (hρ : IsReal ρ) (hγ : IsReal γ)
    (hβ : IsReal β) (ha : IsReal a) :
    IsReal (Scalar.select (Ideal.cmp .oge ((y - μ) * ρ * γ + β) 0) ((y - μ) * ρ * γ + β) (a * ((y - μ) * ρ * γ + β))) :=
  isReal_prelu (isReal_affine hy hμ hρ hγ hβ) ha

/-! ### A sum of reals divided by a count that is at least one -/

/-- A finite sum of reals divided by the larger of a real count and one is real. -/
theorem isReal_sum_div_max_one {ι : Type*} (s : Finset ι) (a : ι → EReal) (ha : ∀ i ∈ s, IsReal (a i)) {c : EReal}
    (hc : IsReal c) : IsReal (Ideal.div (∑ i ∈ s, a i) (max c 1)) := by
  refine isReal_div (isReal_sum s a ha) (isReal_max hc isReal_one) ?_
  exact (lt_of_lt_of_le zero_lt_one (le_max_right c 1)).ne'

/-- A real divided by the larger of a real count and one is real. -/
theorem isReal_div_max_one {x c : EReal} (hx : IsReal x) (hc : IsReal c) : IsReal (Ideal.div x (max c 1)) :=
  isReal_div hx (isReal_max hc isReal_one) (lt_of_lt_of_le zero_lt_one (le_max_right c 1)).ne'

/-! ### A sum accumulated step by step -/

/-- An accumulator that holds zero plus the first term after step 0 and adds the next term at every further step below
    N holds, after step n < N, the sum of the terms 0 … n. -/
theorem acc_eq_sum_range {β : Type*} [AddCommMonoid β] (acc g : ℕ → β) (N : ℕ) (h0 : acc 0 = 0 + g 0)
    (hs : ∀ n, n + 1 < N → acc (n + 1) = acc n + g (n + 1)) :
    ∀ n, n < N → acc n = ∑ t ∈ Finset.range (n + 1), g t := by
  intro n
  induction n with
  | zero => intro _; rw [h0, zero_add, Finset.sum_range_one]
  | succ k ih =>
    intro hk
    rw [hs k hk, ih (Nat.lt_of_succ_lt hk), Finset.sum_range_succ _ (k + 1)]

/-- After the last of N > 0 steps the accumulator holds the sum of all N terms. -/
theorem acc_last_eq_sum {β : Type*} [AddCommMonoid β] (acc g : ℕ → β) (N : ℕ) (hN : 0 < N) (h0 : acc 0 = 0 + g 0)
    (hs : ∀ n, n + 1 < N → acc (n + 1) = acc n + g (n + 1)) :
    acc (N - 1) = ∑ t ∈ Finset.range N, g t := by
  rw [acc_eq_sum_range acc g N h0 hs (N - 1) (Nat.sub_lt hN Nat.one_pos), Nat.sub_add_cancel hN]

/-- The same for an accumulator of extended reals whose first step adds the first term to the single-precision zero
    pattern, which denotes zero. -/
theorem acc_eq_sum_range_f32 (acc g : ℕ → EReal) (N : ℕ) (h0 : acc 0 = Ideal.ofBits .f32 0x00000000#32 + g 0)
    (hs : ∀ n, n + 1 < N → acc (n + 1) = acc n + g (n + 1)) :
    ∀ n, n < N → acc n = ∑ t ∈ Finset.range (n + 1), g t :=
  acc_eq_sum_range acc g N (by rw [h0, Ideal.ofBits_zero_f32]) hs

end Cert.BatchNorm
-- ==== Proof.LibConsts.lean ====
/-
  The single-precision constants of a normalisation network, as real numbers.

  A single-precision pattern with sign 0, exponent field E (neither 0 nor 255) and fraction field T denotes the real
  (2²³ + T) · 2^(E − 150). The patterns below are the counts 600000, 50000 and 32, the numbers 0.5 and (in the library
  already) 0 and 1, and the pattern nearest to 10⁻⁵, which is 10995116 / 2⁴⁰, a positive real. The pattern with exponent
  field 255 and fraction field 0 denotes +∞.
-/
import Idealize.ShloMosaic.PureOps.Ideal
import Idealize.ShloMosaic.PureOps.Ideal.Laws

open Idealize.ShloMosaic

namespace Cert.BatchNorm.Consts

/-- The single-precision pattern 0x49127C00 denotes the real 600000. -/
theorem ofBits_600000 : Ideal.ofBits .f32 0x49127C00#32 = ((600000 : ℝ) : EReal) := by
  simp [Ideal.ofBits, Ideal.ieee, -EReal.coe_mul]; norm_num

/-- The single-precision pattern 0x47435000 denotes the real 50000. -/
theorem ofBits_50000 : Ideal.ofBits .f32 0x47435000#32 = ((50000 : ℝ) : EReal) := by
  simp [Ideal.ofBits, Ideal.ieee, -EReal.coe_mul]; norm_num

/-- The single-precision pattern 0x42000000 denotes the real 32. -/
theorem ofBits_32 : Ideal.ofBits .f32 0x42000000#32 = ((32 : ℝ) : EReal) := by
  simp [Ideal.ofBits, Ideal.ieee, -EReal.coe_mul]; norm_num

/-- The single-precision pattern 0x3F000000 denotes the real one half. -/
theorem ofBits_half : Ideal.ofBits .f32 0x3F000000#32 = ((1 / 2 : ℝ) : EReal) := by
  simp [Ideal.ofBits, Ideal.ieee, -EReal.coe_mul]; norm_num

/-- The single-precision pattern 0x3F800000 denotes the real one. -/
theorem ofBits_one : Ideal.ofBits .f32 0x3F800000#32 = ((1 : ℝ) : EReal) := by
  simp [Ideal.ofBits, Ideal.ieee, -EReal.coe_mul]; norm_num

/-- The single-precision pattern 0x00000000 denotes the real zero. -/
theorem ofBits_zero : Ideal.ofBits .f32 0x00000000#32 = ((0 : ℝ) : EReal) := by
  rw [Ideal.ofBits_zero_f32, EReal.coe_zero]

/-- The single-precision pattern 0x3727C5AC (the nearest to 10⁻⁵) denotes the real 10995116 / 2⁴⁰. -/
theorem ofBits_eps : Ideal.ofBits .f32 0x3727C5AC#32 = ((10995116 / 2 ^ 40 : ℝ) : EReal) := by
  simp [Ideal.ofBits, Ideal.ieee, -EReal.coe_mul]; norm_num

/-- The single-precision pattern 0x7F800000 denotes +∞. -/
theorem ofBits_inf : Ideal.ofBits .f32 0x7F800000#32 = ⊤ := by
  simp [Ideal.ofBits, Ideal.ieee]

/-- The real the pattern 0x3727C5AC denotes is positive. -/
theorem eps_pos : (0 : ℝ) < 10995116 / 2 ^ 40 := by norm_num

end Cert.BatchNorm.Consts
-- ==== Proof.LibAllReal.lean ====
/-
  Every entry is a real number: a property of arrays of extended reals, carried through the operations of a network.

  An array over a shape is a function from the shape's indices to the extended reals. It is called all-real here when
  every entry is the image of a real number. The lemmas below say that each operation that sits between the layers of a
  message-passing network keeps that property:

  · entrywise sums, differences, products, maxima, quotients by nonzero reals, format changes (the identity on the
    extended reals), integer-to-float conversions, selections;
  · constants whose pattern denotes a real, and anything that only re-indexes its operand: broadcasts, shape casts,
    slices, gathers (every entry of the result is an entry of the operand);
  · concatenations (every entry of the result is an entry of one of the blocks);
  · accumulating scatters, sums over axes, matrix products (an entry plus a finite sum of entries, or of products);
  · reciprocal square roots of arrays whose entries are positive reals.

  Two companions: an array is all-nonnegative / all-positive when every entry is the image of a real ≥ 0 / > 0. A
  nonnegative array plus a positive one is positive, which is what the variance plus a small positive constant needs
  before its reciprocal square root is taken.
-/
import Idealize.ShloMosaic.PureOps
import Idealize.ShloMosaic.PureOps.Ideal
import Idealize.ShloMosaic.PureOps.Ideal.Laws
import Idealize.ShloMosaic.Lib.ValueIdx
import Idealize.ShloMosaic.Lib.ReduceAll
import proofs.«108390_j87840671138373_2_alg».proof.Proof.LibRealSums
import proofs.«108390_j87840671138373_2_alg».proof.Proof.LibBatchNorm
import proofs.«108390_j87840671138373_2_alg».proof.Proof.LibConsts

open scoped BigOperators
open Idealize.ShloMosaic Cert.RealSums Cert.BatchNorm

namespace Cert.AllReal

/-- Every entry of the array is the image of a real number. -/
def AllReal {S : Shape} (v : S.Idx → EReal) : Prop := ∀ i, IsReal (v i)

/-- Every entry of the array is the image of a real number that is not negative. -/
def AllNonneg {S : Shape} (v : S.Idx → EReal) : Prop := ∀ i, ∃ r : ℝ, 0 ≤ r ∧ v i = (r : EReal)

/-- Every entry of the array is the image of a positive real number. -/
def AllPos {S : Shape} (v : S.Idx → EReal) : Prop := ∀ i, ∃ r : ℝ, 0 < r ∧ v i = (r : EReal)

section Basics
variable {S : Shape}

/-- An all-nonnegative array is all-real. -/
theorem AllNonneg.allReal {v : S.Idx → EReal} (h : AllNonneg v) : AllReal v :=
  fun i => let ⟨r, _, hr⟩ := h i; ⟨r, hr⟩

/-- An all-positive array is all-real. -/
theorem AllPos.allReal {v : S.Idx → EReal} (h : AllPos v) : AllReal v :=
  fun i => let ⟨r, _, hr⟩ := h i; ⟨r, hr⟩

/-- An all-positive array is all-nonnegative. -/
theorem AllPos.allNonneg {v : S.Idx → EReal} (h : AllPos v) : AllNonneg v :=
  fun i => let ⟨r, h0, hr⟩ := h i; ⟨r, h0.le, hr⟩

/-- No entry of an all-positive array is zero. -/
theorem AllPos.ne_zero {v : S.Idx → EReal} (h : AllPos v) (i : S.Idx) : v i ≠ 0 := by
  obtain ⟨r, h0, hr⟩ := h i
  rw [hr]
  exact_mod_cast h0.ne'

/-- RE-INDEXING. An array that reads an all-real array at some index of it, whatever the index, is all-real. -/
theorem allReal_comp {T : Shape} {x : S.Idx → EReal} (hx : AllReal x) (f : T.Idx → S.Idx) : AllReal fun j => x (f j) :=
  fun j => hx (f j)

/-- Re-indexing keeps positivity. -/
theorem allPos_comp {T : Shape} {x : S.Idx → EReal} (hx : AllPos x) (f : T.Idx → S.Idx) : AllPos fun j => x (f j) :=
  fun j => hx (f j)

/-- Re-indexing keeps nonnegativity. -/
theorem allNonneg_comp {T : Shape} {x : S.Idx → EReal} (hx : AllNonneg x) (f : T.Idx → S.Idx) :
    AllNonneg fun j => x (f j) :=
  fun j => hx (f j)

end Basics

/-! ### Entrywise operations -/

section Elementwise
variable {s : Shape} {φ : FTy}

/-- The entrywise sum of two all-real arrays is all-real. -/
theorem allReal_addf {x y : FVec Ideal s φ} (hx : AllReal x) (hy : AllReal y) : AllReal (addf x y) :=
  fun i => (hx i).add (hy i)

/-- The entrywise difference of two all-real arrays is all-real. -/
theorem allReal_subf {x y : FVec Ideal s φ} (hx : AllReal x) (hy : AllReal y) : AllReal (subf x y) :=
  fun i => isReal_sub (hx i) (hy i)

/-- The entrywise product of two all-real arrays is all-real. -/
theorem allReal_mulf {x y : FVec Ideal s φ} (hx : AllReal x) (hy : AllReal y) : AllReal (mulf x y) :=
  fun i => (hx i).mul (hy i)

/-- The entrywise negative of an all-real array is all-real. -/
theorem allReal_negf {x : FVec Ideal s φ} (hx : AllReal x) : AllReal (negf x) :=
  fun i => isReal_neg (hx i)

/-- The entrywise maximum of two all-real arrays is all-real. -/
theorem allReal_maximumf {x y : FVec Ideal s φ} (hx : AllReal x) (hy : AllReal y) : AllReal (maximumf x y) :=
  fun i => isReal_max (hx i) (hy i)

/-- The host's entrywise quotient of an all-real array by an all-real array without a zero entry is all-real. -/
theorem allReal_hostDivf {x d : FVec Ideal s φ} (hx : AllReal x) (hd : AllReal d) (hd0 : ∀ i, d i ≠ 0) :
    AllReal (Host.divf x d) :=
  fun i => isReal_div (hx i) (hd i) (hd0 i)

/-- A kernel's entrywise quotient of an all-real array by an all-real array without a zero entry is all-real. -/
theorem allReal_divf {x d : FVec Ideal s φ} (hx : AllReal x) (hd : AllReal d) (hd0 : ∀ i, d i ≠ 0) :
    AllReal (divf x d) :=
  fun i => isReal_div (hx i) (hd i) (hd0 i)

/-- The entrywise maximum of an all-real array and an all-positive array is all-positive (a count raised to at least
    one). -/
theorem allPos_maximumf_right {x y : FVec Ideal s φ} (hx : AllReal x) (hy : AllPos y) : AllPos (maximumf x y) := by
  intro i
  obtain ⟨a, ha⟩ := hx i
  obtain ⟨b, hb0, hb⟩ := hy i
  refine ⟨max a b, lt_of_lt_of_le hb0 (le_max_right a b), ?_⟩
  show max (x i) (y i) = _
  rw [ha, hb]
  rcases le_total a b with h | h
  · rw [max_eq_right h, max_eq_right (EReal.coe_le_coe_iff.mpr h)]
  · rw [max_eq_left h, max_eq_left (EReal.coe_le_coe_iff.mpr h)]

/-- The sum of an all-nonnegative array and an all-positive array is all-positive. -/
theorem allPos_addf {x y : FVec Ideal s φ} (hx : AllNonneg x) (hy : AllPos y) : AllPos (addf x y) := by
  intro i
  obtain ⟨a, ha0, ha⟩ := hx i
  obtain ⟨b, hb0, hb⟩ := hy i
  refine ⟨a + b, add_pos_of_nonneg_of_pos ha0 hb0, ?_⟩
  show x i + y i = _
  rw [ha, hb, EReal.coe_add]

/-- A narrowing format change is the identity on the extended reals. -/
theorem truncf_eq (ψ : FTy) (x : FVec Ideal s φ) (h : ψ.bits < φ.bits) : (truncf ψ x h : s.Idx → EReal) = x := rfl

/-- A widening format change is the identity on the extended reals. -/
theorem extf_eq (ψ : FTy) (x : FVec Ideal s φ) (h : φ.bits < ψ.bits) : (extf ψ x h : s.Idx → EReal) = x := rfl

/-- A narrowing format change keeps an array all-real. -/
theorem allReal_truncf (ψ : FTy) {x : FVec Ideal s φ} (h : ψ.bits < φ.bits) (hx : AllReal x) : AllReal (truncf ψ x h) :=
  hx

/-- A widening format change keeps an array all-real. -/
theorem allReal_extf (ψ : FTy) {x : FVec Ideal s φ} (h : φ.bits < ψ.bits) (hx : AllReal x) : AllReal (extf ψ x h) :=
  hx

/-- An array of signed integers converted to floats is all-real: each entry is the integer itself. -/
theorem allReal_sitofp {w : Nat} (x : IVec s w) : AllReal (sitofp (F := Ideal) φ x) :=
  fun i => ⟨((x i).toInt : ℝ), rfl⟩

/-- A selection between two all-real arrays is all-real, whatever the mask. -/
theorem allReal_select (c : IVec s 1) {a b : FVec Ideal s φ} (ha : AllReal a) (hb : AllReal b) :
    AllReal (select c a b) :=
  fun i => isReal_select (c i) (ha i) (hb i)

/-- The leaky rectifier of an all-real array with an all-real slope array is all-real: z where z ≥ 0, slope · z
    elsewhere, the comparison being against any array. -/
theorem allReal_prelu (p : CmpFPredicate) {z a zero : FVec Ideal s φ} (hz : AllReal z) (ha : AllReal a) :
    AllReal (select (cmpf p z zero) z (mulf a z)) :=
  allReal_select _ hz (allReal_mulf ha hz)

/-- The reciprocal square root (a kernel's) of an all-positive array is all-real. -/
theorem allReal_rsqrt {x : FVec Ideal s φ} (hx : AllPos x) : AllReal (rsqrt x) := by
  intro i
  obtain ⟨r, h0, hr⟩ := hx i
  show IsReal (Ideal.rsqrt (x i))
  rw [hr]
  exact isReal_rsqrt_of_pos h0

/-- The reciprocal square root (the host's) of an all-positive array is all-real. -/
theorem allReal_hostRsqrt {x : FVec Ideal s φ} (hx : AllPos x) : AllReal (Host.rsqrt x) := by
  intro i
  obtain ⟨r, h0, hr⟩ := hx i
  show IsReal (Ideal.rsqrt (x i))
  rw [hr]
  exact isReal_rsqrt_of_pos h0

end Elementwise

/-! ### Constants and re-indexings -/

section Layout
variable {s t : Shape}

/-- The splat of a pattern that denotes a real is all-real. -/
theorem allReal_constant (s : Shape) (φ : FTy) (b : BitVec φ.bits) (hb : IsReal (Ideal.ofBits φ b)) :
    AllReal (constant (F := Ideal) s φ b) :=
  fun _ => hb

/-- The splat of a pattern that denotes a positive real is all-positive. -/
theorem allPos_constant (s : Shape) (φ : FTy) (b : BitVec φ.bits) {r : ℝ} (h0 : 0 < r)
    (hb : Ideal.ofBits φ b = (r : EReal)) : AllPos (constant (F := Ideal) s φ b) :=
  fun _ => ⟨r, h0, hb⟩

/-- The splat of a real scalar is all-real. -/
theorem allReal_broadcast (t : Shape) {x : EReal} (hx : IsReal x) : AllReal (broadcast t x) :=
  fun _ => hx

/-- A broadcast along named axes of an all-real array is all-real. -/
theorem allReal_broadcastInDim (t : Shape) (dims : Fin s.rank → Fin t.rank) (h : s.BroadcastsInDim t dims)
    {x : s.Idx → EReal} (hx : AllReal x) : AllReal (broadcastInDim t dims h x) :=
  fun _ => hx _

/-- A broadcast along named axes of an all-positive array is all-positive. -/
theorem allPos_broadcastInDim (t : Shape) (dims : Fin s.rank → Fin t.rank) (h : s.BroadcastsInDim t dims)
    {x : s.Idx → EReal} (hx : AllPos x) : AllPos (broadcastInDim t dims h x) :=
  fun _ => hx _

/-- A broadcast along named axes of an all-nonnegative array is all-nonnegative. -/
theorem allNonneg_broadcastInDim (t : Shape) (dims : Fin s.rank → Fin t.rank) (h : s.BroadcastsInDim t dims)
    {x : s.Idx → EReal} (hx : AllNonneg x) : AllNonneg (broadcastInDim t dims h x) :=
  fun _ => hx _

/-- A broadcast of the splat of a pattern that denotes a real is all-real. -/
theorem allReal_broadcastInDim_constant (t : Shape) (dims : Fin s.rank → Fin t.rank) (h : s.BroadcastsInDim t dims)
    (φ : FTy) (b : BitVec φ.bits) (hb : IsReal (Ideal.ofBits φ b)) :
    AllReal (broadcastInDim t dims h (constant (F := Ideal) s φ b)) :=
  allReal_broadcastInDim t dims h (allReal_constant s φ b hb)

/-- A broadcast to trailing axes of an all-real array is all-real. -/
theorem allReal_broadcastTo (t : Shape) {x : s.Idx → EReal} (h : s.Broadcasts t) (hx : AllReal x) :
    AllReal (broadcastTo t x h) :=
  fun _ => hx _

/-- A shape cast of an all-real array is all-real. -/
theorem allReal_shapeCast (t : Shape) {x : s.Idx → EReal} (h : s.ShapeCasts t) (hx : AllReal x) :
    AllReal (shapeCast t x h) :=
  fun _ => hx _

/-- A shape cast of an all-positive array is all-positive. -/
theorem allPos_shapeCast (t : Shape) {x : s.Idx → EReal} (h : s.ShapeCasts t) (hx : AllPos x) :
    AllPos (shapeCast t x h) :=
  fun _ => hx _

/-- A shape cast of an all-nonnegative array is all-nonnegative. -/
theorem allNonneg_shapeCast (t : Shape) {x : s.Idx → EReal} (h : s.ShapeCasts t) (hx : AllNonneg x) :
    AllNonneg (shapeCast t x h) :=
  fun _ => hx _

/-- A slice of an all-real array is all-real. -/
theorem allReal_extractStridedSlice (t : Shape) (off : Fin s.rank → Nat) {x : s.Idx → EReal} (h : s.Slices off t)
    (hx : AllReal x) : AllReal (extractStridedSlice t off x h) :=
  fun _ => hx _

/-- A gather out of an all-real array is all-real, whatever the dimension numbers and the indices: every entry of the
    result is an entry of the operand. -/
theorem allReal_gather {si : Shape} {w : Nat} (d : GatherDims s si t) {x : s.Idx → EReal} (idx : IVec si w)
    (hx : AllReal x) : AllReal (Host.gather d x idx) :=
  fun _ => hx _

/-- A concatenation of all-real blocks is all-real, whatever the number of blocks and the axis: every entry of the
    result is an entry of one of the blocks. -/
theorem allReal_concatenate (t : Shape) (a : Fin t.rank) (xs : List ((s : Shape) × (s.Idx → EReal)))
    (h : Shape.Concatenates (xs.map (·.1)) t a) (hx : ∀ p ∈ xs, AllReal p.2) : AllReal (concatenate t a xs h) := by
  intro j
  unfold concatenate
  exact hx _ (List.getElem_mem _) _

/-- Two all-real blocks side by side are all-real. -/
theorem allReal_concatenate_two (t : Shape) (a : Fin t.rank) {s1 s2 : Shape} {u0 : s1.Idx → EReal} {u1 : s2.Idx → EReal}
    (h : Shape.Concatenates [s1, s2] t a) (h0 : AllReal u0) (h1 : AllReal u1) :
    AllReal (concatenate t a [⟨s1, u0⟩, ⟨s2, u1⟩] h) := by
  refine allReal_concatenate t a [⟨s1, u0⟩, ⟨s2, u1⟩] h fun p hp => ?_
  rcases List.mem_cons.mp hp with rfl | hp
  · exact h0
  rcases List.mem_cons.mp hp with rfl | hp
  · exact h1
  exact absurd hp List.not_mem_nil

/-- Three all-real blocks side by side are all-real. -/
theorem allReal_concatenate_three (t : Shape) (a : Fin t.rank) {s1 s2 s3 : Shape} {u0 : s1.Idx → EReal}
    {u1 : s2.Idx → EReal} {u2 : s3.Idx → EReal} (h : Shape.Concatenates [s1, s2, s3] t a) (h0 : AllReal u0)
    (h1 : AllReal u1) (h2 : AllReal u2) : AllReal (concatenate t a [⟨s1, u0⟩, ⟨s2, u1⟩, ⟨s3, u2⟩] h) := by
  refine allReal_concatenate t a [⟨s1, u0⟩, ⟨s2, u1⟩, ⟨s3, u2⟩] h fun p hp => ?_
  rcases List.mem_cons.mp hp with rfl | hp
  · exact h0
  rcases List.mem_cons.mp hp with rfl | hp
  · exact h1
  rcases List.mem_cons.mp hp with rfl | hp
  · exact h2
  exact absurd hp List.not_mem_nil

end Layout

/-! ### Sums: scatters, reductions, products -/

section Sums
variable {s t : Shape} {φ : FTy}

/-- An accumulating scatter of all-real updates into an all-real operand is all-real, whatever the dimension numbers
    and the indices: every entry of the result is an entry of the operand plus a finite sum of updates. -/
theorem allReal_scatterAdd {si u : Shape} {w : Nat} (d : ScatterDims s si u) {x : FVec Ideal s φ} (idx : IVec si w)
    {upd : FVec Ideal u φ} (hx : AllReal x) (hu : AllReal upd) : AllReal (Host.scatterAdd d x idx upd) := by
  intro i
  show IsReal (Ideal.hostScatterAdd d x idx upd i)
  unfold Ideal.hostScatterAdd
  exact (hx i).add (isReal_sum _ _ fun j _ => hu j)

/-- The host's sum over axes of an all-real array, from a real initial value, is all-real. -/
theorem allReal_hostReduceAdd {axes : List (Fin s.rank)} {u : Shape} {x : FVec Ideal s φ} {init : u.Idx → Ideal φ}
    (h : s.ReducesTo axes t) (hu : 0 < u.numel) (hx : AllReal x) (hinit : ∀ i, IsReal (init i)) :
    AllReal (Host.reduceAdd x init h hu) := by
  intro j
  show IsReal (Ideal.hostReduceAdd h x (init (Shape.Idx.first hu)) j)
  unfold Ideal.hostReduceAdd
  exact (hinit _).add (isReal_sum _ _ fun i _ => hx i)

/-- A kernel's sum over axes of an all-real array is all-real. -/
theorem allReal_multiReduction_add (axes : List (Fin s.rank)) (t : Shape) {src : FVec Ideal s φ} (acc : BitVec φ.bits)
    (h : s.Reduces axes t) (hφ : FKind.Formats φ) (hacc : acc = FKind.neutral .add φ hφ) (hx : AllReal src) :
    AllReal (multiReduction .add axes t src acc h hφ hacc) := by
  intro j
  show IsReal (Ideal.reduceAdd h src j)
  unfold Ideal.reduceAdd
  exact isReal_sum _ _ fun i _ => hx i

/-- A matrix unit's product of all-real operands onto an all-real accumulator is all-real, whatever the dimension
    numbers: every entry is an accumulator entry plus a finite sum of products. -/
theorem allReal_matmul {sl sr so : Shape} {φ₁ φ₂ : FTy} (d : DotDims sl sr so) (prec : Option ContractPrecision)
    {lhs : FVec Ideal sl φ₁} {rhs : FVec Ideal sr φ₂} {acc : FVec Ideal so .f32} (hl : AllReal lhs) (hr : AllReal rhs)
    (hacc : AllReal acc) : AllReal (matmul d prec lhs rhs acc) := by
  intro j
  show IsReal (FloatOps.matmul d prec lhs rhs acc j)
  rw [Ideal.matmul_apply]
  exact (hacc j).add (isReal_sum _ _ fun k _ => (hl _).mul (hr _))

/-- A matrix unit's product of all-real operands onto the zero splat is all-real. -/
theorem allReal_matmul_zero {sl sr so : Shape} {φ₁ φ₂ : FTy} (d : DotDims sl sr so) (prec : Option ContractPrecision)
    {lhs : FVec Ideal sl φ₁} {rhs : FVec Ideal sr φ₂} (hl : AllReal lhs) (hr : AllReal rhs) :
    AllReal (matmul d prec lhs rhs (constant (F := Ideal) so .f32 0x00000000#32)) :=
  allReal_matmul d prec hl hr (allReal_constant so .f32 _ ⟨0, by rw [Ideal.ofBits_zero_f32, EReal.coe_zero]⟩)

/-- The host's general product of all-real operands is all-real, whatever the dimension numbers. -/
theorem allReal_dotGeneral {sl sr so : Shape} {φ₁ φ₂ : FTy} (d : DotDims sl sr so) (prec : Option ContractPrecision)
    {lhs : FVec Ideal sl φ₁} {rhs : FVec Ideal sr φ₂} (hl : AllReal lhs) (hr : AllReal rhs) :
    AllReal (Host.dotGeneral d prec lhs rhs) := by
  intro j
  show IsReal (FloatOps.dotGeneral d prec .single lhs rhs j)
  rw [Ideal.dotGeneral_apply]
  exact isReal_sum _ _ fun k _ => (hl _).mul (hr _)

end Sums

/-! ### The constants of the network -/

section Consts
open Cert.BatchNorm.Consts

/-- The pattern of 0 denotes a real. -/
theorem isReal_ofBits_zero : IsReal (Ideal.ofBits .f32 0x00000000#32) := ⟨_, ofBits_zero⟩
/-- The pattern of 0.5 denotes a real. -/
theorem isReal_ofBits_half : IsReal (Ideal.ofBits .f32 0x3F000000#32) := ⟨_, ofBits_half⟩
/-- The pattern of 1 denotes a real. -/
theorem isReal_ofBits_one : IsReal (Ideal.ofBits .f32 0x3F800000#32) := ⟨_, ofBits_one⟩
/-- The pattern of 600000 denotes a real. -/
theorem isReal_ofBits_600000 : IsReal (Ideal.ofBits .f32 0x49127C00#32) := ⟨_, ofBits_600000⟩
/-- The pattern of 50000 denotes a real. -/
theorem isReal_ofBits_50000 : IsReal (Ideal.ofBits .f32 0x47435000#32) := ⟨_, ofBits_50000⟩
/-- The pattern of 32 denotes a real. -/
theorem isReal_ofBits_32 : IsReal (Ideal.ofBits .f32 0x42000000#32) := ⟨_, ofBits_32⟩
/-- The pattern nearest to 10⁻⁵ denotes a real. -/
theorem isReal_ofBits_eps : IsReal (Ideal.ofBits .f32 0x3727C5AC#32) := ⟨_, ofBits_eps⟩

/-- The pattern of 1 denotes a nonzero number. -/
theorem ofBits_one_ne_zero : Ideal.ofBits .f32 0x3F800000#32 ≠ 0 := by
  rw [ofBits_one, EReal.coe_one]; exact one_ne_zero
/-- The pattern of 600000 denotes a nonzero number. -/
theorem ofBits_600000_ne_zero : Ideal.ofBits .f32 0x49127C00#32 ≠ 0 := by
  rw [ofBits_600000]; exact_mod_cast (by norm_num : (600000 : ℝ) ≠ 0)
/-- The pattern of 50000 denotes a nonzero number. -/
theorem ofBits_50000_ne_zero : Ideal.ofBits .f32 0x47435000#32 ≠ 0 := by
  rw [ofBits_50000]; exact_mod_cast (by norm_num : (50000 : ℝ) ≠ 0)
/-- The pattern of 32 denotes a nonzero number. -/
theorem ofBits_32_ne_zero : Ideal.ofBits .f32 0x42000000#32 ≠ 0 := by
  rw [ofBits_32]; exact_mod_cast (by norm_num : (32 : ℝ) ≠ 0)

/-- The splat of the pattern nearest to 10⁻⁵ is all-positive. -/
theorem allPos_constant_eps (s : Shape) : AllPos (constant (F := Ideal) s .f32 0x3727C5AC#32) :=
  allPos_constant s .f32 _ eps_pos ofBits_eps

/-- The splat of the pattern of 1 is all-positive. -/
theorem allPos_constant_one (s : Shape) : AllPos (constant (F := Ideal) s .f32 0x3F800000#32) :=
  allPos_constant s .f32 _ one_pos ofBits_one

end Consts

/-! ### From a finiteness test to all-real -/

section Finite
variable {s : Shape} {φ : FTy}

/-- An extended real whose absolute value is below +∞ is real. -/
theorem isReal_of_abs_lt_top {x : EReal} (h : max x (-x) < ⊤) : IsReal x := by
  induction x using EReal.rec with
  | bot => simp at h
  | coe r => exact ⟨r, rfl⟩
  | top => simp at h

/-- An extended real that passes the test |x| < +∞ is real. -/
theorem isReal_of_cmp_olt_abs {x top : EReal} (htop : top = ⊤) (h : Ideal.cmp .olt (max x (-x)) top = 1#1) :
    IsReal x := by
  subst htop
  apply isReal_of_abs_lt_top
  by_contra hn
  simp [Ideal.cmp, hn] at h

/-- An array every entry of which passes the test |x| < +∞ is all-real. -/
theorem allReal_of_finite_mask {x inf : FVec Ideal s φ} (hinf : ∀ i, inf i = ⊤)
    (h : ∀ i, cmpf .olt (Host.absf x) inf i = 1#1) : AllReal x :=
  fun i => isReal_of_cmp_olt_abs (hinf i) (h i)

/-- An array for which the conjunction over all entries of the test |x| < +∞ came out true is all-real. -/
theorem allReal_of_all_finite {t u : Shape} {axes : List (Fin s.rank)} [Subsingleton t.Idx] {x inf : FVec Ideal s φ}
    (hinf : ∀ i, inf i = ⊤) (init : u.Idx → BitVec 1) (h : s.ReducesTo axes t) (hu : 0 < u.numel) (j : t.Idx)
    (e : Host.reduce IntOp.andi (cmpf .olt (Host.absf x) inf) init h hu j = 1#1) : AllReal x :=
  allReal_of_finite_mask hinf (Host.reduce_andi_all _ init h hu j e)

/-- The broadcast of the splat of the pattern of +∞ is +∞ everywhere. -/
theorem broadcastInDim_constant_inf {s0 : Shape} (dims : Fin s0.rank → Fin s.rank) (h : s0.BroadcastsInDim s dims)
    (i : s.Idx) : broadcastInDim s dims h (constant (F := Ideal) s0 .f32 0x7F800000#32) i = ⊤ :=
  Cert.BatchNorm.Consts.ofBits_inf

end Finite

end Cert.AllReal
-- ==== Proof.Math.lean ====
/-
  The algebra that joins the two programs.

  A graph convolution is  gcn(x, w, b)[n, j] = (∑ over the edges e whose target row is n of vals[e] · (x · w)[src(e), j]) + b[j].
  One program multiplies by the weight first and aggregates afterwards; the other aggregates the two feature blocks
  x and perb side by side (256 columns) and multiplies the aggregated rows by the two weight matrices side by side
  afterwards. Entry by entry the two are

      (∑ k, (0 + ∑ e ∈ S, v e · X e k) · w k) + b      and      (0 + ∑ e ∈ S, v e · (∑ k, X e k · w k)) + b,

  which agree when every factor is a real number: a finite sum of real products distributes. On the extended reals it
  need not (⊤ + ⊥ is ⊥), which is why the inputs are assumed to have only real entries. The view that adds the two
  feature blocks also needs (X + P) · w = X · w + P · w and the sum of two sums, again over the reals.

  First the law over abstract data, then each array of the two programs read at an index (n, j), then the four
  instances and the pure linear layer.
-/
import proofs.«108390_j87840671138373_2_alg».proof.Proof.Terms
import proofs.«108390_j87840671138373_2_alg».proof.Proof.LibScatterRows
import proofs.«108390_j87840671138373_2_alg».proof.Proof.LibGatherRows
import proofs.«108390_j87840671138373_2_alg».proof.Proof.LibPlainDot
import proofs.«108390_j87840671138373_2_alg».proof.Proof.LibConcatCols
import proofs.«108390_j87840671138373_2_alg».proof.Proof.LibRealSums
import proofs.«108390_j87840671138373_2_alg».proof.Proof.LibAllReal
import Idealize.ShloMosaic.Lib.ValueIdx
import Idealize.ShloMosaic.Lib.ValueLayout
import Idealize.ShloMosaic.Lib.Pipeline.Value

noncomputable section

open scoped BigOperators
open Idealize.ShloMosaic Idealize.ShloMosaic.ValueIdx Cert.Terms Cert.AllReal Cert.RealSums

namespace Cert.Math

/-! ## The law, over abstract data

A finite set S of edges, a real value v e per edge, real source entries X e k and P e k per edge and column k of a
finite column range, a real weight w k per column. -/

section Law
variable {ι κ : Type} [Fintype κ]

/-- Over the reals: multiplying the aggregated row by the weights is aggregating the multiplied rows. -/
theorem real_law (S : Finset ι) (v : ι → ℝ) (X : ι → κ → ℝ) (w : κ → ℝ) :
    ∑ k, (∑ e ∈ S, v e * X e k) * w k = ∑ e ∈ S, v e * ∑ k, X e k * w k := by
  simp only [Finset.sum_mul, Finset.mul_sum]
  rw [Finset.sum_comm]
  exact Finset.sum_congr rfl fun e _ => Finset.sum_congr rfl fun k _ => mul_assoc _ _ _

/-- Over the reals, for the sum of two aggregated rows: it is the aggregate of the rows of the entrywise sum. -/
theorem real_law_add (S : Finset ι) (v : ι → ℝ) (X P : ι → κ → ℝ) (w : κ → ℝ) :
    ∑ k, ((∑ e ∈ S, v e * X e k) + ∑ e ∈ S, v e * P e k) * w k = ∑ e ∈ S, v e * ∑ k, (X e k + P e k) * w k := by
  have h : ∀ k, (∑ e ∈ S, v e * X e k) + ∑ e ∈ S, v e * P e k = ∑ e ∈ S, v e * (X e k + P e k) := fun k => by
    rw [← Finset.sum_add_distrib]
    exact Finset.sum_congr rfl fun e _ => (mul_add _ _ _).symm
  simp only [h]
  exact real_law S v (fun e k => X e k + P e k) w

/-- AGGREGATE, THEN MULTIPLY = MULTIPLY, THEN AGGREGATE, on the extended reals, every factor being real. Both
    aggregations start from zero, as an accumulating scatter into a zero array does. -/
theorem agg_mul (S : Finset ι) (v : ι → EReal) (X : ι → κ → EReal) (w : κ → EReal)
    (hv : ∀ e, IsReal (v e)) (hX : ∀ e k, IsReal (X e k)) (hw : ∀ k, IsReal (w k)) :
    ∑ k, (0 + ∑ e ∈ S, v e * X e k) * w k = 0 + ∑ e ∈ S, v e * ∑ k, X e k * w k := by
  choose v' hv' using hv
  choose X' hX' using hX
  choose w' hw' using hw
  simp only [hv', hX', hw', zero_add, ← EReal.coe_mul, coe_sum]
  rw [real_law]

/-- The same for the sum of two aggregated rows against the aggregate of the entrywise sum of the sources. -/
theorem agg_add_mul (S : Finset ι) (v : ι → EReal) (X P : ι → κ → EReal) (w : κ → EReal)
    (hv : ∀ e, IsReal (v e)) (hX : ∀ e k, IsReal (X e k)) (hP : ∀ e k, IsReal (P e k)) (hw : ∀ k, IsReal (w k)) :
    ∑ k, ((0 + ∑ e ∈ S, v e * X e k) + (0 + ∑ e ∈ S, v e * P e k)) * w k
      = 0 + ∑ e ∈ S, v e * ∑ k, (X e k + P e k) * w k := by
  choose v' hv' using hv
  choose X' hX' using hX
  choose P' hP' using hP
  choose w' hw' using hw
  simp only [hv', hX', hP', hw', zero_add, ← EReal.coe_mul, ← EReal.coe_add, coe_sum]
  rw [real_law_add]

end Law

/-! ## Small layout facts, for any extents -/

section Layout
variable {α : Type}

/-- A column [E] laid out as [E, 1] reads, at (e, 0), the column at e. -/
theorem col_apply {E : ℕ} (v : (⟨1, ![E]⟩ : Shape).Idx → α)
    (h : (⟨1, ![E]⟩ : Shape).BroadcastsInDim ⟨2, ![E, 1]⟩ ![0]) (e : Fin E) (u : Fin 1) :
    broadcastInDim ⟨2, ![E, 1]⟩ ![0] h v (ix2 e u) = v (ix1 e) :=
  broadcastInDim_apply ![0] h v (ix2 e u) (ix1 e) fun a => by
    match a with
    | ⟨0, _⟩ =>
      show e.val = if E = 1 then 0 else e.val
      have := e.isLt
      split <;> omega

/-- A column [E] laid out as [E, 1] and stretched over C columns reads, at (e, q), the column at e. -/
theorem col_stretch_apply {E C : ℕ} (v : (⟨1, ![E]⟩ : Shape).Idx → α)
    (h1 : (⟨1, ![E]⟩ : Shape).BroadcastsInDim ⟨2, ![E, 1]⟩ ![0])
    (h2 : (⟨2, ![E, 1]⟩ : Shape).BroadcastsInDim ⟨2, ![E, C]⟩ ![0, 1]) (e : Fin E) (q : Fin C) :
    broadcastInDim ⟨2, ![E, C]⟩ ![0, 1] h2 (broadcastInDim ⟨2, ![E, 1]⟩ ![0] h1 v) (ix2 e q) = v (ix1 e) :=
  (broadcastInDim_apply ![0, 1] h2 _ (ix2 e q) (ix2 e (0 : Fin 1)) fun a => by
    match a with
    | ⟨0, _⟩ =>
      show e.val = if E = 1 then 0 else e.val
      have := e.isLt
      split <;> omega
    | ⟨1, _⟩ =>
      exact (if_pos rfl).symm).trans (col_apply v h1 e 0)

/-- A row [C] laid out as [1, C] and stretched over N rows reads, at (n, q), the row at q. -/
theorem row_stretch_apply {N C : ℕ} (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![N, C]⟩ ![0, 1]) (n : Fin N) (q : Fin C) :
    broadcastInDim ⟨2, ![N, C]⟩ ![0, 1] h2 (broadcastInDim ⟨2, ![1, C]⟩ ![1] h1 b) (ix2 n q) = b (ix1 q) :=
  (broadcastInDim_apply ![0, 1] h2 _ (ix2 n q) (ix2 (0 : Fin 1) q) fun a => by
    match a with
    | ⟨0, _⟩ =>
      exact (if_pos rfl).symm
    | ⟨1, _⟩ =>
      show q.val = if C = 1 then 0 else q.val
      have := q.isLt
      split <;> omega).trans
  (broadcastInDim_apply ![1] h1 b (ix2 (0 : Fin 1) q) (ix1 q) fun a => by
    match a with
    | ⟨0, _⟩ =>
      show q.val = if C = 1 then 0 else q.val
      have := q.isLt
      split <;> omega)

/-- Two blocks of n columns side by side, read in the left block. -/
theorem cat_cols_left {R n N : ℕ} (hN : N = n + n) (A B : (⟨2, ![R, n]⟩ : Shape).Idx → α)
    (h : Shape.Concatenates [⟨2, ![R, n]⟩, ⟨2, ![R, n]⟩] ⟨2, ![R, N]⟩ 1) (r : Fin R) (j : Fin n) (hj : j.val < N) :
    concatenate ⟨2, ![R, N]⟩ 1 [⟨⟨2, ![R, n]⟩, A⟩, ⟨⟨2, ![R, n]⟩, B⟩] h (ix2 r ⟨j.val, hj⟩) = A (ix2 r j) :=
  (Cert.LibConcatCols.concat_cols_apply hN A B h r ⟨j.val, hj⟩).trans (dif_pos j.isLt)

/-- Two blocks of n columns side by side, read in the right block. -/
theorem cat_cols_right {R n N : ℕ} (hN : N = n + n) (A B : (⟨2, ![R, n]⟩ : Shape).Idx → α)
    (h : Shape.Concatenates [⟨2, ![R, n]⟩, ⟨2, ![R, n]⟩] ⟨2, ![R, N]⟩ 1) (r : Fin R) (j : Fin n) (hj : n + j.val < N) :
    concatenate ⟨2, ![R, N]⟩ 1 [⟨⟨2, ![R, n]⟩, A⟩, ⟨⟨2, ![R, n]⟩, B⟩] h (ix2 r ⟨n + j.val, hj⟩) = B (ix2 r j) :=
  ((Cert.LibConcatCols.concat_cols_apply hN A B h r ⟨n + j.val, hj⟩).trans
    (dif_neg (show ¬ n + j.val < n by omega))).trans
    (congrArg (fun c : Fin n => B (ix2 r c)) (Fin.ext (show n + j.val - n = j.val by omega)))

/-- Two vectors of n entries end to end, laid out as one row, read in the first vector. -/
theorem cat_row_left {n N : ℕ} (A B : (⟨1, ![n]⟩ : Shape).Idx → α)
    (h : Shape.Concatenates [⟨1, ![n]⟩, ⟨1, ![n]⟩] ⟨1, ![N]⟩ 0)
    (hc : (⟨1, ![N]⟩ : Shape).ShapeCasts ⟨2, ![1, N]⟩) (j : Fin n) (hj : j.val < N) :
    shapeCast ⟨2, ![1, N]⟩ (concatenate ⟨1, ![N]⟩ 0 [⟨⟨1, ![n]⟩, A⟩, ⟨⟨1, ![n]⟩, B⟩] h) hc (ix2 (0 : Fin 1) ⟨j.val, hj⟩)
      = A (ix1 j) :=
  (shapeCast_a_1a_apply _ hc 0 ⟨j.val, hj⟩).trans
    (concatenate_pair_apply_left 0 A B h (ix1 ⟨j.val, hj⟩) rfl (ix1 j) fun b => by
      match b with
      | ⟨0, _⟩ => rfl)

/-- Two vectors of n entries end to end, laid out as one row, read in the second vector. -/
theorem cat_row_right {n N : ℕ} (A B : (⟨1, ![n]⟩ : Shape).Idx → α)
    (h : Shape.Concatenates [⟨1, ![n]⟩, ⟨1, ![n]⟩] ⟨1, ![N]⟩ 0)
    (hc : (⟨1, ![N]⟩ : Shape).ShapeCasts ⟨2, ![1, N]⟩) (j : Fin n) (hj : n + j.val < N) :
    shapeCast ⟨2, ![1, N]⟩ (concatenate ⟨1, ![N]⟩ 0 [⟨⟨1, ![n]⟩, A⟩, ⟨⟨1, ![n]⟩, B⟩] h) hc (ix2 (0 : Fin 1) ⟨n + j.val, hj⟩)
      = B (ix1 j) :=
  (shapeCast_a_1a_apply _ hc 0 ⟨n + j.val, hj⟩).trans
    (concatenate_pair_apply_right 0 A B h (ix1 ⟨n + j.val, hj⟩) rfl rfl (ix1 j)
      (fun b hb => by
        match b, hb with
        | ⟨0, _⟩, hb => exact absurd rfl hb)
      (show j.val + n = n + j.val from Nat.add_comm _ _))

end Layout

/-! ## The edge set and the source row -/

/-- The edges whose target row (the row index read as a signed integer, not clamped) is n. -/
def edges (rows : IVec Cert.KernelIdeal.S800000 32) (n : Fin 100000) : Finset (Fin 800000) :=
  Finset.univ.filter fun e => (rows (ix1 e)).toInt = (n.val : Int)

section Src
variable [Cert.KernelIdeal.Facts₀] [Cert.ReferenceIdeal.Facts₀]

/-- The source row of an edge: the column index, wrapped when negative, read signed and clamped into the rows. -/
def srcRow (cols : IVec Cert.KernelIdeal.S800000 32) (e : Fin 800000) : Fin 100000 :=
  Cert.GatherRows.clampRow 100000 (by decide) (srcIdxK cols (ix2 e 0))

/-- Both programs compute the index column by the same operations, so they read the same source row. -/
theorem srcRow_ref (cols : IVec Cert.KernelIdeal.S800000 32) (e : Fin 800000) :
    Cert.GatherRows.clampRow 100000 (by decide) (srcIdxR cols (ix2 e 0)) = srcRow cols e := rfl

end Src

/-! ## The aggregate-then-multiply program's arrays at an index -/

section Ker
open Cert.KernelIdeal Cert.KernelIdeal.Facts₀
variable [Cert.KernelIdeal.Facts₀] [Cert.ReferenceIdeal.Facts₀]

/-- The left 128 columns at (n, j): column j. -/
theorem lo_apply (a : FVec Ideal S100000x256 .f32) (n : Fin 100000) (j : Fin 128) :
    lo a (ix2 n j) = a (ix2 n ⟨j.val, by omega⟩) :=
  slice2_axis1_apply 0 a slices_S100000x256_S100000x128_0_0 n j ⟨j.val, by omega⟩ (Nat.zero_add _).symm

/-- The right 128 columns at (n, j): column 128 + j. -/
theorem hi_apply (a : FVec Ideal S100000x256 .f32) (n : Fin 100000) (j : Fin 128) :
    hi a (ix2 n j) = a (ix2 n ⟨128 + j.val, by omega⟩) :=
  slice2_axis1_apply 128 a slices_S100000x256_S100000x128_0_128 n j ⟨128 + j.val, by omega⟩ rfl

/-- Rows times a 128×256 matrix plus a bias row, at (n, q). -/
theorem dense256_apply (a : FVec Ideal S100000x128 .f32) (w : FVec Ideal S128x256 .f32) (b : FVec Ideal S1x256 .f32)
    (n : Fin 100000) (q : Fin 256) :
    dense256 a w b (ix2 n q) = (∑ k : Fin 128, a (ix2 n k) * w (ix2 k q)) + b (ix2 (0 : Fin 1) q) := rfl

/-- Rows times a 128×128 matrix plus a bias row, at (n, j). -/
theorem dense128_apply (a : FVec Ideal S100000x128 .f32) (w : FVec Ideal S128x128 .f32) (b : FVec Ideal S1x128 .f32)
    (n : Fin 100000) (j : Fin 128) :
    dense128 a w b (ix2 n j) = (∑ k : Fin 128, a (ix2 n k) * w (ix2 k j)) + b (ix2 (0 : Fin 1) j) := rfl

/-- The aggregate of the two blocks side by side at (n, q): zero plus, over the edges of row n, the edge value times
    the source row's entry q of the two blocks side by side (given as c e). -/
theorem aggCat_apply (x perb : FVec Ideal S100000x128 .f32) (vals : FVec Ideal S800000 .f32) (rows cols : IVec S800000 32)
    (n : Fin 100000) (q : Fin 256) (c : Fin 800000 → EReal)
    (hc : ∀ e, concatenate S100000x256 1 [⟨S100000x128, x⟩, ⟨S100000x128, perb⟩]
      concatenates_S100000x128_S100000x128_S100000x256_d1 (ix2 (srcRow cols e) q) = c e) :
    aggCat x perb vals rows cols (ix2 n q) = 0 + ∑ e ∈ edges rows n, vals (ix1 e) * c e := by
  unfold aggCat
  refine (Cert.ScatterRows.host_scatterAdd_rows_apply scatter_S100000x256_S800000x1_S800000x256_1_0_0_1 rfl rfl rfl rfl
    _ _ _ n q).trans ?_
  refine congrArg₂ (· + ·) Ideal.ofBits_zero_f32 ?_
  refine Finset.sum_congr (Finset.filter_congr fun e _ => by rw [col_apply]) fun e _ => ?_
  refine (mulf_apply _ _ _).trans (congrArg₂ (· * ·) (col_stretch_apply vals _ _ e q) ?_)
  exact (Cert.GatherRows.host_gather_rows_apply (by decide) gather_S100000x256_S800000x1_S800000x256_1_0_n_n_0_1_1256
    rfl rfl rfl rfl rfl rfl rfl _ (srcIdxK cols) e q).trans (hc e)

/-- The left half of the aggregate at (n, k): the aggregate of x. -/
theorem lo_aggCat_apply (x perb : FVec Ideal S100000x128 .f32) (vals : FVec Ideal S800000 .f32) (rows cols : IVec S800000 32)
    (n : Fin 100000) (k : Fin 128) :
    lo (aggCat x perb vals rows cols) (ix2 n k) = 0 + ∑ e ∈ edges rows n, vals (ix1 e) * x (ix2 (srcRow cols e) k) :=
  (lo_apply _ n k).trans (aggCat_apply x perb vals rows cols n _ _ fun e =>
    cat_cols_left rfl x perb _ (srcRow cols e) k _)

/-- The right half of the aggregate at (n, k): the aggregate of perb. -/
theorem hi_aggCat_apply (x perb : FVec Ideal S100000x128 .f32) (vals : FVec Ideal S800000 .f32) (rows cols : IVec S800000 32)
    (n : Fin 100000) (k : Fin 128) :
    hi (aggCat x perb vals rows cols) (ix2 n k) = 0 + ∑ e ∈ edges rows n, vals (ix1 e) * perb (ix2 (srcRow cols e) k) :=
  (hi_apply _ n k).trans (aggCat_apply x perb vals rows cols n _ _ fun e =>
    cat_cols_right rfl x perb _ (srcRow cols e) k _)

/-- The two weight matrices side by side: the left one in columns 0 … 127. -/
theorem wcat_left (w_on w_tg : FVec Ideal S128x128 .f32) (k j : Fin 128) :
    wcat w_on w_tg (ix2 k ⟨j.val, by omega⟩) = w_on (ix2 k j) :=
  cat_cols_left rfl w_on w_tg concatenates_S128x128_S128x128_S128x256_d1 k j _

/-- The two weight matrices side by side: the right one in columns 128 … 255. -/
theorem wcat_right (w_on w_tg : FVec Ideal S128x128 .f32) (k j : Fin 128) :
    wcat w_on w_tg (ix2 k ⟨128 + j.val, by omega⟩) = w_tg (ix2 k j) :=
  cat_cols_right rfl w_on w_tg concatenates_S128x128_S128x128_S128x256_d1 k j _

/-- The two bias rows end to end: the first in columns 0 … 127. -/
theorem bcat_left (b_on b_tg : FVec Ideal S128 .f32) (j : Fin 128) :
    bcat b_on b_tg (ix2 (0 : Fin 1) ⟨j.val, by omega⟩) = b_on (ix1 j) :=
  cat_row_left b_on b_tg concatenates_S128_S128_S256_d0 shapeCasts_S256_S1x256 j _

/-- The two bias rows end to end: the second in columns 128 … 255. -/
theorem bcat_right (b_on b_tg : FVec Ideal S128 .f32) (j : Fin 128) :
    bcat b_on b_tg (ix2 (0 : Fin 1) ⟨128 + j.val, by omega⟩) = b_tg (ix1 j) :=
  cat_row_right b_on b_tg concatenates_S128_S128_S256_d0 shapeCasts_S256_S1x256 j _

/-- A bias vector as one row, at (0, j). -/
theorem brow_apply (b : FVec Ideal S128 .f32) (j : Fin 128) : brow b (ix2 (0 : Fin 1) j) = b (ix1 j) :=
  shapeCast_a_1a_apply b shapeCasts_S128_S1x128 0 j

end Ker

/-! ## The multiply-then-aggregate program's arrays at an index -/

section Ref
open Cert.ReferenceIdeal Cert.ReferenceIdeal.Facts₀
variable [Cert.KernelIdeal.Facts₀] [Cert.ReferenceIdeal.Facts₀]

/-- The linear layer at (n, j). -/
theorem denseRef_apply (z : FVec Ideal S100000x128 .f32) (w : FVec Ideal S128x128 .f32) (b : FVec Ideal S128 .f32)
    (n : Fin 100000) (j : Fin 128) :
    denseRef z w b (ix2 n j) = (∑ k : Fin 128, z (ix2 n k) * w (ix2 k j)) + b (ix1 j) :=
  (addf_apply _ _ _).trans (congrArg₂ (· + ·)
    (Cert.PlainDot.dotGeneral_apply dot_S100000x128_S128x128_S100000x128_1_0_0_1_n_n rfl rfl rfl rfl rfl rfl none .single z w n j)
    (row_stretch_apply b _ _ n j))

/-- The graph convolution at (n, j): zero plus, over the edges of row n, the edge value times the source row of x · w
    at column j; plus the bias. -/
theorem gcnRef_apply (x : FVec Ideal S100000x128 .f32) (w : FVec Ideal S128x128 .f32) (b : FVec Ideal S128 .f32)
    (vals : FVec Ideal S800000 .f32) (rows cols : IVec S800000 32) (n : Fin 100000) (j : Fin 128) :
    gcnRef x w b vals rows cols (ix2 n j)
      = (0 + ∑ e ∈ edges rows n, vals (ix1 e) * ∑ k : Fin 128, x (ix2 (srcRow cols e) k) * w (ix2 k j)) + b (ix1 j) := by
  unfold gcnRef
  refine (addf_apply _ _ _).trans (congrArg₂ (· + ·) ?_ (row_stretch_apply b _ _ n j))
  refine (Cert.ScatterRows.host_scatterAdd_rows_apply scatter_S100000x128_S800000x1_S800000x128_1_0_0_1 rfl rfl rfl rfl
    _ _ _ n j).trans ?_
  refine congrArg₂ (· + ·) Ideal.ofBits_zero_f32 ?_
  refine Finset.sum_congr (Finset.filter_congr fun e _ => by rw [col_apply]) fun e _ => ?_
  refine (mulf_apply _ _ _).trans (congrArg₂ (· * ·) (col_stretch_apply vals _ _ e j) ?_)
  exact (Cert.GatherRows.host_gather_rows_apply (by decide) gather_S100000x128_S800000x1_S800000x128_1_0_n_n_0_1_1128
    rfl rfl rfl rfl rfl rfl rfl _ (srcIdxR cols) e j).trans
    (Cert.PlainDot.dotGeneral_apply dot_S100000x128_S128x128_S100000x128_1_0_0_1_n_n rfl rfl rfl rfl rfl rfl none .single x w
      (srcRow cols e) j)

end Ref

/-! ## The four graph convolutions, and the linear layer -/

section Main
variable [Cert.KernelIdeal.Facts₀] [Cert.ReferenceIdeal.Facts₀]

/-- The first view through the first weights: the left half of (aggregate of x) · [w_on | w_tg] + [b_on | b_tg]. -/
theorem online_x (x perb : FVec Ideal Cert.KernelIdeal.S100000x128 .f32) (vals : FVec Ideal Cert.KernelIdeal.S800000 .f32)
    (w_on w_tg : FVec Ideal Cert.KernelIdeal.S128x128 .f32) (b_on b_tg : FVec Ideal Cert.KernelIdeal.S128 .f32)
    (rows cols : IVec Cert.KernelIdeal.S800000 32)
    (hx : AllReal x) (hp : AllReal perb) (hv : AllReal vals) (hwo : AllReal w_on) (hwt : AllReal w_tg)
    (hbo : AllReal b_on) (hbt : AllReal b_tg) :
    lo (dense256 (lo (aggCat x perb vals rows cols)) (wcat w_on w_tg) (bcat b_on b_tg))
      = gcnRef x w_on b_on vals rows cols := by
  funext i
  obtain ⟨n, j, rfl⟩ : ∃ (n : Fin 100000) (j : Fin 128), i = ix2 n j := ⟨i 0, i 1, eq_ix2 i⟩
  refine ((lo_apply _ n j).trans (dense256_apply _ _ _ n _)).trans
    (Eq.trans ?_ (gcnRef_apply x w_on b_on vals rows cols n j).symm)
  refine congrArg₂ (· + ·) ?_ (bcat_left b_on b_tg j)
  refine (Finset.sum_congr rfl fun k _ => congrArg₂ (· * ·) (lo_aggCat_apply x perb vals rows cols n k)
    (wcat_left w_on w_tg k j)).trans ?_
  exact agg_mul (edges rows n) (fun e => vals (ix1 e)) (fun e k => x (ix2 (srcRow cols e) k)) (fun k => w_on (ix2 k j))
    (fun e => hv _) (fun e k => hx _) (fun k => hwo _)

/-- The first view through the second weights: the right half of the same product. -/
theorem target_y (x perb : FVec Ideal Cert.KernelIdeal.S100000x128 .f32) (vals : FVec Ideal Cert.KernelIdeal.S800000 .f32)
    (w_on w_tg : FVec Ideal Cert.KernelIdeal.S128x128 .f32) (b_on b_tg : FVec Ideal Cert.KernelIdeal.S128 .f32)
    (rows cols : IVec Cert.KernelIdeal.S800000 32)
    (hx : AllReal x) (hp : AllReal perb) (hv : AllReal vals) (hwo : AllReal w_on) (hwt : AllReal w_tg)
    (hbo : AllReal b_on) (hbt : AllReal b_tg) :
    hi (dense256 (lo (aggCat x perb vals rows cols)) (wcat w_on w_tg) (bcat b_on b_tg))
      = gcnRef x w_tg b_tg vals rows cols := by
  funext i
  obtain ⟨n, j, rfl⟩ : ∃ (n : Fin 100000) (j : Fin 128), i = ix2 n j := ⟨i 0, i 1, eq_ix2 i⟩
  refine ((hi_apply _ n j).trans (dense256_apply _ _ _ n _)).trans
    (Eq.trans ?_ (gcnRef_apply x w_tg b_tg vals rows cols n j).symm)
  refine congrArg₂ (· + ·) ?_ (bcat_right b_on b_tg j)
  refine (Finset.sum_congr rfl fun k _ => congrArg₂ (· * ·) (lo_aggCat_apply x perb vals rows cols n k)
    (wcat_right w_on w_tg k j)).trans ?_
  exact agg_mul (edges rows n) (fun e => vals (ix1 e)) (fun e k => x (ix2 (srcRow cols e) k)) (fun k => w_tg (ix2 k j))
    (fun e => hv _) (fun e k => hx _) (fun k => hwt _)

/-- The second view (x + perb) through the first weights: the sum of the two aggregated halves stands for the
    aggregate of the sum. -/
theorem online_y (x perb : FVec Ideal Cert.KernelIdeal.S100000x128 .f32) (vals : FVec Ideal Cert.KernelIdeal.S800000 .f32)
    (w_on w_tg : FVec Ideal Cert.KernelIdeal.S128x128 .f32) (b_on b_tg : FVec Ideal Cert.KernelIdeal.S128 .f32)
    (rows cols : IVec Cert.KernelIdeal.S800000 32)
    (hx : AllReal x) (hp : AllReal perb) (hv : AllReal vals) (hwo : AllReal w_on) (hwt : AllReal w_tg)
    (hbo : AllReal b_on) (hbt : AllReal b_tg) :
    lo (dense256 (addf (lo (aggCat x perb vals rows cols)) (hi (aggCat x perb vals rows cols))) (wcat w_on w_tg)
        (bcat b_on b_tg))
      = gcnRef (addf x perb) w_on b_on vals rows cols := by
  funext i
  obtain ⟨n, j, rfl⟩ : ∃ (n : Fin 100000) (j : Fin 128), i = ix2 n j := ⟨i 0, i 1, eq_ix2 i⟩
  refine ((lo_apply _ n j).trans (dense256_apply _ _ _ n _)).trans
    (Eq.trans ?_ (gcnRef_apply (addf x perb) w_on b_on vals rows cols n j).symm)
  refine congrArg₂ (· + ·) ?_ (bcat_left b_on b_tg j)
  refine (Finset.sum_congr rfl fun k _ => congrArg₂ (· * ·)
    ((addf_apply _ _ _).trans (congrArg₂ (· + ·) (lo_aggCat_apply x perb vals rows cols n k)
      (hi_aggCat_apply x perb vals rows cols n k)))
    (wcat_left w_on w_tg k j)).trans ?_
  exact agg_add_mul (edges rows n) (fun e => vals (ix1 e)) (fun e k => x (ix2 (srcRow cols e) k))
    (fun e k => perb (ix2 (srcRow cols e) k)) (fun k => w_on (ix2 k j))
    (fun e => hv _) (fun e k => hx _) (fun e k => hp _) (fun k => hwo _)

/-- The second view through the second weights. -/
theorem target_x (x perb : FVec Ideal Cert.KernelIdeal.S100000x128 .f32) (vals : FVec Ideal Cert.KernelIdeal.S800000 .f32)
    (w_on w_tg : FVec Ideal Cert.KernelIdeal.S128x128 .f32) (b_on b_tg : FVec Ideal Cert.KernelIdeal.S128 .f32)
    (rows cols : IVec Cert.KernelIdeal.S800000 32)
    (hx : AllReal x) (hp : AllReal perb) (hv : AllReal vals) (hwo : AllReal w_on) (hwt : AllReal w_tg)
    (hbo : AllReal b_on) (hbt : AllReal b_tg) :
    hi (dense256 (addf (lo (aggCat x perb vals rows cols)) (hi (aggCat x perb vals rows cols))) (wcat w_on w_tg)
        (bcat b_on b_tg))
      = gcnRef (addf x perb) w_tg b_tg vals rows cols := by
  funext i
  obtain ⟨n, j, rfl⟩ : ∃ (n : Fin 100000) (j : Fin 128), i = ix2 n j := ⟨i 0, i 1, eq_ix2 i⟩
  refine ((hi_apply _ n j).trans (dense256_apply _ _ _ n _)).trans
    (Eq.trans ?_ (gcnRef_apply (addf x perb) w_tg b_tg vals rows cols n j).symm)
  refine congrArg₂ (· + ·) ?_ (bcat_right b_on b_tg j)
  refine (Finset.sum_congr rfl fun k _ => congrArg₂ (· * ·)
    ((addf_apply _ _ _).trans (congrArg₂ (· + ·) (lo_aggCat_apply x perb vals rows cols n k)
      (hi_aggCat_apply x perb vals rows cols n k)))
    (wcat_right w_on w_tg k j)).trans ?_
  exact agg_add_mul (edges rows n) (fun e => vals (ix1 e)) (fun e k => x (ix2 (srcRow cols e) k))
    (fun e k => perb (ix2 (srcRow cols e) k)) (fun k => w_tg (ix2 k j))
    (fun e => hv _) (fun e k => hx _) (fun e k => hp _) (fun k => hwt _)

/-- A linear layer is the same function in both programs: rows times the weights plus the bias, whatever the
    entries. -/
theorem dense_eq (z : FVec Ideal Cert.KernelIdeal.S100000x128 .f32) (w : FVec Ideal Cert.KernelIdeal.S128x128 .f32)
    (b : FVec Ideal Cert.KernelIdeal.S128 .f32) : dense128 z w (brow b) = denseRef z w b := by
  funext i
  obtain ⟨n, j, rfl⟩ : ∃ (n : Fin 100000) (j : Fin 128), i = ix2 n j := ⟨i 0, i 1, eq_ix2 i⟩
  exact ((dense128_apply z w _ n j).trans (congrArg (fun t => (∑ k : Fin 128, z (ix2 n k) * w (ix2 k j)) + t) (brow_apply b j))).trans
    (denseRef_apply z w b n j).symm

end Main

end Cert.Math

end
-- ==== Proof.Bridge.lean ====
/-
  The two programs' results are one function of the inputs, when the float inputs are real.

  The kernel program's embedding is x + perb + (left half of P₂) and the reference's is x + perb + gcn(x + perb, w_on, b_on);
  the left half of P₂ IS that graph convolution (aggregating first and multiplying afterwards, over reals).  The kernel
  program's loss is the shared cosine loss of the shared predictor — with its two linear layers computed tile by tile —
  on the column halves of P and P₂; each half is the corresponding graph convolution and each tiled linear layer is the
  host's, so the two losses are the same term.
-/
import proofs.«108390_j87840671138373_2_alg».proof.Proof.KernelValue
import proofs.«108390_j87840671138373_2_alg».proof.Proof.Math

noncomputable section

namespace Cert.Bridge

open Idealize.ShloMosaic Cert.Terms Cert.AllReal Cert.KernelIdeal Cert.KernelIdeal.Value

variable (x perb : FVec Ideal S100000x128 .f32) (vals : FVec Ideal S800000 .f32) (w_on : FVec Ideal S128x128 .f32)
  (b_on : FVec Ideal S128 .f32) (w_tg : FVec Ideal S128x128 .f32) (b_tg : FVec Ideal S128 .f32)
  (l1w : FVec Ideal S128x128 .f32) (l1b g b : FVec Ideal S128 .f32) (a : FVec Ideal S_ .f32)
  (l2w : FVec Ideal S128x128 .f32) (l2b : FVec Ideal S128 .f32) (rows cols : IVec S800000 32)
  (hx : AllReal x) (hp : AllReal perb) (hv : AllReal vals) (hwo : AllReal w_on) (hbo : AllReal b_on)
  (hwt : AllReal w_tg) (hbt : AllReal b_tg)
include hx hp hv hwo hbo hwt hbt

/-- The embeddings agree. -/
theorem embed_eq : embedK x perb vals w_on b_on w_tg b_tg rows cols = embedRef x perb vals w_on b_on rows cols := by
  unfold embedK prodX2 embedRef
  rw [Cert.Math.online_y x perb vals w_on w_tg b_on b_tg rows cols hx hp hv hwo hwt hbo hbt]

/-- The losses agree. -/
theorem loss_eq : lossK x perb vals w_on b_on w_tg b_tg l1w l1b g b a l2w l2b rows cols
    = lossRef x perb vals w_on b_on w_tg b_tg l1w l1b g b a l2w l2b rows cols := by
  unfold lossK predK prodX prodX2 lossRef predRef
  rw [Cert.Math.online_x x perb vals w_on w_tg b_on b_tg rows cols hx hp hv hwo hwt hbo hbt,
    Cert.Math.target_y x perb vals w_on w_tg b_on b_tg rows cols hx hp hv hwo hwt hbo hbt,
    Cert.Math.online_y x perb vals w_on w_tg b_on b_tg rows cols hx hp hv hwo hwt hbo hbt,
    Cert.Math.target_x x perb vals w_on w_tg b_on b_tg rows cols hx hp hv hwo hwt hbo hbt]
  simp only [Cert.Math.dense_eq]

end Cert.Bridge

end
-- ==== Proof.Finite.lean ====
/-
  From the finiteness predicate to real entries.

  The predicate is the conjunction, over the float arguments, of "every entry has absolute value below +∞", each
  conjunct a reduction by "and" over all axes of an entrywise comparison against the splat of +∞. When the predicate
  holds (its one-entry result is 1), every conjunct is 1, so every entry of every float argument passes the
  comparison, and an extended real whose absolute value is below +∞ is the image of a real number.

  The conjunction is nested to the left: ((((c0 ∧ c1) ∧ c2) ∧ c3) ∧ …) ∧ c13. The first seven conjuncts are read off by
  peeling the later ones from the right.
-/
import proofs.«108390_j87840671138373_2_alg».proof.Pre_finite_inputs
import proofs.«108390_j87840671138373_2_alg».proof.Proof.Gen.Pre_finite_inputs
import proofs.«108390_j87840671138373_2_alg».proof.Proof.LibAllReal
import Idealize.ShloMosaic.Lib.ReduceAll
import Idealize.ShloMosaic.Lib.ValueIdx

open Idealize.ShloMosaic

namespace Cert.Finite

open Cert.Pre_finite_inputs Cert.Pre_finite_inputs.Facts

/-- The shape with no axes has one index. -/
instance : Subsingleton S_.Idx := ⟨fun a b => funext fun d => d.elim0⟩

/-- A conjunction of two one-bit arrays that is 1 at an index has both conjuncts 1 there. -/
theorem andi_apply_eq_one {s : Shape} {a b : IVec s 1} {i : s.Idx} (h : andi a b i = 1#1) : a i = 1#1 ∧ b i = 1#1 :=
  IntOp.andi_eq_one.1 h

variable [Cert.Pre_finite_inputs.Facts]

/-- When the finiteness predicate holds, each of the first seven arguments (the two feature blocks, the edge values,
    and the two weight matrices with their biases) has only real entries. -/
theorem allReal_of_fn
    {a0 a1 : FVec Ideal S100000x128 .f32} {a2 : FVec Ideal S800000 .f32} {a3 : FVec Ideal S128x128 .f32}
    {a4 : FVec Ideal S128 .f32} {a5 : FVec Ideal S128x128 .f32} {a6 : FVec Ideal S128 .f32}
    {a7 : FVec Ideal S128x128 .f32} {a8 a9 a10 : FVec Ideal S128 .f32} {a11 : FVec Ideal S_ .f32}
    {a12 : FVec Ideal S128x128 .f32} {a13 : FVec Ideal S128 .f32} {a14 a15 : IVec S800000 32}
    (h : Cert.Pre_finite_inputs.fn (F := Ideal) a0 a1 a2 a3 a4 a5 a6 a7 a8 a9 a10 a11 a12 a13 a14 a15 = fun _ => 1#1) :
    Cert.AllReal.AllReal a0 ∧ Cert.AllReal.AllReal a1 ∧ Cert.AllReal.AllReal a2 ∧ Cert.AllReal.AllReal a3 ∧
      Cert.AllReal.AllReal a4 ∧ Cert.AllReal.AllReal a5 ∧ Cert.AllReal.AllReal a6 := by
  have h0 := congrFun h ValueIdx.ix0
  dsimp only [Cert.Pre_finite_inputs.fn, Cert.Pre_finite_inputs.fn_part1, Cert.Pre_finite_inputs.fn_part2,
    Cert.Pre_finite_inputs.fn_part3] at h0
  -- peel the conjuncts of arguments 13, 12, …, 7 from the right
  have h13 := (andi_apply_eq_one h0).1
  have h12 := (andi_apply_eq_one h13).1
  have h11 := (andi_apply_eq_one h12).1
  have h10 := (andi_apply_eq_one h11).1
  have h9 := (andi_apply_eq_one h10).1
  have h8 := (andi_apply_eq_one h9).1
  have h7 := (andi_apply_eq_one h8).1
  -- now the conjuncts of arguments 6, 5, …, 0
  obtain ⟨h6, e6⟩ := andi_apply_eq_one h7
  obtain ⟨h5, e5⟩ := andi_apply_eq_one h6
  obtain ⟨h4, e4⟩ := andi_apply_eq_one h5
  obtain ⟨h3, e3⟩ := andi_apply_eq_one h4
  obtain ⟨h2, e2⟩ := andi_apply_eq_one h3
  obtain ⟨e0, e1⟩ := andi_apply_eq_one h2
  exact ⟨Cert.AllReal.allReal_of_all_finite (Cert.AllReal.broadcastInDim_constant_inf _ _) _ _ _ _ e0,
    Cert.AllReal.allReal_of_all_finite (Cert.AllReal.broadcastInDim_constant_inf _ _) _ _ _ _ e1,
    Cert.AllReal.allReal_of_all_finite (Cert.AllReal.broadcastInDim_constant_inf _ _) _ _ _ _ e2,
    Cert.AllReal.allReal_of_all_finite (Cert.AllReal.broadcastInDim_constant_inf _ _) _ _ _ _ e3,
    Cert.AllReal.allReal_of_all_finite (Cert.AllReal.broadcastInDim_constant_inf _ _) _ _ _ _ e4,
    Cert.AllReal.allReal_of_all_finite (Cert.AllReal.broadcastInDim_constant_inf _ _) _ _ _ _ e5,
    Cert.AllReal.allReal_of_all_finite (Cert.AllReal.broadcastInDim_constant_inf _ _) _ _ _ _ e6⟩

end Cert.Finite
-- ==== Proof.lean ====
/-
  The certificate's five claims.

  Both programs compute the pair (embedding, loss) of a two-view graph network from sixteen inputs.  A graph convolution
  is gcn(x, w, b)[n, j] = (the sum over the edges e whose target row is n of vals[e] · (x · w)[src(e), j]) + b[j].  The
  reference multiplies by the weights first and aggregates afterwards, five times.  The kernel program aggregates the
  two feature blocks x and perb once, side by side in 256 columns, and multiplies the aggregated rows by the two weight
  matrices side by side afterwards, in row tiles; every later linear layer is the same tiled product.  Over real inputs a
  finite sum of products distributes over the weights, so the four graph convolutions agree entry by entry, and
  everything after them — the predictor's normalisation and rectifier, the cosine loss — is one chain of operations
  applied to equal arrays.  The precondition (every float input finite) is what makes the inputs real.

  The three frames: the two kernel programs' by their generated frame certificates; the reference's by its run with the
  results dropped.  The idealization rewrote no operation, so `preserves` has nothing to state.
-/
import proofs.«108390_j87840671138373_2_alg».proof.Defs
import proofs.«108390_j87840671138373_2_alg».proof.Proof.Gen.Kernel
import proofs.«108390_j87840671138373_2_alg».proof.Proof.Gen.Kernel.Frame
import proofs.«108390_j87840671138373_2_alg».proof.Proof.Gen.KernelIdeal
import proofs.«108390_j87840671138373_2_alg».proof.Proof.Gen.KernelIdeal.Frame
import proofs.«108390_j87840671138373_2_alg».proof.Proof.Gen.ReferenceIdeal
import proofs.«108390_j87840671138373_2_alg».proof.Proof.Gen.Pre_finite_inputs
import proofs.«108390_j87840671138373_2_alg».proof.Proof.KernelRun
import proofs.«108390_j87840671138373_2_alg».proof.Proof.KernelValue
import proofs.«108390_j87840671138373_2_alg».proof.Proof.RefValue
import proofs.«108390_j87840671138373_2_alg».proof.Proof.Bridge
import proofs.«108390_j87840671138373_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.RefValue.run m ρ)

/-- From memories that agree on the inputs and satisfy the precondition both programs end with the embedding and the
    loss at one function of the inputs: the kernel program's closed terms, which over real inputs are the reference's. -/
theorem algebraic : Cert.algebraic_KernelIdeal_ReferenceIdeal := by
  intro m ρ m' ρ' hpre hagree
  refine ⟨fun c => Cert.KernelIdeal.Value.embedK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15)),
    fun c => Cert.KernelIdeal.Value.lossK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.KernelIdeal.Value.embed_val m ρ c),
        (h c).2.1.trans (Cert.KernelIdeal.Value.loss_val m ρ c), (h c).2.2⟩)
      (Cert.KernelIdeal.Value.run_vals (F := Ideal) m ρ)
  · refine (θ_run Cert.ReferenceIdeal.defs _ _).mono (fun r h c => ?_) (Cert.RefValue.run m' ρ')
    obtain ⟨h0, h1, h2, h3, h4, h5, h6, h7, h8, h9, h10, h11, h12, h13, h14, h15⟩ := hagree c
    obtain ⟨hx, hp, hv, hwo, hbo, hwt, hbt⟩ := Cert.Finite.allReal_of_fn (hpre c)
    refine ⟨(h c).1.trans ?_, (h c).2.1.trans ?_, (h c).2.2⟩
    · rw [h0, h1, h2, h3, h4, h14, h15]
      exact (Cert.Bridge.embed_eq _ _ _ _ _ _ _ _ _ hx hp hv hwo hbo hwt hbt).symm
    · rw [h0, h1, h2, h3, h4, h5, h6, h7, h8, h9, h10, h11, h12, h13, h14, h15]
      exact (Cert.Bridge.loss_eq _ _ _ _ _ _ _ _ _ _ _ _ _ _ _ _ hx hp hv hwo hbo hwt hbt).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
